-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x64x1 : Shape := ⟨4, ![32, 64, 64, 1]⟩
abbrev S9x64 : Shape := ⟨2, ![9, 64]⟩
abbrev S576x64 : Shape := ⟨2, ![576, 64]⟩
abbrev S576x128 : Shape := ⟨2, ![576, 128]⟩
abbrev S9x128 : Shape := ⟨2, ![9, 128]⟩
abbrev S1152x128 : Shape := ⟨2, ![1152, 128]⟩
abbrev S32768x256 : Shape := ⟨2, ![32768, 256]⟩
abbrev S256 : Shape := ⟨1, ![256]⟩
abbrev S256x10 : Shape := ⟨2, ![256, 10]⟩
abbrev S10 : Shape := ⟨1, ![10]⟩
abbrev S_ : Shape := ⟨0, ![]⟩

class Facts : Prop where
  bcast_S_S32x64x64x1 : S_.BroadcastsInDim S32x64x64x1 (![] : Fin 0 → Fin S32x64x64x1.rank)
  reducesTo_S32x64x64x1_S_d0_1_2_3 : S32x64x64x1.ReducesTo [0, 1, 2, 3] S_
  h_S_ : 0 < S_.numel
  bcast_S_S9x64 : S_.BroadcastsInDim S9x64 (![] : Fin 0 → Fin S9x64.rank)
  reducesTo_S9x64_S_d0_1 : S9x64.ReducesTo [0, 1] S_
  bcast_S_S576x64 : S_.BroadcastsInDim S576x64 (![] : Fin 0 → Fin S576x64.rank)
  reducesTo_S576x64_S_d0_1 : S576x64.ReducesTo [0, 1] S_
  bcast_S_S576x128 : S_.BroadcastsInDim S576x128 (![] : Fin 0 → Fin S576x128.rank)
  reducesTo_S576x128_S_d0_1 : S576x128.ReducesTo [0, 1] S_
  bcast_S_S9x128 : S_.BroadcastsInDim S9x128 (![] : Fin 0 → Fin S9x128.rank)
  reducesTo_S9x128_S_d0_1 : S9x128.ReducesTo [0, 1] S_
  bcast_S_S1152x128 : S_.BroadcastsInDim S1152x128 (![] : Fin 0 → Fin S1152x128.rank)
  reducesTo_S1152x128_S_d0_1 : S1152x128.ReducesTo [0, 1] S_
  bcast_S_S32768x256 : S_.BroadcastsInDim S32768x256 (![] : Fin 0 → Fin S32768x256.rank)
  reducesTo_S32768x256_S_d0_1 : S32768x256.ReducesTo [0, 1] S_
  bcast_S_S256 : S_.BroadcastsInDim S256 (![] : Fin 0 → Fin S256.rank)
  reducesTo_S256_S_d0 : S256.ReducesTo [0] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg11 : FVec F S256x10 .f32) (main_arg12 : FVec F S10 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x10 .f32 := Host.absf main_arg11
  let main_cst_20 : FVec F S_ .f32 := constant S_ .f32 0x7F800000#32
  let main_v55 : FVec F S256x10 .f32 := broadcastInDim S256x10 ![] bcast_S_S256x10 main_cst_20
  let main_v56 : IVec S256x10 1 := cmpf .olt main_v54 main_v55
  let main_c_21 : IVec S_ 1 := constantI S_ 1 1#1
  let main_v57 : IVec S_ 1 := (fun x v => Host.reduce IntOp.andi x v reducesTo_S256x10_S_d0_1 h_S_) main_v56 main_c_21
  let main_v58 : IVec S_ 1 := andi main_v53 main_v57
  let main_v59 : FVec F S10 .f32 := Host.absf main_arg12
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  main_v63

def fn_part2 {F : FTy → Type} [FloatOps F] (main_arg7 : FVec F S1152x128 .f32) (main_arg8 : FVec F S9x128 .f32) (main_arg9 : FVec F S32768x256 .f32) (main_arg10 : FVec F S256 .f32) (main_arg11 : FVec F S256x10 .f32) (main_arg12 : FVec F S10 .f32) (main_v33 : IVec S_ 1) : IVec S_ 1 :=
  let main_v34 : FVec F S1152x128 .f32 := Host.absf main_arg7
  let main_cst_12 : FVec F S_ .f32 := constant S_ .f32 0x7F800000#32
  let main_v35 : FVec F S1152x128 .f32 := broadcastInDim S1152x128 ![] bcast_S_S1152x128 main_cst_12
  let main_v36 : IVec S1152x128 1 := cmpf .olt main_v34 main_v35
  let main_c_13 : IVec S_ 1 := constantI S_ 1 1#1
  let main_v37 : IVec S_ 1 := (fun x v => Host.reduce IntOp.andi x v reducesTo_S1152x128_S_d0_1 h_S_) main_v36 main_c_13
  let main_v38 : IVec S_ 1 := andi main_v33 main_v37
  let main_v39 : FVec F S9x128 .f32 := Host.absf main_arg8
  let main_cst_14 : FVec F S_ .f32 := constant S_ .f32 0x7F800000#32
  let main_v40 : FVec F S9x128 .f32 := broadcastInDim S9x128 ![] bcast_S_S9x128 main_cst_14
  let main_v41 : IVec S9x128 1 := cmpf .olt main_v39 main_v40
  let main_c_15 : IVec S_ 1 := constantI S_ 1 1#1
  let main_v42 : IVec S_ 1 := (fun x v => Host.reduce IntOp.andi x v reducesTo_S9x128_S_d0_1 h_S_) main_v41 main_c_15
  let main_v43 : IVec S_ 1 := andi main_v38 main_v42
  let main_v44 : FVec F S32768x256 .f32 := Host.absf main_arg9
  let main_cst_16 : FVec F S_ .f32 := constant S_ .f32 0x7F800000#32
  let main_v45 : FVec F S32768x256 .f32 := broadcastInDim S32768x256 ![] bcast_S_S32768x256 main_cst_16
  let main_v46 : IVec S32768x256 1 := cmpf .olt main_v44 main_v45
  let main_c_17 : IVec S_ 1 := constantI S_ 1 1#1
  let main_v47 : IVec S_ 1 := (fun x v => Host.reduce IntOp.andi x v reducesTo_S32768x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_v48 main_v49 main_v50

def fn_part1 {F : FTy → Type} [FloatOps F] (main_arg4 : FVec F S9x64 .f32) (main_arg5 : FVec F S576x128 .f32) (main_arg6 : FVec F S9x128 .f32) (main_arg7 : FVec F S1152x128 .f32) (main_arg8 : FVec F S9x128 .f32) (main_arg9 : FVec F S32768x256 .f32) (main_arg10 : FVec F S256 .f32) (main_arg11 : FVec F S256x10 .f32) (main_arg12 : FVec F S10 .f32) (main_v13 : IVec S_ 1) (main_v16 : IVec S576x64 1) : IVec S_ 1 :=
  let main_c_5 : IVec S_ 1 := constantI S_ 1 1#1
  let main_v17 : IVec S_ 1 := (fun x v => Host.reduce IntOp.andi x v reducesTo_S576x64_S_d0_1 h_S_) main_v16 main_c_5
  let main_v18 : IVec S_ 1 := andi main_v13 main_v17
  let main_v19 : FVec F S9x64 .f32 := Host.absf main_arg4
  let main_cst_6 : FVec F S_ .f32 := constant S_ .f32 0x7F800000#32
  let main_v20 : FVec F S9x64 .f32 := broadcastInDim S9x64 ![] bcast_S_S9x64 main_cst_6
  let main_v21 : IVec S9x64 1 := cmpf .olt main_v19 main_v20
  let main_c_7 : IVec S_ 1 := constantI S_ 1 1#1
  let main_v22 : IVec S_ 1 := (fun x v => Host.reduce IntOp.andi x v reducesTo_S9x64_S_d0_1 h_S_) main_v21 main_c_7
  let main_v23 : IVec S_ 1 := andi main_v18 main_v22
  let main_v24 : FVec F S576x128 .f32 := Host.absf main_arg5
  let main_cst_8 : FVec F S_ .f32 := constant S_ .f32 0x7F800000#32
  let main_v25 : FVec F S576x128 .f32 := broadcastInDim S576x128 ![] bcast_S_S576x128 main_cst_8
  let main_v26 : IVec S576x128 1 := cmpf .olt main_v24 main_v25
  let main_c_9 : IVec S_ 1 := constantI S_ 1 1#1
  let main_v27 : IVec S_ 1 := (fun x v => Host.reduce IntOp.andi x v reducesTo_S576x128_S_d0_1 h_S_) main_v26 main_c_9
  let main_v28 : IVec S_ 1 := andi main_v23 main_v27
  let main_v29 : FVec F S9x128 .f32 := Host.absf main_arg6
  let main_cst_10 : FVec F S_ .f32 := constant S_ .f32 0x7F800000#32
  let main_v30 : FVec F S9x128 .f32 := broadcastInDim S9x128 ![] bcast_S_S9x128 main_cst_10
  let main_v31 : IVec S9x128 1 := cmpf .olt main_v29 main_v30
  let main_c_11 : IVec S_ 1 := constantI S_ 1 1#1
  let main_v32 : IVec S_ 1 := (fun x v => Host.reduce IntOp.andi x v reducesTo_S9x128_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S32x64x64x1 .f32) (main_arg1 : FVec F S9x64 .f32) (main_arg2 : FVec F S9x64 .f32) (main_arg3 : FVec F S576x64 .f32) (main_arg4 : FVec F S9x64 .f32) (main_arg5 : FVec F S576x128 .f32) (main_arg6 : FVec F S9x128 .f32) (main_arg7 : FVec F S1152x128 .f32) (main_arg8 : FVec F S9x128 .f32) (main_arg9 : FVec F S32768x256 .f32) (main_arg10 : FVec F S256 .f32) (main_arg11 : FVec F S256x10 .f32) (main_arg12 : FVec F S10 .f32) : IVec S_ 1 :=
  let main_v0 : FVec F S32x64x64x1 .f32 := Host.absf main_arg0
  let main_cst : FVec F S_ .f32 := constant S_ .f32 0x7F800000#32
  let main_v1 : FVec F S32x64x64x1 .f32 := broadcastInDim S32x64x64x1 ![] bcast_S_S32x64x64x1 main_cst
  let main_v2 : IVec S32x64x64x1 1 := cmpf .olt main_v0 main_v1
  let main_c : IVec S_ 1 := constantI S_ 1 1#1
  let main_v3 : IVec S_ 1 := (fun x v => Host.reduce IntOp.andi x v reducesTo_S32x64x64x1_S_d0_1_2_3 h_S_) main_v2 main_c
  let main_v4 : FVec F S9x64 .f32 := Host.absf main_arg1
  let main_cst_0 : FVec F S_ .f32 := constant S_ .f32 0x7F800000#32
  let main_v5 : FVec F S9x64 .f32 := broadcastInDim S9x64 ![] bcast_S_S9x64 main_cst_0
  let main_v6 : IVec S9x64 1 := cmpf .olt main_v4 main_v5
  let main_c_1 : IVec S_ 1 := constantI S_ 1 1#1
  let main_v7 : IVec S_ 1 := (fun x v => Host.reduce IntOp.andi x v reducesTo_S9x64_S_d0_1 h_S_) main_v6 main_c_1
  let main_v8 : IVec S_ 1 := andi main_v3 main_v7
  let main_v9 : FVec F S9x64 .f32 := Host.absf main_arg2
  let main_cst_2 : FVec F S_ .f32 := constant S_ .f32 0x7F800000#32
  let main_v10 : FVec F S9x64 .f32 := broadcastInDim S9x64 ![] bcast_S_S9x64 main_cst_2
  let main_v11 : IVec S9x64 1 := cmpf .olt main_v9 main_v10
  let main_c_3 : IVec S_ 1 := constantI S_ 1 1#1
  let main_v12 : IVec S_ 1 := (fun x v => Host.reduce IntOp.andi x v reducesTo_S9x64_S_d0_1 h_S_) main_v11 main_c_3
  let main_v13 : IVec S_ 1 := andi main_v8 main_v12
  let main_v14 : FVec F S576x64 .f32 := Host.absf main_arg3
  let main_cst_4 : FVec F S_ .f32 := constant S_ .f32 0x7F800000#32
  let main_v15 : FVec F S576x64 .f32 := broadcastInDim S576x64 ![] bcast_S_S576x64 main_cst_4
  let main_v16 : IVec S576x64 1 := cmpf .olt main_v14 main_v15
  fn_part1 (F := F) main_arg4 main_arg5 main_arg6 main_arg7 main_arg8 main_arg9 main_arg10 main_arg11 main_arg12 main_v13 main_v16
-- ==== Kernel.lean ====
abbrev S32x64x64x1 : Shape := ⟨4, ![32, 64, 64, 1]⟩
abbrev S9x64 : Shape := ⟨2, ![9, 64]⟩
abbrev S576x64 : Shape := ⟨2, ![576, 64]⟩
abbrev S576x128 : Shape := ⟨2, ![576, 128]⟩
abbrev S9x128 : Shape := ⟨2, ![9, 128]⟩
abbrev S1152x128 : Shape := ⟨2, ![1152, 128]⟩
abbrev S32768x256 : Shape := ⟨2, ![32768, 256]⟩
abbrev S256 : Shape := ⟨1, ![256]⟩
abbrev S256x10 : Shape := ⟨2, ![256, 10]⟩
abbrev S10 : Shape := ⟨1, ![10]⟩
abbrev S64x64 : Shape := ⟨2, ![64, 64]⟩
abbrev S32x32 : Shape := ⟨2, ![32, 32]⟩
abbrev S_ : Shape := ⟨0, ![]⟩
abbrev S32x66x66x1 : Shape := ⟨4, ![32, 66, 66, 1]⟩
abbrev S64x64x1 : Shape := ⟨3, ![64, 64, 1]⟩
abbrev S64x64x64 : Shape := ⟨3, ![64, 64, 64]⟩
abbrev S32x64x64x64 : Shape := ⟨4, ![32, 64, 64, 64]⟩
abbrev S2x66x66x1 : Shape := ⟨4, ![2, 66, 66, 1]⟩
abbrev S2x64x64x64 : Shape := ⟨4, ![2, 64, 64, 64]⟩
abbrev S2x64x64x1 : Shape := ⟨4, ![2, 64, 64, 1]⟩
abbrev S8192x1 : Shape := ⟨2, ![8192, 1]⟩
abbrev S1x64 : Shape := ⟨2, ![1, 64]⟩
abbrev S8192x64 : Shape := ⟨2, ![8192, 64]⟩
abbrev S1x64x64x64 : Shape := ⟨4, ![1, 64, 64, 64]⟩
abbrev S32x66x66x64 : Shape := ⟨4, ![32, 66, 66, 64]⟩
abbrev S2x66x66x64 : Shape := ⟨4, ![2, 66, 66, 64]⟩
abbrev S32x32x2x32x2x64 : Shape := ⟨6, ![32, 32, 2, 32, 2, 64]⟩
abbrev S32x32x32x64 : Shape := ⟨4, ![32, 32, 32, 64]⟩
abbrev S32x34x34x64 : Shape := ⟨4, ![32, 34, 34, 64]⟩
abbrev S32x32x1 : Shape := ⟨3, ![32, 32, 1]⟩
abbrev S32x32x128 : Shape := ⟨3, ![32, 32, 128]⟩
abbrev S32x32x32x128 : Shape := ⟨4, ![32, 32, 32, 128]⟩
abbrev S2x34x34x64 : Shape := ⟨4, ![2, 34, 34, 64]⟩
abbrev S2x32x32x128 : Shape := ⟨4, ![2, 32, 32, 128]⟩
abbrev S2x32x32x64 : Shape := ⟨4, ![2, 32, 32, 64]⟩
abbrev S2048x64 : Shape := ⟨2, ![2048, 64]⟩
abbrev S64x128 : Shape := ⟨2, ![64, 128]⟩
abbrev S2048x128 : Shape := ⟨2, ![2048, 128]⟩
abbrev S1x32x32x128 : Shape := ⟨4, ![1, 32, 32, 128]⟩
abbrev S32x34x34x128 : Shape := ⟨4, ![32, 34, 34, 128]⟩
abbrev S2x34x34x128 : Shape := ⟨4, ![2, 34, 34, 128]⟩
abbrev S128x128 : Shape := ⟨2, ![128, 128]⟩
abbrev S32x16x2x16x2x128 : Shape := ⟨6, ![32, 16, 2, 16, 2, 128]⟩
abbrev S32x16x16x128 : Shape := ⟨4, ![32, 16, 16, 128]⟩
abbrev S32x32768 : Shape := ⟨2, ![32, 32768]⟩
abbrev S1x256 : Shape := ⟨2, ![1, 256]⟩
abbrev S32x256 : Shape := ⟨2, ![32, 256]⟩
abbrev S32x4096 : Shape := ⟨2, ![32, 4096]⟩
abbrev S4096x256 : Shape := ⟨2, ![4096, 256]⟩
abbrev S1x10 : Shape := ⟨2, ![1, 10]⟩
abbrev S32x10 : Shape := ⟨2, ![32, 10]⟩

abbrev nBuf : Space → Nat
  | .hbm => 80
  | .vmem => 35
  | .smem => 0
  | _ => 0

abbrev bufTy : (tb : Table) → Fin (tcTables nBuf tb) → BufTy
  | .hbm, ⟨0, _⟩ => ⟨S32x64x64x1, .f32⟩
  | .hbm, ⟨1, _⟩ => ⟨S9x64, .f32⟩
  | .hbm, ⟨2, _⟩ => ⟨S9x64, .f32⟩
  | .hbm, ⟨3, _⟩ => ⟨S576x64, .f32⟩
  | .hbm, ⟨4, _⟩ => ⟨S9x64, .f32⟩
  | .hbm, ⟨5, _⟩ => ⟨S576x128, .f32⟩
  | .hbm, ⟨6, _⟩ => ⟨S9x128, .f32⟩
  | .hbm, ⟨7, _⟩ => ⟨S1152x128, .f32⟩
  | .hbm, ⟨8, _⟩ => ⟨S9x128, .f32⟩
  | .hbm, ⟨9, _⟩ => ⟨S32768x256, .f32⟩
  | .hbm, ⟨10, _⟩ => ⟨S256, .f32⟩
  | .hbm, ⟨11, _⟩ => ⟨S256x10, .f32⟩
  | .hbm, ⟨12, _⟩ => ⟨S10, .f32⟩
  | .hbm, ⟨13, _⟩ => ⟨S64x64, .i32⟩
  | .hbm, ⟨14, _⟩ => ⟨S64x64, .i32⟩
  | .hbm, ⟨15, _⟩ => ⟨S32x32, .i32⟩
  | .hbm, ⟨16, _⟩ => ⟨S32x32, .i32⟩
  | .hbm, ⟨17, _⟩ => ⟨S_, .f32⟩
  | .hbm, ⟨18, _⟩ => ⟨S_, .f32⟩
  | .hbm, ⟨19, _⟩ => ⟨S32x66x66x1, .f32⟩
  | .hbm, ⟨20, _⟩ => ⟨S_, .i32⟩
  | .hbm, ⟨21, _⟩ => ⟨S64x64, .i32⟩
  | .hbm, ⟨22, _⟩ => ⟨S64x64, .i1⟩
  | .hbm, ⟨23, _⟩ => ⟨S_, .i32⟩
  | .hbm, ⟨24, _⟩ => ⟨S64x64, .i32⟩
  | .hbm, ⟨25, _⟩ => ⟨S64x64, .i32⟩
  | .hbm, ⟨26, _⟩ => ⟨S64x64, .i32⟩
  | .hbm, ⟨27, _⟩ => ⟨S64x64x1, .i32⟩
  | .hbm, ⟨28, _⟩ => ⟨S64x64x64, .f32⟩
  | .hbm, ⟨29, _⟩ => ⟨S32x64x64x64, .f32⟩
  | .hbm, ⟨30, _⟩ => ⟨S_, .f32⟩
  | .hbm, ⟨31, _⟩ => ⟨S_, .f32⟩
  | .hbm, ⟨32, _⟩ => ⟨S32x66x66x64, .f32⟩
  | .hbm, ⟨33, _⟩ => ⟨S_, .i32⟩
  | .hbm, ⟨34, _⟩ => ⟨S64x64, .i32⟩
  | .hbm, ⟨35, _⟩ => ⟨S64x64, .i1⟩
  | .hbm, ⟨36, _⟩ => ⟨S_, .i32⟩
  | .hbm, ⟨37, _⟩ => ⟨S64x64, .i32⟩
  | .hbm, ⟨38, _⟩ => ⟨S64x64, .i32⟩
  | .hbm, ⟨39, _⟩ => ⟨S64x64, .i32⟩
  | .hbm, ⟨40, _⟩ => ⟨S64x64x1, .i32⟩
  | .hbm, ⟨41, _⟩ => ⟨S64x64x64, .f32⟩
  | .hbm, ⟨42, _⟩ => ⟨S32x64x64x64, .f32⟩
  | .hbm, ⟨43, _⟩ => ⟨S32x32x2x32x2x64, .f32⟩
  | .hbm, ⟨44, _⟩ => ⟨S_, .f32⟩
  | .hbm, ⟨45, _⟩ => ⟨S32x32x32x64, .f32⟩
  | .hbm, ⟨46, _⟩ => ⟨S_, .f32⟩
  | .hbm, ⟨47, _⟩ => ⟨S_, .f32⟩
  | .hbm, ⟨48, _⟩ => ⟨S32x34x34x64, .f32⟩
  | .hbm, ⟨49, _⟩ => ⟨S_, .i32⟩
  | .hbm, ⟨50, _⟩ => ⟨S32x32, .i32⟩
  | .hbm, ⟨51, _⟩ => ⟨S32x32, .i1⟩
  | .hbm, ⟨52, _⟩ => ⟨S_, .i32⟩
  | .hbm, ⟨53, _⟩ => ⟨S32x32, .i32⟩
  | .hbm, ⟨54, _⟩ => ⟨S32x32, .i32⟩
  | .hbm, ⟨55, _⟩ => ⟨S32x32, .i32⟩
  | .hbm, ⟨56, _⟩ => ⟨S32x32x1, .i32⟩
  | .hbm, ⟨57, _⟩ => ⟨S32x32x128, .f32⟩
  | .hbm, ⟨58, _⟩ => ⟨S32x32x32x128, .f32⟩
  | .hbm, ⟨59, _⟩ => ⟨S_, .f32⟩
  | .hbm, ⟨60, _⟩ => ⟨S_, .f32⟩
  | .hbm, ⟨61, _⟩ => ⟨S32x34x34x128, .f32⟩
  | .hbm, ⟨62, _⟩ => ⟨S_, .i32⟩
  | .hbm, ⟨63, _⟩ => ⟨S32x32, .i32⟩
  | .hbm, ⟨64, _⟩ => ⟨S32x32, .i1⟩
  | .hbm, ⟨65, _⟩ => ⟨S_, .i32⟩
  | .hbm, ⟨66, _⟩ => ⟨S32x32, .i32⟩
  | .hbm, ⟨67, _⟩ => ⟨S32x32, .i32⟩
  | .hbm, ⟨68, _⟩ => ⟨S32x32, .i32⟩
  | .hbm, ⟨69, _⟩ => ⟨S32x32x1, .i32⟩
  | .hbm, ⟨70, _⟩ => ⟨S32x32x128, .f32⟩
  | .hbm, ⟨71, _⟩ => ⟨S32x32x32x128, .f32⟩
  | .hbm, ⟨72, _⟩ => ⟨S32x16x2x16x2x128, .f32⟩
  | .hbm, ⟨73, _⟩ => ⟨S_, .f32⟩
  | .hbm, ⟨74, _⟩ => ⟨S32x16x16x128, .f32⟩
  | .hbm, ⟨75, _⟩ => ⟨S32x32768, .f32⟩
  | .hbm, ⟨76, _⟩ => ⟨S1x256, .f32⟩
  | .hbm, ⟨77, _⟩ => ⟨S32x256, .f32⟩
  | .hbm, ⟨78, _⟩ => ⟨S1x10, .f32⟩
  | .hbm, ⟨79, _⟩ => ⟨S32x10, .f32⟩
  | .local _ .vmem, ⟨0, _⟩ => ⟨S2x66x66x1, .f32⟩
  | .local _ .vmem, ⟨1, _⟩ => ⟨S2x66x66x1, .f32⟩
  | .local _ .vmem, ⟨2, _⟩ => ⟨S9x64, .f32⟩
  | .local _ .vmem, ⟨3, _⟩ => ⟨S64x64x64, .f32⟩
  | .local _ .vmem, ⟨4, _⟩ => ⟨S2x64x64x64, .f32⟩
  | .local _ .vmem, ⟨5, _⟩ => ⟨S2x64x64x64, .f32⟩
  | .local _ .vmem, ⟨6, _⟩ => ⟨S2x66x66x64, .f32⟩
  | .local _ .vmem, ⟨7, _⟩ => ⟨S2x66x66x64, .f32⟩
  | .local _ .vmem, ⟨8, _⟩ => ⟨S576x64, .f32⟩
  | .local _ .vmem, ⟨9, _⟩ => ⟨S64x64x64, .f32⟩
  | .local _ .vmem, ⟨10, _⟩ => ⟨S2x64x64x64, .f32⟩
  | .local _ .vmem, ⟨11, _⟩ => ⟨S2x64x64x64, .f32⟩
  | .local _ .vmem, ⟨12, _⟩ => ⟨S2x34x34x64, .f32⟩
  | .local _ .vmem, ⟨13, _⟩ => ⟨S2x34x34x64, .f32⟩
  | .local _ .vmem, ⟨14, _⟩ => ⟨S576x128, .f32⟩
  | .local _ .vmem, ⟨15, _⟩ => ⟨S32x32x128, .f32⟩
  | .local _ .vmem, ⟨16, _⟩ => ⟨S2x32x32x128, .f32⟩
  | .local _ .vmem, ⟨17, _⟩ => ⟨S2x32x32x128, .f32⟩
  | .local _ .vmem, ⟨18, _⟩ => ⟨S2x34x34x128, .f32⟩
  | .local _ .vmem, ⟨19, _⟩ => ⟨S2x34x34x128, .f32⟩
  | .local _ .vmem, ⟨20, _⟩ => ⟨S1152x128, .f32⟩
  | .local _ .vmem, ⟨21, _⟩ => ⟨S32x32x128, .f32⟩
  | .local _ .vmem, ⟨22, _⟩ => ⟨S2x32x32x128, .f32⟩
  | .local _ .vmem, ⟨23, _⟩ => ⟨S2x32x32x128, .f32⟩
  | .local _ .vmem, ⟨24, _⟩ => ⟨S32x4096, .f32⟩
  | .local _ .vmem, ⟨25, _⟩ => ⟨S32x4096, .f32⟩
  | .local _ .vmem, ⟨26, _⟩ => ⟨S4096x256, .f32⟩
  | .local _ .vmem, ⟨27, _⟩ => ⟨S4096x256, .f32⟩
  | .local _ .vmem, ⟨28, _⟩ => ⟨S1x256, .f32⟩
  | .local _ .vmem, ⟨29, _⟩ => ⟨S32x256, .f32⟩
  | .local _ .vmem, ⟨30, _⟩ => ⟨S32x256, .f32⟩
  | .local _ .vmem, ⟨31, _⟩ => ⟨S32x256, .f32⟩
  | .local _ .vmem, ⟨32, _⟩ => ⟨S256x10, .f32⟩
  | .local _ .vmem, ⟨33, _⟩ => ⟨S1x10, .f32⟩
  | .local _ .vmem, ⟨34, _⟩ => ⟨S32x10, .f32⟩
  | _, _ => ⟨S32x64x64x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_c_2 : Ref sig .tc := ⟨.hbm, 16, rfl⟩
abbrev main_cst : Ref sig .tc := ⟨.hbm, 17, rfl⟩
abbrev main_call0_v0 : Ref sig .tc := ⟨.hbm, 18, rfl⟩
abbrev main_v0 : Ref sig .tc := ⟨.hbm, 19, rfl⟩
abbrev main_c_3 : Ref sig .tc := ⟨.hbm, 20, rfl⟩
abbrev main_v1 : Ref sig .tc := ⟨.hbm, 21, rfl⟩
abbrev main_v2 : Ref sig .tc := ⟨.hbm, 22, rfl⟩
abbrev main_c_4 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst_5 : Ref sig .tc := ⟨.hbm, 30, rfl⟩
abbrev main_call1_v0 : Ref sig .tc := ⟨.hbm, 31, rfl⟩
abbrev main_v9 : Ref sig .tc := ⟨.hbm, 32, rfl⟩
abbrev main_c_6 : Ref sig .tc := ⟨.hbm, 33, rfl⟩
abbrev main_v10 : Ref sig .tc := ⟨.hbm, 34, rfl⟩
abbrev main_v11 : Ref sig .tc := ⟨.hbm, 35, rfl⟩
abbrev main_c_7 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_8 : Ref sig .tc := ⟨.hbm, 44, rfl⟩
abbrev main_v19 : Ref sig .tc := ⟨.hbm, 45, rfl⟩
abbrev main_cst_9 : Ref sig .tc := ⟨.hbm, 46, rfl⟩
abbrev main_call2_v0 : Ref sig .tc := ⟨.hbm, 47, rfl⟩
abbrev main_v20 : Ref sig .tc := ⟨.hbm, 48, rfl⟩
abbrev main_c_10 : Ref sig .tc := ⟨.hbm, 49, rfl⟩
abbrev main_v21 : Ref sig .tc := ⟨.hbm, 50, rfl⟩
abbrev main_v22 : Ref sig .tc := ⟨.hbm, 51, rfl⟩
abbrev main_c_11 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_cst_12 : Ref sig .tc := ⟨.hbm, 59, rfl⟩
abbrev main_call3_v0 : Ref sig .tc := ⟨.hbm, 60, rfl⟩
abbrev main_v29 : Ref sig .tc := ⟨.hbm, 61, rfl⟩
abbrev main_c_13 : Ref sig .tc := ⟨.hbm, 62, rfl⟩
abbrev main_v30 : Ref sig .tc := ⟨.hbm, 63, rfl⟩
abbrev main_v31 : Ref sig .tc := ⟨.hbm, 64, rfl⟩
abbrev main_c_14 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_15 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg3_0 : Ref sig .tc := ⟨.vmem, 29, rfl⟩
abbrev cc4_scratch0 : Ref sig .tc := ⟨.vmem, 30, rfl⟩
abbrev cc5_stg0_0 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem3_0 : DmaSem sig := 29
abbrev cc5_sem0_0 : DmaSem sig := 30
abbrev cc5_sem1_0 : DmaSem sig := 31
abbrev cc5_sem2_0 : DmaSem sig := 32
abbrev cc5_sem3_0 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x66x66x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x64x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S2x66x66x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S576x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2x64x64x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S2x34x34x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S576x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x32x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2x32x32x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![16], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_3 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage3_0 : Fin 2 → Memref sig .tc .vmem S2x34x34x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1152x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S32x32x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2x32x32x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![8], ![false]⟩

def k4_cond2 (i : grid4.Coords) : BitVec 1 :=
  let arg0 : BitVec 32 := BitVec.ofNat 32 (i 0).val
  let c7_i32 : BitVec 32 := 7#32
  let v16 : BitVec 1 := Scalar.cmpi .eq arg0 c7_i32
  let v17 : BitVec 32 := Scalar.extui v16
  let c0_i32_9 : BitVec 32 := 0#32
  let v18 : BitVec 1 := Scalar.cmpi .ne v17 c0_i32_9
  v18

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S32x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4096x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S32x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S32x256 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S256x10 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x10 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S32x10 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

class Facts₀ : Prop where
  pads_S32x64x64x1_S32x66x66x1_000_110_110_000 : S32x64x64x1.Pads (![0, 1, 1, 0] : Fin 4 → Nat) ![0, 1, 1, 0] ![0, 0, 0, 0] S32x66x66x1
  h_S_ : 0 < S_.numel
  bcast_S_S64x64 : S_.BroadcastsInDim S64x64 (![] : Fin 0 → Fin S64x64.rank)
  bcast_S64x64_S64x64x1_0_1 : S64x64.BroadcastsInDim S64x64x1 (![0, 1] : Fin 2 → Fin S64x64x1.rank)
  inb_S2x66x66x1_S2x64x64x1_0_0_0_0 : ∀ a, (![0, 0, 0, 0] : Fin 4 → Nat) a + S2x64x64x1.size a ≤ S2x66x66x1.size a
  h_S2x64x64x1 : 0 < S2x64x64x1.numel
  shapeCasts_S2x64x64x1_S2x64x64x1 : S2x64x64x1.ShapeCasts S2x64x64x1
  shapeCasts_S2x64x64x1_S8192x1 : S2x64x64x1.ShapeCasts S8192x1
  bitsLt_bf16_f32 : FTy.bits .bf16 < FTy.bits .f32
  inb_S9x64_S1x64_0_0 : ∀ a, (![0, 0] : Fin 2 → Nat) a + S1x64.size a ≤ S9x64.size a
  h_S1x64 : 0 < S1x64.numel
  shapeCasts_S8192x64_S2x64x64x64 : S8192x64.ShapeCasts S2x64x64x64
  inb_S2x66x66x1_S2x64x64x1_0_0_1_0 : ∀ a, (![0, 0, 1, 0] : Fin 4 → Nat) a + S2x64x64x1.size a ≤ S2x66x66x1.size a
  inb_S9x64_S1x64_1_0 : ∀ a, (![1, 0] : Fin 2 → Nat) a + S1x64.size a ≤ S9x64.size a
  inb_S2x66x66x1_S2x64x64x1_0_0_2_0 : ∀ a, (![0, 0, 2, 0] : Fin 4 → Nat) a + S2x64x64x1.size a ≤ S2x66x66x1.size a
  inb_S9x64_S1x64_2_0 : ∀ a, (![2, 0] : Fin 2 → Nat) a + S1x64.size a ≤ S9x64.size a
  inb_S2x66x66x1_S2x64x64x1_0_1_0_0 : ∀ a, (![0, 1, 0, 0] : Fin 4 → Nat) a + S2x64x64x1.size a ≤ S2x66x66x1.size a
  inb_S9x64_S1x64_3_0 : ∀ a, (![3, 0] : Fin 2 → Nat) a + S1x64.size a ≤ S9x64.size a
  inb_S2x66x66x1_S2x64x64x1_0_1_1_0 : ∀ a, (![0, 1, 1, 0] : Fin 4 → Nat) a + S2x64x64x1.size a ≤ S2x66x66x1.size a
  inb_S9x64_S1x64_4_0 : ∀ a, (![4, 0] : Fin 2 → Nat) a + S1x64.size a ≤ S9x64.size a
  inb_S2x66x66x1_S2x64x64x1_0_1_2_0 : ∀ a, (![0, 1, 2, 0] : Fin 4 → Nat) a + S2x64x64x1.size a ≤ S2x66x66x1.size a
  inb_S9x64_S1x64_5_0 : ∀ a, (![5, 0] : Fin 2 → Nat) a + S1x64.size a ≤ S9x64.size a
  inb_S2x66x66x1_S2x64x64x1_0_2_0_0 : ∀ a, (![0, 2, 0, 0] : Fin 4 → Nat) a + S2x64x64x1.size a ≤ S2x66x66x1.size a
  inb_S9x64_S1x64_6_0 : ∀ a, (![6, 0] : Fin 2 → Nat) a + S1x64.size a ≤ S9x64.size a
  inb_S2x66x66x1_S2x64x64x1_0_2_1_0 : ∀ a, (![0, 2, 1, 0] : Fin 4 → Nat) a + S2x64x64x1.size a ≤ S2x66x66x1.size a
  inb_S9x64_S1x64_7_0 : ∀ a, (![7, 0] : Fin 2 → Nat) a + S1x64.size a ≤ S9x64.size a
  inb_S2x66x66x1_S2x64x64x1_0_2_2_0 : ∀ a, (![0, 2, 2, 0] : Fin 4 → Nat) a + S2x64x64x1.size a ≤ S2x66x66x1.size a
  inb_S9x64_S1x64_8_0 : ∀ a, (![8, 0] : Fin 2 → Nat) a + S1x64.size a ≤ S9x64.size a
  inb_S64x64x64_S64x64x64_0_0_0 : ∀ a, (![0, 0, 0] : Fin 3 → Nat) a + S64x64x64.size a ≤ S64x64x64.size a
  h_S64x64x64 : 0 < S64x64x64.numel
  shapeCasts_S64x64x64_S64x64x64 : S64x64x64.ShapeCasts S64x64x64
  shapeCasts_S64x64x64_S1x64x64x64 : S64x64x64.ShapeCasts S1x64x64x64
  broadcasts_S1x64x64x64_S2x64x64x64 : S1x64x64x64.Broadcasts S2x64x64x64
  inb_S2x64x64x64_S2x64x64x64_0_0_0_0 : ∀ a, (![0, 0, 0, 0] : Fin 4 → Nat) a + S2x64x64x64.size a ≤ S2x64x64x64.size a
  h_S2x64x64x64 : 0 < S2x64x64x64.numel
  pads_S32x64x64x64_S32x66x66x64_000_110_110_000 : S32x64x64x64.Pads (![0, 1, 1, 0] : Fin 4 → Nat) ![0, 1, 1, 0] ![0, 0, 0, 0] S32x66x66x64
  inb_S2x66x66x64_S2x64x64x64_0_0_0_0 : ∀ a, (![0, 0, 0, 0] : Fin 4 → Nat) a + S2x64x64x64.size a ≤ S2x66x66x64.size a
  shapeCasts_S2x64x64x64_S2x64x64x64 : S2x64x64x64.ShapeCasts S2x64x64x64
  shapeCasts_S2x64x64x64_S8192x64 : S2x64x64x64.ShapeCasts S8192x64
  inb_S576x64_S64x64_0_0 : ∀ a, (![0, 0] : Fin 2 → Nat) a + S64x64.size a ≤ S576x64.size a
  h_S64x64 : 0 < S64x64.numel
  inb_S2x66x66x64_S2x64x64x64_0_0_1_0 : ∀ a, (![0, 0, 1, 0] : Fin 4 → Nat) a + S2x64x64x64.size a ≤ S2x66x66x64.size a
  inb_S576x64_S64x64_64_0 : ∀ a, (![64, 0] : Fin 2 → Nat) a + S64x64.size a ≤ S576x64.size a
  inb_S2x66x66x64_S2x64x64x64_0_0_2_0 : ∀ a, (![0, 0, 2, 0] : Fin 4 → Nat) a + S2x64x64x64.size a ≤ S2x66x66x64.size a
  inb_S576x64_S64x64_128_0 : ∀ a, (![128, 0] : Fin 2 → Nat) a + S64x64.size a ≤ S576x64.size a
  inb_S2x66x66x64_S2x64x64x64_0_1_0_0 : ∀ a, (![0, 1, 0, 0] : Fin 4 → Nat) a + S2x64x64x64.size a ≤ S2x66x66x64.size a
  inb_S576x64_S64x64_192_0 : ∀ a, (![192, 0] : Fin 2 → Nat) a + S64x64.size a ≤ S576x64.size a
  inb_S2x66x66x64_S2x64x64x64_0_1_1_0 : ∀ a, (![0, 1, 1, 0] : Fin 4 → Nat) a + S2x64x64x64.size a ≤ S2x66x66x64.size a
  inb_S576x64_S64x64_256_0 : ∀ a, (![256, 0] : Fin 2 → Nat) a + S64x64.size a ≤ S576x64.size a
  inb_S2x66x66x64_S2x64x64x64_0_1_2_0 : ∀ a, (![0, 1, 2, 0] : Fin 4 → Nat) a + S2x64x64x64.size a ≤ S2x66x66x64.size a
  inb_S576x64_S64x64_320_0 : ∀ a, (![320, 0] : Fin 2 → Nat) a + S64x64.size a ≤ S576x64.size a
  inb_S2x66x66x64_S2x64x64x64_0_2_0_0 : ∀ a, (![0, 2, 0, 0] : Fin 4 → Nat) a + S2x64x64x64.size a ≤ S2x66x66x64.size a
  inb_S576x64_S64x64_384_0 : ∀ a, (![384, 0] : Fin 2 → Nat) a + S64x64.size a ≤ S576x64.size a
  inb_S2x66x66x64_S2x64x64x64_0_2_1_0 : ∀ a, (![0, 2, 1, 0] : Fin 4 → Nat) a + S2x64x64x64.size a ≤ S2x66x66x64.size a
  inb_S576x64_S64x64_448_0 : ∀ a, (![448, 0] : Fin 2 → Nat) a + S64x64.size a ≤ S576x64.size a
  inb_S2x66x66x64_S2x64x64x64_0_2_2_0 : ∀ a, (![0, 2, 2, 0] : Fin 4 → Nat) a + S2x64x64x64.size a ≤ S2x66x66x64.size a
  inb_S576x64_S64x64_512_0 : ∀ a, (![512, 0] : Fin 2 → Nat) a + S64x64.size a ≤ S576x64.size a
  shapeCasts_S32x64x64x64_S32x32x2x32x2x64 : S32x64x64x64.ShapeCasts S32x32x2x32x2x64
  reducesTo_S32x32x2x32x2x64_S32x32x32x64_d2_4 : S32x32x2x32x2x64.ReducesTo [2, 4] S32x32x32x64
  pads_S32x32x32x64_S32x34x34x64_000_110_110_000 : S32x32x32x64.Pads (![0, 1, 1, 0] : Fin 4 → Nat) ![0, 1, 1, 0] ![0, 0, 0, 0] S32x34x34x64
  bcast_S_S32x32 : S_.BroadcastsInDim S32x32 (![] : Fin 0 → Fin S32x32.rank)
  bcast_S32x32_S32x32x1_0_1 : S32x32.BroadcastsInDim S32x32x1 (![0, 1] : Fin 2 → Fin S32x32x1.rank)
  inb_S2x34x34x64_S2x32x32x64_0_0_0_0 : ∀ a, (![0, 0, 0, 0] : Fin 4 → Nat) a + S2x32x32x64.size a ≤ S2x34x34x64.size a
  h_S2x32x32x64 : 0 < S2x32x32x64.numel
  shapeCasts_S2x32x32x64_S2x32x32x64 : S2x32x32x64.ShapeCasts S2x32x32x64
  shapeCasts_S2x32x32x64_S2048x64 : S2x32x32x64.ShapeCasts S2048x64
  inb_S576x128_S64x128_0_0 : ∀ a, (![0, 0] : Fin 2 → Nat) a + S64x128.size a ≤ S576x128.size a
  h_S64x128 : 0 < S64x128.numel
  shapeCasts_S2048x128_S2x32x32x128 : S2048x128.ShapeCasts S2x32x32x128
  inb_S2x34x34x64_S2x32x32x64_0_0_1_0 : ∀ a, (![0, 0, 1, 0] : Fin 4 → Nat) a + S2x32x32x64.size a ≤ S2x34x34x64.size a
  inb_S576x128_S64x128_64_0 : ∀ a, (![64, 0] : Fin 2 → Nat) a + S64x128.size a ≤ S576x128.size a
  inb_S2x34x34x64_S2x32x32x64_0_0_2_0 : ∀ a, (![0, 0, 2, 0] : Fin 4 → Nat) a + S2x32x32x64.size a ≤ S2x34x34x64.size a
  inb_S576x128_S64x128_128_0 : ∀ a, (![128, 0] : Fin 2 → Nat) a + S64x128.size a ≤ S576x128.size a
  inb_S2x34x34x64_S2x32x32x64_0_1_0_0 : ∀ a, (![0, 1, 0, 0] : Fin 4 → Nat) a + S2x32x32x64.size a ≤ S2x34x34x64.size a
  inb_S576x128_S64x128_192_0 : ∀ a, (![192, 0] : Fin 2 → Nat) a + S64x128.size a ≤ S576x128.size a
  inb_S2x34x34x64_S2x32x32x64_0_1_1_0 : ∀ a, (![0, 1, 1, 0] : Fin 4 → Nat) a + S2x32x32x64.size a ≤ S2x34x34x64.size a
  inb_S576x128_S64x128_256_0 : ∀ a, (![256, 0] : Fin 2 → Nat) a + S64x128.size a ≤ S576x128.size a
  inb_S2x34x34x64_S2x32x32x64_0_1_2_0 : ∀ a, (![0, 1, 2, 0] : Fin 4 → Nat) a + S2x32x32x64.size a ≤ S2x34x34x64.size a
  inb_S576x128_S64x128_320_0 : ∀ a, (![320, 0] : Fin 2 → Nat) a + S64x128.size a ≤ S576x128.size a
  inb_S2x34x34x64_S2x32x32x64_0_2_0_0 : ∀ a, (![0, 2, 0, 0] : Fin 4 → Nat) a + S2x32x32x64.size a ≤ S2x34x34x64.size a
  inb_S576x128_S64x128_384_0 : ∀ a, (![384, 0] : Fin 2 → Nat) a + S64x128.size a ≤ S576x128.size a
  inb_S2x34x34x64_S2x32x32x64_0_2_1_0 : ∀ a, (![0, 2, 1, 0] : Fin 4 → Nat) a + S2x32x32x64.size a ≤ S2x34x34x64.size a
  inb_S576x128_S64x128_448_0 : ∀ a, (![448, 0] : Fin 2 → Nat) a + S64x128.size a ≤ S576x128.size a
  inb_S2x34x34x64_S2x32x32x64_0_2_2_0 : ∀ a, (![0, 2, 2, 0] : Fin 4 → Nat) a + S2x32x32x64.size a ≤ S2x34x34x64.size a
  inb_S576x128_S64x128_512_0 : ∀ a, (![512, 0] : Fin 2 → Nat) a + S64x128.size a ≤ S576x128.size a
  inb_S32x32x128_S32x32x128_0_0_0 : ∀ a, (![0, 0, 0] : Fin 3 → Nat) a + S32x32x128.size a ≤ S32x32x128.size a
  h_S32x32x128 : 0 < S32x32x128.numel
  shapeCasts_S32x32x128_S32x32x128 : S32x32x128.ShapeCasts S32x32x128
  shapeCasts_S32x32x128_S1x32x32x128 : S32x32x128.ShapeCasts S1x32x32x128
  broadcasts_S1x32x32x128_S2x32x32x128 : S1x32x32x128.Broadcasts S2x32x32x128
  inb_S2x32x32x128_S2x32x32x128_0_0_0_0 : ∀ a, (![0, 0, 0, 0] : Fin 4 → Nat) a + S2x32x32x128.size a ≤ S2x32x32x128.size a
  h_S2x32x32x128 : 0 < S2x32x32x128.numel
  pads_S32x32x32x128_S32x34x34x128_000_110_110_000 : S32x32x32x128.Pads (![0, 1, 1, 0] : Fin 4 → Nat) ![0, 1, 1, 0] ![0, 0, 0, 0] S32x34x34x128
  inb_S2x34x34x128_S2x32x32x128_0_0_0_0 : ∀ a, (![0, 0, 0, 0] : Fin 4 → Nat) a + S2x32x32x128.size a ≤ S2x34x34x128.size a
  shapeCasts_S2x32x32x128_S2x32x32x128 : S2x32x32x128.ShapeCasts S2x32x32x128
  shapeCasts_S2x32x32x128_S2048x128 : S2x32x32x128.ShapeCasts S2048x128
  inb_S1152x128_S128x128_0_0 : ∀ a, (![0, 0] : Fin 2 → Nat) a + S128x128.size a ≤ S1152x128.size a
  h_S128x128 : 0 < S128x128.numel
  inb_S2x34x34x128_S2x32x32x128_0_0_1_0 : ∀ a, (![0, 0, 1, 0] : Fin 4 → Nat) a + S2x32x32x128.size a ≤ S2x34x34x128.size a
  inb_S1152x128_S128x128_128_0 : ∀ a, (![128, 0] : Fin 2 → Nat) a + S128x128.size a ≤ S1152x128.size a
  inb_S2x34x34x128_S2x32x32x128_0_0_2_0 : ∀ a, (![0, 0, 2, 0] : Fin 4 → Nat) a + S2x32x32x128.size a ≤ S2x34x34x128.size a
  inb_S1152x128_S128x128_256_0 : ∀ a, (![256, 0] : Fin 2 → Nat) a + S128x128.size a ≤ S1152x128.size a
  inb_S2x34x34x128_S2x32x32x128_0_1_0_0 : ∀ a, (![0, 1, 0, 0] : Fin 4 → Nat) a + S2x32x32x128.size a ≤ S2x34x34x128.size a
  inb_S1152x128_S128x128_384_0 : ∀ a, (![384, 0] : Fin 2 → Nat) a + S128x128.size a ≤ S1152x128.size a
  inb_S2x34x34x128_S2x32x32x128_0_1_1_0 : ∀ a, (![0, 1, 1, 0] : Fin 4 → Nat) a + S2x32x32x128.size a ≤ S2x34x34x128.size a
  inb_S1152x128_S128x128_512_0 : ∀ a, (![512, 0] : Fin 2 → Nat) a + S128x128.size a ≤ S1152x128.size a
  inb_S2x34x34x128_S2x32x32x128_0_1_2_0 : ∀ a, (![0, 1, 2, 0] : Fin 4 → Nat) a + S2x32x32x128.size a ≤ S2x34x34x128.size a
  inb_S1152x128_S128x128_640_0 : ∀ a, (![640, 0] : Fin 2 → Nat) a + S128x128.size a ≤ S1152x128.size a
  inb_S2x34x34x128_S2x32x32x128_0_2_0_0 : ∀ a, (![0, 2, 0, 0] : Fin 4 → Nat) a + S2x32x32x128.size a ≤ S2x34x34x128.size a
  inb_S1152x128_S128x128_768_0 : ∀ a, (![768, 0] : Fin 2 → Nat) a + S128x128.size a ≤ S1152x128.size a
  inb_S2x34x34x128_S2x32x32x128_0_2_1_0 : ∀ a, (![0, 2, 1, 0] : Fin 4 → Nat) a + S2x32x32x128.size a ≤ S2x34x34x128.size a
  inb_S1152x128_S128x128_896_0 : ∀ a, (![896, 0] : Fin 2 → Nat) a + S128x128.size a ≤ S1152x128.size a
  inb_S2x34x34x128_S2x32x32x128_0_2_2_0 : ∀ a, (![0, 2, 2, 0] : Fin 4 → Nat) a + S2x32x32x128.size a ≤ S2x34x34x128.size a
  inb_S1152x128_S128x128_1024_0 : ∀ a, (![1024, 0] : Fin 2 → Nat) a + S128x128.size a ≤ S1152x128.size a
  shapeCasts_S32x32x32x128_S32x16x2x16x2x128 : S32x32x32x128.ShapeCasts S32x16x2x16x2x128
  reducesTo_S32x16x2x16x2x128_S32x16x16x128_d2_4 : S32x16x2x16x2x128.ReducesTo [2, 4] S32x16x16x128
  shapeCasts_S32x16x16x128_S32x32768 : S32x16x16x128.ShapeCasts S32x32768
  shapeCasts_S256_S1x256 : S256.ShapeCasts S1x256
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S32x4096_S32x4096_0_0 : ∀ a, (![0, 0] : Fin 2 → Nat) a + S32x4096.size a ≤ S32x4096.size a
  h_S32x4096 : 0 < S32x4096.numel
  shapeCasts_S32x4096_S32x4096 : S32x4096.ShapeCasts S32x4096
  inb_S4096x256_S4096x256_0_0 : ∀ a, (![0, 0] : Fin 2 → Nat) a + S4096x256.size a ≤ S4096x256.size a
  h_S4096x256 : 0 < S4096x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S32x256 : S1x256.Broadcasts S32x256
  shapeCasts_S10_S1x10 : S10.ShapeCasts S1x10
  inb_S256x10_S256x10_0_0 : ∀ a, (![0, 0] : Fin 2 → Nat) a + S256x10.size a ≤ S256x10.size a
  h_S256x10 : 0 < S256x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S32x10 : S1x10.Broadcasts S32x10
  inb_S32x10_S32x10_0_0 : ∀ a, (![0, 0] : Fin 2 → Nat) a + S32x10.size a ≤ S32x10.size a
  h_S32x10 : 0 < S32x10.numel
  gather_S9x64_S64x64x1_S64x64x64_2_0_n_n_0_2_164_wf : GatherDims.WF S9x64 S64x64x1 S64x64x64 [2] [0] [] [0] [] 2 ![1, 64]
  dot_S8192x1_S1x64_S8192x64_1_0_0_1_n_n_wf : DotDims.WF S8192x1 S1x64 S8192x64 [1] [0] [0] [1] [] []
  dot_S8192x64_S64x64_S8192x64_1_0_0_1_n_n_wf : DotDims.WF S8192x64 S64x64 S8192x64 [1] [0] [0] [1] [] []
  gather_S9x128_S32x32x1_S32x32x128_2_0_n_n_0_2_1128_wf : GatherDims.WF S9x128 S32x32x1 S32x32x128 [2] [0] [] [0] [] 2 ![1, 128]
  dot_S2048x64_S64x128_S2048x128_1_0_0_1_n_n_wf : DotDims.WF S2048x64 S64x128 S2048x128 [1] [0] [0] [1] [] []
  dot_S2048x128_S128x128_S2048x128_1_0_0_1_n_n_wf : DotDims.WF S2048x128 S128x128 S2048x128 [1] [0] [0] [1] [] []
  dot_S32x4096_S4096x256_S32x256_1_0_0_1_n_n_wf : DotDims.WF S32x4096 S4096x256 S32x256 [1] [0] [0] [1] [] []
  dot_S32x256_S256x10_S32x10_1_0_0_1_n_n_wf : DotDims.WF S32x256 S256x10 S32x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x66x66x1.size a ≤ S32x66x66x1.size a
  hwx0_0 : ∀ i : grid0.Coords, EltTy.bits .f32 = 32 ∨ (Rect.block (s := S32x66x66x1) S2x66x66x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x64.size a ≤ S9x64.size a
  hwx0_1 : ∀ i : grid0.Coords, EltTy.bits .f32 = 32 ∨ (Rect.block (s := S9x64) S9x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64x64.size a ≤ S64x64x64.size a
  hwx0_2 : ∀ i : grid0.Coords, EltTy.bits .f32 = 32 ∨ (Rect.block (s := S64x64x64) S64x64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x64x64x64.size a ≤ S32x64x64x64.size a
  hwx0_3 : ∀ i : grid0.Coords, EltTy.bits .f32 = 32 ∨ (Rect.block (s := S32x64x64x64) S2x64x64x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x66x66x64.size a ≤ S32x66x66x64.size a
  hwx1_0 : ∀ i : grid1.Coords, EltTy.bits .f32 = 32 ∨ (Rect.block (s := S32x66x66x64) S2x66x66x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S576x64.size a ≤ S576x64.size a
  hwx1_1 : ∀ i : grid1.Coords, EltTy.bits .f32 = 32 ∨ (Rect.block (s := S576x64) S576x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64x64.size a ≤ S64x64x64.size a
  hwx1_2 : ∀ i : grid1.Coords, EltTy.bits .f32 = 32 ∨ (Rect.block (s := S64x64x64) S64x64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2x64x64x64.size a ≤ S32x64x64x64.size a
  hwx1_3 : ∀ i : grid1.Coords, EltTy.bits .f32 = 32 ∨ (Rect.block (s := S32x64x64x64) S2x64x64x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2x34x34x64.size a ≤ S32x34x34x64.size a
  hwx2_0 : ∀ i : grid2.Coords, EltTy.bits .f32 = 32 ∨ (Rect.block (s := S32x34x34x64) S2x34x34x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S576x128.size a ≤ S576x128.size a
  hwx2_1 : ∀ i : grid2.Coords, EltTy.bits .f32 = 32 ∨ (Rect.block (s := S576x128) S576x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x32x128.size a ≤ S32x32x128.size a
  hwx2_2 : ∀ i : grid2.Coords, EltTy.bits .f32 = 32 ∨ (Rect.block (s := S32x32x128) S32x32x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2x32x32x128.size a ≤ S32x32x32x128.size a
  hwx2_3 : ∀ i : grid2.Coords, EltTy.bits .f32 = 32 ∨ (Rect.block (s := S32x32x32x128) S2x32x32x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2x34x34x128.size a ≤ S32x34x34x128.size a
  hwx3_0 : ∀ i : grid3.Coords, EltTy.bits .f32 = 32 ∨ (Rect.block (s := S32x34x34x128) S2x34x34x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1152x128.size a ≤ S1152x128.size a
  hwx3_1 : ∀ i : grid3.Coords, EltTy.bits .f32 = 32 ∨ (Rect.block (s := S1152x128) S1152x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32x32x128.size a ≤ S32x32x128.size a
  hwx3_2 : ∀ i : grid3.Coords, EltTy.bits .f32 = 32 ∨ (Rect.block (s := S32x32x128) S32x32x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2x32x32x128.size a ≤ S32x32x32x128.size a
  hwx3_3 : ∀ i : grid3.Coords, EltTy.bits .f32 = 32 ∨ (Rect.block (s := S32x32x32x128) S2x32x32x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S32x4096.size a ≤ S32x32768.size a
  hwx4_0 : ∀ i : grid4.Coords, EltTy.bits .f32 = 32 ∨ (Rect.block (s := S32x32768) S32x4096.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x256.size a ≤ S32768x256.size a
  hwx4_1 : ∀ i : grid4.Coords, EltTy.bits .f32 = 32 ∨ (Rect.block (s := S32768x256) S4096x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32x256.size a ≤ S32x256.size a
  hwx4_3 : ∀ i : grid4.Coords, EltTy.bits .f32 = 32 ∨ (Rect.block (s := S32x256) S32x256.size (cc4_transform_3 i) (hinb4_3 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S32x256.size a ≤ S32x256.size a
  hwx5_0 : ∀ i : grid5.Coords, EltTy.bits .f32 = 32 ∨ (Rect.block (s := S32x256) S32x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x10.size a ≤ S256x10.size a
  hwx5_1 : ∀ i : grid5.Coords, EltTy.bits .f32 = 32 ∨ (Rect.block (s := S256x10) S256x10.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x10.size a ≤ S1x10.size a
  hwx5_2 : ∀ i : grid5.Coords, EltTy.bits .f32 = 32 ∨ (Rect.block (s := S1x10) S1x10.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S32x10.size a ≤ S32x10.size a
  hwx5_3 : ∀ i : grid5.Coords, EltTy.bits .f32 = 32 ∨ (Rect.block (s := S32x10) S32x10.size (cc5_transform_3 i) (hinb5_3 i)).WholeWords (EltTy.packing .f32)

variable [Facts₀]

def gather_S9x64_S64x64x1_S64x64x64_2_0_n_n_0_2_164 : GatherDims S9x64 S64x64x1 S64x64x64 where
  offsetDims := [2]
  collapsedSliceDims := [0]
  operandBatchingDims := []
  startIndicesBatchingDims := []
  startIndexMap := [0]
  indexVectorDim := 2
  sliceSizes := ![1, 64]
  wf := gather_S9x64_S64x64x1_S64x64x64_2_0_n_n_0_2_164_wf
def dot_S8192x1_S1x64_S8192x64_1_0_0_1_n_n : DotDims S8192x1 S1x64 S8192x64 where
  lhsContracting := [1]
  rhsContracting := [0]
  lhsNonContracting := [0]
  rhsNonContracting := [1]
  lhsBatch := []
  rhsBatch := []
  wf := dot_S8192x1_S1x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def gather_S9x128_S32x32x1_S32x32x128_2_0_n_n_0_2_1128 : GatherDims S9x128 S32x32x1 S32x32x128 where
  offsetDims := [2]
  collapsedSliceDims := [0]
  operandBatchingDims := []
  startIndicesBatchingDims := []
  startIndexMap := [0]
  indexVectorDim := 2
  sliceSizes := ![1, 128]
  wf := gather_S9x128_S32x32x1_S32x32x128_2_0_n_n_0_2_1128_wf
def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S32x4096_S4096x256_S32x256_1_0_0_1_n_n : DotDims S32x4096 S4096x256 S32x256 where
  lhsContracting := [1]
  rhsContracting := [0]
  lhsNonContracting := [0]
  rhsNonContracting := [1]
  lhsBatch := []
  rhsBatch := []
  wf := dot_S32x4096_S4096x256_S32x256_1_0_0_1_n_n_wf
def dot_S32x256_S256x10_S32x10_1_0_0_1_n_n : DotDims S32x256 S256x10 S32x10 where
  lhsContracting := [1]
  rhsContracting := [0]
  lhsNonContracting := [0]
  rhsNonContracting := [1]
  lhsBatch := []
  rhsBatch := []
  wf := dot_S32x256_S256x10_S32x10_1_0_0_1_n_n_wf

abbrev win0_0 : Pipeline.Window sig grid0 :=
  Pipeline.Window.ofSpec (Memref.whole main_v0) S2x66x66x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S9x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S64x64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S2x64x64x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S2x66x66x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S576x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S64x64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S2x64x64x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v20) S2x34x34x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S576x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S32x32x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S2x32x32x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v29) S2x34x34x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S1152x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v36) S32x32x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v37) S2x32x32x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v40) S32x4096.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S4096x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v41) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v42) S32x256.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v42) S32x256.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg11) S256x10.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v43) S1x10.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v44) S32x10.size cc5_transform_3 reads5_3 true true 1 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S32x64x64x1 : Shape := ⟨4, ![32, 64, 64, 1]⟩
abbrev S9x64 : Shape := ⟨2, ![9, 64]⟩
abbrev S576x64 : Shape := ⟨2, ![576, 64]⟩
abbrev S576x128 : Shape := ⟨2, ![576, 128]⟩
abbrev S9x128 : Shape := ⟨2, ![9, 128]⟩
abbrev S1152x128 : Shape := ⟨2, ![1152, 128]⟩
abbrev S32768x256 : Shape := ⟨2, ![32768, 256]⟩
abbrev S256 : Shape := ⟨1, ![256]⟩
abbrev S256x10 : Shape := ⟨2, ![256, 10]⟩
abbrev S10 : Shape := ⟨1, ![10]⟩
abbrev S64x64 : Shape := ⟨2, ![64, 64]⟩
abbrev S32x32 : Shape := ⟨2, ![32, 32]⟩
abbrev S_ : Shape := ⟨0, ![]⟩
abbrev S32x66x66x1 : Shape := ⟨4, ![32, 66, 66, 1]⟩
abbrev S32x64x64x9 : Shape := ⟨4, ![32, 64, 64, 9]⟩
abbrev S32x64x64x64 : Shape := ⟨4, ![32, 64, 64, 64]⟩
abbrev S64x64x1 : Shape := ⟨3, ![64, 64, 1]⟩
abbrev S64x64x64 : Shape := ⟨3, ![64, 64, 64]⟩
abbrev S1x64x64x64 : Shape := ⟨4, ![1, 64, 64, 64]⟩
abbrev S32x66x66x64 : Shape := ⟨4, ![32, 66, 66, 64]⟩
abbrev S32x64x64x576 : Shape := ⟨4, ![32, 64, 64, 576]⟩
abbrev S32x32x2x32x2x64 : Shape := ⟨6, ![32, 32, 2, 32, 2, 64]⟩
abbrev S32x32x32x64 : Shape := ⟨4, ![32, 32, 32, 64]⟩
abbrev S32x34x34x64 : Shape := ⟨4, ![32, 34, 34, 64]⟩
abbrev S32x32x32x576 : Shape := ⟨4, ![32, 32, 32, 576]⟩
abbrev S32x32x32x128 : Shape := ⟨4, ![32, 32, 32, 128]⟩
abbrev S32x32x1 : Shape := ⟨3, ![32, 32, 1]⟩
abbrev S32x32x128 : Shape := ⟨3, ![32, 32, 128]⟩
abbrev S1x32x32x128 : Shape := ⟨4, ![1, 32, 32, 128]⟩
abbrev S32x34x34x128 : Shape := ⟨4, ![32, 34, 34, 128]⟩
abbrev S32x32x32x1152 : Shape := ⟨4, ![32, 32, 32, 1152]⟩
abbrev S32x16x2x16x2x128 : Shape := ⟨6, ![32, 16, 2, 16, 2, 128]⟩
abbrev S32x16x16x128 : Shape := ⟨4, ![32, 16, 16, 128]⟩
abbrev S32x32768 : Shape := ⟨2, ![32, 32768]⟩
abbrev S32x256 : Shape := ⟨2, ![32, 256]⟩
abbrev S1x256 : Shape := ⟨2, ![1, 256]⟩
abbrev S32x10 : Shape := ⟨2, ![32, 10]⟩
abbrev S1x10 : Shape := ⟨2, ![1, 10]⟩

abbrev nBuf : Space → Nat
  | .hbm => 184
  | .vmem => 0
  | .smem => 0
  | _ => 0

abbrev hbmTy0_0 (i : Nat) : BufTy := match i % 128 with
  | 0 => ⟨S32x64x64x1, .f32⟩
  | 1 => ⟨S9x64, .f32⟩
  | 2 => ⟨S9x64, .f32⟩
  | 3 => ⟨S576x64, .f32⟩
  | 4 => ⟨S9x64, .f32⟩
  | 5 => ⟨S576x128, .f32⟩
  | 6 => ⟨S9x128, .f32⟩
  | 7 => ⟨S1152x128, .f32⟩
  | 8 => ⟨S9x128, .f32⟩
  | 9 => ⟨S32768x256, .f32⟩
  | 10 => ⟨S256, .f32⟩
  | 11 => ⟨S256x10, .f32⟩
  | 12 => ⟨S10, .f32⟩
  | 13 => ⟨S64x64, .i32⟩
  | 14 => ⟨S64x64, .i32⟩
  | 15 => ⟨S32x32, .i32⟩
  | 16 => ⟨S32x32, .i32⟩
  | 17 => ⟨S_, .f32⟩
  | 18 => ⟨S_, .f32⟩
  | 19 => ⟨S32x66x66x1, .f32⟩
  | 20 => ⟨S32x64x64x1, .f32⟩
  | 21 => ⟨S32x64x64x1, .f32⟩
  | 22 => ⟨S32x64x64x1, .f32⟩
  | 23 => ⟨S32x64x64x1, .f32⟩
  | 24 => ⟨S32x64x64x1, .f32⟩
  | 25 => ⟨S32x64x64x1, .f32⟩
  | 26 => ⟨S32x64x64x1, .f32⟩
  | 27 => ⟨S32x64x64x1, .f32⟩
  | 28 => ⟨S32x64x64x1, .f32⟩
  | 29 => ⟨S32x64x64x9, .f32⟩
  | 30 => ⟨S_, .f32⟩
  | 31 => ⟨S32x64x64x9, .f32⟩
  | 32 => ⟨S32x64x64x9, .f32⟩
  | 33 => ⟨S32x64x64x64, .f32⟩
  | 34 => ⟨S_, .i32⟩
  | 35 => ⟨S64x64, .i32⟩
  | 36 => ⟨S64x64, .i1⟩
  | 37 => ⟨S_, .i32⟩
  | 38 => ⟨S64x64, .i32⟩
  | 39 => ⟨S64x64, .i32⟩
  | 40 => ⟨S64x64, .i32⟩
  | 41 => ⟨S64x64x1, .i32⟩
  | 42 => ⟨S64x64x64, .f32⟩
  | 43 => ⟨S_, .f32⟩
  | 44 => ⟨S64x64x64, .f32⟩
  | 45 => ⟨S64x64x64, .f32⟩
  | 46 => ⟨S1x64x64x64, .f32⟩
  | 47 => ⟨S32x64x64x64, .f32⟩
  | 48 => ⟨S32x64x64x64, .f32⟩
  | 49 => ⟨S_, .f32⟩
  | 50 => ⟨S32x64x64x64, .f32⟩
  | 51 => ⟨S32x64x64x64, .f32⟩
  | 52 => ⟨S_, .f32⟩
  | 53 => ⟨S_, .f32⟩
  | 54 => ⟨S32x66x66x64, .f32⟩
  | 55 => ⟨S32x64x64x64, .f32⟩
  | 56 => ⟨S32x64x64x64, .f32⟩
  | 57 => ⟨S32x64x64x64, .f32⟩
  | 58 => ⟨S32x64x64x64, .f32⟩
  | 59 => ⟨S32x64x64x64, .f32⟩
  | 60 => ⟨S32x64x64x64, .f32⟩
  | 61 => ⟨S32x64x64x64, .f32⟩
  | 62 => ⟨S32x64x64x64, .f32⟩
  | 63 => ⟨S32x64x64x64, .f32⟩
  | 64 => ⟨S32x64x64x576, .f32⟩
  | 65 => ⟨S_, .f32⟩
  | 66 => ⟨S32x64x64x576, .f32⟩
  | 67 => ⟨S32x64x64x576, .f32⟩
  | 68 => ⟨S32x64x64x64, .f32⟩
  | 69 => ⟨S_, .i32⟩
  | 70 => ⟨S64x64, .i32⟩
  | 71 => ⟨S64x64, .i1⟩
  | 72 => ⟨S_, .i32⟩
  | 73 => ⟨S64x64, .i32⟩
  | 74 => ⟨S64x64, .i32⟩
  | 75 => ⟨S64x64, .i32⟩
  | 76 => ⟨S64x64x1, .i32⟩
  | 77 => ⟨S64x64x64, .f32⟩
  | 78 => ⟨S_, .f32⟩
  | 79 => ⟨S64x64x64, .f32⟩
  | 80 => ⟨S64x64x64, .f32⟩
  | 81 => ⟨S1x64x64x64, .f32⟩
  | 82 => ⟨S32x64x64x64, .f32⟩
  | 83 => ⟨S32x64x64x64, .f32⟩
  | 84 => ⟨S_, .f32⟩
  | 85 => ⟨S32x64x64x64, .f32⟩
  | 86 => ⟨S32x64x64x64, .f32⟩
  | 87 => ⟨S32x32x2x32x2x64, .f32⟩
  | 88 => ⟨S_, .f32⟩
  | 89 => ⟨S32x32x32x64, .f32⟩
  | 90 => ⟨S_, .f32⟩
  | 91 => ⟨S_, .f32⟩
  | 92 => ⟨S32x34x34x64, .f32⟩
  | 93 => ⟨S32x32x32x64, .f32⟩
  | 94 => ⟨S32x32x32x64, .f32⟩
  | 95 => ⟨S32x32x32x64, .f32⟩
  | 96 => ⟨S32x32x32x64, .f32⟩
  | 97 => ⟨S32x32x32x64, .f32⟩
  | 98 => ⟨S32x32x32x64, .f32⟩
  | 99 => ⟨S32x32x32x64, .f32⟩
  | 100 => ⟨S32x32x32x64, .f32⟩
  | 101 => ⟨S32x32x32x64, .f32⟩
  | 102 => ⟨S32x32x32x576, .f32⟩
  | 103 => ⟨S_, .f32⟩
  | 104 => ⟨S32x32x32x576, .f32⟩
  | 105 => ⟨S32x32x32x576, .f32⟩
  | 106 => ⟨S32x32x32x128, .f32⟩
  | 107 => ⟨S_, .i32⟩
  | 108 => ⟨S32x32, .i32⟩
  | 109 => ⟨S32x32, .i1⟩
  | 110 => ⟨S_, .i32⟩
  | 111 => ⟨S32x32, .i32⟩
  | 112 => ⟨S32x32, .i32⟩
  | 113 => ⟨S32x32, .i32⟩
  | 114 => ⟨S32x32x1, .i32⟩
  | 115 => ⟨S32x32x128, .f32⟩
  | 116 => ⟨S_, .f32⟩
  | 117 => ⟨S32x32x128, .f32⟩
  | 118 => ⟨S32x32x128, .f32⟩
  | 119 => ⟨S1x32x32x128, .f32⟩
  | 120 => ⟨S32x32x32x128, .f32⟩
  | 121 => ⟨S32x32x32x128, .f32⟩
  | 122 => ⟨S_, .f32⟩
  | 123 => ⟨S32x32x32x128, .f32⟩
  | 124 => ⟨S32x32x32x128, .f32⟩
  | 125 => ⟨S_, .f32⟩
  | 126 => ⟨S_, .f32⟩
  | 127 => ⟨S32x34x34x128, .f32⟩
  | _ => ⟨S32x64x64x1, .f32⟩

abbrev hbmTy0_1 (i : Nat) : BufTy := match i % 128 with
  | 0 => ⟨S32x32x32x128, .f32⟩
  | 1 => ⟨S32x32x32x128, .f32⟩
  | 2 => ⟨S32x32x32x128, .f32⟩
  | 3 => ⟨S32x32x32x128, .f32⟩
  | 4 => ⟨S32x32x32x128, .f32⟩
  | 5 => ⟨S32x32x32x128, .f32⟩
  | 6 => ⟨S32x32x32x128, .f32⟩
  | 7 => ⟨S32x32x32x128, .f32⟩
  | 8 => ⟨S32x32x32x128, .f32⟩
  | 9 => ⟨S32x32x32x1152, .f32⟩
  | 10 => ⟨S_, .f32⟩
  | 11 => ⟨S32x32x32x1152, .f32⟩
  | 12 => ⟨S32x32x32x1152, .f32⟩
  | 13 => ⟨S32x32x32x128, .f32⟩
  | 14 => ⟨S_, .i32⟩
  | 15 => ⟨S32x32, .i32⟩
  | 16 => ⟨S32x32, .i1⟩
  | 17 => ⟨S_, .i32⟩
  | 18 => ⟨S32x32, .i32⟩
  | 19 => ⟨S32x32, .i32⟩
  | 20 => ⟨S32x32, .i32⟩
  | 21 => ⟨S32x32x1, .i32⟩
  | 22 => ⟨S32x32x128, .f32⟩
  | 23 => ⟨S_, .f32⟩
  | 24 => ⟨S32x32x128, .f32⟩
  | 25 => ⟨S32x32x128, .f32⟩
  | 26 => ⟨S1x32x32x128, .f32⟩
  | 27 => ⟨S32x32x32x128, .f32⟩
  | 28 => ⟨S32x32x32x128, .f32⟩
  | 29 => ⟨S_, .f32⟩
  | 30 => ⟨S32x32x32x128, .f32⟩
  | 31 => ⟨S32x32x32x128, .f32⟩
  | 32 => ⟨S32x16x2x16x2x128, .f32⟩
  | 33 => ⟨S_, .f32⟩
  | 34 => ⟨S32x16x16x128, .f32⟩
  | 35 => ⟨S32x32768, .f32⟩
  | 36 => ⟨S_, .f32⟩
  | 37 => ⟨S32x32768, .f32⟩
  | 38 => ⟨S32x32768, .f32⟩
  | 39 => ⟨S32x256, .f32⟩
  | 40 => ⟨S_, .f32⟩
  | 41 => ⟨S256, .f32⟩
  | 42 => ⟨S256, .f32⟩
  | 43 => ⟨S1x256, .f32⟩
  | 44 => ⟨S32x256, .f32⟩
  | 45 => ⟨S32x256, .f32⟩
  | 46 => ⟨S_, .f32⟩
  | 47 => ⟨S32x256, .f32⟩
  | 48 => ⟨S32x256, .f32⟩
  | 49 => ⟨S_, .f32⟩
  | 50 => ⟨S32x256, .f32⟩
  | 51 => ⟨S32x256, .f32⟩
  | 52 => ⟨S32x10, .f32⟩
  | 53 => ⟨S1x10, .f32⟩
  | 54 => ⟨S32x10, .f32⟩
  | 55 => ⟨S32x10, .f32⟩
  | _ => ⟨S32x64x64x1, .f32⟩

abbrev hbmTy (i : Nat) : BufTy := match i / 128 with
  | 0 => hbmTy0_0 i
  | 1 => hbmTy0_1 i
  | _ => ⟨S32x64x64x1, .f32⟩

abbrev bufTy : (tb : Table) → Fin (tcTables nBuf tb) → BufTy
  | .hbm, ⟨i, _⟩ => hbmTy i
  | _, _ => ⟨S32x64x64x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_c_2 : Ref sig .tc := ⟨.hbm, 16, rfl⟩
abbrev main_cst : Ref sig .tc := ⟨.hbm, 17, rfl⟩
abbrev main_call0_v0 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_3 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_4 : Ref sig .tc := ⟨.hbm, 34, rfl⟩
abbrev main_v14 : Ref sig .tc := ⟨.hbm, 35, rfl⟩
abbrev main_v15 : Ref sig .tc := ⟨.hbm, 36, rfl⟩
abbrev main_c_5 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_6 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_7 : Ref sig .tc := ⟨.hbm, 49, rfl⟩
abbrev main_v26 : Ref sig .tc := ⟨.hbm, 50, rfl⟩
abbrev main_v27 : Ref sig .tc := ⟨.hbm, 51, rfl⟩
abbrev main_cst_8 : Ref sig .tc := ⟨.hbm, 52, rfl⟩
abbrev main_call1_v0 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_9 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_c_10 : Ref sig .tc := ⟨.hbm, 69, rfl⟩
abbrev main_v42 : Ref sig .tc := ⟨.hbm, 70, rfl⟩
abbrev main_v43 : Ref sig .tc := ⟨.hbm, 71, rfl⟩
abbrev main_c_11 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_12 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_13 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_14 : Ref sig .tc := ⟨.hbm, 88, rfl⟩
abbrev main_v57 : Ref sig .tc := ⟨.hbm, 89, rfl⟩
abbrev main_cst_15 : Ref sig .tc := ⟨.hbm, 90, rfl⟩
abbrev main_call2_v0 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_16 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_c_17 : Ref sig .tc := ⟨.hbm, 107, rfl⟩
abbrev main_v72 : Ref sig .tc := ⟨.hbm, 108, rfl⟩
abbrev main_v73 : Ref sig .tc := ⟨.hbm, 109, rfl⟩
abbrev main_c_18 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_19 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_cst_20 : Ref sig .tc := ⟨.hbm, 122, rfl⟩
abbrev main_v84 : Ref sig .tc := ⟨.hbm, 123, rfl⟩
abbrev main_v85 : Ref sig .tc := ⟨.hbm, 124, rfl⟩
abbrev main_cst_21 : Ref sig .tc := ⟨.hbm, 125, rfl⟩
abbrev main_call3_v0 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_22 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_c_23 : Ref sig .tc := ⟨.hbm, 142, rfl⟩
abbrev main_v100 : Ref sig .tc := ⟨.hbm, 143, rfl⟩
abbrev main_v101 : Ref sig .tc := ⟨.hbm, 144, rfl⟩
abbrev main_c_24 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_25 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_cst_26 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_cst_27 : Ref sig .tc := ⟨.hbm, 161, rfl⟩
abbrev main_v115 : Ref sig .tc := ⟨.hbm, 162, rfl⟩
abbrev main_v116 : Ref sig .tc := ⟨.hbm, 163, rfl⟩
abbrev main_cst_28 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_cst_29 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_cst_30 : Ref sig .tc := ⟨.hbm, 174, rfl⟩
abbrev main_v125 : Ref sig .tc := ⟨.hbm, 175, rfl⟩
abbrev main_v126 : Ref sig .tc := ⟨.hbm, 176, rfl⟩
abbrev main_cst_31 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩

abbrev nD : Nat := 1
abbrev τ : Topo := Topo.v7x

variable {F : FTy → Type} [FloatOps F]

class Facts₀ : Prop where
  pads_S32x64x64x1_S32x66x66x1_000_110_110_000 : S32x64x64x1.Pads (![0, 1, 1, 0] : Fin 4 → Nat) ![0, 1, 1, 0] ![0, 0, 0, 0] S32x66x66x1
  h_S_ : 0 < S_.numel
  slices_S32x66x66x1_S32x64x64x1_0_0_0_0 : S32x66x66x1.Slices ![0, 0, 0, 0] S32x64x64x1
  slices_S32x66x66x1_S32x64x64x1_0_0_1_0 : S32x66x66x1.Slices ![0, 0, 1, 0] S32x64x64x1
  slices_S32x66x66x1_S32x64x64x1_0_0_2_0 : S32x66x66x1.Slices ![0, 0, 2, 0] S32x64x64x1
  slices_S32x66x66x1_S32x64x64x1_0_1_0_0 : S32x66x66x1.Slices ![0, 1, 0, 0] S32x64x64x1
  slices_S32x66x66x1_S32x64x64x1_0_1_1_0 : S32x66x66x1.Slices ![0, 1, 1, 0] S32x64x64x1
  slices_S32x66x66x1_S32x64x64x1_0_1_2_0 : S32x66x66x1.Slices ![0, 1, 2, 0] S32x64x64x1
  slices_S32x66x66x1_S32x64x64x1_0_2_0_0 : S32x66x66x1.Slices ![0, 2, 0, 0] S32x64x64x1
  slices_S32x66x66x1_S32x64x64x1_0_2_1_0 : S32x66x66x1.Slices ![0, 2, 1, 0] S32x64x64x1
  slices_S32x66x66x1_S32x64x64x1_0_2_2_0 : S32x66x66x1.Slices ![0, 2, 2, 0] S32x64x64x1
  concatenates_S32x64x64x1_S32x64x64x1_S32x64x64x1_S32x64x64x1_S32x64x64x1_S32x64x64x1_S32x64x64x1_S32x64x64x1_S32x64x64x1_S32x64x64x9_d3 : Shape.Concatenates [S32x64x64x1, S32x64x64x1, S32x64x64x1, S32x64x64x1, S32x64x64x1, S32x64x64x1, S32x64x64x1, S32x64x64x1, S32x64x64x1] S32x64x64x9 3
  bcast_S_S32x64x64x9 : S_.BroadcastsInDim S32x64x64x9 (![] : Fin 0 → Fin S32x64x64x9.rank)
  bcast_S_S64x64 : S_.BroadcastsInDim S64x64 (![] : Fin 0 → Fin S64x64.rank)
  bcast_S64x64_S64x64x1_0_1 : S64x64.BroadcastsInDim S64x64x1 (![0, 1] : Fin 2 → Fin S64x64x1.rank)
  bcast_S_S64x64x64 : S_.BroadcastsInDim S64x64x64 (![] : Fin 0 → Fin S64x64x64.rank)
  bcast_S64x64x64_S1x64x64x64_1_2_3 : S64x64x64.BroadcastsInDim S1x64x64x64 (![1, 2, 3] : Fin 3 → Fin S1x64x64x64.rank)
  bcast_S1x64x64x64_S32x64x64x64_0_1_2_3 : S1x64x64x64.BroadcastsInDim S32x64x64x64 (![0, 1, 2, 3] : Fin 4 → Fin S32x64x64x64.rank)
  bcast_S_S32x64x64x64 : S_.BroadcastsInDim S32x64x64x64 (![] : Fin 0 → Fin S32x64x64x64.rank)
  pads_S32x64x64x64_S32x66x66x64_000_110_110_000 : S32x64x64x64.Pads (![0, 1, 1, 0] : Fin 4 → Nat) ![0, 1, 1, 0] ![0, 0, 0, 0] S32x66x66x64
  slices_S32x66x66x64_S32x64x64x64_0_0_0_0 : S32x66x66x64.Slices ![0, 0, 0, 0] S32x64x64x64
  slices_S32x66x66x64_S32x64x64x64_0_0_1_0 : S32x66x66x64.Slices ![0, 0, 1, 0] S32x64x64x64
  slices_S32x66x66x64_S32x64x64x64_0_0_2_0 : S32x66x66x64.Slices ![0, 0, 2, 0] S32x64x64x64
  slices_S32x66x66x64_S32x64x64x64_0_1_0_0 : S32x66x66x64.Slices ![0, 1, 0, 0] S32x64x64x64
  slices_S32x66x66x64_S32x64x64x64_0_1_1_0 : S32x66x66x64.Slices ![0, 1, 1, 0] S32x64x64x64
  slices_S32x66x66x64_S32x64x64x64_0_1_2_0 : S32x66x66x64.Slices ![0, 1, 2, 0] S32x64x64x64
  slices_S32x66x66x64_S32x64x64x64_0_2_0_0 : S32x66x66x64.Slices ![0, 2, 0, 0] S32x64x64x64
  slices_S32x66x66x64_S32x64x64x64_0_2_1_0 : S32x66x66x64.Slices ![0, 2, 1, 0] S32x64x64x64
  slices_S32x66x66x64_S32x64x64x64_0_2_2_0 : S32x66x66x64.Slices ![0, 2, 2, 0] S32x64x64x64
  concatenates_S32x64x64x64_S32x64x64x64_S32x64x64x64_S32x64x64x64_S32x64x64x64_S32x64x64x64_S32x64x64x64_S32x64x64x64_S32x64x64x64_S32x64x64x576_d3 : Shape.Concatenates [S32x64x64x64, S32x64x64x64, S32x64x64x64, S32x64x64x64, S32x64x64x64, S32x64x64x64, S32x64x64x64, S32x64x64x64, S32x64x64x64] S32x64x64x576 3
  bcast_S_S32x64x64x576 : S_.BroadcastsInDim S32x64x64x576 (![] : Fin 0 → Fin S32x64x64x576.rank)
  shapeCasts_S32x64x64x64_S32x32x2x32x2x64 : S32x64x64x64.ShapeCasts S32x32x2x32x2x64
  reducesTo_S32x32x2x32x2x64_S32x32x32x64_d2_4 : S32x32x2x32x2x64.ReducesTo [2, 4] S32x32x32x64
  pads_S32x32x32x64_S32x34x34x64_000_110_110_000 : S32x32x32x64.Pads (![0, 1, 1, 0] : Fin 4 → Nat) ![0, 1, 1, 0] ![0, 0, 0, 0] S32x34x34x64
  slices_S32x34x34x64_S32x32x32x64_0_0_0_0 : S32x34x34x64.Slices ![0, 0, 0, 0] S32x32x32x64
  slices_S32x34x34x64_S32x32x32x64_0_0_1_0 : S32x34x34x64.Slices ![0, 0, 1, 0] S32x32x32x64
  slices_S32x34x34x64_S32x32x32x64_0_0_2_0 : S32x34x34x64.Slices ![0, 0, 2, 0] S32x32x32x64
  slices_S32x34x34x64_S32x32x32x64_0_1_0_0 : S32x34x34x64.Slices ![0, 1, 0, 0] S32x32x32x64
  slices_S32x34x34x64_S32x32x32x64_0_1_1_0 : S32x34x34x64.Slices ![0, 1, 1, 0] S32x32x32x64
  slices_S32x34x34x64_S32x32x32x64_0_1_2_0 : S32x34x34x64.Slices ![0, 1, 2, 0] S32x32x32x64
  slices_S32x34x34x64_S32x32x32x64_0_2_0_0 : S32x34x34x64.Slices ![0, 2, 0, 0] S32x32x32x64
  slices_S32x34x34x64_S32x32x32x64_0_2_1_0 : S32x34x34x64.Slices ![0, 2, 1, 0] S32x32x32x64
  slices_S32x34x34x64_S32x32x32x64_0_2_2_0 : S32x34x34x64.Slices ![0, 2, 2, 0] S32x32x32x64
  concatenates_S32x32x32x64_S32x32x32x64_S32x32x32x64_S32x32x32x64_S32x32x32x64_S32x32x32x64_S32x32x32x64_S32x32x32x64_S32x32x32x64_S32x32x32x576_d3 : Shape.Concatenates [S32x32x32x64, S32x32x32x64, S32x32x32x64, S32x32x32x64, S32x32x32x64, S32x32x32x64, S32x32x32x64, S32x32x32x64, S32x32x32x64] S32x32x32x576 3
  bcast_S_S32x32x32x576 : S_.BroadcastsInDim S32x32x32x576 (![] : Fin 0 → Fin S32x32x32x576.rank)
  bcast_S_S32x32 : S_.BroadcastsInDim S32x32 (![] : Fin 0 → Fin S32x32.rank)
  bcast_S32x32_S32x32x1_0_1 : S32x32.BroadcastsInDim S32x32x1 (![0, 1] : Fin 2 → Fin S32x32x1.rank)
  bcast_S_S32x32x128 : S_.BroadcastsInDim S32x32x128 (![] : Fin 0 → Fin S32x32x128.rank)
  bcast_S32x32x128_S1x32x32x128_1_2_3 : S32x32x128.BroadcastsInDim S1x32x32x128 (![1, 2, 3] : Fin 3 → Fin S1x32x32x128.rank)
  bcast_S1x32x32x128_S32x32x32x128_0_1_2_3 : S1x32x32x128.BroadcastsInDim S32x32x32x128 (![0, 1, 2, 3] : Fin 4 → Fin S32x32x32x128.rank)
  bcast_S_S32x32x32x128 : S_.BroadcastsInDim S32x32x32x128 (![] : Fin 0 → Fin S32x32x32x128.rank)
  pads_S32x32x32x128_S32x34x34x128_000_110_110_000 : S32x32x32x128.Pads (![0, 1, 1, 0] : Fin 4 → Nat) ![0, 1, 1, 0] ![0, 0, 0, 0] S32x34x34x128
  slices_S32x34x34x128_S32x32x32x128_0_0_0_0 : S32x34x34x128.Slices ![0, 0, 0, 0] S32x32x32x128
  slices_S32x34x34x128_S32x32x32x128_0_0_1_0 : S32x34x34x128.Slices ![0, 0, 1, 0] S32x32x32x128
  slices_S32x34x34x128_S32x32x32x128_0_0_2_0 : S32x34x34x128.Slices ![0, 0, 2, 0] S32x32x32x128
  slices_S32x34x34x128_S32x32x32x128_0_1_0_0 : S32x34x34x128.Slices ![0, 1, 0, 0] S32x32x32x128
  slices_S32x34x34x128_S32x32x32x128_0_1_1_0 : S32x34x34x128.Slices ![0, 1, 1, 0] S32x32x32x128
  slices_S32x34x34x128_S32x32x32x128_0_1_2_0 : S32x34x34x128.Slices ![0, 1, 2, 0] S32x32x32x128
  slices_S32x34x34x128_S32x32x32x128_0_2_0_0 : S32x34x34x128.Slices ![0, 2, 0, 0] S32x32x32x128
  slices_S32x34x34x128_S32x32x32x128_0_2_1_0 : S32x34x34x128.Slices ![0, 2, 1, 0] S32x32x32x128
  slices_S32x34x34x128_S32x32x32x128_0_2_2_0 : S32x34x34x128.Slices ![0, 2, 2, 0] S32x32x32x128
  concatenates_S32x32x32x128_S32x32x32x128_S32x32x32x128_S32x32x32x128_S32x32x32x128_S32x32x32x128_S32x32x32x128_S32x32x32x128_S32x32x32x128_S32x32x32x1152_d3 : Shape.Concatenates [S32x32x32x128, S32x32x32x128, S32x32x32x128, S32x32x32x128, S32x32x32x128, S32x32x32x128, S32x32x32x128, S32x32x32x128, S32x32x32x128] S32x32x32x1152 3
  bcast_S_S32x32x32x1152 : S_.BroadcastsInDim S32x32x32x1152 (![] : Fin 0 → Fin S32x32x32x1152.rank)
  shapeCasts_S32x32x32x128_S32x16x2x16x2x128 : S32x32x32x128.ShapeCasts S32x16x2x16x2x128
  reducesTo_S32x16x2x16x2x128_S32x16x16x128_d2_4 : S32x16x2x16x2x128.ReducesTo [2, 4] S32x16x16x128
  shapeCasts_S32x16x16x128_S32x32768 : S32x16x16x128.ShapeCasts S32x32768
  bcast_S_S32x32768 : S_.BroadcastsInDim S32x32768 (![] : Fin 0 → Fin S32x32768.rank)
  bcast_S_S256 : S_.BroadcastsInDim S256 (![] : Fin 0 → Fin S256.rank)
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S_S32x256 : S_.BroadcastsInDim S32x256 (![] : Fin 0 → Fin S32x256.rank)
  bcast_S10_S1x10_1 : S10.BroadcastsInDim S1x10 (![1] : Fin 1 → Fin S1x10.rank)
  bcast_S1x10_S32x10_0_1 : S1x10.BroadcastsInDim S32x10 (![0, 1] : Fin 2 → Fin S32x10.rank)
  dot_S32x64x64x9_S9x64_S32x64x64x64_3_0_012_1_n_n_wf : DotDims.WF S32x64x64x9 S9x64 S32x64x64x64 [3] [0] [0, 1, 2] [1] [] []
  gather_S9x64_S64x64x1_S64x64x64_2_0_n_n_0_2_164_wf : GatherDims.WF S9x64 S64x64x1 S64x64x64 [2] [0] [] [0] [] 2 ![1, 64]
  dot_S32x64x64x576_S576x64_S32x64x64x64_3_0_012_1_n_n_wf : DotDims.WF S32x64x64x576 S576x64 S32x64x64x64 [3] [0] [0, 1, 2] [1] [] []
  dot_S32x32x32x576_S576x128_S32x32x32x128_3_0_012_1_n_n_wf : DotDims.WF S32x32x32x576 S576x128 S32x32x32x128 [3] [0] [0, 1, 2] [1] [] []
  gather_S9x128_S32x32x1_S32x32x128_2_0_n_n_0_2_1128_wf : GatherDims.WF S9x128 S32x32x1 S32x32x128 [2] [0] [] [0] [] 2 ![1, 128]
  dot_S32x32x32x1152_S1152x128_S32x32x32x128_3_0_012_1_n_n_wf : DotDims.WF S32x32x32x1152 S1152x128 S32x32x32x128 [3] [0] [0, 1, 2] [1] [] []
  dot_S32x32768_S32768x256_S32x256_1_0_0_1_n_n_wf : DotDims.WF S32x32768 S32768x256 S32x256 [1] [0] [0] [1] [] []
  dot_S32x256_S256x10_S32x10_1_0_0_1_n_n_wf : DotDims.WF S32x256 S256x10 S32x10 [1] [0] [0] [1] [] []

variable [Facts₀]

def dot_S32x64x64x9_S9x64_S32x64x64x64_3_0_012_1_n_n : DotDims S32x64x64x9 S9x64 S32x64x64x64 where
  lhsContracting := [3]
  rhsContracting := [0]
  lhsNonContracting := [0, 1, 2]
  rhsNonContracting := [1]
  lhsBatch := []
  rhsBatch := []
  wf := dot_S32x64x64x9_S9x64_S32x64x64x64_3_0_012_1_n_n_wf
def gather_S9x64_S64x64x1_S64x64x64_2_0_n_n_0_2_164 : GatherDims S9x64 S64x64x1 S64x64x64 where
  offsetDims := [2]
  collapsedSliceDims := [0]
  operandBatchingDims := []
  startIndicesBatchingDims := []
  startIndexMap := [0]
  indexVectorDim := 2
  sliceSizes := ![1, 64]
  wf := gather_S9x64_S64x64x1_S64x64x64_2_0_n_n_0_2_164_wf
def dot_S32x64x64x576_S576x64_S32x64x64x64_3_0_012_1_n_n : DotDims S32x64x64x576 S576x64 S32x64x64x64 where
  lhsContracting := [3]
  rhsContracting := [0]
  lhsNonContracting := [0, 1, 2]
  rhsNonContracting := [1]
  lhsBatch := []
  rhsBatch := []
  wf := dot_S32x64x64x576_S576x64_S32x64x64x64_3_0_012_1_n_n_wf
def dot_S32x32x32x576_S576x128_S32x32x32x128_3_0_012_1_n_n : DotDims S32x32x32x576 S576x128 S32x32x32x128 where
  lhsContracting := [3]
  rhsContracting := [0]
  lhsNonContracting := [0, 1, 2]
  rhsNonContracting := [1]
  lhsBatch := []
  rhsBatch := []
  wf := dot_S32x32x32x576_S576x128_S32x32x32x128_3_0_012_1_n_n_wf
def gather_S9x128_S32x32x1_S32x32x128_2_0_n_n_0_2_1128 : GatherDims S9x128 S32x32x1 S32x32x128 where
  offsetDims := [2]
  collapsedSliceDims := [0]
  operandBatchingDims := []
  startIndicesBatchingDims := []
  startIndexMap := [0]
  indexVectorDim := 2
  sliceSizes := ![1, 128]
  wf := gather_S9x128_S32x32x1_S32x32x128_2_0_n_n_0_2_1128_wf
def dot_S32x32x32x1152_S1152x128_S32x32x32x128_3_0_012_1_n_n : DotDims S32x32x32x1152 S1152x128 S32x32x32x128 where
  lhsContracting := [3]
  rhsContracting := [0]
  lhsNonContracting := [0, 1, 2]
  rhsNonContracting := [1]
  lhsBatch := []
  rhsBatch := []
  wf := dot_S32x32x32x1152_S1152x128_S32x32x32x128_3_0_012_1_n_n_wf
def dot_S32x32768_S32768x256_S32x256_1_0_0_1_n_n : DotDims S32x32768 S32768x256 S32x256 where
  lhsContracting := [1]
  rhsContracting := [0]
  lhsNonContracting := [0]
  rhsNonContracting := [1]
  lhsBatch := []
  rhsBatch := []
  wf := dot_S32x32768_S32768x256_S32x256_1_0_0_1_n_n_wf
def dot_S32x256_S256x10_S32x10_1_0_0_1_n_n : DotDims S32x256 S256x10 S32x10 where
  lhsContracting := [1]
  rhsContracting := [0]
  lhsNonContracting := [0]
  rhsNonContracting := [1]
  lhsBatch := []
  rhsBatch := []
  wf := dot_S32x256_S256x10_S32x10_1_0_0_1_n_n_wf

class Facts : Prop extends Facts₀ where

variable [Facts]
-- ==== Proof.K.Conv0.lean ====
import proofs.«142023_j26104811225511_2_alg».proof.Proof.Gen.Kernel.Launch
import proofs.«142023_j26104811225511_2_alg».proof.Proof.Gen.Kernel.Skeleton
import proofs.«142023_j26104811225511_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))
/-! # Region 0: the 3×3 convolution kernel `cc0__conv_kernel_body`, at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the point fetches it or not,
    for any proof data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the point fetches it or not,
    for any proof data whose array is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the point fetches it or not,
    for any proof data whose array is the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes through -/

-- tap (a, b) reads the padded input block shifted by a rows and b columns
abbrev rIn0_0_0 : Rect S2x66x66x1 := Rect.unit (s := S2x66x66x1) ![0, 0, 0, 0] S2x64x64x1.size inb_S2x66x66x1_S2x64x64x1_0_0_0_0
abbrev rIn0_0_1 : Rect S2x66x66x1 := Rect.unit (s := S2x66x66x1) ![0, 0, 1, 0] S2x64x64x1.size inb_S2x66x66x1_S2x64x64x1_0_0_1_0
abbrev rIn0_0_2 : Rect S2x66x66x1 := Rect.unit (s := S2x66x66x1) ![0, 0, 2, 0] S2x64x64x1.size inb_S2x66x66x1_S2x64x64x1_0_0_2_0
abbrev rIn0_1_0 : Rect S2x66x66x1 := Rect.unit (s := S2x66x66x1) ![0, 1, 0, 0] S2x64x64x1.size inb_S2x66x66x1_S2x64x64x1_0_1_0_0
abbrev rIn0_1_1 : Rect S2x66x66x1 := Rect.unit (s := S2x66x66x1) ![0, 1, 1, 0] S2x64x64x1.size inb_S2x66x66x1_S2x64x64x1_0_1_1_0
abbrev rIn0_1_2 : Rect S2x66x66x1 := Rect.unit (s := S2x66x66x1) ![0, 1, 2, 0] S2x64x64x1.size inb_S2x66x66x1_S2x64x64x1_0_1_2_0
abbrev rIn0_2_0 : Rect S2x66x66x1 := Rect.unit (s := S2x66x66x1) ![0, 2, 0, 0] S2x64x64x1.size inb_S2x66x66x1_S2x64x64x1_0_2_0_0
abbrev rIn0_2_1 : Rect S2x66x66x1 := Rect.unit (s := S2x66x66x1) ![0, 2, 1, 0] S2x64x64x1.size inb_S2x66x66x1_S2x64x64x1_0_2_1_0
abbrev rIn0_2_2 : Rect S2x66x66x1 := Rect.unit (s := S2x66x66x1) ![0, 2, 2, 0] S2x64x64x1.size inb_S2x66x66x1_S2x64x64x1_0_2_2_0
-- tap n = 3a + b reads rows [n·1, (n+1)·1) of the weights
abbrev rWt0_0 : Rect S9x64 := Rect.unit (s := S9x64) ![0, 0] S1x64.size inb_S9x64_S1x64_0_0
abbrev rWt0_1 : Rect S9x64 := Rect.unit (s := S9x64) ![1, 0] S1x64.size inb_S9x64_S1x64_1_0
abbrev rWt0_2 : Rect S9x64 := Rect.unit (s := S9x64) ![2, 0] S1x64.size inb_S9x64_S1x64_2_0
abbrev rWt0_3 : Rect S9x64 := Rect.unit (s := S9x64) ![3, 0] S1x64.size inb_S9x64_S1x64_3_0
abbrev rWt0_4 : Rect S9x64 := Rect.unit (s := S9x64) ![4, 0] S1x64.size inb_S9x64_S1x64_4_0
abbrev rWt0_5 : Rect S9x64 := Rect.unit (s := S9x64) ![5, 0] S1x64.size inb_S9x64_S1x64_5_0
abbrev rWt0_6 : Rect S9x64 := Rect.unit (s := S9x64) ![6, 0] S1x64.size inb_S9x64_S1x64_6_0
abbrev rWt0_7 : Rect S9x64 := Rect.unit (s := S9x64) ![7, 0] S1x64.size inb_S9x64_S1x64_7_0
abbrev rWt0_8 : Rect S9x64 := Rect.unit (s := S9x64) ![8, 0] S1x64.size inb_S9x64_S1x64_8_0
abbrev rTh0 : Rect S64x64x64 := Rect.unit (s := S64x64x64) ![0, 0, 0] S64x64x64.size inb_S64x64x64_S64x64x64_0_0_0
abbrev rOut0 : Rect S2x64x64x64 := Rect.unit (s := S2x64x64x64) ![0, 0, 0, 0] S2x64x64x64.size inb_S2x64x64x64_S2x64x64x64_0_0_0_0

/-! ## What the body leaves in the output window's buffer -/

/-- The nine taps' products summed, three taps at a time. -/
def acc0 (x0 : Vec F S2x66x66x1 .f32) (x1 : Vec F S9x64 .f32) : FVec F S2x64x64x64 .f32 :=
  k0_pay4 (k0_pay3 (k0_pay2 (View.ld x0 rIn0_0_0) (View.ld x1 rWt0_0) (View.ld x0 rIn0_0_1) (View.ld x1 rWt0_1) (View.ld x0 rIn0_0_2) (View.ld x1 rWt0_2))
      (View.ld x0 rIn0_1_0) (View.ld x1 rWt0_3) (View.ld x0 rIn0_1_1) (View.ld x1 rWt0_4) (View.ld x0 rIn0_1_2) (View.ld x1 rWt0_5))
    (View.ld x0 rIn0_2_0) (View.ld x1 rWt0_6) (View.ld x0 rIn0_2_1) (View.ld x1 rWt0_7) (View.ld x0 rIn0_2_2) (View.ld x1 rWt0_8)

/-- Window 3's staging buffer after the body, from the input windows' blocks: its one store, whole. -/
def out0_3 (x0 : Vec F S2x66x66x1 .f32) (x1 : Vec F S9x64 .f32) (x2 : Vec F S64x64x64 .f32) : Vec F S2x64x64x64 .f32 :=
  View.canon [⟨rOut0, k0_pay1 (acc0 x0 x1) (k0_pay5 (View.ld x2 rTh0)) (Scalar.ofBits .f32 0x44BB8000#32)⟩]

/-- The one store tiles the buffer, so it covers it. -/
theorem cover0_3 (p0 : Vec F S2x64x64x64 .f32) (y : S2x64x64x64.Idx) :
    ∃ pc ∈ ([⟨rOut0, p0⟩] : List (View.Piece (Elt F) S2x64x64x64 .f32)), y ∈ pc.1.set :=
  View.cover_of_tiled [⟨rOut0, p0⟩] S2x64x64x64.size (by rfl) y

/-! ## The body's triple -/

set_option maxHeartbeats 4000000 in
/-- The kernel body on whole staging memrefs, the three inputs' at read contents and the output's at anything, runs to the
    continuation holding the inputs' as they were and the output's at `out0_3` of the inputs'. -/
theorem sound_kernel0 (c : Dev nD) (E : Set ℕ) (i : grid0.Coords) (arg1 : Memref sig .tc .vmem S2x66x66x1 .f32) (harg1 : arg1.IsWhole) (arg2 : Memref sig .tc .vmem S9x64 .f32) (harg2 : arg2.IsWhole) (arg3 : Memref sig .tc .vmem S64x64x64 .f32) (harg3 : arg3.IsWhole) (arg4 : Memref sig .tc .vmem S2x64x64x64 .f32) (harg4 : arg4.IsWhole)
    (x0 : Vec F S2x66x66x1 .f32) (x1 : Vec F S9x64 .f32) (x2 : Vec F S64x64x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__conv_kernel_body i arg1 harg1 arg2 harg2 arg3 harg3 arg4 harg4) K := by
  simp only [cc0__conv_kernel_body_eq_skeleton]; unfold cc0__conv_kernel_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this pipeline on core `c`: the arrays as the region finds them; after the body at point `t` each
    input's buffer at its block and the output's at `out0_3` of the input blocks; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the kernel's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.K.Conv1.lean ====
import proofs.«142023_j26104811225511_2_alg».proof.Proof.Gen.Kernel.Launch
import proofs.«142023_j26104811225511_2_alg».proof.Proof.Gen.Kernel.Skeleton
import proofs.«142023_j26104811225511_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))
/-! # Region 1: the 3×3 convolution kernel `cc1__conv_kernel_body`, at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the point fetches it or not,
    for any proof data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the point fetches it or not,
    for any proof data whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the point fetches it or not,
    for any proof data whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes through -/

-- tap (a, b) reads the padded input block shifted by a rows and b columns
abbrev rIn1_0_0 : Rect S2x66x66x64 := Rect.unit (s := S2x66x66x64) ![0, 0, 0, 0] S2x64x64x64.size inb_S2x66x66x64_S2x64x64x64_0_0_0_0
abbrev rIn1_0_1 : Rect S2x66x66x64 := Rect.unit (s := S2x66x66x64) ![0, 0, 1, 0] S2x64x64x64.size inb_S2x66x66x64_S2x64x64x64_0_0_1_0
abbrev rIn1_0_2 : Rect S2x66x66x64 := Rect.unit (s := S2x66x66x64) ![0, 0, 2, 0] S2x64x64x64.size inb_S2x66x66x64_S2x64x64x64_0_0_2_0
abbrev rIn1_1_0 : Rect S2x66x66x64 := Rect.unit (s := S2x66x66x64) ![0, 1, 0, 0] S2x64x64x64.size inb_S2x66x66x64_S2x64x64x64_0_1_0_0
abbrev rIn1_1_1 : Rect S2x66x66x64 := Rect.unit (s := S2x66x66x64) ![0, 1, 1, 0] S2x64x64x64.size inb_S2x66x66x64_S2x64x64x64_0_1_1_0
abbrev rIn1_1_2 : Rect S2x66x66x64 := Rect.unit (s := S2x66x66x64) ![0, 1, 2, 0] S2x64x64x64.size inb_S2x66x66x64_S2x64x64x64_0_1_2_0
abbrev rIn1_2_0 : Rect S2x66x66x64 := Rect.unit (s := S2x66x66x64) ![0, 2, 0, 0] S2x64x64x64.size inb_S2x66x66x64_S2x64x64x64_0_2_0_0
abbrev rIn1_2_1 : Rect S2x66x66x64 := Rect.unit (s := S2x66x66x64) ![0, 2, 1, 0] S2x64x64x64.size inb_S2x66x66x64_S2x64x64x64_0_2_1_0
abbrev rIn1_2_2 : Rect S2x66x66x64 := Rect.unit (s := S2x66x66x64) ![0, 2, 2, 0] S2x64x64x64.size inb_S2x66x66x64_S2x64x64x64_0_2_2_0
-- tap n = 3a + b reads rows [n·64, (n+1)·64) of the weights
abbrev rWt1_0 : Rect S576x64 := Rect.unit (s := S576x64) ![0, 0] S64x64.size inb_S576x64_S64x64_0_0
abbrev rWt1_1 : Rect S576x64 := Rect.unit (s := S576x64) ![64, 0] S64x64.size inb_S576x64_S64x64_64_0
abbrev rWt1_2 : Rect S576x64 := Rect.unit (s := S576x64) ![128, 0] S64x64.size inb_S576x64_S64x64_128_0
abbrev rWt1_3 : Rect S576x64 := Rect.unit (s := S576x64) ![192, 0] S64x64.size inb_S576x64_S64x64_192_0
abbrev rWt1_4 : Rect S576x64 := Rect.unit (s := S576x64) ![256, 0] S64x64.size inb_S576x64_S64x64_256_0
abbrev rWt1_5 : Rect S576x64 := Rect.unit (s := S576x64) ![320, 0] S64x64.size inb_S576x64_S64x64_320_0
abbrev rWt1_6 : Rect S576x64 := Rect.unit (s := S576x64) ![384, 0] S64x64.size inb_S576x64_S64x64_384_0
abbrev rWt1_7 : Rect S576x64 := Rect.unit (s := S576x64) ![448, 0] S64x64.size inb_S576x64_S64x64_448_0
abbrev rWt1_8 : Rect S576x64 := Rect.unit (s := S576x64) ![512, 0] S64x64.size inb_S576x64_S64x64_512_0
abbrev rTh1 : Rect S64x64x64 := Rect.unit (s := S64x64x64) ![0, 0, 0] S64x64x64.size inb_S64x64x64_S64x64x64_0_0_0
abbrev rOut1 : Rect S2x64x64x64 := Rect.unit (s := S2x64x64x64) ![0, 0, 0, 0] S2x64x64x64.size inb_S2x64x64x64_S2x64x64x64_0_0_0_0

/-! ## What the body leaves in the output window's buffer -/

/-- The nine taps' products summed, three taps at a time. -/
def acc1 (x0 : Vec F S2x66x66x64 .f32) (x1 : Vec F S576x64 .f32) : FVec F S2x64x64x64 .f32 :=
  k1_pay4 (k1_pay3 (k1_pay2 (View.ld x0 rIn1_0_0) (View.ld x1 rWt1_0) (View.ld x0 rIn1_0_1) (View.ld x1 rWt1_1) (View.ld x0 rIn1_0_2) (View.ld x1 rWt1_2))
      (View.ld x0 rIn1_1_0) (View.ld x1 rWt1_3) (View.ld x0 rIn1_1_1) (View.ld x1 rWt1_4) (View.ld x0 rIn1_1_2) (View.ld x1 rWt1_5))
    (View.ld x0 rIn1_2_0) (View.ld x1 rWt1_6) (View.ld x0 rIn1_2_1) (View.ld x1 rWt1_7) (View.ld x0 rIn1_2_2) (View.ld x1 rWt1_8)

/-- Window 3's staging buffer after the body, from the input windows' blocks: its one store, whole. -/
def out1_3 (x0 : Vec F S2x66x66x64 .f32) (x1 : Vec F S576x64 .f32) (x2 : Vec F S64x64x64 .f32) : Vec F S2x64x64x64 .f32 :=
  View.canon [⟨rOut1, k1_pay1 (acc1 x0 x1) (k1_pay5 (View.ld x2 rTh1)) (Scalar.ofBits .f32 0x453B8000#32)⟩]

/-- The one store tiles the buffer, so it covers it. -/
theorem cover1_3 (p0 : Vec F S2x64x64x64 .f32) (y : S2x64x64x64.Idx) :
    ∃ pc ∈ ([⟨rOut1, p0⟩] : List (View.Piece (Elt F) S2x64x64x64 .f32)), y ∈ pc.1.set :=
  View.cover_of_tiled [⟨rOut1, p0⟩] S2x64x64x64.size (by rfl) y

/-! ## The body's triple -/

set_option maxHeartbeats 4000000 in
/-- The kernel body on whole staging memrefs, the three inputs' at read contents and the output's at anything, runs to the
    continuation holding the inputs' as they were and the output's at `out1_3` of the inputs'. -/
theorem sound_kernel1 (c : Dev nD) (E : Set ℕ) (i : grid1.Coords) (arg1 : Memref sig .tc .vmem S2x66x66x64 .f32) (harg1 : arg1.IsWhole) (arg2 : Memref sig .tc .vmem S576x64 .f32) (harg2 : arg2.IsWhole) (arg3 : Memref sig .tc .vmem S64x64x64 .f32) (harg3 : arg3.IsWhole) (arg4 : Memref sig .tc .vmem S2x64x64x64 .f32) (harg4 : arg4.IsWhole)
    (x0 : Vec F S2x66x66x64 .f32) (x1 : Vec F S576x64 .f32) (x2 : Vec F S64x64x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__conv_kernel_body i arg1 harg1 arg2 harg2 arg3 harg3 arg4 harg4) K := by
  simp only [cc1__conv_kernel_body_eq_skeleton]; unfold cc1__conv_kernel_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this pipeline on core `c`: the arrays as the region finds them; after the body at point `t` each
    input's buffer at its block and the output's at `out1_3` of the input blocks; the invariant is the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the kernel's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand
-- ==== Proof.K.Conv2.lean ====
import proofs.«142023_j26104811225511_2_alg».proof.Proof.Gen.Kernel.Launch
import proofs.«142023_j26104811225511_2_alg».proof.Proof.Gen.Kernel.Skeleton
import proofs.«142023_j26104811225511_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))
/-! # Region 2: the 3×3 convolution kernel `cc2__conv_kernel_body`, at the entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the point fetches it or not,
    for any proof data whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether the point fetches it or not,
    for any proof data whose array is the entry contents and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether the point fetches it or not,
    for any proof data whose array is the entry contents and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes through -/

-- tap (a, b) reads the padded input block shifted by a rows and b columns
abbrev rIn2_0_0 : Rect S2x34x34x64 := Rect.unit (s := S2x34x34x64) ![0, 0, 0, 0] S2x32x32x64.size inb_S2x34x34x64_S2x32x32x64_0_0_0_0
abbrev rIn2_0_1 : Rect S2x34x34x64 := Rect.unit (s := S2x34x34x64) ![0, 0, 1, 0] S2x32x32x64.size inb_S2x34x34x64_S2x32x32x64_0_0_1_0
abbrev rIn2_0_2 : Rect S2x34x34x64 := Rect.unit (s := S2x34x34x64) ![0, 0, 2, 0] S2x32x32x64.size inb_S2x34x34x64_S2x32x32x64_0_0_2_0
abbrev rIn2_1_0 : Rect S2x34x34x64 := Rect.unit (s := S2x34x34x64) ![0, 1, 0, 0] S2x32x32x64.size inb_S2x34x34x64_S2x32x32x64_0_1_0_0
abbrev rIn2_1_1 : Rect S2x34x34x64 := Rect.unit (s := S2x34x34x64) ![0, 1, 1, 0] S2x32x32x64.size inb_S2x34x34x64_S2x32x32x64_0_1_1_0
abbrev rIn2_1_2 : Rect S2x34x34x64 := Rect.unit (s := S2x34x34x64) ![0, 1, 2, 0] S2x32x32x64.size inb_S2x34x34x64_S2x32x32x64_0_1_2_0
abbrev rIn2_2_0 : Rect S2x34x34x64 := Rect.unit (s := S2x34x34x64) ![0, 2, 0, 0] S2x32x32x64.size inb_S2x34x34x64_S2x32x32x64_0_2_0_0
abbrev rIn2_2_1 : Rect S2x34x34x64 := Rect.unit (s := S2x34x34x64) ![0, 2, 1, 0] S2x32x32x64.size inb_S2x34x34x64_S2x32x32x64_0_2_1_0
abbrev rIn2_2_2 : Rect S2x34x34x64 := Rect.unit (s := S2x34x34x64) ![0, 2, 2, 0] S2x32x32x64.size inb_S2x34x34x64_S2x32x32x64_0_2_2_0
-- tap n = 3a + b reads rows [n·64, (n+1)·64) of the weights
abbrev rWt2_0 : Rect S576x128 := Rect.unit (s := S576x128) ![0, 0] S64x128.size inb_S576x128_S64x128_0_0
abbrev rWt2_1 : Rect S576x128 := Rect.unit (s := S576x128) ![64, 0] S64x128.size inb_S576x128_S64x128_64_0
abbrev rWt2_2 : Rect S576x128 := Rect.unit (s := S576x128) ![128, 0] S64x128.size inb_S576x128_S64x128_128_0
abbrev rWt2_3 : Rect S576x128 := Rect.unit (s := S576x128) ![192, 0] S64x128.size inb_S576x128_S64x128_192_0
abbrev rWt2_4 : Rect S576x128 := Rect.unit (s := S576x128) ![256, 0] S64x128.size inb_S576x128_S64x128_256_0
abbrev rWt2_5 : Rect S576x128 := Rect.unit (s := S576x128) ![320, 0] S64x128.size inb_S576x128_S64x128_320_0
abbrev rWt2_6 : Rect S576x128 := Rect.unit (s := S576x128) ![384, 0] S64x128.size inb_S576x128_S64x128_384_0
abbrev rWt2_7 : Rect S576x128 := Rect.unit (s := S576x128) ![448, 0] S64x128.size inb_S576x128_S64x128_448_0
abbrev rWt2_8 : Rect S576x128 := Rect.unit (s := S576x128) ![512, 0] S64x128.size inb_S576x128_S64x128_512_0
abbrev rTh2 : Rect S32x32x128 := Rect.unit (s := S32x32x128) ![0, 0, 0] S32x32x128.size inb_S32x32x128_S32x32x128_0_0_0
abbrev rOut2 : Rect S2x32x32x128 := Rect.unit (s := S2x32x32x128) ![0, 0, 0, 0] S2x32x32x128.size inb_S2x32x32x128_S2x32x32x128_0_0_0_0

/-! ## What the body leaves in the output window's buffer -/

/-- The nine taps' products summed, three taps at a time. -/
def acc2 (x0 : Vec F S2x34x34x64 .f32) (x1 : Vec F S576x128 .f32) : FVec F S2x32x32x128 .f32 :=
  k2_pay4 (k2_pay3 (k2_pay2 (View.ld x0 rIn2_0_0) (View.ld x1 rWt2_0) (View.ld x0 rIn2_0_1) (View.ld x1 rWt2_1) (View.ld x0 rIn2_0_2) (View.ld x1 rWt2_2))
      (View.ld x0 rIn2_1_0) (View.ld x1 rWt2_3) (View.ld x0 rIn2_1_1) (View.ld x1 rWt2_4) (View.ld x0 rIn2_1_2) (View.ld x1 rWt2_5))
    (View.ld x0 rIn2_2_0) (View.ld x1 rWt2_6) (View.ld x0 rIn2_2_1) (View.ld x1 rWt2_7) (View.ld x0 rIn2_2_2) (View.ld x1 rWt2_8)

/-- Window 3's staging buffer after the body, from the input windows' blocks: its one store, whole. -/
def out2_3 (x0 : Vec F S2x34x34x64 .f32) (x1 : Vec F S576x128 .f32) (x2 : Vec F S32x32x128 .f32) : Vec F S2x32x32x128 .f32 :=
  View.canon [⟨rOut2, k2_pay1 (acc2 x0 x1) (k2_pay5 (View.ld x2 rTh2)) (Scalar.ofBits .f32 0x458CA000#32)⟩]

/-- The one store tiles the buffer, so it covers it. -/
theorem cover2_3 (p0 : Vec F S2x32x32x128 .f32) (y : S2x32x32x128.Idx) :
    ∃ pc ∈ ([⟨rOut2, p0⟩] : List (View.Piece (Elt F) S2x32x32x128 .f32)), y ∈ pc.1.set :=
  View.cover_of_tiled [⟨rOut2, p0⟩] S2x32x32x128.size (by rfl) y

/-! ## The body's triple -/

set_option maxHeartbeats 4000000 in
/-- The kernel body on whole staging memrefs, the three inputs' at read contents and the output's at anything, runs to the
    continuation holding the inputs' as they were and the output's at `out2_3` of the inputs'. -/
theorem sound_kernel2 (c : Dev nD) (E : Set ℕ) (i : grid2.Coords) (arg1 : Memref sig .tc .vmem S2x34x34x64 .f32) (harg1 : arg1.IsWhole) (arg2 : Memref sig .tc .vmem S576x128 .f32) (harg2 : arg2.IsWhole) (arg3 : Memref sig .tc .vmem S32x32x128 .f32) (harg3 : arg3.IsWhole) (arg4 : Memref sig .tc .vmem S2x32x32x128 .f32) (harg4 : arg4.IsWhole)
    (x0 : Vec F S2x34x34x64 .f32) (x1 : Vec F S576x128 .f32) (x2 : Vec F S32x32x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__conv_kernel_body i arg1 harg1 arg2 harg2 arg3 harg3 arg4 harg4) K := by
  simp only [cc2__conv_kernel_body_eq_skeleton]; unfold cc2__conv_kernel_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of this pipeline on core `c`: the arrays as the region finds them; after the body at point `t` each
    input's buffer at its block and the output's at `out2_3` of the input blocks; the invariant is the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the kernel's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand
-- ==== Proof.K.Conv3.lean ====
import proofs.«142023_j26104811225511_2_alg».proof.Proof.Gen.Kernel.Launch
import proofs.«142023_j26104811225511_2_alg».proof.Proof.Gen.Kernel.Skeleton
import proofs.«142023_j26104811225511_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))
/-! # Region 3: the 3×3 convolution kernel `cc3__conv_kernel_body`, at the entry contents `V` -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether the point fetches it or not,
    for any proof data whose array is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether the point fetches it or not,
    for any proof data whose array is the entry contents and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, whether the point fetches it or not,
    for any proof data whose array is the entry contents and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes through -/

-- tap (a, b) reads the padded input block shifted by a rows and b columns
abbrev rIn3_0_0 : Rect S2x34x34x128 := Rect.unit (s := S2x34x34x128) ![0, 0, 0, 0] S2x32x32x128.size inb_S2x34x34x128_S2x32x32x128_0_0_0_0
abbrev rIn3_0_1 : Rect S2x34x34x128 := Rect.unit (s := S2x34x34x128) ![0, 0, 1, 0] S2x32x32x128.size inb_S2x34x34x128_S2x32x32x128_0_0_1_0
abbrev rIn3_0_2 : Rect S2x34x34x128 := Rect.unit (s := S2x34x34x128) ![0, 0, 2, 0] S2x32x32x128.size inb_S2x34x34x128_S2x32x32x128_0_0_2_0
abbrev rIn3_1_0 : Rect S2x34x34x128 := Rect.unit (s := S2x34x34x128) ![0, 1, 0, 0] S2x32x32x128.size inb_S2x34x34x128_S2x32x32x128_0_1_0_0
abbrev rIn3_1_1 : Rect S2x34x34x128 := Rect.unit (s := S2x34x34x128) ![0, 1, 1, 0] S2x32x32x128.size inb_S2x34x34x128_S2x32x32x128_0_1_1_0
abbrev rIn3_1_2 : Rect S2x34x34x128 := Rect.unit (s := S2x34x34x128) ![0, 1, 2, 0] S2x32x32x128.size inb_S2x34x34x128_S2x32x32x128_0_1_2_0
abbrev rIn3_2_0 : Rect S2x34x34x128 := Rect.unit (s := S2x34x34x128) ![0, 2, 0, 0] S2x32x32x128.size inb_S2x34x34x128_S2x32x32x128_0_2_0_0
abbrev rIn3_2_1 : Rect S2x34x34x128 := Rect.unit (s := S2x34x34x128) ![0, 2, 1, 0] S2x32x32x128.size inb_S2x34x34x128_S2x32x32x128_0_2_1_0
abbrev rIn3_2_2 : Rect S2x34x34x128 := Rect.unit (s := S2x34x34x128) ![0, 2, 2, 0] S2x32x32x128.size inb_S2x34x34x128_S2x32x32x128_0_2_2_0
-- tap n = 3a + b reads rows [n·128, (n+1)·128) of the weights
abbrev rWt3_0 : Rect S1152x128 := Rect.unit (s := S1152x128) ![0, 0] S128x128.size inb_S1152x128_S128x128_0_0
abbrev rWt3_1 : Rect S1152x128 := Rect.unit (s := S1152x128) ![128, 0] S128x128.size inb_S1152x128_S128x128_128_0
abbrev rWt3_2 : Rect S1152x128 := Rect.unit (s := S1152x128) ![256, 0] S128x128.size inb_S1152x128_S128x128_256_0
abbrev rWt3_3 : Rect S1152x128 := Rect.unit (s := S1152x128) ![384, 0] S128x128.size inb_S1152x128_S128x128_384_0
abbrev rWt3_4 : Rect S1152x128 := Rect.unit (s := S1152x128) ![512, 0] S128x128.size inb_S1152x128_S128x128_512_0
abbrev rWt3_5 : Rect S1152x128 := Rect.unit (s := S1152x128) ![640, 0] S128x128.size inb_S1152x128_S128x128_640_0
abbrev rWt3_6 : Rect S1152x128 := Rect.unit (s := S1152x128) ![768, 0] S128x128.size inb_S1152x128_S128x128_768_0
abbrev rWt3_7 : Rect S1152x128 := Rect.unit (s := S1152x128) ![896, 0] S128x128.size inb_S1152x128_S128x128_896_0
abbrev rWt3_8 : Rect S1152x128 := Rect.unit (s := S1152x128) ![1024, 0] S128x128.size inb_S1152x128_S128x128_1024_0
abbrev rTh3 : Rect S32x32x128 := Rect.unit (s := S32x32x128) ![0, 0, 0] S32x32x128.size inb_S32x32x128_S32x32x128_0_0_0
abbrev rOut3 : Rect S2x32x32x128 := Rect.unit (s := S2x32x32x128) ![0, 0, 0, 0] S2x32x32x128.size inb_S2x32x32x128_S2x32x32x128_0_0_0_0

/-! ## What the body leaves in the output window's buffer -/

/-- The nine taps' products summed, three taps at a time. -/
def acc3 (x0 : Vec F S2x34x34x128 .f32) (x1 : Vec F S1152x128 .f32) : FVec F S2x32x32x128 .f32 :=
  k3_pay4 (k3_pay3 (k3_pay2 (View.ld x0 rIn3_0_0) (View.ld x1 rWt3_0) (View.ld x0 rIn3_0_1) (View.ld x1 rWt3_1) (View.ld x0 rIn3_0_2) (View.ld x1 rWt3_2))
      (View.ld x0 rIn3_1_0) (View.ld x1 rWt3_3) (View.ld x0 rIn3_1_1) (View.ld x1 rWt3_4) (View.ld x0 rIn3_1_2) (View.ld x1 rWt3_5))
    (View.ld x0 rIn3_2_0) (View.ld x1 rWt3_6) (View.ld x0 rIn3_2_1) (View.ld x1 rWt3_7) (View.ld x0 rIn3_2_2) (View.ld x1 rWt3_8)

/-- Window 3's staging buffer after the body, from the input windows' blocks: its one store, whole. -/
def out3_3 (x0 : Vec F S2x34x34x128 .f32) (x1 : Vec F S1152x128 .f32) (x2 : Vec F S32x32x128 .f32) : Vec F S2x32x32x128 .f32 :=
  View.canon [⟨rOut3, k3_pay1 (acc3 x0 x1) (k3_pay5 (View.ld x2 rTh3)) (Scalar.ofBits .f32 0x45BB8000#32)⟩]

/-- The one store tiles the buffer, so it covers it. -/
theorem cover3_3 (p0 : Vec F S2x32x32x128 .f32) (y : S2x32x32x128.Idx) :
    ∃ pc ∈ ([⟨rOut3, p0⟩] : List (View.Piece (Elt F) S2x32x32x128 .f32)), y ∈ pc.1.set :=
  View.cover_of_tiled [⟨rOut3, p0⟩] S2x32x32x128.size (by rfl) y

/-! ## The body's triple -/

set_option maxHeartbeats 4000000 in
/-- The kernel body on whole staging memrefs, the three inputs' at read contents and the output's at anything, runs to the
    continuation holding the inputs' as they were and the output's at `out3_3` of the inputs'. -/
theorem sound_kernel3 (c : Dev nD) (E : Set ℕ) (i : grid3.Coords) (arg1 : Memref sig .tc .vmem S2x34x34x128 .f32) (harg1 : arg1.IsWhole) (arg2 : Memref sig .tc .vmem S1152x128 .f32) (harg2 : arg2.IsWhole) (arg3 : Memref sig .tc .vmem S32x32x128 .f32) (harg3 : arg3.IsWhole) (arg4 : Memref sig .tc .vmem S2x32x32x128 .f32) (harg4 : arg4.IsWhole)
    (x0 : Vec F S2x34x34x128 .f32) (x1 : Vec F S1152x128 .f32) (x2 : Vec F S32x32x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__conv_kernel_body i arg1 harg1 arg2 harg2 arg3 harg3 arg4 harg4) K := by
  simp only [cc3__conv_kernel_body_eq_skeleton]; unfold cc3__conv_kernel_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of this pipeline on core `c`: the arrays as the region finds them; after the body at point `t` each
    input's buffer at its block and the output's at `out3_3` of the input blocks; the invariant is the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the kernel's triple applies; the invariant and the
    core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand
-- ==== Proof.K.DenseRun.lean ====
/- Region 4 of the main function: the dense layer tiled over its contraction axis, with a scratch accumulator
   carried from grid point to grid point. This module runs the kernel body once per control case (first point: reset and
   step; middle points: step; last point: step and store the output), each on arbitrary whole memrefs, and states what every
   buffer holds afterwards in closed form over the payloads of the body's stores. -/
import proofs.«142023_j26104811225511_2_alg».proof.Proof.Gen.Kernel.Launch
import proofs.«142023_j26104811225511_2_alg».proof.Proof.Gen.Kernel.Skeleton
import proofs.«142023_j26104811225511_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions of the body, in closed form over the grid -/

/-- The first conditional's test (the point's coordinate is 0), as the skeleton computes it. -/
abbrev cond4_0 (i : grid4.Coords) : Prop := (Scalar.cmpi .ne (Scalar.extui (Scalar.cmpi .eq (BitVec.ofNat 32 (i 0).val) 0#32)) 0#32) = 1#1
/-- The second conditional's test (the point's coordinate is 7). -/
abbrev cond4_1 (i : grid4.Coords) : Prop := k4_cond2 i = 1#1
theorem hcond4_0 : ∀ t : Fin cfg4.N, cond4_0 (grid4.coords t) ↔ t.val % 8 = 0 :=
  (by decide +kernel : ∀ t : Fin grid4.N, cond4_0 (grid4.coords t) ↔ t.val % 8 = 0)
theorem hcond4_1 : ∀ t : Fin cfg4.N, cond4_1 (grid4.coords t) ↔ t.val % 8 = 7 :=
  (by decide +kernel : ∀ t : Fin grid4.N, cond4_1 (grid4.coords t) ↔ t.val % 8 = 7)

/-- Windows 0, 1, 2 are inputs, never idle; window 3 is idle exactly where the second test fails. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem idleAt4_3 : ∀ t : Fin cfg4.N, ¬cond4_1 (grid4.coords t) → cfg4.idle 3 (grid4.coords t) = true := by decide +kernel
theorem liveAt4_3 : ∀ t : Fin cfg4.N, cond4_1 (grid4.coords t) → cfg4.idle 3 (grid4.coords t) = false := by decide +kernel
theorem noFlush4_3 : ∀ t : Fin cfg4.N, ¬cond4_1 (grid4.coords t) → (cfg4.win 3).flush t = false := by decide +kernel

/-! ## The body's accesses: every load and store is of a whole buffer -/

abbrev rX : Rect S32x4096 := Rect.unit (s := S32x4096) ![0, 0] S32x4096.size inb_S32x4096_S32x4096_0_0
abbrev rW : Rect S4096x256 := Rect.unit (s := S4096x256) ![0, 0] S4096x256.size inb_S4096x256_S4096x256_0_0
abbrev rD : Rect S1x256 := Rect.unit (s := S1x256) ![0, 0] S1x256.size inb_S1x256_S1x256_0_0
abbrev rA : Rect S32x256 := Rect.unit (s := S32x256) ![0, 0] S32x256.size inb_S32x256_S32x256_0_0

/-- One store through `rA` tiles a `32×256` buffer, so it covers it. -/
theorem coverA (p : rA.shape.Idx → Elt F .f32) (y : S32x256.Idx) :
    ∃ pc ∈ ([⟨rA, p⟩] : List (View.Piece (Elt F) S32x256 .f32)), y ∈ pc.1.set :=
  View.cover_of_tiled [⟨rA, p⟩] S32x256.size (by rfl) y

theorem mem_rA (p : rA.shape.Idx → Elt F .f32) (y : S32x256.Idx) : y ∈ rA.set := by
  obtain ⟨pc, hm, hy⟩ := coverA p y
  rw [List.mem_singleton] at hm; subst hm; exact hy

/-- Under a store that covers the buffer, the earlier stores do not show. -/
theorem canon_cons_whole (p : rA.shape.Idx → Elt F .f32) (L L' : List (View.Piece (Elt F) S32x256 .f32)) :
    View.canon (⟨rA, p⟩ :: L) = View.canon (⟨rA, p⟩ :: L') := by
  funext y
  obtain ⟨x, rfl⟩ : ∃ x, rA.emb x = y := rA.exists_idx_of_mem (mem_rA p y)
  rw [View.canon_cons_emb, View.canon_cons_emb]

/-! ## What the body leaves: the accumulator's step and the output's payload -/

/-- The accumulator after the reset at the first point: the zero fill, stored whole. -/
def zero4 : Vec F S32x256 .f32 := View.canon [⟨rA, k4_pay1 (F := F)⟩]

/-- One point's step of the accumulator: from the point's blocks `x0` (activations) and `x1` (weights) and the accumulator
    `a` as the point finds it (after the reset, at the first point), the stored sum `a + (x0 - t_min) · x1`. -/
def step4 (x0 : Vec F S32x4096 .f32) (x1 : Vec F S4096x256 .f32) (a : Vec F S32x256 .f32) : Vec F S32x256 .f32 :=
  View.canon [⟨rA, k4_pay2 (View.ld x0 rX) (View.ld x1 rW) (View.ld a rA)⟩]

/-- What the last point stores into the output block: from the threshold row `x2` and the accumulator `a` after its own step,
    `min (a + (t_max - x2)) t_max`. -/
def out4 (x2 : Vec F S1x256 .f32) (a : Vec F S32x256 .f32) : Vec F S32x256 .f32 :=
  View.canon [⟨rA, k4_pay3 (View.ld a rA) (View.ld x2 rD)⟩]

set_option maxHeartbeats 1000000 in
/-- A MIDDLE point (neither test holds): the accumulator, found at `xs`, is left at its step; the inputs' buffers and the
    output's are left as found. -/
theorem run4_B (c : Dev nD) (E : Set ℕ) (i : grid4.Coords)
    (arg1 : Memref sig .tc .vmem S32x4096 .f32) (harg1 : arg1.IsWhole) (arg2 : Memref sig .tc .vmem S4096x256 .f32) (harg2 : arg2.IsWhole)
    (arg3 : Memref sig .tc .vmem S1x256 .f32) (harg3 : arg3.IsWhole) (arg4 : Memref sig .tc .vmem S32x256 .f32) (harg4 : arg4.IsWhole)
    (arg5 : Memref sig .tc .vmem S32x256 .f32) (harg5 : arg5.IsWhole) (hc0 : ¬cond4_0 i) (hc1 : ¬cond4_1 i)
    (x0 : Vec F S32x4096 .f32) (x1 : Vec F S4096x256 .f32) (x2 : Vec F S1x256 .f32) (x3 : Vec F S32x256 .f32) (xs : Vec F S32x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (step4 x0 x1 xs)) -∗ K ⟨⟩))
      ⊢ wp frame (wpE (defs₀ (F := F)) Variants.none c none) E (cc4__dense_kernel_body i arg1 harg1 arg2 harg2 arg3 harg3 arg4 harg4 arg5 harg5) K := by
  simp only [cc4__dense_kernel_body_eq_skeleton]; unfold cc4__dense_kernel_body_skel
  unfold owns step4
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  exact View.read_writes_eq_canon _ _ _ (coverA _)

set_option maxHeartbeats 1000000 in
/-- The FIRST point (the first test holds, the second does not): the accumulator, found at anything, is zeroed and then
    stepped; the inputs' buffers and the output's are left as found. -/
theorem run4_A (c : Dev nD) (E : Set ℕ) (i : grid4.Coords)
    (arg1 : Memref sig .tc .vmem S32x4096 .f32) (harg1 : arg1.IsWhole) (arg2 : Memref sig .tc .vmem S4096x256 .f32) (harg2 : arg2.IsWhole)
    (arg3 : Memref sig .tc .vmem S1x256 .f32) (harg3 : arg3.IsWhole) (arg4 : Memref sig .tc .vmem S32x256 .f32) (harg4 : arg4.IsWhole)
    (arg5 : Memref sig .tc .vmem S32x256 .f32) (harg5 : arg5.IsWhole) (hc0 : cond4_0 i) (hc1 : ¬cond4_1 i)
    (x0 : Vec F S32x4096 .f32) (x1 : Vec F S4096x256 .f32) (x2 : Vec F S1x256 .f32) (x3 : Vec F S32x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (step4 x0 x1 (zero4 (F := F)))) -∗ K ⟨⟩))
      ⊢ wp frame (wpE (defs₀ (F := F)) Variants.none c none) E (cc4__dense_kernel_body i arg1 harg1 arg2 harg2 arg3 harg3 arg4 harg4 arg5 harg5) K := by
  simp only [cc4__dense_kernel_body_eq_skeleton]; unfold cc4__dense_kernel_body_skel
  unfold owns step4 zero4
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_run_names
  rw [View.readCov_eq_canon_ld _ _ _ (coverA _)]
  exact (View.read_writes_eq_canon _ _ _ (fun y => ⟨_, List.Mem.head _, mem_rA (k4_pay1 (F := F)) y⟩)).trans (canon_cons_whole _ _ _)

set_option maxHeartbeats 1000000 in
/-- The LAST point (the second test holds, the first does not): the accumulator, found at `xs`, is left at its step; the output's
    buffer, found at anything, is left at the output payload of the threshold row and the stepped accumulator; the inputs' buffers
    are left as found. -/
theorem run4_C (c : Dev nD) (E : Set ℕ) (i : grid4.Coords)
    (arg1 : Memref sig .tc .vmem S32x4096 .f32) (harg1 : arg1.IsWhole) (arg2 : Memref sig .tc .vmem S4096x256 .f32) (harg2 : arg2.IsWhole)
    (arg3 : Memref sig .tc .vmem S1x256 .f32) (harg3 : arg3.IsWhole) (arg4 : Memref sig .tc .vmem S32x256 .f32) (harg4 : arg4.IsWhole)
    (arg5 : Memref sig .tc .vmem S32x256 .f32) (harg5 : arg5.IsWhole) (hc0 : ¬cond4_0 i) (hc1 : cond4_1 i)
    (x0 : Vec F S32x4096 .f32) (x1 : Vec F S4096x256 .f32) (x2 : Vec F S1x256 .f32) (xs : Vec F S32x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (out4 x2 (step4 x0 x1 xs))
            ∗ owns (c : Thread nD τ) arg5 fullShare (step4 x0 x1 xs)) -∗ K ⟨⟩))
      ⊢ wp frame (wpE (defs₀ (F := F)) Variants.none c none) E (cc4__dense_kernel_body i arg1 harg1 arg2 harg2 arg3 harg3 arg4 harg4 arg5 harg5) K := by
  simp only [cc4__dense_kernel_body_eq_skeleton]; unfold cc4__dense_kernel_body_skel
  unfold owns out4 step4
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    rw [View.readCov_eq_canon_ld _ _ _ (coverA _)]
    exact View.read_writes_eq_canon _ _ _ (coverA _)
  iexists _; isplitr
  swap; · iexact HS
  ipureintro
  exact View.read_writes_eq_canon _ _ _ (coverA _)

end Cert.Kernel.Hand

end
-- ==== Proof.K.Dense.lean ====
/- Region 4 of the main function, the dense layer tiled over its contraction axis: the proof data of its pipeline with the
   scratch accumulator carried from point to point in the invariant, the body obligation at every point (three control cases),
   the invariant's entry and exit, and what the output array holds at the end in terms of the accumulator's recursion. Stated at
   any float interpretation and at a parameter `V`, the buffer contents when the region is entered. -/
import proofs.«142023_j26104811225511_2_alg».proof.Proof.K.DenseRun
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not, for any proof data whose
    array is `V`'s and whose body leaves the block in place: the activations (a new block at every point), -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- the weights (a new block at every point), -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- and the threshold row (one block, fetched at the first point and kept). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The accumulator, point by point -/

/-- The scratch accumulator's contents before position `n` of the grid (after point `n - 1`): the zero fill the first point
    resets it to, then one step per point over that point's blocks. Past the grid nothing changes. -/
def accN (c : Dev nD) : ℕ → Vec F S32x256 .f32
  | 0 => zero4
  | n + 1 => if h : n < cfg4.N then step4 (iblk4 V c 0 ⟨n, h⟩) (iblk4 V c 1 ⟨n, h⟩) (accN c n) else accN c n

/-- The same at a position of the grid. `acc4 V c 0` is the zero fill (what the first point's reset makes of whatever the
    scratch held), so that one step relates every two neighbours, the first pair included. -/
def acc4 (c : Dev nD) (t : Fin (cfg4.N + 1)) : Vec F S32x256 .f32 := accN V c t.val

theorem acc4_zero (c : Dev nD) : acc4 V c 0 = zero4 := rfl

theorem acc4_succ (c : Dev nD) (t : Fin cfg4.N) :
    acc4 V c t.succ = step4 (iblk4 V c 0 t) (iblk4 V c 1 t) (acc4 V c t.castSucc) := by
  obtain ⟨n, hn⟩ := t
  show (if h : n < cfg4.N then _ else _) = _
  rw [dif_pos hn]; rfl

/-! ## The scratch operand -/

/-- The scratch accumulator: a whole scoped buffer of the kernel's own, passed beside the windows. -/
abbrev scM4 : Memref sig .tc .vmem S32x256 .f32 := Memref.whole cc4_scratch0

/-! ## The pipeline's proof data -/

/-- The region invariant before position `t`: the generator register at some state; the scratch accumulator whole, at anything
    before the first point and at `acc4 V c t` afterwards; every other scoped buffer that is no staging buffer, unopened. -/
def Phi4 (c : Dev nD) (t : Fin (cfg4.N + 1)) : sProp 𝕄 :=
  iprop((∃ r, prngReg c r) ∗ (∃ d, ⌜t.val ≠ 0 → d = acc4 V c t⌝ ∗ owns (c : Thread nD τ) scM4 fullShare d)
    ∗ Pipeline.scopedRestBut (Ix := Unit) (Name := ℕ) (U := UR sig nD τ) (Lvl := ℕ) (Val := Elt F) spec4 c [cc4_scratch0])

/-- The proof data of pipeline 4 on core `c`: the arrays as the region finds them; after the body at point `t` each input's
    buffer at its block, the output's at the clipped, shifted accumulator after this point's step (consulted at the last point only:
    elsewhere the window is idle and not written back); the invariant `Phi4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4 (iblk4 V c 2 t) (acc4 V c t.succ)
  Φ t := Phi4 V c t
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4 (iblk4 V c 2 t) (acc4 V c t.succ) := by dsimp only [dat4]
theorem Phi4_eq (c : Dev nD) (t : Fin (cfg4.N + 1)) : (dat4 V c).Φ t = Phi4 V c t := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`: the invariant, what the core owes, and each window's current staging buffer
    at what it then holds, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 1600000 in
/-- The body at any point. The inputs' buffers hold their blocks; the closed forms of the two tests say which of the three cases
    the point is in. The invariant hands the body the accumulator (at anything at the first point, at what the point before left
    otherwise) and takes it back one step on; the output's buffer is handed back as found except at the last point, where it is
    left at the output payload; the generator register, the other scoped buffers and what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [Phi4_eq, Phi4_eq]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [show (dat4 V c).leavesExact 2 t = owns (c : Thread nD τ) (st4_2 t) fullShare ((dat4 V c).after 2 t) from by
    unfold Dat.leavesExact; rw [liveAt4_2 t], after4_2]
  have hN : t.val < 8 := lt_of_lt_of_eq t.isLt (show cfg4.N = 8 from N_4)
  by_cases h1 : t.val % 8 = 7
  · have h0 : ¬ t.val % 8 = 0 := by omega
    rw [show (dat4 V c).leavesExact 3 t = owns (c : Thread nD τ) (st4_3 t) fullShare ((dat4 V c).after 3 t) from by
      unfold Dat.leavesExact; rw [liveAt4_3 t ((hcond4_1 t).mpr h1)], after4_3]
    unfold Phi4
    rw [acc4_succ]
    iintro ⟨⟨Hg, ⟨%ds, %hds, HS⟩, Hr⟩, Ho, ⟨%d0, H0⟩, ⟨%d1, H1⟩, ⟨%d2, H2⟩, ⟨%d3, H3⟩⟩
    obtain rfl : ds = acc4 V c t.castSucc := hds (by rw [Fin.coe_castSucc]; omega)
    iapply (run4_C c Set.univ _ _ _ _ _ _ _ _ _ _ _ (fun h => h0 ((hcond4_0 t).mp h)) ((hcond4_1 t).mpr h1)
      (iblk4 V c 0 t) (iblk4 V c 1 t) (iblk4 V c 2 t) (acc4 V c t.castSucc) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [Hg HS Hr]
    · isplitl [Hg]; · iexact Hg
      isplitl [HS]
      · iexists _; isplitr; · ipureintro; intro _; rfl
        iexact HS
      iexact Hr
    isplitl [Ho]; · iexact Ho
    isplitl [H0]; · iexact H0
    isplitl [H1]; · iexact H1
    isplitl [H2]; · iexact H2
    iexact H3
  · rw [Dat.leavesExact_idle (dat4 V c) 3 t (idleAt4_3 t (fun h => h1 ((hcond4_1 t).mp h))) (noFlush4_3 t (fun h => h1 ((hcond4_1 t).mp h)))]
    unfold Phi4
    rw [acc4_succ]
    by_cases h0 : t.val % 8 = 0
    · have hz : acc4 V c t.castSucc = zero4 := by
        unfold acc4; rw [Fin.coe_castSucc, show t.val = 0 from by omega]; rfl
      rw [hz]
      iintro ⟨⟨Hg, ⟨%ds, -, HS⟩, Hr⟩, Ho, ⟨%d0, H0⟩, ⟨%d1, H1⟩, ⟨%d2, H2⟩, ⟨%d3, H3⟩⟩
      iapply (run4_A c Set.univ _ _ _ _ _ _ _ _ _ _ _ ((hcond4_0 t).mpr h0) (fun h => h1 ((hcond4_1 t).mp h))
        (iblk4 V c 0 t) (iblk4 V c 1 t) (iblk4 V c 2 t) ((dat4 V c).before 3 t d3) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [Hg HS Hr]
      · isplitl [Hg]; · iexact Hg
        isplitl [HS]
        · iexists _; isplitr; · ipureintro; intro _; rfl
          iexact HS
        iexact Hr
      isplitl [Ho]; · iexact Ho
      isplitl [H0]; · iexact H0
      isplitl [H1]; · iexact H1
      isplitl [H2]; · iexact H2
      iexists _; iexact H3
    · iintro ⟨⟨Hg, ⟨%ds, %hds, HS⟩, Hr⟩, Ho, ⟨%d0, H0⟩, ⟨%d1, H1⟩, ⟨%d2, H2⟩, ⟨%d3, H3⟩⟩
      obtain rfl : ds = acc4 V c t.castSucc := hds (by rw [Fin.coe_castSucc]; omega)
      iapply (run4_B c Set.univ _ _ _ _ _ _ _ _ _ _ _ (fun h => h0 ((hcond4_0 t).mp h)) (fun h => h1 ((hcond4_1 t).mp h))
        (iblk4 V c 0 t) (iblk4 V c 1 t) (iblk4 V c 2 t) ((dat4 V c).before 3 t d3) (acc4 V c t.castSucc) _)
      isplitl [H0]; · iexact H0
      isplitl [H1]; · iexact H1
      isplitl [H2]; · iexact H2
      isplitl [H3]; · iexact H3
      isplitl [HS]; · iexact HS
      iintro ⟨H0, H1, H2, H3, HS⟩
      isplitl [Hg HS Hr]
      · isplitl [Hg]; · iexact Hg
        isplitl [HS]
        · iexists _; isplitr; · ipureintro; intro _; rfl
          iexact HS
        iexact Hr
      isplitl [Ho]; · iexact Ho
      isplitl [H0]; · iexact H0
      isplitl [H1]; · iexact H1
      isplitl [H2]; · iexact H2
      iexists _; iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## Entering and leaving the region -/

/-- The scoped buffers that are no staging buffer of this call, with the scratch accumulator taken out as a memref owned at
    some contents. -/
theorem scopedRest4_owns (c : Dev nD) :
    (Pipeline.scopedRest (Ix := Unit) (Name := ℕ) (U := UR sig nD τ) (Lvl := ℕ) (Val := Elt F) spec4 c : sProp 𝕄)
      = iprop((∃ d, owns (c : Thread nD τ) scM4 fullShare d)
          ∗ Pipeline.scopedRestBut (Ix := Unit) (Name := ℕ) (U := UR sig nD τ) (Lvl := ℕ) (Val := Elt F) spec4 c [cc4_scratch0]) := by
  rw [scopedRest4_split]; simp only [scM4, owns_whole]; try rfl

/-- What the launch hands the region is the invariant before the first point: the accumulator at anything. -/
theorem hin4 (c : Dev nD) :
    iprop((∃ r, prngReg c r) ∗ Pipeline.prefHeld (pcfgs (F := F) 4).pre c (fun _ => fullShare) ((cfgs 4).toPCfg_adm).1
        ∗ Pipeline.scopedRest spec4 c) ⊢ (dat4 V c).Φ 0 := by
  rw [Phi4_eq, scopedRest4_owns]; unfold Phi4
  iintro ⟨Hg, -, ⟨%d, HS⟩, Hr⟩
  isplitl [Hg]; · iexact Hg
  isplitl [HS]
  · iexists d; isplitr; · ipureintro; intro h; exact absurd rfl h
    iexact HS
  iexact Hr

/-- After the last point the invariant gives the scoped buffers back: the accumulator's named contents are forgotten. -/
theorem hout4 (c : Dev nD) :
    (dat4 V c).Φ (Fin.last cfg4.N) ⊢ iprop((∃ r, prngReg c r) ∗ Pipeline.scopedRest spec4 c) := by
  rw [Phi4_eq, scopedRest4_owns]; unfold Phi4
  iintro ⟨Hg, ⟨%d, -, HS⟩, Hr⟩
  isplitl [Hg]; · iexact Hg
  isplitl [HS]; · iexists d; iexact HS
  iexact Hr

/-! ## The stored values without the rectangles: every access is of a whole buffer at offset zero -/

theorem zeros2 : (![0, 0] : Fin 2 → ℕ) = fun _ => 0 := by funext a; fin_cases a <;> rfl

/-- The accumulator after the reset is the zero fill's payload, -/
theorem zero4_eq : zero4 (F := F) = k4_pay1 := by
  unfold zero4; exact View.canon_unit_zero zeros2 _ _

/-- one step stores the step's payload of the two blocks and the accumulator, -/
theorem step4_eq (x0 : Vec F S32x4096 .f32) (x1 : Vec F S4096x256 .f32) (a : Vec F S32x256 .f32) :
    step4 x0 x1 a = k4_pay2 x0 x1 a := by
  unfold step4
  rw [View.canon_unit_zero zeros2, View.ld_unit_zero zeros2, View.ld_unit_zero zeros2, View.ld_unit_zero zeros2]

/-- and the last point stores the output payload of the accumulator and the threshold row. -/
theorem out4_eq (x2 : Vec F S1x256 .f32) (a : Vec F S32x256 .f32) : out4 x2 a = k4_pay3 a x2 := by
  unfold out4
  rw [View.canon_unit_zero zeros2, View.ld_unit_zero zeros2, View.ld_unit_zero zeros2]

/-- The accumulator's recursion over the payloads. -/
theorem acc4_succ_eq (c : Dev nD) (t : Fin cfg4.N) :
    acc4 V c t.succ = k4_pay2 (iblk4 V c 0 t) (iblk4 V c 1 t) (acc4 V c t.castSucc) := by
  rw [acc4_succ, step4_eq]

/-! ## What the output array holds at the end -/

/-- Only the last point writes the output window back. -/
theorem flush4_3_last (t : Fin cfg4.N) (hf : (cfg4.win 3).flush t = true) : t.val = 7 := by
  have hN : t.val < 8 := lt_of_lt_of_eq t.isLt (show cfg4.N = 8 from N_4)
  have := (flush4_3 t).mp hf; omega

/-- The output array's block at the last point, read back after the region: the output payload of the threshold row and the
    accumulator after all eight steps. -/
theorem arrAt4_blk (c : Dev nD) (t : Fin cfg4.N) (ht : t.val = 7) :
    ((cfg4.win 3).blk t).view.read (Elt F) ((dat4 V c).arrAt 3 cfg4.N)
      = out4 (iblk4 V c 2 t) (acc4 V c (Fin.last cfg4.N)) := by
  have hf : (cfg4.win 3).flush t = true := (flush4_3 t).mpr (by omega)
  have hlast : t.succ = Fin.last cfg4.N := by
    apply Fin.ext; rw [Fin.val_succ, Fin.val_last, ht]; exact (show cfg4.N = 8 from N_4).symm
  rw [(dat4 V c).read_blk_arrAt_eq_flushed 3 (fun a b ha hb hab => absurd (Fin.ext ((flush4_3_last a ha).trans (flush4_3_last b hb).symm)) hab)
    cfg4.N t t.isLt hf]
  show (cfg4.win 3).cut (cfg4.grid.coords t) ((dat4 V c).after 3 t) = _
  rw [after4_3, hlast]; rfl

end Region4

end Cert.Kernel.Hand

end
-- ==== Proof.K.OutL.lean ====
/-
  Region 5, the output layer: one grid point; the three operands (the dense layer's result [32,256], the weights
  [256,10], the bias row [1,10]) are each one whole block, and the body stores the whole result block [32,10]
  once: bias + (7500 − x) · W. What the output window's buffer holds after the body is that one store's value
  over the three input blocks; the body's triple, the proof data and the obligation at the one point follow.
-/
import proofs.«142023_j26104811225511_2_alg».proof.Proof.Gen.Kernel.Launch
import proofs.«142023_j26104811225511_2_alg».proof.Proof.Gen.Kernel.Skeleton
import proofs.«142023_j26104811225511_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, for any proof data whose array is the
    entry contents and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! The body's four whole-block rectangles. -/
abbrev r5_x : Rect S32x256 := Rect.unit (s := S32x256) ![0, 0] S32x256.size inb_S32x256_S32x256_0_0
abbrev r5_w : Rect S256x10 := Rect.unit (s := S256x10) ![0, 0] S256x10.size inb_S256x10_S256x10_0_0
abbrev r5_d : Rect S1x10 := Rect.unit (s := S1x10) ![0, 0] S1x10.size inb_S1x10_S1x10_0_0
abbrev r5_o : Rect S32x10 := Rect.unit (s := S32x10) ![0, 0] S32x10.size inb_S32x10_S32x10_0_0

/-- The output window's buffer after the body, from the three input blocks: its one store. -/
def out5_3 (x0 : Vec F S32x256 .f32) (x1 : Vec F S256x10 .f32) (x2 : Vec F S1x10 .f32) : Vec F S32x10 .f32 :=
  View.canon [⟨r5_o, k5_pay1 (View.ld x0 r5_x) (View.ld x1 r5_w) (View.ld x2 r5_d)⟩]

/-- The one store covers the buffer. -/
theorem cover5_3 (p0 : Vec F S32x10 .f32) (y : S32x10.Idx) :
    ∃ pc ∈ ([⟨r5_o, p0⟩] : List (View.Piece (Elt F) S32x10 .f32)), y ∈ pc.1.set :=
  View.cover_of_tiled [⟨r5_o, p0⟩] S32x10.size (by rfl) y

set_option maxHeartbeats 1000000 in
/-- The body on whole staging memrefs, the inputs' at read contents and the output's at anything, runs to the
    continuation holding the inputs' as they were and the output's at `out5_3` of them. -/
theorem sound_kernel5 (c : Dev nD) (E : Set ℕ) (i : grid5.Coords)
    (arg1 : Memref sig .tc .vmem S32x256 .f32) (harg1 : arg1.IsWhole) (arg2 : Memref sig .tc .vmem S256x10 .f32) (harg2 : arg2.IsWhole)
    (arg3 : Memref sig .tc .vmem S1x10 .f32) (harg3 : arg3.IsWhole) (arg4 : Memref sig .tc .vmem S32x10 .f32) (harg4 : arg4.IsWhole)
    (x0 : Vec F S32x256 .f32) (x1 : Vec F S256x10 .f32) (x2 : Vec F S1x10 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2)) -∗ K ⟨⟩))
      ⊢ wp frame (wpE (defs₀ (F := F)) Variants.none c none) E (cc5__out_kernel_body i arg1 harg1 arg2 harg2 arg3 harg3 arg4 harg4) K := by
  simp only [cc5__out_kernel_body_eq_skeleton]; unfold cc5__out_kernel_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- The proof data of pipeline 5 on core `c`: the arrays as the region finds them; after the body each input's buffer
    at its block and the output's at `out5_3` of the input blocks; the scoped rest and the generator register untouched;
    nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so the kernel's triple applies; the invariant and
    the core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end

end Cert.Kernel.Hand

end
-- ==== Proof.K.Run.lean ====
/-
  The whole program as one run. Between two items of the entry function every unscoped buffer's contents are named
  by a fold from the launch memory: a stretch of host operations applies its operations, a kernel region replaces
  its windows' arrays by what its write-backs leave and keeps every other buffer. Each region is entered from the
  state "every unscoped buffer at the boundary's contents, the generator register at some state, nothing owed" and
  left at the same state one boundary later; the run's post reads every unscoped buffer off the last boundary, so
  both the argument arrays (no item writes one) and the result array are read from it.
-/
import proofs.«142023_j26104811225511_2_alg».proof.Proof.Gen.Kernel.Launch
import proofs.«142023_j26104811225511_2_alg».proof.Proof.Gen.Kernel.Skeleton
import proofs.«142023_j26104811225511_2_alg».proof.Proof.Gen.Kernel.Points
import proofs.«142023_j26104811225511_2_alg».proof.Proof.K.Conv0
import proofs.«142023_j26104811225511_2_alg».proof.Proof.K.Conv1
import proofs.«142023_j26104811225511_2_alg».proof.Proof.K.Conv2
import proofs.«142023_j26104811225511_2_alg».proof.Proof.K.Conv3
import proofs.«142023_j26104811225511_2_alg».proof.Proof.K.Dense
import proofs.«142023_j26104811225511_2_alg».proof.Proof.K.OutL
import proofs.«142023_j26104811225511_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m (c, b)
/-- After the host stretch `hostOps0`. -/
abbrev W1 : Dev nD → Valuation τ sig (Elt F) := fun c => StableHlo.after hostOps0 (W0 m c)
/-- After the host stretch `hostOps0_1`. -/
abbrev W2 : Dev nD → Valuation τ sig (Elt F) := fun c => StableHlo.after hostOps0_1 (W1 m c)
/-- After the host stretch `hostOps0_2`. -/
abbrev W3 : Dev nD → Valuation τ sig (Elt F) := fun c => StableHlo.after hostOps0_2 (W2 m c)
/-- Region 0's entry contents read at the TensorCore's references. -/
abbrev B3 : (c : Dev nD) → (b : Ref sig .tc) → Buf (Elt F) ((c : Thread nD τ).loc b) := fun c b => W3 m c b
/-- At region 0's exit: its arrays at what the pipeline leaves, every other buffer as entered. -/
def W4 (c : Dev nD) : Valuation τ sig (Elt F) :=
  Pipeline.withArrays spec0 c (W3 m c) fun w => (dat0 (B3 m) c).arrAt w cfg0.N
theorem W4_arr (c : Dev nD) (w : Fin cfg0.W) :
    W4 m c (Proc.devRef .tc (Pipeline.arrRef spec0 w)) = (dat0 (B3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev B4 : (c : Dev nD) → (b : Ref sig .tc) → Buf (Elt F) ((c : Thread nD τ).loc b) := fun c b => W4 m c b
theorem hF0 (c : Dev nD) (w : Fin cfg0.W) : (dat0 (B3 m) c).arrAt w cfg0.N = B4 m c (Pipeline.arrRef spec0 w) :=
  (W4_arr m c w).symm
theorem hrest0 (c : Dev nD) : ∀ b, b ∉ Finset.univ.image (Pipeline.arrRef spec0) → B4 m c b = B3 m c b :=
  fun b hb => W4_of_ne m c b fun w e => hb (Finset.mem_image.mpr ⟨w, Finset.mem_univ _, e⟩)
/-- After the host stretch `hostOps1`. -/
abbrev W5 : Dev nD → Valuation τ sig (Elt F) := fun c => StableHlo.after hostOps1 (W4 m c)
/-- After the host stretch `hostOps1_1`. -/
abbrev W6 : Dev nD → Valuation τ sig (Elt F) := fun c => StableHlo.after hostOps1_1 (W5 m c)
/-- After the host stretch `hostOps1_2`. -/
abbrev W7 : Dev nD → Valuation τ sig (Elt F) := fun c => StableHlo.after hostOps1_2 (W6 m c)
/-- Region 1's entry contents read at the TensorCore's references. -/
abbrev B7 : (c : Dev nD) → (b : Ref sig .tc) → Buf (Elt F) ((c : Thread nD τ).loc b) := fun c b => W7 m c b
/-- At region 1's exit: its arrays at what the pipeline leaves, every other buffer as entered. -/
def W8 (c : Dev nD) : Valuation τ sig (Elt F) :=
  Pipeline.withArrays spec1 c (W7 m c) fun w => (dat1 (B7 m) c).arrAt w cfg1.N
theorem W8_arr (c : Dev nD) (w : Fin cfg1.W) :
    W8 m c (Proc.devRef .tc (Pipeline.arrRef spec1 w)) = (dat1 (B7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
abbrev B8 : (c : Dev nD) → (b : Ref sig .tc) → Buf (Elt F) ((c : Thread nD τ).loc b) := fun c b => W8 m c b
theorem hF1 (c : Dev nD) (w : Fin cfg1.W) : (dat1 (B7 m) c).arrAt w cfg1.N = B8 m c (Pipeline.arrRef spec1 w) :=
  (W8_arr m c w).symm
theorem hrest1 (c : Dev nD) : ∀ b, b ∉ Finset.univ.image (Pipeline.arrRef spec1) → B8 m c b = B7 m c b :=
  fun b hb => W8_of_ne m c b fun w e => hb (Finset.mem_image.mpr ⟨w, Finset.mem_univ _, e⟩)
/-- After the host stretch `hostOps2`. -/
abbrev W9 : Dev nD → Valuation τ sig (Elt F) := fun c => StableHlo.after hostOps2 (W8 m c)
/-- After the host stretch `hostOps2_1`. -/
abbrev W10 : Dev nD → Valuation τ sig (Elt F) := fun c => StableHlo.after hostOps2_1 (W9 m c)
/-- After the host stretch `hostOps2_2`. -/
abbrev W11 : Dev nD → Valuation τ sig (Elt F) := fun c => StableHlo.after hostOps2_2 (W10 m c)
/-- Region 2's entry contents read at the TensorCore's references. -/
abbrev B11 : (c : Dev nD) → (b : Ref sig .tc) → Buf (Elt F) ((c : Thread nD τ).loc b) := fun c b => W11 m c b
/-- At region 2's exit: its arrays at what the pipeline leaves, every other buffer as entered. -/
def W12 (c : Dev nD) : Valuation τ sig (Elt F) :=
  Pipeline.withArrays spec2 c (W11 m c) fun w => (dat2 (B11 m) c).arrAt w cfg2.N
theorem W12_arr (c : Dev nD) (w : Fin cfg2.W) :
    W12 m c (Proc.devRef .tc (Pipeline.arrRef spec2 w)) = (dat2 (B11 m) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m c (Proc.devRef .tc b) = W11 m c (Proc.devRef .tc b) := by
  unfold W12; exact Pipeline.withArrays_of_ne spec2 c _ _ b hb
abbrev B12 : (c : Dev nD) → (b : Ref sig .tc) → Buf (Elt F) ((c : Thread nD τ).loc b) := fun c b => W12 m c b
theorem hF2 (c : Dev nD) (w : Fin cfg2.W) : (dat2 (B11 m) c).arrAt w cfg2.N = B12 m c (Pipeline.arrRef spec2 w) :=
  (W12_arr m c w).symm
theorem hrest2 (c : Dev nD) : ∀ b, b ∉ Finset.univ.image (Pipeline.arrRef spec2) → B12 m c b = B11 m c b :=
  fun b hb => W12_of_ne m c b fun w e => hb (Finset.mem_image.mpr ⟨w, Finset.mem_univ _, e⟩)
/-- After the host stretch `hostOps3`. -/
abbrev W13 : Dev nD → Valuation τ sig (Elt F) := fun c => StableHlo.after hostOps3 (W12 m c)
/-- After the host stretch `hostOps3_1`. -/
abbrev W14 : Dev nD → Valuation τ sig (Elt F) := fun c => StableHlo.after hostOps3_1 (W13 m c)
/-- After the host stretch `hostOps3_2`. -/
abbrev W15 : Dev nD → Valuation τ sig (Elt F) := fun c => StableHlo.after hostOps3_2 (W14 m c)
/-- Region 3's entry contents read at the TensorCore's references. -/
abbrev B15 : (c : Dev nD) → (b : Ref sig .tc) → Buf (Elt F) ((c : Thread nD τ).loc b) := fun c b => W15 m c b
/-- At region 3's exit: its arrays at what the pipeline leaves, every other buffer as entered. -/
def W16 (c : Dev nD) : Valuation τ sig (Elt F) :=
  Pipeline.withArrays spec3 c (W15 m c) fun w => (dat3 (B15 m) c).arrAt w cfg3.N
theorem W16_arr (c : Dev nD) (w : Fin cfg3.W) :
    W16 m c (Proc.devRef .tc (Pipeline.arrRef spec3 w)) = (dat3 (B15 m) c).arrAt w cfg3.N := by
  unfold W16; exact Pipeline.withArrays_arr spec3 launch3.win.arr_inj c _ _ w
theorem W16_of_ne (c : Dev nD) (b : Ref sig .tc) (hb : ∀ w, Pipeline.arrRef spec3 w ≠ b) :
    W16 m c (Proc.devRef .tc b) = W15 m c (Proc.devRef .tc b) := by
  unfold W16; exact Pipeline.withArrays_of_ne spec3 c _ _ b hb
abbrev B16 : (c : Dev nD) → (b : Ref sig .tc) → Buf (Elt F) ((c : Thread nD τ).loc b) := fun c b => W16 m c b
theorem hF3 (c : Dev nD) (w : Fin cfg3.W) : (dat3 (B15 m) c).arrAt w cfg3.N = B16 m c (Pipeline.arrRef spec3 w) :=
  (W16_arr m c w).symm
theorem hrest3 (c : Dev nD) : ∀ b, b ∉ Finset.univ.image (Pipeline.arrRef spec3) → B16 m c b = B15 m c b :=
  fun b hb => W16_of_ne m c b fun w e => hb (Finset.mem_image.mpr ⟨w, Finset.mem_univ _, e⟩)
/-- After the host stretch `hostOps4`. -/
abbrev W17 : Dev nD → Valuation τ sig (Elt F) := fun c => StableHlo.after hostOps4 (W16 m c)
/-- Region 4's entry contents read at the TensorCore's references. -/
abbrev B17 : (c : Dev nD) → (b : Ref sig .tc) → Buf (Elt F) ((c : Thread nD τ).loc b) := fun c b => W17 m c b
/-- At region 4's exit: its arrays at what the pipeline leaves, every other buffer as entered. -/
def W18 (c : Dev nD) : Valuation τ sig (Elt F) :=
  Pipeline.withArrays spec4 c (W17 m c) fun w => (dat4 (B17 m) c).arrAt w cfg4.N
theorem W18_arr (c : Dev nD) (w : Fin cfg4.W) :
    W18 m c (Proc.devRef .tc (Pipeline.arrRef spec4 w)) = (dat4 (B17 m) c).arrAt w cfg4.N := by
  unfold W18; exact Pipeline.withArrays_arr spec4 launch4.win.arr_inj c _ _ w
theorem W18_of_ne (c : Dev nD) (b : Ref sig .tc) (hb : ∀ w, Pipeline.arrRef spec4 w ≠ b) :
    W18 m c (Proc.devRef .tc b) = W17 m c (Proc.devRef .tc b) := by
  unfold W18; exact Pipeline.withArrays_of_ne spec4 c _ _ b hb
abbrev B18 : (c : Dev nD) → (b : Ref sig .tc) → Buf (Elt F) ((c : Thread nD τ).loc b) := fun c b => W18 m c b
theorem hF4 (c : Dev nD) (w : Fin cfg4.W) : (dat4 (B17 m) c).arrAt w cfg4.N = B18 m c (Pipeline.arrRef spec4 w) :=
  (W18_arr m c w).symm
theorem hrest4 (c : Dev nD) : ∀ b, b ∉ Finset.univ.image (Pipeline.arrRef spec4) → B18 m c b = B17 m c b :=
  fun b hb => W18_of_ne m c b fun w e => hb (Finset.mem_image.mpr ⟨w, Finset.mem_univ _, e⟩)
/-- After the host stretch `hostOps5`. -/
abbrev W19 : Dev nD → Valuation τ sig (Elt F) := fun c => StableHlo.after hostOps5 (W18 m c)
/-- Region 5's entry contents read at the TensorCore's references. -/
abbrev B19 : (c : Dev nD) → (b : Ref sig .tc) → Buf (Elt F) ((c : Thread nD τ).loc b) := fun c b => W19 m c b
/-- At region 5's exit: its arrays at what the pipeline leaves, every other buffer as entered. -/
def W20 (c : Dev nD) : Valuation τ sig (Elt F) :=
  Pipeline.withArrays spec5 c (W19 m c) fun w => (dat5 (B19 m) c).arrAt w cfg5.N
theorem W20_arr (c : Dev nD) (w : Fin cfg5.W) :
    W20 m c (Proc.devRef .tc (Pipeline.arrRef spec5 w)) = (dat5 (B19 m) c).arrAt w cfg5.N := by
  unfold W20; exact Pipeline.withArrays_arr spec5 launch5.win.arr_inj c _ _ w
theorem W20_of_ne (c : Dev nD) (b : Ref sig .tc) (hb : ∀ w, Pipeline.arrRef spec5 w ≠ b) :
    W20 m c (Proc.devRef .tc b) = W19 m c (Proc.devRef .tc b) := by
  unfold W20; exact Pipeline.withArrays_of_ne spec5 c _ _ b hb
abbrev B20 : (c : Dev nD) → (b : Ref sig .tc) → Buf (Elt F) ((c : Thread nD τ).loc b) := fun c b => W20 m c b
theorem hF5 (c : Dev nD) (w : Fin cfg5.W) : (dat5 (B19 m) c).arrAt w cfg5.N = B20 m c (Pipeline.arrRef spec5 w) :=
  (W20_arr m c w).symm
theorem hrest5 (c : Dev nD) : ∀ b, b ∉ Finset.univ.image (Pipeline.arrRef spec5) → B20 m c b = B19 m c b :=
  fun b hb => W20_of_ne m c b fun w e => hb (Finset.mem_image.mpr ⟨w, Finset.mem_univ _, e⟩)

/-! ## What each item leaves unchanged -/
theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ hostOps0_1_W) : W2 m c r = W1 m c r :=
  StableHlo.after_of_writes_sub hostOps0_1 _ hostOps0_1_writes h
theorem W3_of (c : Dev nD) (r : Ref sig .tc) (h : r ∉ hostOps0_2_W) : W3 m c r = W2 m c r :=
  StableHlo.after_of_writes_sub hostOps0_2 _ hostOps0_2_writes h
theorem W4_of (c : Dev nD) (r : Ref sig .tc) (h : r ∉ ([main_v8] : List (Ref sig .tc))) : W4 m c r = W3 m c r := by
  by_cases hw : ∃ w, Pipeline.arrRef spec0 w = r
  · obtain ⟨w, rfl⟩ := hw
    have h3 : w ≠ 3 := fun e => h (by subst e; exact List.mem_singleton.mpr rfl)
    refine (W4_arr m c w).trans ?_
    have hin : (cfg0.win w).isOut = false := by
      match w, h3 with
      | ⟨0, _⟩, _ => rfl
      | ⟨1, _⟩, _ => rfl
      | ⟨2, _⟩, _ => rfl
      | ⟨3, _⟩, h3 => exact absurd rfl h3
    exact ((dat0 (B3 m) c).arrAt_in w hin _).trans (A_eq0 (B3 m) c w)
  · exact W4_of_ne m c r fun w e => hw ⟨w, e⟩
theorem W5_of (c : Dev nD) (r : Ref sig .tc) (h : r ∉ hostOps1_W) : W5 m c r = W4 m c r :=
  StableHlo.after_of_writes_sub hostOps1 _ hostOps1_writes h
theorem W6_of (c : Dev nD) (r : Ref sig .tc) (h : r ∉ hostOps1_1_W) : W6 m c r = W5 m c r :=
  StableHlo.after_of_writes_sub hostOps1_1 _ hostOps1_1_writes h
theorem W7_of (c : Dev nD) (r : Ref sig .tc) (h : r ∉ hostOps1_2_W) : W7 m c r = W6 m c r :=
  StableHlo.after_of_writes_sub hostOps1_2 _ hostOps1_2_writes h
theorem W8_of (c : Dev nD) (r : Ref sig .tc) (h : r ∉ ([main_v17] : List (Ref sig .tc))) : W8 m c r = W7 m c r := by
  by_cases hw : ∃ w, Pipeline.arrRef spec1 w = r
  · obtain ⟨w, rfl⟩ := hw
    have h3 : w ≠ 3 := fun e => h (by subst e; exact List.mem_singleton.mpr rfl)
    refine (W8_arr m c w).trans ?_
    have hin : (cfg1.win w).isOut = false := by
      match w, h3 with
      | ⟨0, _⟩, _ => rfl
      | ⟨1, _⟩, _ => rfl
      | ⟨2, _⟩, _ => rfl
      | ⟨3, _⟩, h3 => exact absurd rfl h3
    exact ((dat1 (B7 m) c).arrAt_in w hin _).trans (A_eq1 (B7 m) c w)
  · exact W8_of_ne m c r fun w e => hw ⟨w, e⟩
theorem W9_of (c : Dev nD) (r : Ref sig .tc) (h : r ∉ hostOps2_W) : W9 m c r = W8 m c r :=
  StableHlo.after_of_writes_sub hostOps2 _ hostOps2_writes h
theorem W10_of (c : Dev nD) (r : Ref sig .tc) (h : r ∉ hostOps2_1_W) : W10 m c r = W9 m c r :=
  StableHlo.after_of_writes_sub hostOps2_1 _ hostOps2_1_writes h
theorem W11_of (c : Dev nD) (r : Ref sig .tc) (h : r ∉ hostOps2_2_W) : W11 m c r = W10 m c r :=
  StableHlo.after_of_writes_sub hostOps2_2 _ hostOps2_2_writes h
theorem W12_of (c : Dev nD) (r : Ref sig .tc) (h : r ∉ ([main_v28] : List (Ref sig .tc))) : W12 m c r = W11 m c r := by
  by_cases hw : ∃ w, Pipeline.arrRef spec2 w = r
  · obtain ⟨w, rfl⟩ := hw
    have h3 : w ≠ 3 := fun e => h (by subst e; exact List.mem_singleton.mpr rfl)
    refine (W12_arr m c w).trans ?_
    have hin : (cfg2.win w).isOut = false := by
      match w, h3 with
      | ⟨0, _⟩, _ => rfl
      | ⟨1, _⟩, _ => rfl
      | ⟨2, _⟩, _ => rfl
      | ⟨3, _⟩, h3 => exact absurd rfl h3
    exact ((dat2 (B11 m) c).arrAt_in w hin _).trans (A_eq2 (B11 m) c w)
  · exact W12_of_ne m c r fun w e => hw ⟨w, e⟩
theorem W13_of (c : Dev nD) (r : Ref sig .tc) (h : r ∉ hostOps3_W) : W13 m c r = W12 m c r :=
  StableHlo.after_of_writes_sub hostOps3 _ hostOps3_writes h
theorem W14_of (c : Dev nD) (r : Ref sig .tc) (h : r ∉ hostOps3_1_W) : W14 m c r = W13 m c r :=
  StableHlo.after_of_writes_sub hostOps3_1 _ hostOps3_1_writes h
theorem W15_of (c : Dev nD) (r : Ref sig .tc) (h : r ∉ hostOps3_2_W) : W15 m c r = W14 m c r :=
  StableHlo.after_of_writes_sub hostOps3_2 _ hostOps3_2_writes h
theorem W16_of (c : Dev nD) (r : Ref sig .tc) (h : r ∉ ([main_v37] : List (Ref sig .tc))) : W16 m c r = W15 m c r := by
  by_cases hw : ∃ w, Pipeline.arrRef spec3 w = r
  · obtain ⟨w, rfl⟩ := hw
    have h3 : w ≠ 3 := fun e => h (by subst e; exact List.mem_singleton.mpr rfl)
    refine (W16_arr m c w).trans ?_
    have hin : (cfg3.win w).isOut = false := by
      match w, h3 with
      | ⟨0, _⟩, _ => rfl
      | ⟨1, _⟩, _ => rfl
      | ⟨2, _⟩, _ => rfl
      | ⟨3, _⟩, h3 => exact absurd rfl h3
    exact ((dat3 (B15 m) c).arrAt_in w hin _).trans (A_eq3 (B15 m) c w)
  · exact W16_of_ne m c r fun w e => hw ⟨w, e⟩
theorem W17_of (c : Dev nD) (r : Ref sig .tc) (h : r ∉ hostOps4_W) : W17 m c r = W16 m c r :=
  StableHlo.after_of_writes_sub hostOps4 _ hostOps4_writes h
theorem W18_of (c : Dev nD) (r : Ref sig .tc) (h : r ∉ ([main_v42] : List (Ref sig .tc))) : W18 m c r = W17 m c r := by
  by_cases hw : ∃ w, Pipeline.arrRef spec4 w = r
  · obtain ⟨w, rfl⟩ := hw
    have h3 : w ≠ 3 := fun e => h (by subst e; exact List.mem_singleton.mpr rfl)
    refine (W18_arr m c w).trans ?_
    have hin : (cfg4.win w).isOut = false := by
      match w, h3 with
      | ⟨0, _⟩, _ => rfl
      | ⟨1, _⟩, _ => rfl
      | ⟨2, _⟩, _ => rfl
      | ⟨3, _⟩, h3 => exact absurd rfl h3
    exact ((dat4 (B17 m) c).arrAt_in w hin _).trans (A_eq4 (B17 m) c w)
  · exact W18_of_ne m c r fun w e => hw ⟨w, e⟩
theorem W19_of (c : Dev nD) (r : Ref sig .tc) (h : r ∉ hostOps5_W) : W19 m c r = W18 m c r :=
  StableHlo.after_of_writes_sub hostOps5 _ hostOps5_writes h
theorem W20_of (c : Dev nD) (r : Ref sig .tc) (h : r ∉ ([main_v44] : List (Ref sig .tc))) : W20 m c r = W19 m c r := by
  by_cases hw : ∃ w, Pipeline.arrRef spec5 w = r
  · obtain ⟨w, rfl⟩ := hw
    have h3 : w ≠ 3 := fun e => h (by subst e; exact List.mem_singleton.mpr rfl)
    refine (W20_arr m c w).trans ?_
    have hin : (cfg5.win w).isOut = false := by
      match w, h3 with
      | ⟨0, _⟩, _ => rfl
      | ⟨1, _⟩, _ => rfl
      | ⟨2, _⟩, _ => rfl
      | ⟨3, _⟩, h3 => exact absurd rfl h3
    exact ((dat5 (B19 m) c).arrAt_in w hin _).trans (A_eq5 (B19 m) c w)
  · exact W20_of_ne m c r fun w e => hw ⟨w, e⟩

/-- The references some item writes: the host stretches' results and the regions' output arrays. -/
abbrev written : List (Ref sig .tc) :=
  hostOps0_W ++ hostOps0_1_W ++ hostOps0_2_W ++ [main_v8] ++ hostOps1_W ++ hostOps1_1_W ++ hostOps1_2_W ++ [main_v17] ++ hostOps2_W ++ hostOps2_1_W ++ hostOps2_2_W ++ [main_v28] ++ hostOps3_W ++ hostOps3_1_W ++ hostOps3_2_W ++ [main_v37] ++ hostOps4_W ++ [main_v42] ++ hostOps5_W ++ [main_v44]

/-- A buffer no item writes holds its launch contents at the end. -/
theorem W20_launch (c : Dev nD) (r : Ref sig .tc) (h : r ∉ written) : W20 m c r = m ((c : Thread nD τ).loc r) := by
  simp only [written, List.mem_append, not_or, and_assoc] at h
  obtain ⟨h0, h1, h2, h3, h4, h5, h6, h7, h8, h9, h10, h11, h12, h13, h14, h15, h16, h17, h18, h19⟩ := h
  exact (W20_of m c r h19).trans <| (W19_of m c r h18).trans <| (W18_of m c r h17).trans <| (W17_of m c r h16).trans <| (W16_of m c r h15).trans <| (W15_of m c r h14).trans <| (W14_of m c r h13).trans <| (W13_of m c r h12).trans <| (W12_of m c r h11).trans <| (W11_of m c r h10).trans <| (W10_of m c r h9).trans <| (W9_of m c r h8).trans <| (W8_of m c r h7).trans <| (W7_of m c r h6).trans <| (W6_of m c r h5).trans <| (W5_of m c r h4).trans <| (W4_of m c r h3).trans <| (W3_of m c r h2).trans <| (W2_of m c r h1).trans <| (W1_of m c r h0)

/-! ## The proof data family and the thread state -/

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (B3 m) c
  | ⟨1, _⟩ => fun c => dat1 (B7 m) c
  | ⟨2, _⟩ => fun c => dat2 (B11 m) c
  | ⟨3, _⟩ => fun c => dat3 (B15 m) c
  | ⟨4, _⟩ => fun c => dat4 (B17 m) c
  | ⟨5, _⟩ => fun c => dat5 (B19 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W20 m c) ∗ ∃ r, prngReg c r)

/-! ## The regions as segments -/

set_option backward.isDefEq.respectTransparency.types false in
/-- Region 0 over the thread state: entered from every unscoped buffer at `W3`, left at `W4`. Its arrays are split
    out of the unscoped buffers and put back at the exit contents; the generator register goes into the kernel's
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (B3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (B3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (B3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (B3 m c) (B4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W7`, left at `W8`. Its arrays are split
    out of the unscoped buffers and put back at the exit contents; the generator register goes into the kernel's
    invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (B7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (B7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (B7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (B7 m c) (B8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W11`, left at `W12`. Its arrays are split
    out of the unscoped buffers and put back at the exit contents; the generator register goes into the kernel's
    invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (B11 m) c).loose
  hwaits := Pipeline.hwaits_of_owed_zero _ _ _ _ L lv 2 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec2 c (B11 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (B11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (B11 m c) (B12 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W15`, left at `W16`. Its arrays are split
    out of the unscoped buffers and put back at the exit contents; the generator register goes into the kernel's
    invariant and comes out; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (B15 m) c).loose
  hwaits := Pipeline.hwaits_of_owed_zero _ _ _ _ L lv 3 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec3 c (B15 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (B15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (B15 m c) (B16 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W17`, left at `W18`. Its arrays are split
    out of the unscoped buffers and put back at the exit contents; the generator register goes into the kernel's
    invariant and comes out; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (B17 m) c).loose
  hwaits := Pipeline.hwaits_of_owed_zero _ _ _ _ L lv 4 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec4 c (B17 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (B17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin4 (B17 m) c
  hout c := by
    rw [Pipeline.ownSems0_none]
    exact (hout4 (B17 m) c).trans (by
      iintro ⟨Hp, Hr⟩
      isplitl [Hp]; · iexact Hp
      isplitr; · iempintro
      iexact Hr)
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (B17 m c) (B18 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W19`, left at `W20`. Its arrays are split
    out of the unscoped buffers and put back at the exit contents; the generator register goes into the kernel's
    invariant and comes out; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (B19 m) c).loose
  hwaits := Pipeline.hwaits_of_owed_zero _ _ _ _ L lv 5 fun _ _ => rfl
  pre c := iprop(StableHlo.held (c : Thread nD τ) (Pipeline.ucRefs τ sig) (W19 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (B19 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (B19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (B19 m c) (B20 m c) ((pdats m 5 c).arrAt · cfg5.N) (hF5 m c) (hrest5 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The entry function as segments, and the launch -/

/-- The entry function's 20 items in order: a host segment per stretch from its boundary's contents, a region per kernel call. -/
abbrev segsH : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .host (hseg hostOps1_1 hostOps1_1_sub hostOps1_1_fresh (W5 m)),
    .host (hseg hostOps1_2 hostOps1_2_sub hostOps1_2_fresh (W6 m)),
    .region (reg1 m),
    .host (hseg hostOps2 hostOps2_sub hostOps2_fresh (W8 m)),
    .host (hseg hostOps2_1 hostOps2_1_sub hostOps2_1_fresh (W9 m)),
    .host (hseg hostOps2_2 hostOps2_2_sub hostOps2_2_fresh (W10 m)),
    .region (reg2 m),
    .host (hseg hostOps3 hostOps3_sub hostOps3_fresh (W12 m)),
    .host (hseg hostOps3_1 hostOps3_1_sub hostOps3_1_fresh (W13 m)),
    .host (hseg hostOps3_2 hostOps3_2_sub hostOps3_2_fresh (W14 m)),
    .region (reg3 m),
    .host (hseg hostOps4 hostOps4_sub hostOps4_fresh (W16 m)),
    .region (reg4 m),
    .host (hseg hostOps5 hostOps5_sub hostOps5_fresh (W18 m)),
    .region (reg5 m) ]
/-- The entry function IS the run of the segments. -/
theorem main_run (c : Dev nD) : main (F := F) c = Pipeline.Seg.run (segsH m) := (main_chain c).trans (by chain_rfl)

set_option backward.isDefEq.respectTransparency.types false in
/-- From any memory with zero counters every weakly fair execution of the entry function terminates, nothing faulting,
    and every final state holds every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W20 m c b) :=
  Pipeline.θ_run_regions_kit (pcfgs (F := F)) adm (pdats m) () cellOf_inj emb₁ defs₀ 𝒱₀ L lv m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m c b)
    (hfin := fun c s' => by
      iintro ⟨⟨Hh, -⟩, HSI⟩
      unfold StableHlo.held
      imodintro
      iapply (pointsTo_read_all (Pipeline.ucRefs τ sig) (fun b => (((c : Thread nD τ)).1, b)) (W20 m c) s')
      isplitl [Hh] <;> iassumption)
    (hQ := fun s h => h)

/-- The frame: every argument array ends as launched (no item writes one). -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (W20_launch m c main_arg0 (by decide)),
    (h c _ (mem_uc main_arg1 (by decide))).trans (W20_launch m c main_arg1 (by decide)),
    (h c _ (mem_uc main_arg2 (by decide))).trans (W20_launch m c main_arg2 (by decide)),
    (h c _ (mem_uc main_arg3 (by decide))).trans (W20_launch m c main_arg3 (by decide)),
    (h c _ (mem_uc main_arg4 (by decide))).trans (W20_launch m c main_arg4 (by decide)),
    (h c _ (mem_uc main_arg5 (by decide))).trans (W20_launch m c main_arg5 (by decide)),
    (h c _ (mem_uc main_arg6 (by decide))).trans (W20_launch m c main_arg6 (by decide)),
    (h c _ (mem_uc main_arg7 (by decide))).trans (W20_launch m c main_arg7 (by decide)),
    (h c _ (mem_uc main_arg8 (by decide))).trans (W20_launch m c main_arg8 (by decide)),
    (h c _ (mem_uc main_arg9 (by decide))).trans (W20_launch m c main_arg9 (by decide)),
    (h c _ (mem_uc main_arg10 (by decide))).trans (W20_launch m c main_arg10 (by decide)),
    (h c _ (mem_uc main_arg11 (by decide))).trans (W20_launch m c main_arg11 (by decide)),
    (h c _ (mem_uc main_arg12 (by decide))).trans (W20_launch m c main_arg12 (by decide))⟩) (run_all m ρ)

/-- The value run: the result array ends at the last boundary's contents, the arguments as launched. -/
theorem value_run (ρ : Dev nD → PrngReg) : θ_run defs (onTc (τ := τ) (main (F := F))) ⟨m, fun _ => 0, ρ⟩ (fun r => ∀ c : Dev nD,
      r.2.mem ((c.tc : Thread nD τ).loc main_v44) = W20 m c main_v44
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨h c _ (mem_uc main_v44 (by decide)),
    (h c _ (mem_uc main_arg0 (by decide))).trans (W20_launch m c main_arg0 (by decide)),
    (h c _ (mem_uc main_arg1 (by decide))).trans (W20_launch m c main_arg1 (by decide)),
    (h c _ (mem_uc main_arg2 (by decide))).trans (W20_launch m c main_arg2 (by decide)),
    (h c _ (mem_uc main_arg3 (by decide))).trans (W20_launch m c main_arg3 (by decide)),
    (h c _ (mem_uc main_arg4 (by decide))).trans (W20_launch m c main_arg4 (by decide)),
    (h c _ (mem_uc main_arg5 (by decide))).trans (W20_launch m c main_arg5 (by decide)),
    (h c _ (mem_uc main_arg6 (by decide))).trans (W20_launch m c main_arg6 (by decide)),
    (h c _ (mem_uc main_arg7 (by decide))).trans (W20_launch m c main_arg7 (by decide)),
    (h c _ (mem_uc main_arg8 (by decide))).trans (W20_launch m c main_arg8 (by decide)),
    (h c _ (mem_uc main_arg9 (by decide))).trans (W20_launch m c main_arg9 (by decide)),
    (h c _ (mem_uc main_arg10 (by decide))).trans (W20_launch m c main_arg10 (by decide)),
    (h c _ (mem_uc main_arg11 (by decide))).trans (W20_launch m c main_arg11 (by decide)),
    (h c _ (mem_uc main_arg12 (by decide))).trans (W20_launch m c main_arg12 (by decide))⟩) (run_all m ρ)

end Cert.Kernel.Hand

end
-- ==== Proof.KI.Conv0.lean ====
import proofs.«142023_j26104811225511_2_alg».proof.Proof.Gen.KernelIdeal.Launch
import proofs.«142023_j26104811225511_2_alg».proof.Proof.Gen.KernelIdeal.Skeleton
import proofs.«142023_j26104811225511_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))
/-! # Region 0: the 3×3 convolution kernel `cc0__conv_kernel_body`, at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the point fetches it or not,
    for any proof data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the point fetches it or not,
    for any proof data whose array is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the point fetches it or not,
    for any proof data whose array is the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes through -/

-- tap (a, b) reads the padded input block shifted by a rows and b columns
abbrev rIn0_0_0 : Rect S2x66x66x1 := Rect.unit (s := S2x66x66x1) ![0, 0, 0, 0] S2x64x64x1.size inb_S2x66x66x1_S2x64x64x1_0_0_0_0
abbrev rIn0_0_1 : Rect S2x66x66x1 := Rect.unit (s := S2x66x66x1) ![0, 0, 1, 0] S2x64x64x1.size inb_S2x66x66x1_S2x64x64x1_0_0_1_0
abbrev rIn0_0_2 : Rect S2x66x66x1 := Rect.unit (s := S2x66x66x1) ![0, 0, 2, 0] S2x64x64x1.size inb_S2x66x66x1_S2x64x64x1_0_0_2_0
abbrev rIn0_1_0 : Rect S2x66x66x1 := Rect.unit (s := S2x66x66x1) ![0, 1, 0, 0] S2x64x64x1.size inb_S2x66x66x1_S2x64x64x1_0_1_0_0
abbrev rIn0_1_1 : Rect S2x66x66x1 := Rect.unit (s := S2x66x66x1) ![0, 1, 1, 0] S2x64x64x1.size inb_S2x66x66x1_S2x64x64x1_0_1_1_0
abbrev rIn0_1_2 : Rect S2x66x66x1 := Rect.unit (s := S2x66x66x1) ![0, 1, 2, 0] S2x64x64x1.size inb_S2x66x66x1_S2x64x64x1_0_1_2_0
abbrev rIn0_2_0 : Rect S2x66x66x1 := Rect.unit (s := S2x66x66x1) ![0, 2, 0, 0] S2x64x64x1.size inb_S2x66x66x1_S2x64x64x1_0_2_0_0
abbrev rIn0_2_1 : Rect S2x66x66x1 := Rect.unit (s := S2x66x66x1) ![0, 2, 1, 0] S2x64x64x1.size inb_S2x66x66x1_S2x64x64x1_0_2_1_0
abbrev rIn0_2_2 : Rect S2x66x66x1 := Rect.unit (s := S2x66x66x1) ![0, 2, 2, 0] S2x64x64x1.size inb_S2x66x66x1_S2x64x64x1_0_2_2_0
-- tap n = 3a + b reads rows [n·1, (n+1)·1) of the weights
abbrev rWt0_0 : Rect S9x64 := Rect.unit (s := S9x64) ![0, 0] S1x64.size inb_S9x64_S1x64_0_0
abbrev rWt0_1 : Rect S9x64 := Rect.unit (s := S9x64) ![1, 0] S1x64.size inb_S9x64_S1x64_1_0
abbrev rWt0_2 : Rect S9x64 := Rect.unit (s := S9x64) ![2, 0] S1x64.size inb_S9x64_S1x64_2_0
abbrev rWt0_3 : Rect S9x64 := Rect.unit (s := S9x64) ![3, 0] S1x64.size inb_S9x64_S1x64_3_0
abbrev rWt0_4 : Rect S9x64 := Rect.unit (s := S9x64) ![4, 0] S1x64.size inb_S9x64_S1x64_4_0
abbrev rWt0_5 : Rect S9x64 := Rect.unit (s := S9x64) ![5, 0] S1x64.size inb_S9x64_S1x64_5_0
abbrev rWt0_6 : Rect S9x64 := Rect.unit (s := S9x64) ![6, 0] S1x64.size inb_S9x64_S1x64_6_0
abbrev rWt0_7 : Rect S9x64 := Rect.unit (s := S9x64) ![7, 0] S1x64.size inb_S9x64_S1x64_7_0
abbrev rWt0_8 : Rect S9x64 := Rect.unit (s := S9x64) ![8, 0] S1x64.size inb_S9x64_S1x64_8_0
abbrev rTh0 : Rect S64x64x64 := Rect.unit (s := S64x64x64) ![0, 0, 0] S64x64x64.size inb_S64x64x64_S64x64x64_0_0_0
abbrev rOut0 : Rect S2x64x64x64 := Rect.unit (s := S2x64x64x64) ![0, 0, 0, 0] S2x64x64x64.size inb_S2x64x64x64_S2x64x64x64_0_0_0_0

/-! ## What the body leaves in the output window's buffer -/

/-- The nine taps' products summed, three taps at a time. -/
def acc0 (x0 : Vec F S2x66x66x1 .f32) (x1 : Vec F S9x64 .f32) : FVec F S2x64x64x64 .f32 :=
  k0_pay4 (k0_pay3 (k0_pay2 (View.ld x0 rIn0_0_0) (View.ld x1 rWt0_0) (View.ld x0 rIn0_0_1) (View.ld x1 rWt0_1) (View.ld x0 rIn0_0_2) (View.ld x1 rWt0_2))
      (View.ld x0 rIn0_1_0) (View.ld x1 rWt0_3) (View.ld x0 rIn0_1_1) (View.ld x1 rWt0_4) (View.ld x0 rIn0_1_2) (View.ld x1 rWt0_5))
    (View.ld x0 rIn0_2_0) (View.ld x1 rWt0_6) (View.ld x0 rIn0_2_1) (View.ld x1 rWt0_7) (View.ld x0 rIn0_2_2) (View.ld x1 rWt0_8)

/-- Window 3's staging buffer after the body, from the input windows' blocks: its one store, whole. -/
def out0_3 (x0 : Vec F S2x66x66x1 .f32) (x1 : Vec F S9x64 .f32) (x2 : Vec F S64x64x64 .f32) : Vec F S2x64x64x64 .f32 :=
  View.canon [⟨rOut0, k0_pay1 (acc0 x0 x1) (k0_pay5 (View.ld x2 rTh0)) (Scalar.ofBits .f32 0x44BB8000#32)⟩]

/-- The one store tiles the buffer, so it covers it. -/
theorem cover0_3 (p0 : Vec F S2x64x64x64 .f32) (y : S2x64x64x64.Idx) :
    ∃ pc ∈ ([⟨rOut0, p0⟩] : List (View.Piece (Elt F) S2x64x64x64 .f32)), y ∈ pc.1.set :=
  View.cover_of_tiled [⟨rOut0, p0⟩] S2x64x64x64.size (by rfl) y

/-! ## The body's triple -/

set_option maxHeartbeats 4000000 in
/-- The kernel body on whole staging memrefs, the three inputs' at read contents and the output's at anything, runs to the
    continuation holding the inputs' as they were and the output's at `out0_3` of the inputs'. -/
theorem sound_kernel0 (c : Dev nD) (E : Set ℕ) (i : grid0.Coords) (arg1 : Memref sig .tc .vmem S2x66x66x1 .f32) (harg1 : arg1.IsWhole) (arg2 : Memref sig .tc .vmem S9x64 .f32) (harg2 : arg2.IsWhole) (arg3 : Memref sig .tc .vmem S64x64x64 .f32) (harg3 : arg3.IsWhole) (arg4 : Memref sig .tc .vmem S2x64x64x64 .f32) (harg4 : arg4.IsWhole)
    (x0 : Vec F S2x66x66x1 .f32) (x1 : Vec F S9x64 .f32) (x2 : Vec F S64x64x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__conv_kernel_body i arg1 harg1 arg2 harg2 arg3 harg3 arg4 harg4) K := by
  simp only [cc0__conv_kernel_body_eq_skeleton]; unfold cc0__conv_kernel_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this pipeline on core `c`: the arrays as the region finds them; after the body at point `t` each
    input's buffer at its block and the output's at `out0_3` of the input blocks; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the kernel's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.KI.Conv1.lean ====
import proofs.«142023_j26104811225511_2_alg».proof.Proof.Gen.KernelIdeal.Launch
import proofs.«142023_j26104811225511_2_alg».proof.Proof.Gen.KernelIdeal.Skeleton
import proofs.«142023_j26104811225511_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))
/-! # Region 1: the 3×3 convolution kernel `cc1__conv_kernel_body`, at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the point fetches it or not,
    for any proof data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the point fetches it or not,
    for any proof data whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the point fetches it or not,
    for any proof data whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes through -/

-- tap (a, b) reads the padded input block shifted by a rows and b columns
abbrev rIn1_0_0 : Rect S2x66x66x64 := Rect.unit (s := S2x66x66x64) ![0, 0, 0, 0] S2x64x64x64.size inb_S2x66x66x64_S2x64x64x64_0_0_0_0
abbrev rIn1_0_1 : Rect S2x66x66x64 := Rect.unit (s := S2x66x66x64) ![0, 0, 1, 0] S2x64x64x64.size inb_S2x66x66x64_S2x64x64x64_0_0_1_0
abbrev rIn1_0_2 : Rect S2x66x66x64 := Rect.unit (s := S2x66x66x64) ![0, 0, 2, 0] S2x64x64x64.size inb_S2x66x66x64_S2x64x64x64_0_0_2_0
abbrev rIn1_1_0 : Rect S2x66x66x64 := Rect.unit (s := S2x66x66x64) ![0, 1, 0, 0] S2x64x64x64.size inb_S2x66x66x64_S2x64x64x64_0_1_0_0
abbrev rIn1_1_1 : Rect S2x66x66x64 := Rect.unit (s := S2x66x66x64) ![0, 1, 1, 0] S2x64x64x64.size inb_S2x66x66x64_S2x64x64x64_0_1_1_0
abbrev rIn1_1_2 : Rect S2x66x66x64 := Rect.unit (s := S2x66x66x64) ![0, 1, 2, 0] S2x64x64x64.size inb_S2x66x66x64_S2x64x64x64_0_1_2_0
abbrev rIn1_2_0 : Rect S2x66x66x64 := Rect.unit (s := S2x66x66x64) ![0, 2, 0, 0] S2x64x64x64.size inb_S2x66x66x64_S2x64x64x64_0_2_0_0
abbrev rIn1_2_1 : Rect S2x66x66x64 := Rect.unit (s := S2x66x66x64) ![0, 2, 1, 0] S2x64x64x64.size inb_S2x66x66x64_S2x64x64x64_0_2_1_0
abbrev rIn1_2_2 : Rect S2x66x66x64 := Rect.unit (s := S2x66x66x64) ![0, 2, 2, 0] S2x64x64x64.size inb_S2x66x66x64_S2x64x64x64_0_2_2_0
-- tap n = 3a + b reads rows [n·64, (n+1)·64) of the weights
abbrev rWt1_0 : Rect S576x64 := Rect.unit (s := S576x64) ![0, 0] S64x64.size inb_S576x64_S64x64_0_0
abbrev rWt1_1 : Rect S576x64 := Rect.unit (s := S576x64) ![64, 0] S64x64.size inb_S576x64_S64x64_64_0
abbrev rWt1_2 : Rect S576x64 := Rect.unit (s := S576x64) ![128, 0] S64x64.size inb_S576x64_S64x64_128_0
abbrev rWt1_3 : Rect S576x64 := Rect.unit (s := S576x64) ![192, 0] S64x64.size inb_S576x64_S64x64_192_0
abbrev rWt1_4 : Rect S576x64 := Rect.unit (s := S576x64) ![256, 0] S64x64.size inb_S576x64_S64x64_256_0
abbrev rWt1_5 : Rect S576x64 := Rect.unit (s := S576x64) ![320, 0] S64x64.size inb_S576x64_S64x64_320_0
abbrev rWt1_6 : Rect S576x64 := Rect.unit (s := S576x64) ![384, 0] S64x64.size inb_S576x64_S64x64_384_0
abbrev rWt1_7 : Rect S576x64 := Rect.unit (s := S576x64) ![448, 0] S64x64.size inb_S576x64_S64x64_448_0
abbrev rWt1_8 : Rect S576x64 := Rect.unit (s := S576x64) ![512, 0] S64x64.size inb_S576x64_S64x64_512_0
abbrev rTh1 : Rect S64x64x64 := Rect.unit (s := S64x64x64) ![0, 0, 0] S64x64x64.size inb_S64x64x64_S64x64x64_0_0_0
abbrev rOut1 : Rect S2x64x64x64 := Rect.unit (s := S2x64x64x64) ![0, 0, 0, 0] S2x64x64x64.size inb_S2x64x64x64_S2x64x64x64_0_0_0_0

/-! ## What the body leaves in the output window's buffer -/

/-- The nine taps' products summed, three taps at a time. -/
def acc1 (x0 : Vec F S2x66x66x64 .f32) (x1 : Vec F S576x64 .f32) : FVec F S2x64x64x64 .f32 :=
  k1_pay4 (k1_pay3 (k1_pay2 (View.ld x0 rIn1_0_0) (View.ld x1 rWt1_0) (View.ld x0 rIn1_0_1) (View.ld x1 rWt1_1) (View.ld x0 rIn1_0_2) (View.ld x1 rWt1_2))
      (View.ld x0 rIn1_1_0) (View.ld x1 rWt1_3) (View.ld x0 rIn1_1_1) (View.ld x1 rWt1_4) (View.ld x0 rIn1_1_2) (View.ld x1 rWt1_5))
    (View.ld x0 rIn1_2_0) (View.ld x1 rWt1_6) (View.ld x0 rIn1_2_1) (View.ld x1 rWt1_7) (View.ld x0 rIn1_2_2) (View.ld x1 rWt1_8)

/-- Window 3's staging buffer after the body, from the input windows' blocks: its one store, whole. -/
def out1_3 (x0 : Vec F S2x66x66x64 .f32) (x1 : Vec F S576x64 .f32) (x2 : Vec F S64x64x64 .f32) : Vec F S2x64x64x64 .f32 :=
  View.canon [⟨rOut1, k1_pay1 (acc1 x0 x1) (k1_pay5 (View.ld x2 rTh1)) (Scalar.ofBits .f32 0x453B8000#32)⟩]

/-- The one store tiles the buffer, so it covers it. -/
theorem cover1_3 (p0 : Vec F S2x64x64x64 .f32) (y : S2x64x64x64.Idx) :
    ∃ pc ∈ ([⟨rOut1, p0⟩] : List (View.Piece (Elt F) S2x64x64x64 .f32)), y ∈ pc.1.set :=
  View.cover_of_tiled [⟨rOut1, p0⟩] S2x64x64x64.size (by rfl) y

/-! ## The body's triple -/

set_option maxHeartbeats 4000000 in
/-- The kernel body on whole staging memrefs, the three inputs' at read contents and the output's at anything, runs to the
    continuation holding the inputs' as they were and the output's at `out1_3` of the inputs'. -/
theorem sound_kernel1 (c : Dev nD) (E : Set ℕ) (i : grid1.Coords) (arg1 : Memref sig .tc .vmem S2x66x66x64 .f32) (harg1 : arg1.IsWhole) (arg2 : Memref sig .tc .vmem S576x64 .f32) (harg2 : arg2.IsWhole) (arg3 : Memref sig .tc .vmem S64x64x64 .f32) (harg3 : arg3.IsWhole) (arg4 : Memref sig .tc .vmem S2x64x64x64 .f32) (harg4 : arg4.IsWhole)
    (x0 : Vec F S2x66x66x64 .f32) (x1 : Vec F S576x64 .f32) (x2 : Vec F S64x64x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__conv_kernel_body i arg1 harg1 arg2 harg2 arg3 harg3 arg4 harg4) K := by
  simp only [cc1__conv_kernel_body_eq_skeleton]; unfold cc1__conv_kernel_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this pipeline on core `c`: the arrays as the region finds them; after the body at point `t` each
    input's buffer at its block and the output's at `out1_3` of the input blocks; the invariant is the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the kernel's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand
-- ==== Proof.KI.Conv2.lean ====
import proofs.«142023_j26104811225511_2_alg».proof.Proof.Gen.KernelIdeal.Launch
import proofs.«142023_j26104811225511_2_alg».proof.Proof.Gen.KernelIdeal.Skeleton
import proofs.«142023_j26104811225511_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))
/-! # Region 2: the 3×3 convolution kernel `cc2__conv_kernel_body`, at the entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the point fetches it or not,
    for any proof data whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether the point fetches it or not,
    for any proof data whose array is the entry contents and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether the point fetches it or not,
    for any proof data whose array is the entry contents and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes through -/

-- tap (a, b) reads the padded input block shifted by a rows and b columns
abbrev rIn2_0_0 : Rect S2x34x34x64 := Rect.unit (s := S2x34x34x64) ![0, 0, 0, 0] S2x32x32x64.size inb_S2x34x34x64_S2x32x32x64_0_0_0_0
abbrev rIn2_0_1 : Rect S2x34x34x64 := Rect.unit (s := S2x34x34x64) ![0, 0, 1, 0] S2x32x32x64.size inb_S2x34x34x64_S2x32x32x64_0_0_1_0
abbrev rIn2_0_2 : Rect S2x34x34x64 := Rect.unit (s := S2x34x34x64) ![0, 0, 2, 0] S2x32x32x64.size inb_S2x34x34x64_S2x32x32x64_0_0_2_0
abbrev rIn2_1_0 : Rect S2x34x34x64 := Rect.unit (s := S2x34x34x64) ![0, 1, 0, 0] S2x32x32x64.size inb_S2x34x34x64_S2x32x32x64_0_1_0_0
abbrev rIn2_1_1 : Rect S2x34x34x64 := Rect.unit (s := S2x34x34x64) ![0, 1, 1, 0] S2x32x32x64.size inb_S2x34x34x64_S2x32x32x64_0_1_1_0
abbrev rIn2_1_2 : Rect S2x34x34x64 := Rect.unit (s := S2x34x34x64) ![0, 1, 2, 0] S2x32x32x64.size inb_S2x34x34x64_S2x32x32x64_0_1_2_0
abbrev rIn2_2_0 : Rect S2x34x34x64 := Rect.unit (s := S2x34x34x64) ![0, 2, 0, 0] S2x32x32x64.size inb_S2x34x34x64_S2x32x32x64_0_2_0_0
abbrev rIn2_2_1 : Rect S2x34x34x64 := Rect.unit (s := S2x34x34x64) ![0, 2, 1, 0] S2x32x32x64.size inb_S2x34x34x64_S2x32x32x64_0_2_1_0
abbrev rIn2_2_2 : Rect S2x34x34x64 := Rect.unit (s := S2x34x34x64) ![0, 2, 2, 0] S2x32x32x64.size inb_S2x34x34x64_S2x32x32x64_0_2_2_0
-- tap n = 3a + b reads rows [n·64, (n+1)·64) of the weights
abbrev rWt2_0 : Rect S576x128 := Rect.unit (s := S576x128) ![0, 0] S64x128.size inb_S576x128_S64x128_0_0
abbrev rWt2_1 : Rect S576x128 := Rect.unit (s := S576x128) ![64, 0] S64x128.size inb_S576x128_S64x128_64_0
abbrev rWt2_2 : Rect S576x128 := Rect.unit (s := S576x128) ![128, 0] S64x128.size inb_S576x128_S64x128_128_0
abbrev rWt2_3 : Rect S576x128 := Rect.unit (s := S576x128) ![192, 0] S64x128.size inb_S576x128_S64x128_192_0
abbrev rWt2_4 : Rect S576x128 := Rect.unit (s := S576x128) ![256, 0] S64x128.size inb_S576x128_S64x128_256_0
abbrev rWt2_5 : Rect S576x128 := Rect.unit (s := S576x128) ![320, 0] S64x128.size inb_S576x128_S64x128_320_0
abbrev rWt2_6 : Rect S576x128 := Rect.unit (s := S576x128) ![384, 0] S64x128.size inb_S576x128_S64x128_384_0
abbrev rWt2_7 : Rect S576x128 := Rect.unit (s := S576x128) ![448, 0] S64x128.size inb_S576x128_S64x128_448_0
abbrev rWt2_8 : Rect S576x128 := Rect.unit (s := S576x128) ![512, 0] S64x128.size inb_S576x128_S64x128_512_0
abbrev rTh2 : Rect S32x32x128 := Rect.unit (s := S32x32x128) ![0, 0, 0] S32x32x128.size inb_S32x32x128_S32x32x128_0_0_0
abbrev rOut2 : Rect S2x32x32x128 := Rect.unit (s := S2x32x32x128) ![0, 0, 0, 0] S2x32x32x128.size inb_S2x32x32x128_S2x32x32x128_0_0_0_0

/-! ## What the body leaves in the output window's buffer -/

/-- The nine taps' products summed, three taps at a time. -/
def acc2 (x0 : Vec F S2x34x34x64 .f32) (x1 : Vec F S576x128 .f32) : FVec F S2x32x32x128 .f32 :=
  k2_pay4 (k2_pay3 (k2_pay2 (View.ld x0 rIn2_0_0) (View.ld x1 rWt2_0) (View.ld x0 rIn2_0_1) (View.ld x1 rWt2_1) (View.ld x0 rIn2_0_2) (View.ld x1 rWt2_2))
      (View.ld x0 rIn2_1_0) (View.ld x1 rWt2_3) (View.ld x0 rIn2_1_1) (View.ld x1 rWt2_4) (View.ld x0 rIn2_1_2) (View.ld x1 rWt2_5))
    (View.ld x0 rIn2_2_0) (View.ld x1 rWt2_6) (View.ld x0 rIn2_2_1) (View.ld x1 rWt2_7) (View.ld x0 rIn2_2_2) (View.ld x1 rWt2_8)

/-- Window 3's staging buffer after the body, from the input windows' blocks: its one store, whole. -/
def out2_3 (x0 : Vec F S2x34x34x64 .f32) (x1 : Vec F S576x128 .f32) (x2 : Vec F S32x32x128 .f32) : Vec F S2x32x32x128 .f32 :=
  View.canon [⟨rOut2, k2_pay1 (acc2 x0 x1) (k2_pay5 (View.ld x2 rTh2)) (Scalar.ofBits .f32 0x458CA000#32)⟩]

/-- The one store tiles the buffer, so it covers it. -/
theorem cover2_3 (p0 : Vec F S2x32x32x128 .f32) (y : S2x32x32x128.Idx) :
    ∃ pc ∈ ([⟨rOut2, p0⟩] : List (View.Piece (Elt F) S2x32x32x128 .f32)), y ∈ pc.1.set :=
  View.cover_of_tiled [⟨rOut2, p0⟩] S2x32x32x128.size (by rfl) y

/-! ## The body's triple -/

set_option maxHeartbeats 4000000 in
/-- The kernel body on whole staging memrefs, the three inputs' at read contents and the output's at anything, runs to the
    continuation holding the inputs' as they were and the output's at `out2_3` of the inputs'. -/
theorem sound_kernel2 (c : Dev nD) (E : Set ℕ) (i : grid2.Coords) (arg1 : Memref sig .tc .vmem S2x34x34x64 .f32) (harg1 : arg1.IsWhole) (arg2 : Memref sig .tc .vmem S576x128 .f32) (harg2 : arg2.IsWhole) (arg3 : Memref sig .tc .vmem S32x32x128 .f32) (harg3 : arg3.IsWhole) (arg4 : Memref sig .tc .vmem S2x32x32x128 .f32) (harg4 : arg4.IsWhole)
    (x0 : Vec F S2x34x34x64 .f32) (x1 : Vec F S576x128 .f32) (x2 : Vec F S32x32x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__conv_kernel_body i arg1 harg1 arg2 harg2 arg3 harg3 arg4 harg4) K := by
  simp only [cc2__conv_kernel_body_eq_skeleton]; unfold cc2__conv_kernel_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of this pipeline on core `c`: the arrays as the region finds them; after the body at point `t` each
    input's buffer at its block and the output's at `out2_3` of the input blocks; the invariant is the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the kernel's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand
-- ==== Proof.KI.Conv3.lean ====
import proofs.«142023_j26104811225511_2_alg».proof.Proof.Gen.KernelIdeal.Launch
import proofs.«142023_j26104811225511_2_alg».proof.Proof.Gen.KernelIdeal.Skeleton
import proofs.«142023_j26104811225511_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))
/-! # Region 3: the 3×3 convolution kernel `cc3__conv_kernel_body`, at the entry contents `V` -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether the point fetches it or not,
    for any proof data whose array is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether the point fetches it or not,
    for any proof data whose array is the entry contents and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, whether the point fetches it or not,
    for any proof data whose array is the entry contents and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes through -/

-- tap (a, b) reads the padded input block shifted by a rows and b columns
abbrev rIn3_0_0 : Rect S2x34x34x128 := Rect.unit (s := S2x34x34x128) ![0, 0, 0, 0] S2x32x32x128.size inb_S2x34x34x128_S2x32x32x128_0_0_0_0
abbrev rIn3_0_1 : Rect S2x34x34x128 := Rect.unit (s := S2x34x34x128) ![0, 0, 1, 0] S2x32x32x128.size inb_S2x34x34x128_S2x32x32x128_0_0_1_0
abbrev rIn3_0_2 : Rect S2x34x34x128 := Rect.unit (s := S2x34x34x128) ![0, 0, 2, 0] S2x32x32x128.size inb_S2x34x34x128_S2x32x32x128_0_0_2_0
abbrev rIn3_1_0 : Rect S2x34x34x128 := Rect.unit (s := S2x34x34x128) ![0, 1, 0, 0] S2x32x32x128.size inb_S2x34x34x128_S2x32x32x128_0_1_0_0
abbrev rIn3_1_1 : Rect S2x34x34x128 := Rect.unit (s := S2x34x34x128) ![0, 1, 1, 0] S2x32x32x128.size inb_S2x34x34x128_S2x32x32x128_0_1_1_0
abbrev rIn3_1_2 : Rect S2x34x34x128 := Rect.unit (s := S2x34x34x128) ![0, 1, 2, 0] S2x32x32x128.size inb_S2x34x34x128_S2x32x32x128_0_1_2_0
abbrev rIn3_2_0 : Rect S2x34x34x128 := Rect.unit (s := S2x34x34x128) ![0, 2, 0, 0] S2x32x32x128.size inb_S2x34x34x128_S2x32x32x128_0_2_0_0
abbrev rIn3_2_1 : Rect S2x34x34x128 := Rect.unit (s := S2x34x34x128) ![0, 2, 1, 0] S2x32x32x128.size inb_S2x34x34x128_S2x32x32x128_0_2_1_0
abbrev rIn3_2_2 : Rect S2x34x34x128 := Rect.unit (s := S2x34x34x128) ![0, 2, 2, 0] S2x32x32x128.size inb_S2x34x34x128_S2x32x32x128_0_2_2_0
-- tap n = 3a + b reads rows [n·128, (n+1)·128) of the weights
abbrev rWt3_0 : Rect S1152x128 := Rect.unit (s := S1152x128) ![0, 0] S128x128.size inb_S1152x128_S128x128_0_0
abbrev rWt3_1 : Rect S1152x128 := Rect.unit (s := S1152x128) ![128, 0] S128x128.size inb_S1152x128_S128x128_128_0
abbrev rWt3_2 : Rect S1152x128 := Rect.unit (s := S1152x128) ![256, 0] S128x128.size inb_S1152x128_S128x128_256_0
abbrev rWt3_3 : Rect S1152x128 := Rect.unit (s := S1152x128) ![384, 0] S128x128.size inb_S1152x128_S128x128_384_0
abbrev rWt3_4 : Rect S1152x128 := Rect.unit (s := S1152x128) ![512, 0] S128x128.size inb_S1152x128_S128x128_512_0
abbrev rWt3_5 : Rect S1152x128 := Rect.unit (s := S1152x128) ![640, 0] S128x128.size inb_S1152x128_S128x128_640_0
abbrev rWt3_6 : Rect S1152x128 := Rect.unit (s := S1152x128) ![768, 0] S128x128.size inb_S1152x128_S128x128_768_0
abbrev rWt3_7 : Rect S1152x128 := Rect.unit (s := S1152x128) ![896, 0] S128x128.size inb_S1152x128_S128x128_896_0
abbrev rWt3_8 : Rect S1152x128 := Rect.unit (s := S1152x128) ![1024, 0] S128x128.size inb_S1152x128_S128x128_1024_0
abbrev rTh3 : Rect S32x32x128 := Rect.unit (s := S32x32x128) ![0, 0, 0] S32x32x128.size inb_S32x32x128_S32x32x128_0_0_0
abbrev rOut3 : Rect S2x32x32x128 := Rect.unit (s := S2x32x32x128) ![0, 0, 0, 0] S2x32x32x128.size inb_S2x32x32x128_S2x32x32x128_0_0_0_0

/-! ## What the body leaves in the output window's buffer -/

/-- The nine taps' products summed, three taps at a time. -/
def acc3 (x0 : Vec F S2x34x34x128 .f32) (x1 : Vec F S1152x128 .f32) : FVec F S2x32x32x128 .f32 :=
  k3_pay4 (k3_pay3 (k3_pay2 (View.ld x0 rIn3_0_0) (View.ld x1 rWt3_0) (View.ld x0 rIn3_0_1) (View.ld x1 rWt3_1) (View.ld x0 rIn3_0_2) (View.ld x1 rWt3_2))
      (View.ld x0 rIn3_1_0) (View.ld x1 rWt3_3) (View.ld x0 rIn3_1_1) (View.ld x1 rWt3_4) (View.ld x0 rIn3_1_2) (View.ld x1 rWt3_5))
    (View.ld x0 rIn3_2_0) (View.ld x1 rWt3_6) (View.ld x0 rIn3_2_1) (View.ld x1 rWt3_7) (View.ld x0 rIn3_2_2) (View.ld x1 rWt3_8)

/-- Window 3's staging buffer after the body, from the input windows' blocks: its one store, whole. -/
def out3_3 (x0 : Vec F S2x34x34x128 .f32) (x1 : Vec F S1152x128 .f32) (x2 : Vec F S32x32x128 .f32) : Vec F S2x32x32x128 .f32 :=
  View.canon [⟨rOut3, k3_pay1 (acc3 x0 x1) (k3_pay5 (View.ld x2 rTh3)) (Scalar.ofBits .f32 0x45BB8000#32)⟩]

/-- The one store tiles the buffer, so it covers it. -/
theorem cover3_3 (p0 : Vec F S2x32x32x128 .f32) (y : S2x32x32x128.Idx) :
    ∃ pc ∈ ([⟨rOut3, p0⟩] : List (View.Piece (Elt F) S2x32x32x128 .f32)), y ∈ pc.1.set :=
  View.cover_of_tiled [⟨rOut3, p0⟩] S2x32x32x128.size (by rfl) y

/-! ## The body's triple -/

set_option maxHeartbeats 4000000 in
/-- The kernel body on whole staging memrefs, the three inputs' at read contents and the output's at anything, runs to the
    continuation holding the inputs' as they were and the output's at `out3_3` of the inputs'. -/
theorem sound_kernel3 (c : Dev nD) (E : Set ℕ) (i : grid3.Coords) (arg1 : Memref sig .tc .vmem S2x34x34x128 .f32) (harg1 : arg1.IsWhole) (arg2 : Memref sig .tc .vmem S1152x128 .f32) (harg2 : arg2.IsWhole) (arg3 : Memref sig .tc .vmem S32x32x128 .f32) (harg3 : arg3.IsWhole) (arg4 : Memref sig .tc .vmem S2x32x32x128 .f32) (harg4 : arg4.IsWhole)
    (x0 : Vec F S2x34x34x128 .f32) (x1 : Vec F S1152x128 .f32) (x2 : Vec F S32x32x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__conv_kernel_body i arg1 harg1 arg2 harg2 arg3 harg3 arg4 harg4) K := by
  simp only [cc3__conv_kernel_body_eq_skeleton]; unfold cc3__conv_kernel_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of this pipeline on core `c`: the arrays as the region finds them; after the body at point `t` each
    input's buffer at its block and the output's at `out3_3` of the input blocks; the invariant is the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the kernel's triple applies; the invariant and the
    core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand
-- ==== Proof.KI.DenseRun.lean ====
/- Region 4 of the main function: the dense layer tiled over its contraction axis, with a scratch accumulator
   carried from grid point to grid point. This module runs the kernel body once per control case (first point: reset and
   step; middle points: step; last point: step and store the output), each on arbitrary whole memrefs, and states what every
   buffer holds afterwards in closed form over the payloads of the body's stores. -/
import proofs.«142023_j26104811225511_2_alg».proof.Proof.Gen.KernelIdeal.Launch
import proofs.«142023_j26104811225511_2_alg».proof.Proof.Gen.KernelIdeal.Skeleton
import proofs.«142023_j26104811225511_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions of the body, in closed form over the grid -/

/-- The first conditional's test (the point's coordinate is 0), as the skeleton computes it. -/
abbrev cond4_0 (i : grid4.Coords) : Prop := (Scalar.cmpi .ne (Scalar.extui (Scalar.cmpi .eq (BitVec.ofNat 32 (i 0).val) 0#32)) 0#32) = 1#1
/-- The second conditional's test (the point's coordinate is 7). -/
abbrev cond4_1 (i : grid4.Coords) : Prop := k4_cond2 i = 1#1
theorem hcond4_0 : ∀ t : Fin cfg4.N, cond4_0 (grid4.coords t) ↔ t.val % 8 = 0 :=
  (by decide +kernel : ∀ t : Fin grid4.N, cond4_0 (grid4.coords t) ↔ t.val % 8 = 0)
theorem hcond4_1 : ∀ t : Fin cfg4.N, cond4_1 (grid4.coords t) ↔ t.val % 8 = 7 :=
  (by decide +kernel : ∀ t : Fin grid4.N, cond4_1 (grid4.coords t) ↔ t.val % 8 = 7)

/-- Windows 0, 1, 2 are inputs, never idle; window 3 is idle exactly where the second test fails. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem idleAt4_3 : ∀ t : Fin cfg4.N, ¬cond4_1 (grid4.coords t) → cfg4.idle 3 (grid4.coords t) = true := by decide +kernel
theorem liveAt4_3 : ∀ t : Fin cfg4.N, cond4_1 (grid4.coords t) → cfg4.idle 3 (grid4.coords t) = false := by decide +kernel
theorem noFlush4_3 : ∀ t : Fin cfg4.N, ¬cond4_1 (grid4.coords t) → (cfg4.win 3).flush t = false := by decide +kernel

/-! ## The body's accesses: every load and store is of a whole buffer -/

abbrev rX : Rect S32x4096 := Rect.unit (s := S32x4096) ![0, 0] S32x4096.size inb_S32x4096_S32x4096_0_0
abbrev rW : Rect S4096x256 := Rect.unit (s := S4096x256) ![0, 0] S4096x256.size inb_S4096x256_S4096x256_0_0
abbrev rD : Rect S1x256 := Rect.unit (s := S1x256) ![0, 0] S1x256.size inb_S1x256_S1x256_0_0
abbrev rA : Rect S32x256 := Rect.unit (s := S32x256) ![0, 0] S32x256.size inb_S32x256_S32x256_0_0

/-- One store through `rA` tiles a `32×256` buffer, so it covers it. -/
theorem coverA (p : rA.shape.Idx → Elt F .f32) (y : S32x256.Idx) :
    ∃ pc ∈ ([⟨rA, p⟩] : List (View.Piece (Elt F) S32x256 .f32)), y ∈ pc.1.set :=
  View.cover_of_tiled [⟨rA, p⟩] S32x256.size (by rfl) y

theorem mem_rA (p : rA.shape.Idx → Elt F .f32) (y : S32x256.Idx) : y ∈ rA.set := by
  obtain ⟨pc, hm, hy⟩ := coverA p y
  rw [List.mem_singleton] at hm; subst hm; exact hy

/-- Under a store that covers the buffer, the earlier stores do not show. -/
theorem canon_cons_whole (p : rA.shape.Idx → Elt F .f32) (L L' : List (View.Piece (Elt F) S32x256 .f32)) :
    View.canon (⟨rA, p⟩ :: L) = View.canon (⟨rA, p⟩ :: L') := by
  funext y
  obtain ⟨x, rfl⟩ : ∃ x, rA.emb x = y := rA.exists_idx_of_mem (mem_rA p y)
  rw [View.canon_cons_emb, View.canon_cons_emb]

/-! ## What the body leaves: the accumulator's step and the output's payload -/

/-- The accumulator after the reset at the first point: the zero fill, stored whole. -/
def zero4 : Vec F S32x256 .f32 := View.canon [⟨rA, k4_pay1 (F := F)⟩]

/-- One point's step of the accumulator: from the point's blocks `x0` (activations) and `x1` (weights) and the accumulator
    `a` as the point finds it (after the reset, at the first point), the stored sum `a + (x0 - t_min) · x1`. -/
def step4 (x0 : Vec F S32x4096 .f32) (x1 : Vec F S4096x256 .f32) (a : Vec F S32x256 .f32) : Vec F S32x256 .f32 :=
  View.canon [⟨rA, k4_pay2 (View.ld x0 rX) (View.ld x1 rW) (View.ld a rA)⟩]

/-- What the last point stores into the output block: from the threshold row `x2` and the accumulator `a` after its own step,
    `min (a + (t_max - x2)) t_max`. -/
def out4 (x2 : Vec F S1x256 .f32) (a : Vec F S32x256 .f32) : Vec F S32x256 .f32 :=
  View.canon [⟨rA, k4_pay3 (View.ld a rA) (View.ld x2 rD)⟩]

set_option maxHeartbeats 1000000 in
/-- A MIDDLE point (neither test holds): the accumulator, found at `xs`, is left at its step; the inputs' buffers and the
    output's are left as found. -/
theorem run4_B (c : Dev nD) (E : Set ℕ) (i : grid4.Coords)
    (arg1 : Memref sig .tc .vmem S32x4096 .f32) (harg1 : arg1.IsWhole) (arg2 : Memref sig .tc .vmem S4096x256 .f32) (harg2 : arg2.IsWhole)
    (arg3 : Memref sig .tc .vmem S1x256 .f32) (harg3 : arg3.IsWhole) (arg4 : Memref sig .tc .vmem S32x256 .f32) (harg4 : arg4.IsWhole)
    (arg5 : Memref sig .tc .vmem S32x256 .f32) (harg5 : arg5.IsWhole) (hc0 : ¬cond4_0 i) (hc1 : ¬cond4_1 i)
    (x0 : Vec F S32x4096 .f32) (x1 : Vec F S4096x256 .f32) (x2 : Vec F S1x256 .f32) (x3 : Vec F S32x256 .f32) (xs : Vec F S32x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (step4 x0 x1 xs)) -∗ K ⟨⟩))
      ⊢ wp frame (wpE (defs₀ (F := F)) Variants.none c none) E (cc4__dense_kernel_body i arg1 harg1 arg2 harg2 arg3 harg3 arg4 harg4 arg5 harg5) K := by
  simp only [cc4__dense_kernel_body_eq_skeleton]; unfold cc4__dense_kernel_body_skel
  unfold owns step4
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  exact View.read_writes_eq_canon _ _ _ (coverA _)

set_option maxHeartbeats 1000000 in
/-- The FIRST point (the first test holds, the second does not): the accumulator, found at anything, is zeroed and then
    stepped; the inputs' buffers and the output's are left as found. -/
theorem run4_A (c : Dev nD) (E : Set ℕ) (i : grid4.Coords)
    (arg1 : Memref sig .tc .vmem S32x4096 .f32) (harg1 : arg1.IsWhole) (arg2 : Memref sig .tc .vmem S4096x256 .f32) (harg2 : arg2.IsWhole)
    (arg3 : Memref sig .tc .vmem S1x256 .f32) (harg3 : arg3.IsWhole) (arg4 : Memref sig .tc .vmem S32x256 .f32) (harg4 : arg4.IsWhole)
    (arg5 : Memref sig .tc .vmem S32x256 .f32) (harg5 : arg5.IsWhole) (hc0 : cond4_0 i) (hc1 : ¬cond4_1 i)
    (x0 : Vec F S32x4096 .f32) (x1 : Vec F S4096x256 .f32) (x2 : Vec F S1x256 .f32) (x3 : Vec F S32x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (step4 x0 x1 (zero4 (F := F)))) -∗ K ⟨⟩))
      ⊢ wp frame (wpE (defs₀ (F := F)) Variants.none c none) E (cc4__dense_kernel_body i arg1 harg1 arg2 harg2 arg3 harg3 arg4 harg4 arg5 harg5) K := by
  simp only [cc4__dense_kernel_body_eq_skeleton]; unfold cc4__dense_kernel_body_skel
  unfold owns step4 zero4
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_run_names
  rw [View.readCov_eq_canon_ld _ _ _ (coverA _)]
  exact (View.read_writes_eq_canon _ _ _ (fun y => ⟨_, List.Mem.head _, mem_rA (k4_pay1 (F := F)) y⟩)).trans (canon_cons_whole _ _ _)

set_option maxHeartbeats 1000000 in
/-- The LAST point (the second test holds, the first does not): the accumulator, found at `xs`, is left at its step; the output's
    buffer, found at anything, is left at the output payload of the threshold row and the stepped accumulator; the inputs' buffers
    are left as found. -/
theorem run4_C (c : Dev nD) (E : Set ℕ) (i : grid4.Coords)
    (arg1 : Memref sig .tc .vmem S32x4096 .f32) (harg1 : arg1.IsWhole) (arg2 : Memref sig .tc .vmem S4096x256 .f32) (harg2 : arg2.IsWhole)
    (arg3 : Memref sig .tc .vmem S1x256 .f32) (harg3 : arg3.IsWhole) (arg4 : Memref sig .tc .vmem S32x256 .f32) (harg4 : arg4.IsWhole)
    (arg5 : Memref sig .tc .vmem S32x256 .f32) (harg5 : arg5.IsWhole) (hc0 : ¬cond4_0 i) (hc1 : cond4_1 i)
    (x0 : Vec F S32x4096 .f32) (x1 : Vec F S4096x256 .f32) (x2 : Vec F S1x256 .f32) (xs : Vec F S32x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (out4 x2 (step4 x0 x1 xs))
            ∗ owns (c : Thread nD τ) arg5 fullShare (step4 x0 x1 xs)) -∗ K ⟨⟩))
      ⊢ wp frame (wpE (defs₀ (F := F)) Variants.none c none) E (cc4__dense_kernel_body i arg1 harg1 arg2 harg2 arg3 harg3 arg4 harg4 arg5 harg5) K := by
  simp only [cc4__dense_kernel_body_eq_skeleton]; unfold cc4__dense_kernel_body_skel
  unfold owns out4 step4
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    rw [View.readCov_eq_canon_ld _ _ _ (coverA _)]
    exact View.read_writes_eq_canon _ _ _ (coverA _)
  iexists _; isplitr
  swap; · iexact HS
  ipureintro
  exact View.read_writes_eq_canon _ _ _ (coverA _)

end Cert.KernelIdeal.Hand

end
-- ==== Proof.KI.Dense.lean ====
/- Region 4 of the main function, the dense layer tiled over its contraction axis: the proof data of its pipeline with the
   scratch accumulator carried from point to point in the invariant, the body obligation at every point (three control cases),
   the invariant's entry and exit, and what the output array holds at the end in terms of the accumulator's recursion. Stated at
   any float interpretation and at a parameter `V`, the buffer contents when the region is entered. -/
import proofs.«142023_j26104811225511_2_alg».proof.Proof.KI.DenseRun
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not, for any proof data whose
    array is `V`'s and whose body leaves the block in place: the activations (a new block at every point), -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- the weights (a new block at every point), -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- and the threshold row (one block, fetched at the first point and kept). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The accumulator, point by point -/

/-- The scratch accumulator's contents before position `n` of the grid (after point `n - 1`): the zero fill the first point
    resets it to, then one step per point over that point's blocks. Past the grid nothing changes. -/
def accN (c : Dev nD) : ℕ → Vec F S32x256 .f32
  | 0 => zero4
  | n + 1 => if h : n < cfg4.N then step4 (iblk4 V c 0 ⟨n, h⟩) (iblk4 V c 1 ⟨n, h⟩) (accN c n) else accN c n

/-- The same at a position of the grid. `acc4 V c 0` is the zero fill (what the first point's reset makes of whatever the
    scratch held), so that one step relates every two neighbours, the first pair included. -/
def acc4 (c : Dev nD) (t : Fin (cfg4.N + 1)) : Vec F S32x256 .f32 := accN V c t.val

theorem acc4_zero (c : Dev nD) : acc4 V c 0 = zero4 := rfl

theorem acc4_succ (c : Dev nD) (t : Fin cfg4.N) :
    acc4 V c t.succ = step4 (iblk4 V c 0 t) (iblk4 V c 1 t) (acc4 V c t.castSucc) := by
  obtain ⟨n, hn⟩ := t
  show (if h : n < cfg4.N then _ else _) = _
  rw [dif_pos hn]; rfl

/-! ## The scratch operand -/

/-- The scratch accumulator: a whole scoped buffer of the kernel's own, passed beside the windows. -/
abbrev scM4 : Memref sig .tc .vmem S32x256 .f32 := Memref.whole cc4_scratch0

/-! ## The pipeline's proof data -/

/-- The region invariant before position `t`: the generator register at some state; the scratch accumulator whole, at anything
    before the first point and at `acc4 V c t` afterwards; every other scoped buffer that is no staging buffer, unopened. -/
def Phi4 (c : Dev nD) (t : Fin (cfg4.N + 1)) : sProp 𝕄 :=
  iprop((∃ r, prngReg c r) ∗ (∃ d, ⌜t.val ≠ 0 → d = acc4 V c t⌝ ∗ owns (c : Thread nD τ) scM4 fullShare d)
    ∗ Pipeline.scopedRestBut (Ix := Unit) (Name := ℕ) (U := UR sig nD τ) (Lvl := ℕ) (Val := Elt F) spec4 c [cc4_scratch0])

/-- The proof data of pipeline 4 on core `c`: the arrays as the region finds them; after the body at point `t` each input's
    buffer at its block, the output's at the clipped, shifted accumulator after this point's step (consulted at the last point only:
    elsewhere the window is idle and not written back); the invariant `Phi4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4 (iblk4 V c 2 t) (acc4 V c t.succ)
  Φ t := Phi4 V c t
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4 (iblk4 V c 2 t) (acc4 V c t.succ) := by dsimp only [dat4]
theorem Phi4_eq (c : Dev nD) (t : Fin (cfg4.N + 1)) : (dat4 V c).Φ t = Phi4 V c t := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`: the invariant, what the core owes, and each window's current staging buffer
    at what it then holds, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 1600000 in
/-- The body at any point. The inputs' buffers hold their blocks; the closed forms of the two tests say which of the three cases
    the point is in. The invariant hands the body the accumulator (at anything at the first point, at what the point before left
    otherwise) and takes it back one step on; the output's buffer is handed back as found except at the last point, where it is
    left at the output payload; the generator register, the other scoped buffers and what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [Phi4_eq, Phi4_eq]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [show (dat4 V c).leavesExact 2 t = owns (c : Thread nD τ) (st4_2 t) fullShare ((dat4 V c).after 2 t) from by
    unfold Dat.leavesExact; rw [liveAt4_2 t], after4_2]
  have hN : t.val < 8 := lt_of_lt_of_eq t.isLt (show cfg4.N = 8 from N_4)
  by_cases h1 : t.val % 8 = 7
  · have h0 : ¬ t.val % 8 = 0 := by omega
    rw [show (dat4 V c).leavesExact 3 t = owns (c : Thread nD τ) (st4_3 t) fullShare ((dat4 V c).after 3 t) from by
      unfold Dat.leavesExact; rw [liveAt4_3 t ((hcond4_1 t).mpr h1)], after4_3]
    unfold Phi4
    rw [acc4_succ]
    iintro ⟨⟨Hg, ⟨%ds, %hds, HS⟩, Hr⟩, Ho, ⟨%d0, H0⟩, ⟨%d1, H1⟩, ⟨%d2, H2⟩, ⟨%d3, H3⟩⟩
    obtain rfl : ds = acc4 V c t.castSucc := hds (by rw [Fin.coe_castSucc]; omega)
    iapply (run4_C c Set.univ _ _ _ _ _ _ _ _ _ _ _ (fun h => h0 ((hcond4_0 t).mp h)) ((hcond4_1 t).mpr h1)
      (iblk4 V c 0 t) (iblk4 V c 1 t) (iblk4 V c 2 t) (acc4 V c t.castSucc) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [Hg HS Hr]
    · isplitl [Hg]; · iexact Hg
      isplitl [HS]
      · iexists _; isplitr; · ipureintro; intro _; rfl
        iexact HS
      iexact Hr
    isplitl [Ho]; · iexact Ho
    isplitl [H0]; · iexact H0
    isplitl [H1]; · iexact H1
    isplitl [H2]; · iexact H2
    iexact H3
  · rw [Dat.leavesExact_idle (dat4 V c) 3 t (idleAt4_3 t (fun h => h1 ((hcond4_1 t).mp h))) (noFlush4_3 t (fun h => h1 ((hcond4_1 t).mp h)))]
    unfold Phi4
    rw [acc4_succ]
    by_cases h0 : t.val % 8 = 0
    · have hz : acc4 V c t.castSucc = zero4 := by
        unfold acc4; rw [Fin.coe_castSucc, show t.val = 0 from by omega]; rfl
      rw [hz]
      iintro ⟨⟨Hg, ⟨%ds, -, HS⟩, Hr⟩, Ho, ⟨%d0, H0⟩, ⟨%d1, H1⟩, ⟨%d2, H2⟩, ⟨%d3, H3⟩⟩
      iapply (run4_A c Set.univ _ _ _ _ _ _ _ _ _ _ _ ((hcond4_0 t).mpr h0) (fun h => h1 ((hcond4_1 t).mp h))
        (iblk4 V c 0 t) (iblk4 V c 1 t) (iblk4 V c 2 t) ((dat4 V c).before 3 t d3) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [Hg HS Hr]
      · isplitl [Hg]; · iexact Hg
        isplitl [HS]
        · iexists _; isplitr; · ipureintro; intro _; rfl
          iexact HS
        iexact Hr
      isplitl [Ho]; · iexact Ho
      isplitl [H0]; · iexact H0
      isplitl [H1]; · iexact H1
      isplitl [H2]; · iexact H2
      iexists _; iexact H3
    · iintro ⟨⟨Hg, ⟨%ds, %hds, HS⟩, Hr⟩, Ho, ⟨%d0, H0⟩, ⟨%d1, H1⟩, ⟨%d2, H2⟩, ⟨%d3, H3⟩⟩
      obtain rfl : ds = acc4 V c t.castSucc := hds (by rw [Fin.coe_castSucc]; omega)
      iapply (run4_B c Set.univ _ _ _ _ _ _ _ _ _ _ _ (fun h => h0 ((hcond4_0 t).mp h)) (fun h => h1 ((hcond4_1 t).mp h))
        (iblk4 V c 0 t) (iblk4 V c 1 t) (iblk4 V c 2 t) ((dat4 V c).before 3 t d3) (acc4 V c t.castSucc) _)
      isplitl [H0]; · iexact H0
      isplitl [H1]; · iexact H1
      isplitl [H2]; · iexact H2
      isplitl [H3]; · iexact H3
      isplitl [HS]; · iexact HS
      iintro ⟨H0, H1, H2, H3, HS⟩
      isplitl [Hg HS Hr]
      · isplitl [Hg]; · iexact Hg
        isplitl [HS]
        · iexists _; isplitr; · ipureintro; intro _; rfl
          iexact HS
        iexact Hr
      isplitl [Ho]; · iexact Ho
      isplitl [H0]; · iexact H0
      isplitl [H1]; · iexact H1
      isplitl [H2]; · iexact H2
      iexists _; iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## Entering and leaving the region -/

/-- The scoped buffers that are no staging buffer of this call, with the scratch accumulator taken out as a memref owned at
    some contents. -/
theorem scopedRest4_owns (c : Dev nD) :
    (Pipeline.scopedRest (Ix := Unit) (Name := ℕ) (U := UR sig nD τ) (Lvl := ℕ) (Val := Elt F) spec4 c : sProp 𝕄)
      = iprop((∃ d, owns (c : Thread nD τ) scM4 fullShare d)
          ∗ Pipeline.scopedRestBut (Ix := Unit) (Name := ℕ) (U := UR sig nD τ) (Lvl := ℕ) (Val := Elt F) spec4 c [cc4_scratch0]) := by
  rw [scopedRest4_split]; simp only [scM4, owns_whole]; try rfl

/-- What the launch hands the region is the invariant before the first point: the accumulator at anything. -/
theorem hin4 (c : Dev nD) :
    iprop((∃ r, prngReg c r) ∗ Pipeline.prefHeld (pcfgs (F := F) 4).pre c (fun _ => fullShare) ((cfgs 4).toPCfg_adm).1
        ∗ Pipeline.scopedRest spec4 c) ⊢ (dat4 V c).Φ 0 := by
  rw [Phi4_eq, scopedRest4_owns]; unfold Phi4
  iintro ⟨Hg, -, ⟨%d, HS⟩, Hr⟩
  isplitl [Hg]; · iexact Hg
  isplitl [HS]
  · iexists d; isplitr; · ipureintro; intro h; exact absurd rfl h
    iexact HS
  iexact Hr

/-- After the last point the invariant gives the scoped buffers back: the accumulator's named contents are forgotten. -/
theorem hout4 (c : Dev nD) :
    (dat4 V c).Φ (Fin.last cfg4.N) ⊢ iprop((∃ r, prngReg c r) ∗ Pipeline.scopedRest spec4 c) := by
  rw [Phi4_eq, scopedRest4_owns]; unfold Phi4
  iintro ⟨Hg, ⟨%d, -, HS⟩, Hr⟩
  isplitl [Hg]; · iexact Hg
  isplitl [HS]; · iexists d; iexact HS
  iexact Hr

/-! ## The stored values without the rectangles: every access is of a whole buffer at offset zero -/

theorem zeros2 : (![0, 0] : Fin 2 → ℕ) = fun _ => 0 := by funext a; fin_cases a <;> rfl

/-- The accumulator after the reset is the zero fill's payload, -/
theorem zero4_eq : zero4 (F := F) = k4_pay1 := by
  unfold zero4; exact View.canon_unit_zero zeros2 _ _

/-- one step stores the step's payload of the two blocks and the accumulator, -/
theorem step4_eq (x0 : Vec F S32x4096 .f32) (x1 : Vec F S4096x256 .f32) (a : Vec F S32x256 .f32) :
    step4 x0 x1 a = k4_pay2 x0 x1 a := by
  unfold step4
  rw [View.canon_unit_zero zeros2, View.ld_unit_zero zeros2, View.ld_unit_zero zeros2, View.ld_unit_zero zeros2]

/-- and the last point stores the output payload of the accumulator and the threshold row. -/
theorem out4_eq (x2 : Vec F S1x256 .f32) (a : Vec F S32x256 .f32) : out4 x2 a = k4_pay3 a x2 := by
  unfold out4
  rw [View.canon_unit_zero zeros2, View.ld_unit_zero zeros2, View.ld_unit_zero zeros2]

/-- The accumulator's recursion over the payloads. -/
theorem acc4_succ_eq (c : Dev nD) (t : Fin cfg4.N) :
    acc4 V c t.succ = k4_pay2 (iblk4 V c 0 t) (iblk4 V c 1 t) (acc4 V c t.castSucc) := by
  rw [acc4_succ, step4_eq]

/-! ## What the output array holds at the end -/

/-- Only the last point writes the output window back. -/
theorem flush4_3_last (t : Fin cfg4.N) (hf : (cfg4.win 3).flush t = true) : t.val = 7 := by
  have hN : t.val < 8 := lt_of_lt_of_eq t.isLt (show cfg4.N = 8 from N_4)
  have := (flush4_3 t).mp hf; omega

/-- The output array's block at the last point, read back after the region: the output payload of the threshold row and the
    accumulator after all eight steps. -/
theorem arrAt4_blk (c : Dev nD) (t : Fin cfg4.N) (ht : t.val = 7) :
    ((cfg4.win 3).blk t).view.read (Elt F) ((dat4 V c).arrAt 3 cfg4.N)
      = out4 (iblk4 V c 2 t) (acc4 V c (Fin.last cfg4.N)) := by
  have hf : (cfg4.win 3).flush t = true := (flush4_3 t).mpr (by omega)
  have hlast : t.succ = Fin.last cfg4.N := by
    apply Fin.ext; rw [Fin.val_succ, Fin.val_last, ht]; exact (show cfg4.N = 8 from N_4).symm
  rw [(dat4 V c).read_blk_arrAt_eq_flushed 3 (fun a b ha hb hab => absurd (Fin.ext ((flush4_3_last a ha).trans (flush4_3_last b hb).symm)) hab)
    cfg4.N t t.isLt hf]
  show (cfg4.win 3).cut (cfg4.grid.coords t) ((dat4 V c).after 3 t) = _
  rw [after4_3, hlast]; rfl

end Region4

end Cert.KernelIdeal.Hand

end
-- ==== Proof.KI.OutL.lean ====
/-
  Region 5, the output layer: one grid point; the three operands (the dense layer's result [32,256], the weights
  [256,10], the bias row [1,10]) are each one whole block, and the body stores the whole result block [32,10]
  once: bias + (7500 − x) · W. What the output window's buffer holds after the body is that one store's value
  over the three input blocks; the body's triple, the proof data and the obligation at the one point follow.
-/
import proofs.«142023_j26104811225511_2_alg».proof.Proof.Gen.KernelIdeal.Launch
import proofs.«142023_j26104811225511_2_alg».proof.Proof.Gen.KernelIdeal.Skeleton
import proofs.«142023_j26104811225511_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, for any proof data whose array is the
    entry contents and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! The body's four whole-block rectangles. -/
abbrev r5_x : Rect S32x256 := Rect.unit (s := S32x256) ![0, 0] S32x256.size inb_S32x256_S32x256_0_0
abbrev r5_w : Rect S256x10 := Rect.unit (s := S256x10) ![0, 0] S256x10.size inb_S256x10_S256x10_0_0
abbrev r5_d : Rect S1x10 := Rect.unit (s := S1x10) ![0, 0] S1x10.size inb_S1x10_S1x10_0_0
abbrev r5_o : Rect S32x10 := Rect.unit (s := S32x10) ![0, 0] S32x10.size inb_S32x10_S32x10_0_0

/-- The output window's buffer after the body, from the three input blocks: its one store. -/
def out5_3 (x0 : Vec F S32x256 .f32) (x1 : Vec F S256x10 .f32) (x2 : Vec F S1x10 .f32) : Vec F S32x10 .f32 :=
  View.canon [⟨r5_o, k5_pay1 (View.ld x0 r5_x) (View.ld x1 r5_w) (View.ld x2 r5_d)⟩]

/-- The one store covers the buffer. -/
theorem cover5_3 (p0 : Vec F S32x10 .f32) (y : S32x10.Idx) :
    ∃ pc ∈ ([⟨r5_o, p0⟩] : List (View.Piece (Elt F) S32x10 .f32)), y ∈ pc.1.set :=
  View.cover_of_tiled [⟨r5_o, p0⟩] S32x10.size (by rfl) y

set_option maxHeartbeats 1000000 in
/-- The body on whole staging memrefs, the inputs' at read contents and the output's at anything, runs to the
    continuation holding the inputs' as they were and the output's at `out5_3` of them. -/
theorem sound_kernel5 (c : Dev nD) (E : Set ℕ) (i : grid5.Coords)
    (arg1 : Memref sig .tc .vmem S32x256 .f32) (harg1 : arg1.IsWhole) (arg2 : Memref sig .tc .vmem S256x10 .f32) (harg2 : arg2.IsWhole)
    (arg3 : Memref sig .tc .vmem S1x10 .f32) (harg3 : arg3.IsWhole) (arg4 : Memref sig .tc .vmem S32x10 .f32) (harg4 : arg4.IsWhole)
    (x0 : Vec F S32x256 .f32) (x1 : Vec F S256x10 .f32) (x2 : Vec F S1x10 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2)) -∗ K ⟨⟩))
      ⊢ wp frame (wpE (defs₀ (F := F)) Variants.none c none) E (cc5__out_kernel_body i arg1 harg1 arg2 harg2 arg3 harg3 arg4 harg4) K := by
  simp only [cc5__out_kernel_body_eq_skeleton]; unfold cc5__out_kernel_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- The proof data of pipeline 5 on core `c`: the arrays as the region finds them; after the body each input's buffer
    at its block and the output's at `out5_3` of the input blocks; the scoped rest and the generator register untouched;
    nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so the kernel's triple applies; the invariant and
    the core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end

end Cert.KernelIdeal.Hand

end
-- ==== Proof.KI.Run.lean ====
/-
  The whole program as one run. Between two items of the entry function every unscoped buffer's contents are named
  by a fold from the launch memory: a stretch of host operations applies its operations, a kernel region replaces
  its windows' arrays by what its write-backs leave and keeps every other buffer. Each region is entered from the
  state "every unscoped buffer at the boundary's contents, the generator register at some state, nothing owed" and
  left at the same state one boundary later; the run's post reads every unscoped buffer off the last boundary, so
  both the argument arrays (no item writes one) and the result array are read from it.
-/
import proofs.«142023_j26104811225511_2_alg».proof.Proof.Gen.KernelIdeal.Launch
import proofs.«142023_j26104811225511_2_alg».proof.Proof.Gen.KernelIdeal.Skeleton
import proofs.«142023_j26104811225511_2_alg».proof.Proof.Gen.KernelIdeal.Points
import proofs.«142023_j26104811225511_2_alg».proof.Proof.KI.Conv0
import proofs.«142023_j26104811225511_2_alg».proof.Proof.KI.Conv1
import proofs.«142023_j26104811225511_2_alg».proof.Proof.KI.Conv2
import proofs.«142023_j26104811225511_2_alg».proof.Proof.KI.Conv3
import proofs.«142023_j26104811225511_2_alg».proof.Proof.KI.Dense
import proofs.«142023_j26104811225511_2_alg».proof.Proof.KI.OutL
import proofs.«142023_j26104811225511_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m (c, b)
/-- After the host stretch `hostOps0`. -/
abbrev W1 : Dev nD → Valuation τ sig (Elt F) := fun c => StableHlo.after hostOps0 (W0 m c)
/-- After the host stretch `hostOps0_1`. -/
abbrev W2 : Dev nD → Valuation τ sig (Elt F) := fun c => StableHlo.after hostOps0_1 (W1 m c)
/-- After the host stretch `hostOps0_2`. -/
abbrev W3 : Dev nD → Valuation τ sig (Elt F) := fun c => StableHlo.after hostOps0_2 (W2 m c)
/-- Region 0's entry contents read at the TensorCore's references. -/
abbrev B3 : (c : Dev nD) → (b : Ref sig .tc) → Buf (Elt F) ((c : Thread nD τ).loc b) := fun c b => W3 m c b
/-- At region 0's exit: its arrays at what the pipeline leaves, every other buffer as entered. -/
def W4 (c : Dev nD) : Valuation τ sig (Elt F) :=
  Pipeline.withArrays spec0 c (W3 m c) fun w => (dat0 (B3 m) c).arrAt w cfg0.N
theorem W4_arr (c : Dev nD) (w : Fin cfg0.W) :
    W4 m c (Proc.devRef .tc (Pipeline.arrRef spec0 w)) = (dat0 (B3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev B4 : (c : Dev nD) → (b : Ref sig .tc) → Buf (Elt F) ((c : Thread nD τ).loc b) := fun c b => W4 m c b
theorem hF0 (c : Dev nD) (w : Fin cfg0.W) : (dat0 (B3 m) c).arrAt w cfg0.N = B4 m c (Pipeline.arrRef spec0 w) :=
  (W4_arr m c w).symm
theorem hrest0 (c : Dev nD) : ∀ b, b ∉ Finset.univ.image (Pipeline.arrRef spec0) → B4 m c b = B3 m c b :=
  fun b hb => W4_of_ne m c b fun w e => hb (Finset.mem_image.mpr ⟨w, Finset.mem_univ _, e⟩)
/-- After the host stretch `hostOps1`. -/
abbrev W5 : Dev nD → Valuation τ sig (Elt F) := fun c => StableHlo.after hostOps1 (W4 m c)
/-- After the host stretch `hostOps1_1`. -/
abbrev W6 : Dev nD → Valuation τ sig (Elt F) := fun c => StableHlo.after hostOps1_1 (W5 m c)
/-- After the host stretch `hostOps1_2`. -/
abbrev W7 : Dev nD → Valuation τ sig (Elt F) := fun c => StableHlo.after hostOps1_2 (W6 m c)
/-- Region 1's entry contents read at the TensorCore's references. -/
abbrev B7 : (c : Dev nD) → (b : Ref sig .tc) → Buf (Elt F) ((c : Thread nD τ).loc b) := fun c b => W7 m c b
/-- At region 1's exit: its arrays at what the pipeline leaves, every other buffer as entered. -/
def W8 (c : Dev nD) : Valuation τ sig (Elt F) :=
  Pipeline.withArrays spec1 c (W7 m c) fun w => (dat1 (B7 m) c).arrAt w cfg1.N
theorem W8_arr (c : Dev nD) (w : Fin cfg1.W) :
    W8 m c (Proc.devRef .tc (Pipeline.arrRef spec1 w)) = (dat1 (B7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
abbrev B8 : (c : Dev nD) → (b : Ref sig .tc) → Buf (Elt F) ((c : Thread nD τ).loc b) := fun c b => W8 m c b
theorem hF1 (c : Dev nD) (w : Fin cfg1.W) : (dat1 (B7 m) c).arrAt w cfg1.N = B8 m c (Pipeline.arrRef spec1 w) :=
  (W8_arr m c w).symm
theorem hrest1 (c : Dev nD) : ∀ b, b ∉ Finset.univ.image (Pipeline.arrRef spec1) → B8 m c b = B7 m c b :=
  fun b hb => W8_of_ne m c b fun w e => hb (Finset.mem_image.mpr ⟨w, Finset.mem_univ _, e⟩)
/-- After the host stretch `hostOps2`. -/
abbrev W9 : Dev nD → Valuation τ sig (Elt F) := fun c => StableHlo.after hostOps2 (W8 m c)
/-- After the host stretch `hostOps2_1`. -/
abbrev W10 : Dev nD → Valuation τ sig (Elt F) := fun c => StableHlo.after hostOps2_1 (W9 m c)
/-- After the host stretch `hostOps2_2`. -/
abbrev W11 : Dev nD → Valuation τ sig (Elt F) := fun c => StableHlo.after hostOps2_2 (W10 m c)
/-- Region 2's entry contents read at the TensorCore's references. -/
abbrev B11 : (c : Dev nD) → (b : Ref sig .tc) → Buf (Elt F) ((c : Thread nD τ).loc b) := fun c b => W11 m c b
/-- At region 2's exit: its arrays at what the pipeline leaves, every other buffer as entered. -/
def W12 (c : Dev nD) : Valuation τ sig (Elt F) :=
  Pipeline.withArrays spec2 c (W11 m c) fun w => (dat2 (B11 m) c).arrAt w cfg2.N
theorem W12_arr (c : Dev nD) (w : Fin cfg2.W) :
    W12 m c (Proc.devRef .tc (Pipeline.arrRef spec2 w)) = (dat2 (B11 m) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m c (Proc.devRef .tc b) = W11 m c (Proc.devRef .tc b) := by
  unfold W12; exact Pipeline.withArrays_of_ne spec2 c _ _ b hb
abbrev B12 : (c : Dev nD) → (b : Ref sig .tc) → Buf (Elt F) ((c : Thread nD τ).loc b) := fun c b => W12 m c b
theorem hF2 (c : Dev nD) (w : Fin cfg2.W) : (dat2 (B11 m) c).arrAt w cfg2.N = B12 m c (Pipeline.arrRef spec2 w) :=
  (W12_arr m c w).symm
theorem hrest2 (c : Dev nD) : ∀ b, b ∉ Finset.univ.image (Pipeline.arrRef spec2) → B12 m c b = B11 m c b :=
  fun b hb => W12_of_ne m c b fun w e => hb (Finset.mem_image.mpr ⟨w, Finset.mem_univ _, e⟩)
/-- After the host stretch `hostOps3`. -/
abbrev W13 : Dev nD → Valuation τ sig (Elt F) := fun c => StableHlo.after hostOps3 (W12 m c)
/-- After the host stretch `hostOps3_1`. -/
abbrev W14 : Dev nD → Valuation τ sig (Elt F) := fun c => StableHlo.after hostOps3_1 (W13 m c)
/-- After the host stretch `hostOps3_2`. -/
abbrev W15 : Dev nD → Valuation τ sig (Elt F) := fun c => StableHlo.after hostOps3_2 (W14 m c)
/-- Region 3's entry contents read at the TensorCore's references. -/
abbrev B15 : (c : Dev nD) → (b : Ref sig .tc) → Buf (Elt F) ((c : Thread nD τ).loc b) := fun c b => W15 m c b
/-- At region 3's exit: its arrays at what the pipeline leaves, every other buffer as entered. -/
def W16 (c : Dev nD) : Valuation τ sig (Elt F) :=
  Pipeline.withArrays spec3 c (W15 m c) fun w => (dat3 (B15 m) c).arrAt w cfg3.N
theorem W16_arr (c : Dev nD) (w : Fin cfg3.W) :
    W16 m c (Proc.devRef .tc (Pipeline.arrRef spec3 w)) = (dat3 (B15 m) c).arrAt w cfg3.N := by
  unfold W16; exact Pipeline.withArrays_arr spec3 launch3.win.arr_inj c _ _ w
theorem W16_of_ne (c : Dev nD) (b : Ref sig .tc) (hb : ∀ w, Pipeline.arrRef spec3 w ≠ b) :
    W16 m c (Proc.devRef .tc b) = W15 m c (Proc.devRef .tc b) := by
  unfold W16; exact Pipeline.withArrays_of_ne spec3 c _ _ b hb
abbrev B16 : (c : Dev nD) → (b : Ref sig .tc) → Buf (Elt F) ((c : Thread nD τ).loc b) := fun c b => W16 m c b
theorem hF3 (c : Dev nD) (w : Fin cfg3.W) : (dat3 (B15 m) c).arrAt w cfg3.N = B16 m c (Pipeline.arrRef spec3 w) :=
  (W16_arr m c w).symm
theorem hrest3 (c : Dev nD) : ∀ b, b ∉ Finset.univ.image (Pipeline.arrRef spec3) → B16 m c b = B15 m c b :=
  fun b hb => W16_of_ne m c b fun w e => hb (Finset.mem_image.mpr ⟨w, Finset.mem_univ _, e⟩)
/-- After the host stretch `hostOps4`. -/
abbrev W17 : Dev nD → Valuation τ sig (Elt F) := fun c => StableHlo.after hostOps4 (W16 m c)
/-- Region 4's entry contents read at the TensorCore's references. -/
abbrev B17 : (c : Dev nD) → (b : Ref sig .tc) → Buf (Elt F) ((c : Thread nD τ).loc b) := fun c b => W17 m c b
/-- At region 4's exit: its arrays at what the pipeline leaves, every other buffer as entered. -/
def W18 (c : Dev nD) : Valuation τ sig (Elt F) :=
  Pipeline.withArrays spec4 c (W17 m c) fun w => (dat4 (B17 m) c).arrAt w cfg4.N
theorem W18_arr (c : Dev nD) (w : Fin cfg4.W) :
    W18 m c (Proc.devRef .tc (Pipeline.arrRef spec4 w)) = (dat4 (B17 m) c).arrAt w cfg4.N := by
  unfold W18; exact Pipeline.withArrays_arr spec4 launch4.win.arr_inj c _ _ w
theorem W18_of_ne (c : Dev nD) (b : Ref sig .tc) (hb : ∀ w, Pipeline.arrRef spec4 w ≠ b) :
    W18 m c (Proc.devRef .tc b) = W17 m c (Proc.devRef .tc b) := by
  unfold W18; exact Pipeline.withArrays_of_ne spec4 c _ _ b hb
abbrev B18 : (c : Dev nD) → (b : Ref sig .tc) → Buf (Elt F) ((c : Thread nD τ).loc b) := fun c b => W18 m c b
theorem hF4 (c : Dev nD) (w : Fin cfg4.W) : (dat4 (B17 m) c).arrAt w cfg4.N = B18 m c (Pipeline.arrRef spec4 w) :=
  (W18_arr m c w).symm
theorem hrest4 (c : Dev nD) : ∀ b, b ∉ Finset.univ.image (Pipeline.arrRef spec4) → B18 m c b = B17 m c b :=
  fun b hb => W18_of_ne m c b fun w e => hb (Finset.mem_image.mpr ⟨w, Finset.mem_univ _, e⟩)
/-- After the host stretch `hostOps5`. -/
abbrev W19 : Dev nD → Valuation τ sig (Elt F) := fun c => StableHlo.after hostOps5 (W18 m c)
/-- Region 5's entry contents read at the TensorCore's references. -/
abbrev B19 : (c : Dev nD) → (b : Ref sig .tc) → Buf (Elt F) ((c : Thread nD τ).loc b) := fun c b => W19 m c b
/-- At region 5's exit: its arrays at what the pipeline leaves, every other buffer as entered. -/
def W20 (c : Dev nD) : Valuation τ sig (Elt F) :=
  Pipeline.withArrays spec5 c (W19 m c) fun w => (dat5 (B19 m) c).arrAt w cfg5.N
theorem W20_arr (c : Dev nD) (w : Fin cfg5.W) :
    W20 m c (Proc.devRef .tc (Pipeline.arrRef spec5 w)) = (dat5 (B19 m) c).arrAt w cfg5.N := by
  unfold W20; exact Pipeline.withArrays_arr spec5 launch5.win.arr_inj c _ _ w
theorem W20_of_ne (c : Dev nD) (b : Ref sig .tc) (hb : ∀ w, Pipeline.arrRef spec5 w ≠ b) :
    W20 m c (Proc.devRef .tc b) = W19 m c (Proc.devRef .tc b) := by
  unfold W20; exact Pipeline.withArrays_of_ne spec5 c _ _ b hb
abbrev B20 : (c : Dev nD) → (b : Ref sig .tc) → Buf (Elt F) ((c : Thread nD τ).loc b) := fun c b => W20 m c b
theorem hF5 (c : Dev nD) (w : Fin cfg5.W) : (dat5 (B19 m) c).arrAt w cfg5.N = B20 m c (Pipeline.arrRef spec5 w) :=
  (W20_arr m c w).symm
theorem hrest5 (c : Dev nD) : ∀ b, b ∉ Finset.univ.image (Pipeline.arrRef spec5) → B20 m c b = B19 m c b :=
  fun b hb => W20_of_ne m c b fun w e => hb (Finset.mem_image.mpr ⟨w, Finset.mem_univ _, e⟩)

/-! ## What each item leaves unchanged -/
theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ hostOps0_1_W) : W2 m c r = W1 m c r :=
  StableHlo.after_of_writes_sub hostOps0_1 _ hostOps0_1_writes h
theorem W3_of (c : Dev nD) (r : Ref sig .tc) (h : r ∉ hostOps0_2_W) : W3 m c r = W2 m c r :=
  StableHlo.after_of_writes_sub hostOps0_2 _ hostOps0_2_writes h
theorem W4_of (c : Dev nD) (r : Ref sig .tc) (h : r ∉ ([main_v8] : List (Ref sig .tc))) : W4 m c r = W3 m c r := by
  by_cases hw : ∃ w, Pipeline.arrRef spec0 w = r
  · obtain ⟨w, rfl⟩ := hw
    have h3 : w ≠ 3 := fun e => h (by subst e; exact List.mem_singleton.mpr rfl)
    refine (W4_arr m c w).trans ?_
    have hin : (cfg0.win w).isOut = false := by
      match w, h3 with
      | ⟨0, _⟩, _ => rfl
      | ⟨1, _⟩, _ => rfl
      | ⟨2, _⟩, _ => rfl
      | ⟨3, _⟩, h3 => exact absurd rfl h3
    exact ((dat0 (B3 m) c).arrAt_in w hin _).trans (A_eq0 (B3 m) c w)
  · exact W4_of_ne m c r fun w e => hw ⟨w, e⟩
theorem W5_of (c : Dev nD) (r : Ref sig .tc) (h : r ∉ hostOps1_W) : W5 m c r = W4 m c r :=
  StableHlo.after_of_writes_sub hostOps1 _ hostOps1_writes h
theorem W6_of (c : Dev nD) (r : Ref sig .tc) (h : r ∉ hostOps1_1_W) : W6 m c r = W5 m c r :=
  StableHlo.after_of_writes_sub hostOps1_1 _ hostOps1_1_writes h
theorem W7_of (c : Dev nD) (r : Ref sig .tc) (h : r ∉ hostOps1_2_W) : W7 m c r = W6 m c r :=
  StableHlo.after_of_writes_sub hostOps1_2 _ hostOps1_2_writes h
theorem W8_of (c : Dev nD) (r : Ref sig .tc) (h : r ∉ ([main_v17] : List (Ref sig .tc))) : W8 m c r = W7 m c r := by
  by_cases hw : ∃ w, Pipeline.arrRef spec1 w = r
  · obtain ⟨w, rfl⟩ := hw
    have h3 : w ≠ 3 := fun e => h (by subst e; exact List.mem_singleton.mpr rfl)
    refine (W8_arr m c w).trans ?_
    have hin : (cfg1.win w).isOut = false := by
      match w, h3 with
      | ⟨0, _⟩, _ => rfl
      | ⟨1, _⟩, _ => rfl
      | ⟨2, _⟩, _ => rfl
      | ⟨3, _⟩, h3 => exact absurd rfl h3
    exact ((dat1 (B7 m) c).arrAt_in w hin _).trans (A_eq1 (B7 m) c w)
  · exact W8_of_ne m c r fun w e => hw ⟨w, e⟩
theorem W9_of (c : Dev nD) (r : Ref sig .tc) (h : r ∉ hostOps2_W) : W9 m c r = W8 m c r :=
  StableHlo.after_of_writes_sub hostOps2 _ hostOps2_writes h
theorem W10_of (c : Dev nD) (r : Ref sig .tc) (h : r ∉ hostOps2_1_W) : W10 m c r = W9 m c r :=
  StableHlo.after_of_writes_sub hostOps2_1 _ hostOps2_1_writes h
theorem W11_of (c : Dev nD) (r : Ref sig .tc) (h : r ∉ hostOps2_2_W) : W11 m c r = W10 m c r :=
  StableHlo.after_of_writes_sub hostOps2_2 _ hostOps2_2_writes h
theorem W12_of (c : Dev nD) (r : Ref sig .tc) (h : r ∉ ([main_v28] : List (Ref sig .tc))) : W12 m c r = W11 m c r := by
  by_cases hw : ∃ w, Pipeline.arrRef spec2 w = r
  · obtain ⟨w, rfl⟩ := hw
    have h3 : w ≠ 3 := fun e => h (by subst e; exact List.mem_singleton.mpr rfl)
    refine (W12_arr m c w).trans ?_
    have hin : (cfg2.win w).isOut = false := by
      match w, h3 with
      | ⟨0, _⟩, _ => rfl
      | ⟨1, _⟩, _ => rfl
      | ⟨2, _⟩, _ => rfl
      | ⟨3, _⟩, h3 => exact absurd rfl h3
    exact ((dat2 (B11 m) c).arrAt_in w hin _).trans (A_eq2 (B11 m) c w)
  · exact W12_of_ne m c r fun w e => hw ⟨w, e⟩
theorem W13_of (c : Dev nD) (r : Ref sig .tc) (h : r ∉ hostOps3_W) : W13 m c r = W12 m c r :=
  StableHlo.after_of_writes_sub hostOps3 _ hostOps3_writes h
theorem W14_of (c : Dev nD) (r : Ref sig .tc) (h : r ∉ hostOps3_1_W) : W14 m c r = W13 m c r :=
  StableHlo.after_of_writes_sub hostOps3_1 _ hostOps3_1_writes h
theorem W15_of (c : Dev nD) (r : Ref sig .tc) (h : r ∉ hostOps3_2_W) : W15 m c r = W14 m c r :=
  StableHlo.after_of_writes_sub hostOps3_2 _ hostOps3_2_writes h
theorem W16_of (c : Dev nD) (r : Ref sig .tc) (h : r ∉ ([main_v37] : List (Ref sig .tc))) : W16 m c r = W15 m c r := by
  by_cases hw : ∃ w, Pipeline.arrRef spec3 w = r
  · obtain ⟨w, rfl⟩ := hw
    have h3 : w ≠ 3 := fun e => h (by subst e; exact List.mem_singleton.mpr rfl)
    refine (W16_arr m c w).trans ?_
    have hin : (cfg3.win w).isOut = false := by
      match w, h3 with
      | ⟨0, _⟩, _ => rfl
      | ⟨1, _⟩, _ => rfl
      | ⟨2, _⟩, _ => rfl
      | ⟨3, _⟩, h3 => exact absurd rfl h3
    exact ((dat3 (B15 m) c).arrAt_in w hin _).trans (A_eq3 (B15 m) c w)
  · exact W16_of_ne m c r fun w e => hw ⟨w, e⟩
theorem W17_of (c : Dev nD) (r : Ref sig .tc) (h : r ∉ hostOps4_W) : W17 m c r = W16 m c r :=
  StableHlo.after_of_writes_sub hostOps4 _ hostOps4_writes h
theorem W18_of (c : Dev nD) (r : Ref sig .tc) (h : r ∉ ([main_v42] : List (Ref sig .tc))) : W18 m c r = W17 m c r := by
  by_cases hw : ∃ w, Pipeline.arrRef spec4 w = r
  · obtain ⟨w, rfl⟩ := hw
    have h3 : w ≠ 3 := fun e => h (by subst e; exact List.mem_singleton.mpr rfl)
    refine (W18_arr m c w).trans ?_
    have hin : (cfg4.win w).isOut = false := by
      match w, h3 with
      | ⟨0, _⟩, _ => rfl
      | ⟨1, _⟩, _ => rfl
      | ⟨2, _⟩, _ => rfl
      | ⟨3, _⟩, h3 => exact absurd rfl h3
    exact ((dat4 (B17 m) c).arrAt_in w hin _).trans (A_eq4 (B17 m) c w)
  · exact W18_of_ne m c r fun w e => hw ⟨w, e⟩
theorem W19_of (c : Dev nD) (r : Ref sig .tc) (h : r ∉ hostOps5_W) : W19 m c r = W18 m c r :=
  StableHlo.after_of_writes_sub hostOps5 _ hostOps5_writes h
theorem W20_of (c : Dev nD) (r : Ref sig .tc) (h : r ∉ ([main_v44] : List (Ref sig .tc))) : W20 m c r = W19 m c r := by
  by_cases hw : ∃ w, Pipeline.arrRef spec5 w = r
  · obtain ⟨w, rfl⟩ := hw
    have h3 : w ≠ 3 := fun e => h (by subst e; exact List.mem_singleton.mpr rfl)
    refine (W20_arr m c w).trans ?_
    have hin : (cfg5.win w).isOut = false := by
      match w, h3 with
      | ⟨0, _⟩, _ => rfl
      | ⟨1, _⟩, _ => rfl
      | ⟨2, _⟩, _ => rfl
      | ⟨3, _⟩, h3 => exact absurd rfl h3
    exact ((dat5 (B19 m) c).arrAt_in w hin _).trans (A_eq5 (B19 m) c w)
  · exact W20_of_ne m c r fun w e => hw ⟨w, e⟩

/-- The references some item writes: the host stretches' results and the regions' output arrays. -/
abbrev written : List (Ref sig .tc) :=
  hostOps0_W ++ hostOps0_1_W ++ hostOps0_2_W ++ [main_v8] ++ hostOps1_W ++ hostOps1_1_W ++ hostOps1_2_W ++ [main_v17] ++ hostOps2_W ++ hostOps2_1_W ++ hostOps2_2_W ++ [main_v28] ++ hostOps3_W ++ hostOps3_1_W ++ hostOps3_2_W ++ [main_v37] ++ hostOps4_W ++ [main_v42] ++ hostOps5_W ++ [main_v44]

/-- A buffer no item writes holds its launch contents at the end. -/
theorem W20_launch (c : Dev nD) (r : Ref sig .tc) (h : r ∉ written) : W20 m c r = m ((c : Thread nD τ).loc r) := by
  simp only [written, List.mem_append, not_or, and_assoc] at h
  obtain ⟨h0, h1, h2, h3, h4, h5, h6, h7, h8, h9, h10, h11, h12, h13, h14, h15, h16, h17, h18, h19⟩ := h
  exact (W20_of m c r h19).trans <| (W19_of m c r h18).trans <| (W18_of m c r h17).trans <| (W17_of m c r h16).trans <| (W16_of m c r h15).trans <| (W15_of m c r h14).trans <| (W14_of m c r h13).trans <| (W13_of m c r h12).trans <| (W12_of m c r h11).trans <| (W11_of m c r h10).trans <| (W10_of m c r h9).trans <| (W9_of m c r h8).trans <| (W8_of m c r h7).trans <| (W7_of m c r h6).trans <| (W6_of m c r h5).trans <| (W5_of m c r h4).trans <| (W4_of m c r h3).trans <| (W3_of m c r h2).trans <| (W2_of m c r h1).trans <| (W1_of m c r h0)

/-! ## The proof data family and the thread state -/

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (B3 m) c
  | ⟨1, _⟩ => fun c => dat1 (B7 m) c
  | ⟨2, _⟩ => fun c => dat2 (B11 m) c
  | ⟨3, _⟩ => fun c => dat3 (B15 m) c
  | ⟨4, _⟩ => fun c => dat4 (B17 m) c
  | ⟨5, _⟩ => fun c => dat5 (B19 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W20 m c) ∗ ∃ r, prngReg c r)

/-! ## The regions as segments -/

set_option backward.isDefEq.respectTransparency.types false in
/-- Region 0 over the thread state: entered from every unscoped buffer at `W3`, left at `W4`. Its arrays are split
    out of the unscoped buffers and put back at the exit contents; the generator register goes into the kernel's
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (B3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (B3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (B3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (B3 m c) (B4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W7`, left at `W8`. Its arrays are split
    out of the unscoped buffers and put back at the exit contents; the generator register goes into the kernel's
    invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (B7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (B7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (B7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (B7 m c) (B8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W11`, left at `W12`. Its arrays are split
    out of the unscoped buffers and put back at the exit contents; the generator register goes into the kernel's
    invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (B11 m) c).loose
  hwaits := Pipeline.hwaits_of_owed_zero _ _ _ _ L lv 2 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec2 c (B11 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (B11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (B11 m c) (B12 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W15`, left at `W16`. Its arrays are split
    out of the unscoped buffers and put back at the exit contents; the generator register goes into the kernel's
    invariant and comes out; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (B15 m) c).loose
  hwaits := Pipeline.hwaits_of_owed_zero _ _ _ _ L lv 3 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec3 c (B15 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (B15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (B15 m c) (B16 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W17`, left at `W18`. Its arrays are split
    out of the unscoped buffers and put back at the exit contents; the generator register goes into the kernel's
    invariant and comes out; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (B17 m) c).loose
  hwaits := Pipeline.hwaits_of_owed_zero _ _ _ _ L lv 4 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec4 c (B17 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (B17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin4 (B17 m) c
  hout c := by
    rw [Pipeline.ownSems0_none]
    exact (hout4 (B17 m) c).trans (by
      iintro ⟨Hp, Hr⟩
      isplitl [Hp]; · iexact Hp
      isplitr; · iempintro
      iexact Hr)
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (B17 m c) (B18 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W19`, left at `W20`. Its arrays are split
    out of the unscoped buffers and put back at the exit contents; the generator register goes into the kernel's
    invariant and comes out; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (B19 m) c).loose
  hwaits := Pipeline.hwaits_of_owed_zero _ _ _ _ L lv 5 fun _ _ => rfl
  pre c := iprop(StableHlo.held (c : Thread nD τ) (Pipeline.ucRefs τ sig) (W19 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (B19 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (B19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (B19 m c) (B20 m c) ((pdats m 5 c).arrAt · cfg5.N) (hF5 m c) (hrest5 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The entry function as segments, and the launch -/

/-- The entry function's 20 items in order: a host segment per stretch from its boundary's contents, a region per kernel call. -/
abbrev segsH : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .host (hseg hostOps1_1 hostOps1_1_sub hostOps1_1_fresh (W5 m)),
    .host (hseg hostOps1_2 hostOps1_2_sub hostOps1_2_fresh (W6 m)),
    .region (reg1 m),
    .host (hseg hostOps2 hostOps2_sub hostOps2_fresh (W8 m)),
    .host (hseg hostOps2_1 hostOps2_1_sub hostOps2_1_fresh (W9 m)),
    .host (hseg hostOps2_2 hostOps2_2_sub hostOps2_2_fresh (W10 m)),
    .region (reg2 m),
    .host (hseg hostOps3 hostOps3_sub hostOps3_fresh (W12 m)),
    .host (hseg hostOps3_1 hostOps3_1_sub hostOps3_1_fresh (W13 m)),
    .host (hseg hostOps3_2 hostOps3_2_sub hostOps3_2_fresh (W14 m)),
    .region (reg3 m),
    .host (hseg hostOps4 hostOps4_sub hostOps4_fresh (W16 m)),
    .region (reg4 m),
    .host (hseg hostOps5 hostOps5_sub hostOps5_fresh (W18 m)),
    .region (reg5 m) ]
/-- The entry function IS the run of the segments. -/
theorem main_run (c : Dev nD) : main (F := F) c = Pipeline.Seg.run (segsH m) := (main_chain c).trans (by chain_rfl)

set_option backward.isDefEq.respectTransparency.types false in
/-- From any memory with zero counters every weakly fair execution of the entry function terminates, nothing faulting,
    and every final state holds every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W20 m c b) :=
  Pipeline.θ_run_regions_kit (pcfgs (F := F)) adm (pdats m) () cellOf_inj emb₁ defs₀ 𝒱₀ L lv m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m c b)
    (hfin := fun c s' => by
      iintro ⟨⟨Hh, -⟩, HSI⟩
      unfold StableHlo.held
      imodintro
      iapply (pointsTo_read_all (Pipeline.ucRefs τ sig) (fun b => (((c : Thread nD τ)).1, b)) (W20 m c) s')
      isplitl [Hh] <;> iassumption)
    (hQ := fun s h => h)

/-- The frame: every argument array ends as launched (no item writes one). -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (W20_launch m c main_arg0 (by decide)),
    (h c _ (mem_uc main_arg1 (by decide))).trans (W20_launch m c main_arg1 (by decide)),
    (h c _ (mem_uc main_arg2 (by decide))).trans (W20_launch m c main_arg2 (by decide)),
    (h c _ (mem_uc main_arg3 (by decide))).trans (W20_launch m c main_arg3 (by decide)),
    (h c _ (mem_uc main_arg4 (by decide))).trans (W20_launch m c main_arg4 (by decide)),
    (h c _ (mem_uc main_arg5 (by decide))).trans (W20_launch m c main_arg5 (by decide)),
    (h c _ (mem_uc main_arg6 (by decide))).trans (W20_launch m c main_arg6 (by decide)),
    (h c _ (mem_uc main_arg7 (by decide))).trans (W20_launch m c main_arg7 (by decide)),
    (h c _ (mem_uc main_arg8 (by decide))).trans (W20_launch m c main_arg8 (by decide)),
    (h c _ (mem_uc main_arg9 (by decide))).trans (W20_launch m c main_arg9 (by decide)),
    (h c _ (mem_uc main_arg10 (by decide))).trans (W20_launch m c main_arg10 (by decide)),
    (h c _ (mem_uc main_arg11 (by decide))).trans (W20_launch m c main_arg11 (by decide)),
    (h c _ (mem_uc main_arg12 (by decide))).trans (W20_launch m c main_arg12 (by decide))⟩) (run_all m ρ)

/-- The value run: the result array ends at the last boundary's contents, the arguments as launched. -/
theorem value_run (ρ : Dev nD → PrngReg) : θ_run defs (onTc (τ := τ) (main (F := F))) ⟨m, fun _ => 0, ρ⟩ (fun r => ∀ c : Dev nD,
      r.2.mem ((c.tc : Thread nD τ).loc main_v44) = W20 m c main_v44
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨h c _ (mem_uc main_v44 (by decide)),
    (h c _ (mem_uc main_arg0 (by decide))).trans (W20_launch m c main_arg0 (by decide)),
    (h c _ (mem_uc main_arg1 (by decide))).trans (W20_launch m c main_arg1 (by decide)),
    (h c _ (mem_uc main_arg2 (by decide))).trans (W20_launch m c main_arg2 (by decide)),
    (h c _ (mem_uc main_arg3 (by decide))).trans (W20_launch m c main_arg3 (by decide)),
    (h c _ (mem_uc main_arg4 (by decide))).trans (W20_launch m c main_arg4 (by decide)),
    (h c _ (mem_uc main_arg5 (by decide))).trans (W20_launch m c main_arg5 (by decide)),
    (h c _ (mem_uc main_arg6 (by decide))).trans (W20_launch m c main_arg6 (by decide)),
    (h c _ (mem_uc main_arg7 (by decide))).trans (W20_launch m c main_arg7 (by decide)),
    (h c _ (mem_uc main_arg8 (by decide))).trans (W20_launch m c main_arg8 (by decide)),
    (h c _ (mem_uc main_arg9 (by decide))).trans (W20_launch m c main_arg9 (by decide)),
    (h c _ (mem_uc main_arg10 (by decide))).trans (W20_launch m c main_arg10 (by decide)),
    (h c _ (mem_uc main_arg11 (by decide))).trans (W20_launch m c main_arg11 (by decide)),
    (h c _ (mem_uc main_arg12 (by decide))).trans (W20_launch m c main_arg12 (by decide))⟩) (run_all m ρ)

end Cert.KernelIdeal.Hand

end
-- ==== Proof.LibStretches.lean ====
/-
  Reading a long line of host operations stretch by stretch.

  `after ops V` is the fold of the operations' results over the contents `V`. For a line of a hundred operations the
  fold read at the last buffer, flattened, repeats every shared intermediate once per use and is too large to compare
  with anything. Cut the line into consecutive stretches instead (the library's `StableHlo.after_append`, Lib/Pipeline/Frame.lean:
  the fold over a concatenation is the fold of the second part over the fold of the first): the contents after a stretch are
  the fold of that stretch over the contents before it, and a stretch's result at a buffer depends on those contents
  only at the few buffers the stretch reads — so state each stretch's reading over an ARBITRARY valuation, with those
  few as hypotheses, and chain the readings. Every term then has the size of one stretch.

  The operations of an outlined function (a private `func.call`, printed with typed references) wrap each operand and
  result in a transport along "the buffer's type is the value's type"; both sides of that equation are the same type,
  and `read_stretch` removes the transports by `cast_eq` after the one-pass reader, instead of leaving them to a
  definitional unfolding that has to look every buffer up in the signature's table.

  Also here: the entrywise product of two arrays of extended reals commutes (`mulf_comm`).
-/
import Idealize.ShloMosaic.Lib.StableHlo.Run
import Idealize.ShloMosaic.Lib.Pipeline.Frame
import Idealize.ShloMosaic.PureOps.Ideal

noncomputable section

namespace Cert.Stretches

open Idealize.ShloMosaic Idealize.ShloMosaic.StableHlo

/-- The one-pass reader of a stretch's results, then the transports of an outlined function's typed references removed
    (each is along an equation between two spellings of one type). What is left is an equation between pure terms over the
    incoming valuation at the buffers the stretch reads. -/
macro "read_stretch" : tactic =>
  `(tactic| (after_results_simp; try simp only [TRef.toBuf, TRef.ofBuf, cast_eq]))

/-- The entrywise product of two arrays of extended reals commutes. -/
theorem mulf_comm {s : Shape} (a b : FVec Ideal s .f32) : mulf (F := Ideal) (φ := .f32) a b = mulf (F := Ideal) (φ := .f32) b a :=
  funext fun i => by simp only [mulf, Ideal.mulf_def]; exact mul_comm _ _

end Cert.Stretches

end
-- ==== Proof.KV.Glue.lean ====
/-
  The host operations around the kernel regions, read off the whole program's fold of buffer contents: each conv
  region's padded input and border-aware threshold map, the two 2x2 maxima, the flattening, and the bias rows, as
  the same layer functions the reference is written in (padding by the layer's lower time bound; the threshold array's
  row picked per pixel by the literal border table; reshape to six axes and maximum over the two pooling axes).
-/
import proofs.«142023_j26104811225511_2_alg».proof.Proof.KI.Run
import proofs.«142023_j26104811225511_2_alg».proof.Proof.LibStretches
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-! ## The layers of host operations -/

/-- Layer 0's input padded by one pixel on each side of both spatial axes with the layer's lower bound. -/
def pad0 (x : (⟨S32x64x64x1, .f32⟩ : BufTy).Contents (Elt F)) : (⟨S32x66x66x1, .f32⟩ : BufTy).Contents (Elt F) :=
  pad S32x66x66x1 ![0, 1, 1, 0] ![0, 1, 1, 0] ![0, 0, 0, 0] x (constant S_ .f32 0x00000000#32) pads_S32x64x64x1_S32x66x66x1_000_110_110_000 h_S_

/-- Layer 0's table of row indices into the threshold array, one per output pixel. -/
def tab0 : (⟨S64x64, .i32⟩ : BufTy).Contents (Elt F) := fun i => lit0 (S64x64.rowMajor i)

/-- The table with negative entries wrapped by nine (the number of rows of the threshold array). -/
def idx0 : (⟨S64x64, .i32⟩ : BufTy).Contents (Elt F) :=
  select (cmpi .slt (tab0 (F := F)) (broadcastInDim S64x64 ![] bcast_S_S64x64 (constantI S_ 32 0#32)))
    (addi (tab0 (F := F)) (broadcastInDim S64x64 ![] bcast_S_S64x64 (constantI S_ 32 9#32))) (tab0 (F := F))

/-- Layer 0's threshold map: row `idx0` of the threshold array at every output pixel. -/
def gath0 (D : (⟨S9x64, .f32⟩ : BufTy).Contents (Elt F)) : (⟨S64x64x64, .f32⟩ : BufTy).Contents (Elt F) :=
  Host.gather gather_S9x64_S64x64x1_S64x64x64_2_0_n_n_0_2_164 D (broadcastInDim S64x64x1 ![0, 1] bcast_S64x64_S64x64x1_0_1 (idx0 (F := F)))

/-- Layer 1's input padded by one pixel on each side of both spatial axes with the layer's lower bound. -/
def pad1 (x : (⟨S32x64x64x64, .f32⟩ : BufTy).Contents (Elt F)) : (⟨S32x66x66x64, .f32⟩ : BufTy).Contents (Elt F) :=
  pad S32x66x66x64 ![0, 1, 1, 0] ![0, 1, 1, 0] ![0, 0, 0, 0] x (constant S_ .f32 0x44BB8000#32) pads_S32x64x64x64_S32x66x66x64_000_110_110_000 h_S_

/-- Layer 1's table of row indices into the threshold array, one per output pixel. -/
def tab1 : (⟨S64x64, .i32⟩ : BufTy).Contents (Elt F) := fun i => lit1 (S64x64.rowMajor i)

/-- The table with negative entries wrapped by nine (the number of rows of the threshold array). -/
def idx1 : (⟨S64x64, .i32⟩ : BufTy).Contents (Elt F) :=
  select (cmpi .slt (tab1 (F := F)) (broadcastInDim S64x64 ![] bcast_S_S64x64 (constantI S_ 32 0#32)))
    (addi (tab1 (F := F)) (broadcastInDim S64x64 ![] bcast_S_S64x64 (constantI S_ 32 9#32))) (tab1 (F := F))

/-- Layer 1's threshold map: row `idx1` of the threshold array at every output pixel. -/
def gath1 (D : (⟨S9x64, .f32⟩ : BufTy).Contents (Elt F)) : (⟨S64x64x64, .f32⟩ : BufTy).Contents (Elt F) :=
  Host.gather gather_S9x64_S64x64x1_S64x64x64_2_0_n_n_0_2_164 D (broadcastInDim S64x64x1 ![0, 1] bcast_S64x64_S64x64x1_0_1 (idx1 (F := F)))

/-- Layer 2's input padded by one pixel on each side of both spatial axes with the layer's lower bound. -/
def pad2 (x : (⟨S32x32x32x64, .f32⟩ : BufTy).Contents (Elt F)) : (⟨S32x34x34x64, .f32⟩ : BufTy).Contents (Elt F) :=
  pad S32x34x34x64 ![0, 1, 1, 0] ![0, 1, 1, 0] ![0, 0, 0, 0] x (constant S_ .f32 0x453B8000#32) pads_S32x32x32x64_S32x34x34x64_000_110_110_000 h_S_

/-- Layer 2's table of row indices into the threshold array, one per output pixel. -/
def tab2 : (⟨S32x32, .i32⟩ : BufTy).Contents (Elt F) := fun i => lit2 (S32x32.rowMajor i)

/-- The table with negative entries wrapped by nine (the number of rows of the threshold array). -/
def idx2 : (⟨S32x32, .i32⟩ : BufTy).Contents (Elt F) :=
  select (cmpi .slt (tab2 (F := F)) (broadcastInDim S32x32 ![] bcast_S_S32x32 (constantI S_ 32 0#32)))
    (addi (tab2 (F := F)) (broadcastInDim S32x32 ![] bcast_S_S32x32 (constantI S_ 32 9#32))) (tab2 (F := F))

/-- Layer 2's threshold map: row `idx2` of the threshold array at every output pixel. -/
def gath2 (D : (⟨S9x128, .f32⟩ : BufTy).Contents (Elt F)) : (⟨S32x32x128, .f32⟩ : BufTy).Contents (Elt F) :=
  Host.gather gather_S9x128_S32x32x1_S32x32x128_2_0_n_n_0_2_1128 D (broadcastInDim S32x32x1 ![0, 1] bcast_S32x32_S32x32x1_0_1 (idx2 (F := F)))

/-- Layer 3's input padded by one pixel on each side of both spatial axes with the layer's lower bound. -/
def pad3 (x : (⟨S32x32x32x128, .f32⟩ : BufTy).Contents (Elt F)) : (⟨S32x34x34x128, .f32⟩ : BufTy).Contents (Elt F) :=
  pad S32x34x34x128 ![0, 1, 1, 0] ![0, 1, 1, 0] ![0, 0, 0, 0] x (constant S_ .f32 0x458CA000#32) pads_S32x32x32x128_S32x34x34x128_000_110_110_000 h_S_

/-- Layer 3's table of row indices into the threshold array, one per output pixel. -/
def tab3 : (⟨S32x32, .i32⟩ : BufTy).Contents (Elt F) := fun i => lit3 (S32x32.rowMajor i)

/-- The table with negative entries wrapped by nine (the number of rows of the threshold array). -/
def idx3 : (⟨S32x32, .i32⟩ : BufTy).Contents (Elt F) :=
  select (cmpi .slt (tab3 (F := F)) (broadcastInDim S32x32 ![] bcast_S_S32x32 (constantI S_ 32 0#32)))
    (addi (tab3 (F := F)) (broadcastInDim S32x32 ![] bcast_S_S32x32 (constantI S_ 32 9#32))) (tab3 (F := F))

/-- Layer 3's threshold map: row `idx3` of the threshold array at every output pixel. -/
def gath3 (D : (⟨S9x128, .f32⟩ : BufTy).Contents (Elt F)) : (⟨S32x32x128, .f32⟩ : BufTy).Contents (Elt F) :=
  Host.gather gather_S9x128_S32x32x1_S32x32x128_2_0_n_n_0_2_1128 D (broadcastInDim S32x32x1 ![0, 1] bcast_S32x32_S32x32x1_0_1 (idx3 (F := F)))

/-- The 2x2 maximum after the second convolution layer. -/
def pool1 (y : (⟨S32x64x64x64, .f32⟩ : BufTy).Contents (Elt F)) : (⟨S32x32x32x64, .f32⟩ : BufTy).Contents (Elt F) :=
  Host.reduce FloatOps.maximumf (shapeCast S32x32x2x32x2x64 y shapeCasts_S32x64x64x64_S32x32x2x32x2x64)
    (constant S_ .f32 0xFF800000#32) reducesTo_S32x32x2x32x2x64_S32x32x32x64_d2_4 h_S_

/-- The 2x2 maximum after the fourth convolution layer. -/
def pool2 (y : (⟨S32x32x32x128, .f32⟩ : BufTy).Contents (Elt F)) : (⟨S32x16x16x128, .f32⟩ : BufTy).Contents (Elt F) :=
  Host.reduce FloatOps.maximumf (shapeCast S32x16x2x16x2x128 y shapeCasts_S32x32x32x128_S32x16x2x16x2x128)
    (constant S_ .f32 0xFF800000#32) reducesTo_S32x16x2x16x2x128_S32x16x16x128_d2_4 h_S_

/-- Each image's pooled features as one row. -/
def flat (y : (⟨S32x16x16x128, .f32⟩ : BufTy).Contents (Elt F)) : (⟨S32x32768, .f32⟩ : BufTy).Contents (Elt F) :=
  shapeCast S32x32768 y shapeCasts_S32x16x16x128_S32x32768

/-- The first dense layer's bias as a one-row matrix. -/
def rowD (D : (⟨S256, .f32⟩ : BufTy).Contents (Elt F)) : (⟨S1x256, .f32⟩ : BufTy).Contents (Elt F) :=
  shapeCast S1x256 D shapeCasts_S256_S1x256

/-- The output layer's bias as a one-row matrix. -/
def rowO (D : (⟨S10, .f32⟩ : BufTy).Contents (Elt F)) : (⟨S1x10, .f32⟩ : BufTy).Contents (Elt F) :=
  shapeCast S1x10 D shapeCasts_S10_S1x10

variable (m : (ℓ : Loc nD τ sig) → Buf (Elt F) ℓ)

open Cert.Stretches

/-- A buffer none of the first 3 items writes holds its launch contents at boundary 3. -/
theorem W3_launch (c : Dev nD) (r : Ref sig .tc) (h : r ∉ hostOps0_W ++ hostOps0_1_W ++ hostOps0_2_W) :
    W3 m c r = m ((c : Thread nD τ).loc r) := by
  simp only [List.mem_append, not_or, and_assoc] at h
  obtain ⟨h0, h1, h2⟩ := h
  exact (W3_of m c r h2).trans <| (W2_of m c r h1).trans <| (W1_of m c r h0)

/-- A buffer none of the first 7 items writes holds its launch contents at boundary 7. -/
theorem W7_launch (c : Dev nD) (r : Ref sig .tc) (h : r ∉ hostOps0_W ++ hostOps0_1_W ++ hostOps0_2_W ++ [main_v8] ++ hostOps1_W ++ hostOps1_1_W ++ hostOps1_2_W) :
    W7 m c r = m ((c : Thread nD τ).loc r) := by
  simp only [List.mem_append, not_or, and_assoc] at h
  obtain ⟨h0, h1, h2, h3, h4, h5, h6⟩ := h
  exact (W7_of m c r h6).trans <| (W6_of m c r h5).trans <| (W5_of m c r h4).trans <| (W4_of m c r h3).trans <| (W3_of m c r h2).trans <| (W2_of m c r h1).trans <| (W1_of m c r h0)

/-- A buffer none of the first 11 items writes holds its launch contents at boundary 11. -/
theorem W11_launch (c : Dev nD) (r : Ref sig .tc) (h : r ∉ hostOps0_W ++ hostOps0_1_W ++ hostOps0_2_W ++ [main_v8] ++ hostOps1_W ++ hostOps1_1_W ++ hostOps1_2_W ++ [main_v17] ++ hostOps2_W ++ hostOps2_1_W ++ hostOps2_2_W) :
    W11 m c r = m ((c : Thread nD τ).loc r) := by
  simp only [List.mem_append, not_or, and_assoc] at h
  obtain ⟨h0, h1, h2, h3, h4, h5, h6, h7, h8, h9, h10⟩ := h
  exact (W11_of m c r h10).trans <| (W10_of m c r h9).trans <| (W9_of m c r h8).trans <| (W8_of m c r h7).trans <| (W7_of m c r h6).trans <| (W6_of m c r h5).trans <| (W5_of m c r h4).trans <| (W4_of m c r h3).trans <| (W3_of m c r h2).trans <| (W2_of m c r h1).trans <| (W1_of m c r h0)

/-- A buffer none of the first 15 items writes holds its launch contents at boundary 15. -/
theorem W15_launch (c : Dev nD) (r : Ref sig .tc) (h : r ∉ hostOps0_W ++ hostOps0_1_W ++ hostOps0_2_W ++ [main_v8] ++ hostOps1_W ++ hostOps1_1_W ++ hostOps1_2_W ++ [main_v17] ++ hostOps2_W ++ hostOps2_1_W ++ hostOps2_2_W ++ [main_v28] ++ hostOps3_W ++ hostOps3_1_W ++ hostOps3_2_W) :
    W15 m c r = m ((c : Thread nD τ).loc r) := by
  simp only [List.mem_append, not_or, and_assoc] at h
  obtain ⟨h0, h1, h2, h3, h4, h5, h6, h7, h8, h9, h10, h11, h12, h13, h14⟩ := h
  exact (W15_of m c r h14).trans <| (W14_of m c r h13).trans <| (W13_of m c r h12).trans <| (W12_of m c r h11).trans <| (W11_of m c r h10).trans <| (W10_of m c r h9).trans <| (W9_of m c r h8).trans <| (W8_of m c r h7).trans <| (W7_of m c r h6).trans <| (W6_of m c r h5).trans <| (W5_of m c r h4).trans <| (W4_of m c r h3).trans <| (W3_of m c r h2).trans <| (W2_of m c r h1).trans <| (W1_of m c r h0)

/-- A buffer none of the first 17 items writes holds its launch contents at boundary 17. -/
theorem W17_launch (c : Dev nD) (r : Ref sig .tc) (h : r ∉ hostOps0_W ++ hostOps0_1_W ++ hostOps0_2_W ++ [main_v8] ++ hostOps1_W ++ hostOps1_1_W ++ hostOps1_2_W ++ [main_v17] ++ hostOps2_W ++ hostOps2_1_W ++ hostOps2_2_W ++ [main_v28] ++ hostOps3_W ++ hostOps3_1_W ++ hostOps3_2_W ++ [main_v37] ++ hostOps4_W) :
    W17 m c r = m ((c : Thread nD τ).loc r) := by
  simp only [List.mem_append, not_or, and_assoc] at h
  obtain ⟨h0, h1, h2, h3, h4, h5, h6, h7, h8, h9, h10, h11, h12, h13, h14, h15, h16⟩ := h
  exact (W17_of m c r h16).trans <| (W16_of m c r h15).trans <| (W15_of m c r h14).trans <| (W14_of m c r h13).trans <| (W13_of m c r h12).trans <| (W12_of m c r h11).trans <| (W11_of m c r h10).trans <| (W10_of m c r h9).trans <| (W9_of m c r h8).trans <| (W8_of m c r h7).trans <| (W7_of m c r h6).trans <| (W6_of m c r h5).trans <| (W5_of m c r h4).trans <| (W4_of m c r h3).trans <| (W3_of m c r h2).trans <| (W2_of m c r h1).trans <| (W1_of m c r h0)

/-- A buffer none of the first 19 items writes holds its launch contents at boundary 19. -/
theorem W19_launch (c : Dev nD) (r : Ref sig .tc) (h : r ∉ hostOps0_W ++ hostOps0_1_W ++ hostOps0_2_W ++ [main_v8] ++ hostOps1_W ++ hostOps1_1_W ++ hostOps1_2_W ++ [main_v17] ++ hostOps2_W ++ hostOps2_1_W ++ hostOps2_2_W ++ [main_v28] ++ hostOps3_W ++ hostOps3_1_W ++ hostOps3_2_W ++ [main_v37] ++ hostOps4_W ++ [main_v42] ++ hostOps5_W) :
    W19 m c r = m ((c : Thread nD τ).loc r) := by
  simp only [List.mem_append, not_or, and_assoc] at h
  obtain ⟨h0, h1, h2, h3, h4, h5, h6, h7, h8, h9, h10, h11, h12, h13, h14, h15, h16, h17, h18⟩ := h
  exact (W19_of m c r h18).trans <| (W18_of m c r h17).trans <| (W17_of m c r h16).trans <| (W16_of m c r h15).trans <| (W15_of m c r h14).trans <| (W14_of m c r h13).trans <| (W13_of m c r h12).trans <| (W12_of m c r h11).trans <| (W11_of m c r h10).trans <| (W10_of m c r h9).trans <| (W9_of m c r h8).trans <| (W8_of m c r h7).trans <| (W7_of m c r h6).trans <| (W6_of m c r h5).trans <| (W5_of m c r h4).trans <| (W4_of m c r h3).trans <| (W3_of m c r h2).trans <| (W2_of m c r h1).trans <| (W1_of m c r h0)

/-! ## The border tables, written once at the start and carried -/

theorem W1_c (c : Dev nD) : W1 m c main_c = tab0 := by
  show StableHlo.after hostOps0 (W0 m c) (Proc.devRef .tc main_c) = _
  unfold tab0; read_stretch <;> rfl
theorem W1_c0 (c : Dev nD) : W1 m c main_c_0 = tab1 := by
  show StableHlo.after hostOps0 (W0 m c) (Proc.devRef .tc main_c_0) = _
  unfold tab1; read_stretch <;> rfl
theorem W1_c1 (c : Dev nD) : W1 m c main_c_1 = tab2 := by
  show StableHlo.after hostOps0 (W0 m c) (Proc.devRef .tc main_c_1) = _
  unfold tab2; read_stretch <;> rfl
theorem W1_c2 (c : Dev nD) : W1 m c main_c_2 = tab3 := by
  show StableHlo.after hostOps0 (W0 m c) (Proc.devRef .tc main_c_2) = _
  unfold tab3; read_stretch <;> rfl
theorem W6_c0 (c : Dev nD) : W6 m c main_c_0 = tab1 :=
  (W6_of m c main_c_0 (by decide)).trans <| (W5_of m c main_c_0 (by decide)).trans <| (W4_of m c main_c_0 (by decide)).trans <| (W3_of m c main_c_0 (by decide)).trans <| (W2_of m c main_c_0 (by decide)).trans <| W1_c0 m c
theorem W10_c1 (c : Dev nD) : W10 m c main_c_1 = tab2 :=
  (W10_of m c main_c_1 (by decide)).trans <| (W9_of m c main_c_1 (by decide)).trans <| (W8_of m c main_c_1 (by decide)).trans <| (W7_of m c main_c_1 (by decide)).trans <| (W6_of m c main_c_1 (by decide)).trans <| (W5_of m c main_c_1 (by decide)).trans <| (W4_of m c main_c_1 (by decide)).trans <| (W3_of m c main_c_1 (by decide)).trans <| (W2_of m c main_c_1 (by decide)).trans <| W1_c1 m c
theorem W14_c2 (c : Dev nD) : W14 m c main_c_2 = tab3 :=
  (W14_of m c main_c_2 (by decide)).trans <| (W13_of m c main_c_2 (by decide)).trans <| (W12_of m c main_c_2 (by decide)).trans <| (W11_of m c main_c_2 (by decide)).trans <| (W10_of m c main_c_2 (by decide)).trans <| (W9_of m c main_c_2 (by decide)).trans <| (W8_of m c main_c_2 (by decide)).trans <| (W7_of m c main_c_2 (by decide)).trans <| (W6_of m c main_c_2 (by decide)).trans <| (W5_of m c main_c_2 (by decide)).trans <| (W4_of m c main_c_2 (by decide)).trans <| (W3_of m c main_c_2 (by decide)).trans <| (W2_of m c main_c_2 (by decide)).trans <| W1_c2 m c

/-! ## Region 0's entry -/

theorem W3_v0 (c : Dev nD) : W3 m c main_v0 = pad0 (m ((c : Thread nD τ).loc main_arg0)) := by
  show StableHlo.after hostOps0_2 (StableHlo.after hostOps0_1 (StableHlo.after hostOps0 (W0 m c))) (Proc.devRef .tc main_v0) = _
  unfold pad0; read_stretch <;> rfl
theorem W3_v7 (c : Dev nD) : W3 m c main_v7 = gath0 (m ((c : Thread nD τ).loc main_arg2)) := by
  show StableHlo.after hostOps0_2 (StableHlo.after hostOps0_1 (StableHlo.after hostOps0 (W0 m c))) (Proc.devRef .tc main_v7) = _
  unfold gath0 idx0 tab0; read_stretch <;> rfl
theorem W3_arg1 (c : Dev nD) : W3 m c main_arg1 = m ((c : Thread nD τ).loc main_arg1) := W3_launch m c main_arg1 (by decide)

/-! ## Region 1's entry -/

theorem W7_v9 (c : Dev nD) : W7 m c main_v9 = pad1 (W4 m c main_v8) := by
  show StableHlo.after hostOps1_2 (StableHlo.after hostOps1_1 (StableHlo.after hostOps1 (W4 m c))) (Proc.devRef .tc main_v9) = _
  unfold pad1; read_stretch <;> rfl
theorem W7_v16 (c : Dev nD) : W7 m c main_v16 = gath1 (m ((c : Thread nD τ).loc main_arg4)) := by
  have e : W7 m c main_v16 = Host.gather gather_S9x64_S64x64x1_S64x64x64_2_0_n_n_0_2_164 (W6 m c main_arg4)
      (broadcastInDim S64x64x1 ![0, 1] bcast_S64x64_S64x64x1_0_1
        (select (cmpi .slt (W6 m c main_c_0) (broadcastInDim S64x64 ![] bcast_S_S64x64 (constantI S_ 32 0#32)))
          (addi (W6 m c main_c_0) (broadcastInDim S64x64 ![] bcast_S_S64x64 (constantI S_ 32 9#32))) (W6 m c main_c_0))) := by
    show StableHlo.after hostOps1_2 (W6 m c) (Proc.devRef .tc main_v16) = _
    read_stretch <;> rfl
  rw [e, W6_c0, show W6 m c main_arg4 = m ((c : Thread nD τ).loc main_arg4) from (W6_of m c main_arg4 (by decide)).trans <| (W5_of m c main_arg4 (by decide)).trans <| (W4_of m c main_arg4 (by decide)).trans <| W3_launch m c main_arg4 (by decide)]
  try rfl
theorem W7_arg3 (c : Dev nD) : W7 m c main_arg3 = m ((c : Thread nD τ).loc main_arg3) := W7_launch m c main_arg3 (by decide)

/-! ## Region 2's entry -/

theorem W9_v19 (c : Dev nD) : W9 m c main_v19 = pool1 (W8 m c main_v17) := by
  show StableHlo.after hostOps2 (W8 m c) (Proc.devRef .tc main_v19) = _
  unfold pool1; after_results
  refine congrArg (fun z => Host.reduce FloatOps.maximumf z (constant S_ .f32 0xFF800000#32) reducesTo_S32x32x2x32x2x64_S32x32x32x64_d2_4 h_S_) ?_
  funext i; rfl
theorem W9_cst9 (c : Dev nD) : W9 m c main_cst_9 = constant S_ .f32 0x453B8000#32 := by
  show StableHlo.after hostOps2 (W8 m c) (Proc.devRef .tc main_cst_9) = _
  after_results
/-- The padding call and the threshold gather of region 2's entry, over any contents before them. -/
theorem read_v20 (Vv : Valuation τ sig (Elt F)) :
    StableHlo.after hostOps2_2 (StableHlo.after hostOps2_1 Vv) (Proc.devRef .tc main_v20)
      = pad S32x34x34x64 ![0, 1, 1, 0] ![0, 1, 1, 0] ![0, 0, 0, 0] (Vv (Proc.devRef .tc main_v19)) (Vv (Proc.devRef .tc main_cst_9))
          pads_S32x32x32x64_S32x34x34x64_000_110_110_000 h_S_ := by
  read_stretch <;> rfl
theorem read_v27 (Vv : Valuation τ sig (Elt F)) :
    StableHlo.after hostOps2_2 Vv (Proc.devRef .tc main_v27)
      = Host.gather gather_S9x128_S32x32x1_S32x32x128_2_0_n_n_0_2_1128 (Vv (Proc.devRef .tc main_arg6))
          (broadcastInDim S32x32x1 ![0, 1] bcast_S32x32_S32x32x1_0_1
            (select (cmpi .slt (Vv (Proc.devRef .tc main_c_1)) (broadcastInDim S32x32 ![] bcast_S_S32x32 (constantI S_ 32 0#32)))
              (addi (Vv (Proc.devRef .tc main_c_1)) (broadcastInDim S32x32 ![] bcast_S_S32x32 (constantI S_ 32 9#32))) (Vv (Proc.devRef .tc main_c_1)))) := by
  read_stretch <;> rfl
theorem W11_v20 (c : Dev nD) : W11 m c main_v20 = pad2 (pool1 (W8 m c main_v17)) := by
  refine (read_v20 (W9 m c)).trans ?_
  rw [show W9 m c (Proc.devRef .tc main_v19) = pool1 (W8 m c main_v17) from W9_v19 m c,
    show W9 m c (Proc.devRef .tc main_cst_9) = constant S_ .f32 0x453B8000#32 from W9_cst9 m c]
  try rfl
theorem W11_v27 (c : Dev nD) : W11 m c main_v27 = gath2 (m ((c : Thread nD τ).loc main_arg6)) := by
  refine (read_v27 (W10 m c)).trans ?_
  rw [show W10 m c (Proc.devRef .tc main_c_1) = tab2 from W10_c1 m c,
    show W10 m c (Proc.devRef .tc main_arg6) = m ((c : Thread nD τ).loc main_arg6) from (W10_of m c main_arg6 (by decide)).trans <| (W9_of m c main_arg6 (by decide)).trans <| (W8_of m c main_arg6 (by decide)).trans <| W7_launch m c main_arg6 (by decide)]
  try rfl
theorem W11_arg5 (c : Dev nD) : W11 m c main_arg5 = m ((c : Thread nD τ).loc main_arg5) := W11_launch m c main_arg5 (by decide)

/-! ## Region 3's entry -/

theorem W15_v29 (c : Dev nD) : W15 m c main_v29 = pad3 (W12 m c main_v28) := by
  show StableHlo.after hostOps3_2 (StableHlo.after hostOps3_1 (StableHlo.after hostOps3 (W12 m c))) (Proc.devRef .tc main_v29) = _
  unfold pad3; read_stretch <;> rfl
theorem W15_v36 (c : Dev nD) : W15 m c main_v36 = gath3 (m ((c : Thread nD τ).loc main_arg8)) := by
  have e : W15 m c main_v36 = Host.gather gather_S9x128_S32x32x1_S32x32x128_2_0_n_n_0_2_1128 (W14 m c main_arg8)
      (broadcastInDim S32x32x1 ![0, 1] bcast_S32x32_S32x32x1_0_1
        (select (cmpi .slt (W14 m c main_c_2) (broadcastInDim S32x32 ![] bcast_S_S32x32 (constantI S_ 32 0#32)))
          (addi (W14 m c main_c_2) (broadcastInDim S32x32 ![] bcast_S_S32x32 (constantI S_ 32 9#32))) (W14 m c main_c_2))) := by
    show StableHlo.after hostOps3_2 (W14 m c) (Proc.devRef .tc main_v36) = _
    read_stretch <;> rfl
  rw [e, W14_c2, show W14 m c main_arg8 = m ((c : Thread nD τ).loc main_arg8) from (W14_of m c main_arg8 (by decide)).trans <| (W13_of m c main_arg8 (by decide)).trans <| (W12_of m c main_arg8 (by decide)).trans <| W11_launch m c main_arg8 (by decide)]
  try rfl
theorem W15_arg7 (c : Dev nD) : W15 m c main_arg7 = m ((c : Thread nD τ).loc main_arg7) := W15_launch m c main_arg7 (by decide)

/-! ## Region 4's entry -/

theorem W17_v39 (c : Dev nD) : W17 m c main_v39 = pool2 (W16 m c main_v37) := by
  show StableHlo.after hostOps4 (W16 m c) (Proc.devRef .tc main_v39) = _
  unfold pool2; after_results
  refine congrArg (fun z => Host.reduce FloatOps.maximumf z (constant S_ .f32 0xFF800000#32) reducesTo_S32x16x2x16x2x128_S32x16x16x128_d2_4 h_S_) ?_
  funext i; rfl
theorem W17_v40 (c : Dev nD) : W17 m c main_v40 = flat (pool2 (W16 m c main_v37)) := by
  show StableHlo.after hostOps4 (W16 m c) (Proc.devRef .tc main_v40) = _
  unfold flat pool2; after_results
  funext j
  refine congrFun (congrArg (fun z => shapeCast S32x32768 (Host.reduce FloatOps.maximumf z (constant S_ .f32 0xFF800000#32)
    reducesTo_S32x16x2x16x2x128_S32x16x16x128_d2_4 h_S_) shapeCasts_S32x16x16x128_S32x32768) (?_ : _ = shapeCast S32x16x2x16x2x128 (W16 m c main_v37) shapeCasts_S32x32x32x128_S32x16x2x16x2x128)) j
  funext i; rfl
theorem W17_v41 (c : Dev nD) : W17 m c main_v41 = rowD (m ((c : Thread nD τ).loc main_arg10)) := by
  have e : W17 m c main_v41 = rowD (W16 m c main_arg10) := by
    show StableHlo.after hostOps4 (W16 m c) (Proc.devRef .tc main_v41) = _
    unfold rowD; after_results
    funext i; rfl
  rw [e, show W16 m c main_arg10 = m ((c : Thread nD τ).loc main_arg10) from (W16_of m c main_arg10 (by decide)).trans <| W15_launch m c main_arg10 (by decide)]
theorem W17_arg9 (c : Dev nD) : W17 m c main_arg9 = m ((c : Thread nD τ).loc main_arg9) := W17_launch m c main_arg9 (by decide)

/-! ## Region 5's entry -/

theorem W19_v42 (c : Dev nD) : W19 m c main_v42 = W18 m c main_v42 := W19_of m c main_v42 (by decide)
theorem W19_v43 (c : Dev nD) : W19 m c main_v43 = rowO (m ((c : Thread nD τ).loc main_arg12)) := by
  have e : W19 m c main_v43 = rowO (W18 m c main_arg12) := by
    show StableHlo.after hostOps5 (W18 m c) (Proc.devRef .tc main_v43) = _
    unfold rowO; after_results
    funext i; rfl
  rw [e, show W18 m c main_arg12 = m ((c : Thread nD τ).loc main_arg12) from (W18_of m c main_arg12 (by decide)).trans <| W17_launch m c main_arg12 (by decide)]
theorem W19_arg11 (c : Dev nD) : W19 m c main_arg11 = m ((c : Thread nD τ).loc main_arg11) := W19_launch m c main_arg11 (by decide)

end Cert.KernelIdeal.Hand

end
-- ==== Proof.Spec.lean ====
/-
  The network's layers as index-by-index functions on the extended reals.
  A spiking-conv layer from its PADDED input xp [32, H+2, H+2, Cin], its weights Wt [9·Cin, Cout] and its threshold
  map Dm [H, H, Cout]: at (b, h, w, f) the sum over the nine taps (dy, dx) = (tap / 3, tap % 3) and the Cin channels of
  (xp[b, h+dy, w+dx, ci] − t_min) · Wt[tap·Cin + ci, f], plus (t_max − Dm[h, w, f]), capped at t_max.
  The dense layer: the sum over 32768 taken as eight tiles of 4096, plus (7500 − D[j]), capped at 7500.
  The output layer: D[j] + Σ_k (7500 − x[i, k]) · W[k, j].
  The time bounds are kept as the float words the programs print.
-/
import Idealize.ShloMosaic.Lib.ValueIdx
import Idealize.ShloMosaic.PureOps.Ideal.Laws

noncomputable section

namespace Cert.Spec

open Idealize.ShloMosaic Idealize.ShloMosaic.ValueIdx

abbrev t0 : EReal := Ideal.ofBits .f32 0x00000000#32
abbrev t1500 : EReal := Ideal.ofBits .f32 0x44BB8000#32
abbrev t3000 : EReal := Ideal.ofBits .f32 0x453B8000#32
abbrev t4500 : EReal := Ideal.ofBits .f32 0x458CA000#32
abbrev t6000 : EReal := Ideal.ofBits .f32 0x45BB8000#32
abbrev t7500 : EReal := Ideal.ofBits .f32 0x45EA6000#32

/-- Conv layer 0 at one output position. -/
def convPt0 (xp : FVec Ideal ⟨4, ![32, 66, 66, 1]⟩ .f32) (Wt : FVec Ideal ⟨2, ![9, 64]⟩ .f32) (Dm : FVec Ideal ⟨3, ![64, 64, 64]⟩ .f32)
    (b : Fin 32) (h : Fin 64) (w : Fin 64) (f : Fin 64) : EReal :=
  min ((∑ tap : Fin 9, ∑ ci : Fin 1,
      (xp (ix4 b ⟨h.val + tap.val / 3, by omega⟩ ⟨w.val + tap.val % 3, by omega⟩ ci) - t0) * Wt (ix2 ⟨tap.val * 1 + ci.val, by omega⟩ f))
    + (t1500 - Dm (ix3 h w f))) t1500
/-- Conv layer 0 as a whole array. -/
def convG0 (xp : FVec Ideal ⟨4, ![32, 66, 66, 1]⟩ .f32) (Wt : FVec Ideal ⟨2, ![9, 64]⟩ .f32) (Dm : FVec Ideal ⟨3, ![64, 64, 64]⟩ .f32) :
    FVec Ideal ⟨4, ![32, 64, 64, 64]⟩ .f32 := fun i => convPt0 xp Wt Dm (i 0) (i 1) (i 2) (i 3)

/-- Conv layer 1 at one output position. -/
def convPt1 (xp : FVec Ideal ⟨4, ![32, 66, 66, 64]⟩ .f32) (Wt : FVec Ideal ⟨2, ![576, 64]⟩ .f32) (Dm : FVec Ideal ⟨3, ![64, 64, 64]⟩ .f32)
    (b : Fin 32) (h : Fin 64) (w : Fin 64) (f : Fin 64) : EReal :=
  min ((∑ tap : Fin 9, ∑ ci : Fin 64,
      (xp (ix4 b ⟨h.val + tap.val / 3, by omega⟩ ⟨w.val + tap.val % 3, by omega⟩ ci) - t1500) * Wt (ix2 ⟨tap.val * 64 + ci.val, by omega⟩ f))
    + (t3000 - Dm (ix3 h w f))) t3000
/-- Conv layer 1 as a whole array. -/
def convG1 (xp : FVec Ideal ⟨4, ![32, 66, 66, 64]⟩ .f32) (Wt : FVec Ideal ⟨2, ![576, 64]⟩ .f32) (Dm : FVec Ideal ⟨3, ![64, 64, 64]⟩ .f32) :
    FVec Ideal ⟨4, ![32, 64, 64, 64]⟩ .f32 := fun i => convPt1 xp Wt Dm (i 0) (i 1) (i 2) (i 3)

/-- Conv layer 2 at one output position. -/
def convPt2 (xp : FVec Ideal ⟨4, ![32, 34, 34, 64]⟩ .f32) (Wt : FVec Ideal ⟨2, ![576, 128]⟩ .f32) (Dm : FVec Ideal ⟨3, ![32, 32, 128]⟩ .f32)
    (b : Fin 32) (h : Fin 32) (w : Fin 32) (f : Fin 128) : EReal :=
  min ((∑ tap : Fin 9, ∑ ci : Fin 64,
      (xp (ix4 b ⟨h.val + tap.val / 3, by omega⟩ ⟨w.val + tap.val % 3, by omega⟩ ci) - t3000) * Wt (ix2 ⟨tap.val * 64 + ci.val, by omega⟩ f))
    + (t4500 - Dm (ix3 h w f))) t4500
/-- Conv layer 2 as a whole array. -/
def convG2 (xp : FVec Ideal ⟨4, ![32, 34, 34, 64]⟩ .f32) (Wt : FVec Ideal ⟨2, ![576, 128]⟩ .f32) (Dm : FVec Ideal ⟨3, ![32, 32, 128]⟩ .f32) :
    FVec Ideal ⟨4, ![32, 32, 32, 128]⟩ .f32 := fun i => convPt2 xp Wt Dm (i 0) (i 1) (i 2) (i 3)

/-- Conv layer 3 at one output position. -/
def convPt3 (xp : FVec Ideal ⟨4, ![32, 34, 34, 128]⟩ .f32) (Wt : FVec Ideal ⟨2, ![1152, 128]⟩ .f32) (Dm : FVec Ideal ⟨3, ![32, 32, 128]⟩ .f32)
    (b : Fin 32) (h : Fin 32) (w : Fin 32) (f : Fin 128) : EReal :=
  min ((∑ tap : Fin 9, ∑ ci : Fin 128,
      (xp (ix4 b ⟨h.val + tap.val / 3, by omega⟩ ⟨w.val + tap.val % 3, by omega⟩ ci) - t4500) * Wt (ix2 ⟨tap.val * 128 + ci.val, by omega⟩ f))
    + (t6000 - Dm (ix3 h w f))) t6000
/-- Conv layer 3 as a whole array. -/
def convG3 (xp : FVec Ideal ⟨4, ![32, 34, 34, 128]⟩ .f32) (Wt : FVec Ideal ⟨2, ![1152, 128]⟩ .f32) (Dm : FVec Ideal ⟨3, ![32, 32, 128]⟩ .f32) :
    FVec Ideal ⟨4, ![32, 32, 32, 128]⟩ .f32 := fun i => convPt3 xp Wt Dm (i 0) (i 1) (i 2) (i 3)

/-- The first dense layer at one output position: the contraction over 32768 as eight tiles of 4096. -/
def densePt (x : FVec Ideal ⟨2, ![32, 32768]⟩ .f32) (W : FVec Ideal ⟨2, ![32768, 256]⟩ .f32) (D : FVec Ideal ⟨1, ![256]⟩ .f32) (i : Fin 32) (j : Fin 256) : EReal :=
  min ((∑ tile : Fin 8, ∑ k : Fin 4096, (x (ix2 i ⟨tile.val * 4096 + k.val, by omega⟩) - t6000) * W (ix2 ⟨tile.val * 4096 + k.val, by omega⟩ j))
    + (t7500 - D (ix1 j))) t7500
def denseG (x : FVec Ideal ⟨2, ![32, 32768]⟩ .f32) (W : FVec Ideal ⟨2, ![32768, 256]⟩ .f32) (D : FVec Ideal ⟨1, ![256]⟩ .f32) :
    FVec Ideal ⟨2, ![32, 256]⟩ .f32 := fun i => densePt x W D (i 0) (i 1)

/-- The output layer at one output position. -/
def outPt (x : FVec Ideal ⟨2, ![32, 256]⟩ .f32) (W : FVec Ideal ⟨2, ![256, 10]⟩ .f32) (D : FVec Ideal ⟨1, ![10]⟩ .f32) (i : Fin 32) (j : Fin 10) : EReal :=
  D (ix1 j) + ∑ k : Fin 256, (t7500 - x (ix2 i k)) * W (ix2 k j)
def outG (x : FVec Ideal ⟨2, ![32, 256]⟩ .f32) (W : FVec Ideal ⟨2, ![256, 10]⟩ .f32) (D : FVec Ideal ⟨1, ![10]⟩ .f32) :
    FVec Ideal ⟨2, ![32, 10]⟩ .f32 := fun i => outPt x W D (i 0) (i 1)

end Cert.Spec

end
-- ==== Proof.KV.KResult.lean ====
/-
  The kernel program's result as one function of its thirteen argument arrays, in layer vocabulary: the host layers
  (padding, threshold maps, the two 2x2 maxima, the flattening) around the six kernel regions' index-by-index
  functions (the four spiking-conv layers, the dense layer in eight tiles, the output layer).
-/
import proofs.«142023_j26104811225511_2_alg».proof.Proof.KV.Glue
import proofs.«142023_j26104811225511_2_alg».proof.Proof.Spec

noncomputable section

namespace Cert.KernelIdeal.Hand

open Cert.KernelIdeal Idealize.ShloMosaic

/-- The network on the extended reals, from the argument arrays. -/
def kresult (A0 : FVec Ideal S32x64x64x1 .f32) (A1 : FVec Ideal S9x64 .f32) (A2 : FVec Ideal S9x64 .f32) (A3 : FVec Ideal S576x64 .f32) (A4 : FVec Ideal S9x64 .f32)
    (A5 : FVec Ideal S576x128 .f32) (A6 : FVec Ideal S9x128 .f32) (A7 : FVec Ideal S1152x128 .f32) (A8 : FVec Ideal S9x128 .f32)
    (A9 : FVec Ideal S32768x256 .f32) (A10 : FVec Ideal S256 .f32) (A11 : FVec Ideal S256x10 .f32) (A12 : FVec Ideal S10 .f32) : FVec Ideal S32x10 .f32 :=
  Cert.Spec.outG (Cert.Spec.denseG (flat (F := Ideal) (pool2 (F := Ideal) (Cert.Spec.convG3 (pad3 (F := Ideal) (Cert.Spec.convG2 (pad2 (F := Ideal) (pool1 (F := Ideal)
    (Cert.Spec.convG1 (pad1 (F := Ideal) (Cert.Spec.convG0 (pad0 (F := Ideal) A0) A1 (gath0 (F := Ideal) A2))) A3 (gath1 (F := Ideal) A4)))) A5 (gath2 (F := Ideal) A6))) A7 (gath3 (F := Ideal) A8))))
    A9 A10) A11 A12

end Cert.KernelIdeal.Hand

end
-- ==== Proof.LibDotRows.lean ====
/-
  A plain two-dimensional matrix product read at an index.

  For dimension numbers that contract the left operand's axis 1 with the right operand's axis 0 and have no batch
  axis — rows × contraction times contraction × columns — the contraction sum at the output index `(p, j)` is
  `∑ k, l (p, k) * r (k, j)`: the one-axis contraction index is its coordinate (`contrEquiv1`), the contracted
  coordinate of each operand index is that coordinate, and the other coordinate is the output's.
  `matmul_zero_rows` is this for a kernel's product into a zero accumulator, `dotGeneral_rows` for the host's
  `dot_general`: at the ideal instance both are that sum.
-/
import Idealize.ShloMosaic.Lib.ValueIdx
import Idealize.ShloMosaic.PureOps.Ideal.Laws

noncomputable section

namespace Cert.LibDotRows

open Idealize.ShloMosaic Idealize.ShloMosaic.ValueIdx

/-- The contraction sum of a plain product at `(p, j)` is `∑ k, l (p, k) * r (k, j)`. The hypotheses are the
    dimension numbers' facts: one contracted axis of extent `K` (`hr`, `hs`), which axes are contracted (`hlc`,
    `hrc`), and that the operands' remaining coordinates are the output's (`h00`, `h11`). -/
theorem sum_contr_rows {N K H : ℕ} (d : DotDims ⟨2, ![N, K]⟩ ⟨2, ![K, H]⟩ ⟨2, ![N, H]⟩)
    (hr : d.contr.rank = 1) (hs : d.contr.size ⟨0, by omega⟩ = K)
    (hlc : d.lhsContracting = [1]) (hrc : d.rhsContracting = [0])
    (h00 : ∀ (i : (⟨2, ![N, H]⟩ : Shape).Idx) (q : d.contr.Idx), (d.lhsIdx i q 0).val = (i 0).val)
    (h11 : ∀ (i : (⟨2, ![N, H]⟩ : Shape).Idx) (q : d.contr.Idx), (d.rhsIdx i q 1).val = (i 1).val)
    (l : (⟨2, ![N, K]⟩ : Shape).Idx → EReal) (r : (⟨2, ![K, H]⟩ : Shape).Idx → EReal) (p : Fin N) (j : Fin H) :
    ∑ q : d.contr.Idx, l (d.lhsIdx (ix2 p j) q) * r (d.rhsIdx (ix2 p j) q) = ∑ k : Fin K, l (ix2 p k) * r (ix2 k j) := by
  rw [← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact h00 _ _
    | ⟨1, _⟩ => exact (d.lhsIdx_val_of_single hlc _ _).trans hk)
  have er : d.rhsIdx (ix2 p j) ((contrEquiv1 d K hr hs).symm k) = ix2 k j := funext fun a => Fin.ext (by
    match a with
    | ⟨0, _⟩ => exact (d.rhsIdx_val_of_single hrc _ _).trans hk
    | ⟨1, _⟩ => exact h11 _ _)
  rw [el, er]

/-- A kernel's plain product into the zero accumulator, at `(p, j)`, at the ideal instance. -/
theorem matmul_zero_rows {N K H : ℕ} {φ₁ φ₂ : FTy} (d : DotDims ⟨2, ![N, K]⟩ ⟨2, ![K, H]⟩ ⟨2, ![N, H]⟩)
    (prec : Option ContractPrecision)
    (hr : d.contr.rank = 1) (hs : d.contr.size ⟨0, by omega⟩ = K)
    (hlc : d.lhsContracting = [1]) (hrc : d.rhsContracting = [0])
    (h00 : ∀ (i : (⟨2, ![N, H]⟩ : Shape).Idx) (q : d.contr.Idx), (d.lhsIdx i q 0).val = (i 0).val)
    (h11 : ∀ (i : (⟨2, ![N, H]⟩ : Shape).Idx) (q : d.contr.Idx), (d.rhsIdx i q 1).val = (i 1).val)
    (l : FVec Ideal ⟨2, ![N, K]⟩ φ₁) (r : FVec Ideal ⟨2, ![K, H]⟩ φ₂) (p : Fin N) (j : Fin H) :
    FloatOps.matmul d prec l r (constant ⟨2, ![N, H]⟩ .f32 0x00000000#32) (ix2 p j) = ∑ k : Fin K, l (ix2 p k) * r (ix2 k j) :=
  (Ideal.matmul_constant_zero_apply d prec l r (ix2 p j)).trans (sum_contr_rows d hr hs hlc hrc h00 h11 l r p j)

/-- The host's plain `dot_general` at `(p, j)`, at the ideal instance. -/
theorem dotGeneral_rows {N K H : ℕ} {φ₁ φ₂ : FTy} (d : DotDims ⟨2, ![N, K]⟩ ⟨2, ![K, H]⟩ ⟨2, ![N, H]⟩)
    (prec : Option ContractPrecision) (sched : HostSchedule)
    (hr : d.contr.rank = 1) (hs : d.contr.size ⟨0, by omega⟩ = K)
    (hlc : d.lhsContracting = [1]) (hrc : d.rhsContracting = [0])
    (h00 : ∀ (i : (⟨2, ![N, H]⟩ : Shape).Idx) (q : d.contr.Idx), (d.lhsIdx i q 0).val = (i 0).val)
    (h11 : ∀ (i : (⟨2, ![N, H]⟩ : Shape).Idx) (q : d.contr.Idx), (d.rhsIdx i q 1).val = (i 1).val)
    (l : FVec Ideal ⟨2, ![N, K]⟩ φ₁) (r : FVec Ideal ⟨2, ![K, H]⟩ φ₂) (p : Fin N) (j : Fin H) :
    FloatOps.dotGeneral d prec sched l r (ix2 p j) = ∑ k : Fin K, l (ix2 p k) * r (ix2 k j) :=
  (Ideal.dotGeneral_apply d prec sched l r (ix2 p j)).trans (sum_contr_rows d hr hs hlc hrc h00 h11 l r p j)

end Cert.LibDotRows

end
-- ==== Proof.KV.ConvLib.lean ====
/-
  Small facts shared by the four convolution layers' value lemmas: the all-zero offset vectors, and a sum over
  nine terms written out left to right.
-/
import Idealize.ShloMosaic.Lib.ValueIdx

namespace Cert.KernelIdeal.Hand

theorem conv_hz4 : (![0, 0, 0, 0] : Fin 4 → Nat) = fun _ => 0 := funext fun a => by fin_cases a <;> rfl

theorem conv_hz3 : (![0, 0, 0] : Fin 3 → Nat) = fun _ => 0 := funext fun a => by fin_cases a <;> rfl

/-- A sum over nine terms is the nine terms added from the left. -/
theorem conv_sum_nine {M : Type*} [AddCommMonoid M] (T : Fin 9 → M) :
    ∑ tap, T tap = T 0 + T 1 + T 2 + T 3 + T 4 + T 5 + T 6 + T 7 + T 8 := by
  rw [Fin.sum_univ_castSucc, Fin.sum_univ_eight]; rfl

end Cert.KernelIdeal.Hand
-- ==== Proof.KV.Conv0Pt.lean ====
/-
  Convolution layer 0, the value stored at one output position (bb, h, w, f) of a two-image block:
  the nine taps (dy, dx), each the product of the block's window shifted by (dy, dx), less t_min, reshaped to
  8192 rows of 1 channel, with the tap's row of the weights, summed in the order 0 … 8 from zero; then
  (t_max − threshold[h, w, f]) added and the result capped at t_max.
-/
import proofs.«142023_j26104811225511_2_alg».proof.Proof.KI.Conv0
import proofs.«142023_j26104811225511_2_alg».proof.Proof.Spec
import proofs.«142023_j26104811225511_2_alg».proof.Proof.LibDotRows
import proofs.«142023_j26104811225511_2_alg».proof.Proof.KV.ConvLib
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx

/-- One tap's product read at an output position: row (bb, h, w) of the reshaped operand against column f. -/
theorem tap0_apply (xs : FVec Ideal S2x64x64x1 .f32) (ws : FVec Ideal S1x64 .f32) (bb : Fin 2) (h w : Fin 64) (f : Fin 64) :
    shapeCast S2x64x64x64 (matmul (F := Ideal) dot_S8192x1_S1x64_S8192x64_1_0_0_1_n_n none
        (truncf .bf16 (shapeCast S8192x1 (subf (shapeCast S2x64x64x1 xs shapeCasts_S2x64x64x1_S2x64x64x1)
          (broadcast S2x64x64x1 (Scalar.ofBits .f32 0x00000000#32))) shapeCasts_S2x64x64x1_S8192x1) bitsLt_bf16_f32)
        (truncf .bf16 ws bitsLt_bf16_f32) (constant S8192x64 .f32 0x00000000#32)) shapeCasts_S8192x64_S2x64x64x64 (ix4 bb h w f)
      = ∑ ci : Fin 1, (xs (ix4 bb h w ci) - Cert.Spec.t0) * ws (ix2 ci f) := by
  refine (shapeCast_apply _ _ (ix4 bb h w f) (ix2 ⟨bb.val * 4096 + h.val * 64 + w.val, by omega⟩ f) ?_).trans ?_
  · rw [Shape.rowMajor_val_two, Shape.rowMajor_val_four]
    show (bb.val * 4096 + h.val * 64 + w.val) * 64 + f.val = ((bb.val * 64 + h.val) * 64 + w.val) * 64 + f.val
    omega
  refine (Cert.LibDotRows.matmul_zero_rows dot_S8192x1_S1x64_S8192x64_1_0_0_1_n_n none rfl rfl rfl rfl (fun _ _ => rfl) (fun _ _ => rfl) _ _ _ f).trans ?_
  refine Finset.sum_congr rfl fun ci _ => ?_
  rw [truncf_apply, truncf_apply]
  congr 1
  refine (shapeCast_apply _ _ _ (ix4 bb h w ci) ?_).trans ?_
  · rw [Shape.rowMajor_val_two, Shape.rowMajor_val_four]
    show ((bb.val * 64 + h.val) * 64 + w.val) * 1 + ci.val = (bb.val * 4096 + h.val * 64 + w.val) * 1 + ci.val
    omega
  rw [subf_apply, shapeCast_self, broadcast_apply]
  rfl

/-- The first three taps, from a zero start. -/
theorem pay2_0_apply (v1 v12 v23 : FVec Ideal S2x64x64x1 .f32) (v7 v18 v29 : FVec Ideal S1x64 .f32) (bb : Fin 2) (h w : Fin 64) (f : Fin 64) :
    k0_pay2 (F := Ideal) v1 v7 v12 v18 v23 v29 (ix4 bb h w f)
      = (∑ ci : Fin 1, (v1 (ix4 bb h w ci) - Cert.Spec.t0) * v7 (ix2 ci f))
        + (∑ ci : Fin 1, (v12 (ix4 bb h w ci) - Cert.Spec.t0) * v18 (ix2 ci f))
        + (∑ ci : Fin 1, (v23 (ix4 bb h w ci) - Cert.Spec.t0) * v29 (ix2 ci f)) := by
  unfold k0_pay2
  rw [addf_apply, addf_apply, addf_apply, tap0_apply, tap0_apply, tap0_apply, broadcast_apply]
  rw [show (Scalar.ofBits (F := Ideal) .f32 0x00000000#32 : EReal) = 0 from Ideal.ofBits_zero_f32, zero_add]

/-- Three more taps onto an accumulator. -/
theorem pay3_0_apply (acc : FVec Ideal S2x64x64x64 .f32) (v1 v12 v23 : FVec Ideal S2x64x64x1 .f32) (v7 v18 v29 : FVec Ideal S1x64 .f32) (bb : Fin 2) (h w : Fin 64) (f : Fin 64) :
    k0_pay3 (F := Ideal) acc v1 v7 v12 v18 v23 v29 (ix4 bb h w f)
      = acc (ix4 bb h w f) + (∑ ci : Fin 1, (v1 (ix4 bb h w ci) - Cert.Spec.t0) * v7 (ix2 ci f))
        + (∑ ci : Fin 1, (v12 (ix4 bb h w ci) - Cert.Spec.t0) * v18 (ix2 ci f))
        + (∑ ci : Fin 1, (v23 (ix4 bb h w ci) - Cert.Spec.t0) * v29 (ix2 ci f)) := by
  unfold k0_pay3
  rw [addf_apply, addf_apply, addf_apply, tap0_apply, tap0_apply, tap0_apply]

theorem pay4_0_apply (acc : FVec Ideal S2x64x64x64 .f32) (v1 v12 v23 : FVec Ideal S2x64x64x1 .f32) (v7 v18 v29 : FVec Ideal S1x64 .f32) (bb : Fin 2) (h w : Fin 64) (f : Fin 64) :
    k0_pay4 (F := Ideal) acc v1 v7 v12 v18 v23 v29 (ix4 bb h w f)
      = acc (ix4 bb h w f) + (∑ ci : Fin 1, (v1 (ix4 bb h w ci) - Cert.Spec.t0) * v7 (ix2 ci f))
        + (∑ ci : Fin 1, (v12 (ix4 bb h w ci) - Cert.Spec.t0) * v18 (ix2 ci f))
        + (∑ ci : Fin 1, (v23 (ix4 bb h w ci) - Cert.Spec.t0) * v29 (ix2 ci f)) := by
  unfold k0_pay4
  rw [addf_apply, addf_apply, addf_apply, tap0_apply, tap0_apply, tap0_apply]

/-- A tap's window of the padded block reads the block shifted by the tap's row and column offsets. -/
theorem ldIn0 (x0 : Vec Ideal S2x66x66x1 .f32) (a b : ℕ) (ha : a ≤ 2) (hb : b ≤ 2) (inb) (bb : Fin 2) (h w : Fin 64) (ci : Fin 1) :
    View.ld x0 (Rect.unit (s := S2x66x66x1) ![0, a, b, 0] S2x64x64x1.size inb) (ix4 bb h w ci)
      = x0 (ix4 bb ⟨h.val + a, by omega⟩ ⟨w.val + b, by omega⟩ ci) := by
  show x0 _ = x0 _
  congr 1
  funext d
  apply Fin.ext
  match d with
  | ⟨0, _⟩ => show 0 + 1 * bb.val = bb.val; omega
  | ⟨1, _⟩ => show a + 1 * h.val = h.val + a; omega
  | ⟨2, _⟩ => show b + 1 * w.val = w.val + b; omega
  | ⟨3, _⟩ => show 0 + 1 * ci.val = ci.val; omega

/-- A tap's rows of the weights. -/
theorem ldWt0 (x1 : Vec Ideal S9x64 .f32) (n : ℕ) (hn : n ≤ 8) (inb) (ci : Fin 1) (f : Fin 64) :
    View.ld x1 (Rect.unit (s := S9x64) ![n, 0] S1x64.size inb) (ix2 ci f) = x1 (ix2 ⟨n * 1 + ci.val, by omega⟩ f) := by
  show x1 _ = x1 _
  congr 1
  funext d
  apply Fin.ext
  match d with
  | ⟨0, _⟩ => show n + 1 * ci.val = n * 1 + ci.val; omega
  | ⟨1, _⟩ => show 0 + 1 * f.val = f.val; omega

/-- The stored value at an output position: the nine taps' products summed, the threshold term added, capped. -/
theorem out0_3_apply (x0 : Vec Ideal S2x66x66x1 .f32) (x1 : Vec Ideal S9x64 .f32) (x2 : Vec Ideal S64x64x64 .f32)
    (bb : Fin 2) (h w : Fin 64) (f : Fin 64) :
    out0_3 (F := Ideal) x0 x1 x2 (ix4 bb h w f)
      = min ((∑ tap : Fin 9, ∑ ci : Fin 1,
            (x0 (ix4 bb ⟨h.val + tap.val / 3, by omega⟩ ⟨w.val + tap.val % 3, by omega⟩ ci) - Cert.Spec.t0)
              * x1 (ix2 ⟨tap.val * 1 + ci.val, by omega⟩ f))
          + (Cert.Spec.t1500 - x2 (ix3 h w f))) Cert.Spec.t1500 := by
  unfold out0_3
  rw [View.canon_unit_zero conv_hz4]
  unfold k0_pay1
  rw [minimumf_apply, addf_apply, broadcast_apply]
  rw [broadcastTo_apply _ _ (ix4 bb h w f) (ix4 (0 : Fin 1) h w f) (fun a => by
    match a with
    | ⟨0, _⟩ => rfl
    | ⟨1, _⟩ => rfl
    | ⟨2, _⟩ => rfl
    | ⟨3, _⟩ => rfl)]
  rw [shapeCast_apply _ _ (ix4 (0 : Fin 1) h w f) (ix3 h w f) (by
    rw [Shape.rowMajor_val_three, Shape.rowMajor_val_four]
    show (h.val * 64 + w.val) * 64 + f.val = (((0 : Fin 1).val * 64 + h.val) * 64 + w.val) * 64 + f.val
    simp)]
  rw [subf_apply, broadcast_apply]
  unfold k0_pay5
  rw [shapeCast_self, View.ld_unit_zero conv_hz3]
  unfold acc0
  rw [pay4_0_apply, pay3_0_apply, pay2_0_apply]
  simp only [ldIn0 x0 0 0 (by omega) (by omega), ldIn0 x0 0 1 (by omega) (by omega), ldIn0 x0 0 2 (by omega) (by omega),
    ldIn0 x0 1 0 (by omega) (by omega), ldIn0 x0 1 1 (by omega) (by omega), ldIn0 x0 1 2 (by omega) (by omega),
    ldIn0 x0 2 0 (by omega) (by omega), ldIn0 x0 2 1 (by omega) (by omega), ldIn0 x0 2 2 (by omega) (by omega),
    ldWt0 x1 0 (by omega), ldWt0 x1 1 (by omega), ldWt0 x1 2 (by omega), ldWt0 x1 3 (by omega), ldWt0 x1 4 (by omega),
    ldWt0 x1 5 (by omega), ldWt0 x1 6 (by omega), ldWt0 x1 7 (by omega), ldWt0 x1 8 (by omega)]
  rw [conv_sum_nine]
  rfl

end Cert.KernelIdeal.Hand
-- ==== Proof.KV.Conv0Val.lean ====
/-
  Convolution layer 0, from blocks to the array: point t of the sixteen writes back the two-image block of batch rows
  2t and 2t + 1; its value at (bb, h, w, f) is the layer's function of the whole arrays at (2t + bb, h, w, f), since the
  padded input's block is rows 2t, 2t + 1 of the padded input and the weights and threshold map are single blocks;
  batch row b is covered by point b / 2.
-/
import proofs.«142023_j26104811225511_2_alg».proof.Proof.KV.Conv0Pt
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The block index maps over the grid: the padded input's and the output's blocks move along the batch axis with the
    point, every other block index is zero. -/
theorem idx_facts0 : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 4) = t.val ∧ win0_3.index t (1 : Fin 4) = 0 ∧ win0_3.index t (2 : Fin 4) = 0 ∧ win0_3.index t (3 : Fin 4) = 0 :=
  (by decide +kernel : ∀ t : Fin grid0.N, _)

/-- The padded input's block at point t is batch rows 2t, 2t + 1 of the array. -/
theorem iblk0_0_apply (c : Dev nD) (t : Fin cfg0.N) (bb : Fin 2) (hh ww : Fin 66) (ci : Fin 1) :
    iblk0 V c 0 t (ix4 bb hh ww ci) = (V c main_v0 : S32x66x66x1.Idx → Elt Ideal .f32) (ix4 ⟨t.val * 2 + bb.val, by have := t.isLt; have hN : cfg0.N = 16 := N_0; omega⟩ hh ww ci) := by
  obtain ⟨e0, e1, e2, e3, -⟩ := idx_facts0 t
  unfold iblk0
  rw [View.read_apply]
  show V c main_v0 _ = V c main_v0 _
  congr 1
  funext a
  apply Fin.ext
  match a with
  | ⟨0, _⟩ => show win0_0.index t (0 : Fin 4) * 2 + 1 * bb.val = t.val * 2 + bb.val; rw [e0]; omega
  | ⟨1, _⟩ => show win0_0.index t (1 : Fin 4) * 66 + 1 * hh.val = hh.val; rw [e1]; omega
  | ⟨2, _⟩ => show win0_0.index t (2 : Fin 4) * 66 + 1 * ww.val = ww.val; rw [e2]; omega
  | ⟨3, _⟩ => show win0_0.index t (3 : Fin 4) * 1 + 1 * ci.val = ci.val; rw [e3]; omega

/-- The weights' one block is the array. -/
theorem iblk0_1_apply (c : Dev nD) (t : Fin cfg0.N) (r : Fin 9) (f : Fin 64) :
    iblk0 V c 1 t (ix2 r f) = (V c main_arg1 : S9x64.Idx → Elt Ideal .f32) (ix2 r f) := by
  obtain ⟨-, -, -, -, e0, e1, -⟩ := idx_facts0 t
  unfold iblk0
  rw [View.read_apply]
  show V c main_arg1 _ = V c main_arg1 _
  congr 1
  funext a
  apply Fin.ext
  match a with
  | ⟨0, _⟩ => show win0_1.index t (0 : Fin 2) * 9 + 1 * r.val = r.val; rw [e0]; omega
  | ⟨1, _⟩ => show win0_1.index t (1 : Fin 2) * 64 + 1 * f.val = f.val; rw [e1]; omega

/-- The threshold map's one block is the array. -/
theorem iblk0_2_apply (c : Dev nD) (t : Fin cfg0.N) (h w : Fin 64) (f : Fin 64) :
    iblk0 V c 2 t (ix3 h w f) = (V c main_v7 : S64x64x64.Idx → Elt Ideal .f32) (ix3 h w f) := by
  obtain ⟨-, -, -, -, -, -, e0, e1, e2, -⟩ := idx_facts0 t
  unfold iblk0
  rw [View.read_apply]
  show V c main_v7 _ = V c main_v7 _
  congr 1
  funext a
  apply Fin.ext
  match a with
  | ⟨0, _⟩ => show win0_2.index t (0 : Fin 3) * 64 + 1 * h.val = h.val; rw [e0]; omega
  | ⟨1, _⟩ => show win0_2.index t (1 : Fin 3) * 64 + 1 * w.val = w.val; rw [e1]; omega
  | ⟨2, _⟩ => show win0_2.index t (2 : Fin 3) * 64 + 1 * f.val = f.val; rw [e2]; omega

/-- What point t stores at (bb, h, w, f) is the layer's value at batch row 2t + bb. -/
theorem blockval0 (c : Dev nD) (t : Fin cfg0.N) (bb : Fin 2) (h w : Fin 64) (f : Fin 64) :
    out0_3 (F := Ideal) (iblk0 V c 0 t) (iblk0 V c 1 t) (iblk0 V c 2 t) (ix4 bb h w f)
      = Cert.Spec.convPt0 (V c main_v0) (V c main_arg1) (V c main_v7)
          ⟨t.val * 2 + bb.val, by have := t.isLt; have hN : cfg0.N = 16 := N_0; omega⟩ h w f := by
  refine (out0_3_apply _ _ _ bb h w f).trans ?_
  unfold Cert.Spec.convPt0
  simp only [iblk0_0_apply, iblk0_1_apply, iblk0_2_apply]

/-- What point t writes back is its block of the layer's function of the whole arrays. -/
theorem flushed0_eq (c : Dev nD) (t : Fin cfg0.N) :
    (dat0 (F := Ideal) V c).flushed 3 t
      = ((cfg0.win 3).blk t).view.read (Elt Ideal) (Cert.Spec.convG0 (V c main_v0) (V c main_arg1) (V c main_v7)) := by
  show (cfg0.win 3).cut (grid0.coords t) ((dat0 V c).after 3 t) = _
  rw [after0_3]
  obtain ⟨-, -, -, -, -, -, -, -, -, e0, e1, e2, e3⟩ := idx_facts0 t
  funext j
  have hj : (cfg0.win 3).xinj (grid0.coords t) j = ix4 (n0 := 2) (n1 := 64) (n2 := 64) (n3 := 64) (j 0) (j 1) (j 2) (j 3) :=
    funext fun a => by
      match a with
      | ⟨0, _⟩ => rfl
      | ⟨1, _⟩ => rfl
      | ⟨2, _⟩ => rfl
      | ⟨3, _⟩ => rfl
  show out0_3 (F := Ideal) (iblk0 V c 0 t) (iblk0 V c 1 t) (iblk0 V c 2 t) ((cfg0.win 3).xinj (grid0.coords t) j)
    = Cert.Spec.convG0 (V c main_v0) (V c main_arg1) (V c main_v7) (((cfg0.win 3).blk t).view.emb j)
  rw [hj]
  refine (blockval0 V c t (j 0) (j 1) (j 2) (j 3)).trans ?_
  show _ = Cert.Spec.convPt0 (V c main_v0) (V c main_arg1) (V c main_v7) _ _ _ _
  congr 1
  · apply Fin.ext
    show t.val * 2 + (j 0).val = win0_3.index t (0 : Fin 4) * 2 + 1 * (j 0).val
    rw [e0]; omega
  · apply Fin.ext
    show (j 1).val = win0_3.index t (1 : Fin 4) * 64 + 1 * (j 1).val
    rw [e1]; omega
  · apply Fin.ext
    show (j 2).val = win0_3.index t (2 : Fin 4) * 64 + 1 * (j 2).val
    rw [e2]; omega
  · apply Fin.ext
    show (j 3).val = win0_3.index t (3 : Fin 4) * 64 + 1 * (j 3).val
    rw [e3]; omega

/-- An index of the array is in point t's block iff each coordinate is in the block's range on its axis. -/
theorem mem_blk0 (t : Fin cfg0.N) (i : S32x64x64x64.Idx) :
    i ∈ ((cfg0.win 3).blk t).view.set ↔ ∀ a : Fin 4, win0_3.index t a * S2x64x64x64.size a ≤ (i a).val
      ∧ (i a).val < win0_3.index t a * S2x64x64x64.size a + S2x64x64x64.size a := by
  show i ∈ ((View.whole main_v8).slice (win0_3.rect t)).set ↔ _
  rw [View.set_slice_whole, Rect.mem_set_unit]
  exact Iff.rfl

/-- The output array after the sixteen points is the layer's function of the padded input, the weights and the
    threshold map: batch row b is written by point b / 2. -/
theorem final0 (c : Dev nD) :
    (dat0 (F := Ideal) V c).arrAt 3 cfg0.N = Cert.Spec.convG0 (V c main_v0) (V c main_arg1) (V c main_v7) :=
  (dat0 (F := Ideal) V c).arrAt_eq_of_cover 3 (Cert.Spec.convG0 (V c main_v0) (V c main_arg1) (V c main_v7))
    (fun t _ => flushed0_eq V c t) fun i => by
      have hi0 : (i 0).val < 32 := (i 0).isLt
      have hi1 : (i 1).val < 64 := (i 1).isLt
      have hi2 : (i 2).val < 64 := (i 2).isLt
      have hi3 : (i 3).val < 64 := (i 3).isLt
      have ht : (i 0).val / 2 < cfg0.N := by rw [show cfg0.N = 16 from N_0]; omega
      obtain ⟨-, -, -, -, -, -, -, -, -, e0, e1, e2, e3⟩ := idx_facts0 ⟨(i 0).val / 2, ht⟩
      have e0' : win0_3.index ⟨(i 0).val / 2, ht⟩ (0 : Fin 4) = (i 0).val / 2 := e0
      refine ⟨⟨(i 0).val / 2, ht⟩, flush0_3 _, ?_⟩
      rw [mem_blk0]
      intro a
      match a with
      | ⟨0, _⟩ =>
        show win0_3.index ⟨(i 0).val / 2, _⟩ (0 : Fin 4) * 2 ≤ (i 0).val ∧ (i 0).val < win0_3.index ⟨(i 0).val / 2, _⟩ (0 : Fin 4) * 2 + 2
        rw [e0']; omega
      | ⟨1, _⟩ =>
        show win0_3.index ⟨(i 0).val / 2, _⟩ (1 : Fin 4) * 64 ≤ (i 1).val ∧ (i 1).val < win0_3.index ⟨(i 0).val / 2, _⟩ (1 : Fin 4) * 64 + 64
        rw [e1]; omega
      | ⟨2, _⟩ =>
        show win0_3.index ⟨(i 0).val / 2, _⟩ (2 : Fin 4) * 64 ≤ (i 2).val ∧ (i 2).val < win0_3.index ⟨(i 0).val / 2, _⟩ (2 : Fin 4) * 64 + 64
        rw [e2]; omega
      | ⟨3, _⟩ =>
        show win0_3.index ⟨(i 0).val / 2, _⟩ (3 : Fin 4) * 64 ≤ (i 3).val ∧ (i 3).val < win0_3.index ⟨(i 0).val / 2, _⟩ (3 : Fin 4) * 64 + 64
        rw [e3]; omega

end Cert.KernelIdeal.Hand
-- ==== Proof.KV.Conv1Pt.lean ====
/-
  Convolution layer 1, the value stored at one output position (bb, h, w, f) of a two-image block:
  the nine taps (dy, dx), each the product of the block's window shifted by (dy, dx), less t_min, reshaped to
  8192 rows of 64 channels, with the tap's 64 rows of the weights, summed in the order 0 … 8 from zero; then
  (t_max − threshold[h, w, f]) added and the result capped at t_max.
-/
import proofs.«142023_j26104811225511_2_alg».proof.Proof.KI.Conv1
import proofs.«142023_j26104811225511_2_alg».proof.Proof.Spec
import proofs.«142023_j26104811225511_2_alg».proof.Proof.LibDotRows
import proofs.«142023_j26104811225511_2_alg».proof.Proof.KV.ConvLib
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx

/-- One tap's product read at an output position: row (bb, h, w) of the reshaped operand against column f. -/
theorem tap1_apply (xs : FVec Ideal S2x64x64x64 .f32) (ws : FVec Ideal S64x64 .f32) (bb : Fin 2) (h w : Fin 64) (f : Fin 64) :
    shapeCast S2x64x64x64 (matmul (F := Ideal) dot_S8192x64_S64x64_S8192x64_1_0_0_1_n_n none
        (truncf .bf16 (shapeCast S8192x64 (subf (shapeCast S2x64x64x64 xs shapeCasts_S2x64x64x64_S2x64x64x64)
          (broadcast S2x64x64x64 (Scalar.ofBits .f32 0x44BB8000#32))) shapeCasts_S2x64x64x64_S8192x64) bitsLt_bf16_f32)
        (truncf .bf16 ws bitsLt_bf16_f32) (constant S8192x64 .f32 0x00000000#32)) shapeCasts_S8192x64_S2x64x64x64 (ix4 bb h w f)
      = ∑ ci : Fin 64, (xs (ix4 bb h w ci) - Cert.Spec.t1500) * ws (ix2 ci f) := by
  refine (shapeCast_apply _ _ (ix4 bb h w f) (ix2 ⟨bb.val * 4096 + h.val * 64 + w.val, by omega⟩ f) ?_).trans ?_
  · rw [Shape.rowMajor_val_two, Shape.rowMajor_val_four]
    show (bb.val * 4096 + h.val * 64 + w.val) * 64 + f.val = ((bb.val * 64 + h.val) * 64 + w.val) * 64 + f.val
    omega
  refine (Cert.LibDotRows.matmul_zero_rows dot_S8192x64_S64x64_S8192x64_1_0_0_1_n_n none rfl rfl rfl rfl (fun _ _ => rfl) (fun _ _ => rfl) _ _ _ f).trans ?_
  refine Finset.sum_congr rfl fun ci _ => ?_
  rw [truncf_apply, truncf_apply]
  congr 1
  refine (shapeCast_apply _ _ _ (ix4 bb h w ci) ?_).trans ?_
  · rw [Shape.rowMajor_val_two, Shape.rowMajor_val_four]
    show ((bb.val * 64 + h.val) * 64 + w.val) * 64 + ci.val = (bb.val * 4096 + h.val * 64 + w.val) * 64 + ci.val
    omega
  rw [subf_apply, shapeCast_self, broadcast_apply]
  rfl

/-- The first three taps, from a zero start. -/
theorem pay2_1_apply (v1 v12 v23 : FVec Ideal S2x64x64x64 .f32) (v7 v18 v29 : FVec Ideal S64x64 .f32) (bb : Fin 2) (h w : Fin 64) (f : Fin 64) :
    k1_pay2 (F := Ideal) v1 v7 v12 v18 v23 v29 (ix4 bb h w f)
      = (∑ ci : Fin 64, (v1 (ix4 bb h w ci) - Cert.Spec.t1500) * v7 (ix2 ci f))
        + (∑ ci : Fin 64, (v12 (ix4 bb h w ci) - Cert.Spec.t1500) * v18 (ix2 ci f))
        + (∑ ci : Fin 64, (v23 (ix4 bb h w ci) - Cert.Spec.t1500) * v29 (ix2 ci f)) := by
  unfold k1_pay2
  rw [addf_apply, addf_apply, addf_apply, tap1_apply, tap1_apply, tap1_apply, broadcast_apply]
  rw [show (Scalar.ofBits (F := Ideal) .f32 0x00000000#32 : EReal) = 0 from Ideal.ofBits_zero_f32, zero_add]

/-- Three more taps onto an accumulator. -/
theorem pay3_1_apply (acc : FVec Ideal S2x64x64x64 .f32) (v1 v12 v23 : FVec Ideal S2x64x64x64 .f32) (v7 v18 v29 : FVec Ideal S64x64 .f32) (bb : Fin 2) (h w : Fin 64) (f : Fin 64) :
    k1_pay3 (F := Ideal) acc v1 v7 v12 v18 v23 v29 (ix4 bb h w f)
      = acc (ix4 bb h w f) + (∑ ci : Fin 64, (v1 (ix4 bb h w ci) - Cert.Spec.t1500) * v7 (ix2 ci f))
        + (∑ ci : Fin 64, (v12 (ix4 bb h w ci) - Cert.Spec.t1500) * v18 (ix2 ci f))
        + (∑ ci : Fin 64, (v23 (ix4 bb h w ci) - Cert.Spec.t1500) * v29 (ix2 ci f)) := by
  unfold k1_pay3
  rw [addf_apply, addf_apply, addf_apply, tap1_apply, tap1_apply, tap1_apply]

theorem pay4_1_apply (acc : FVec Ideal S2x64x64x64 .f32) (v1 v12 v23 : FVec Ideal S2x64x64x64 .f32) (v7 v18 v29 : FVec Ideal S64x64 .f32) (bb : Fin 2) (h w : Fin 64) (f : Fin 64) :
    k1_pay4 (F := Ideal) acc v1 v7 v12 v18 v23 v29 (ix4 bb h w f)
      = acc (ix4 bb h w f) + (∑ ci : Fin 64, (v1 (ix4 bb h w ci) - Cert.Spec.t1500) * v7 (ix2 ci f))
        + (∑ ci : Fin 64, (v12 (ix4 bb h w ci) - Cert.Spec.t1500) * v18 (ix2 ci f))
        + (∑ ci : Fin 64, (v23 (ix4 bb h w ci) - Cert.Spec.t1500) * v29 (ix2 ci f)) := by
  unfold k1_pay4
  rw [addf_apply, addf_apply, addf_apply, tap1_apply, tap1_apply, tap1_apply]

/-- A tap's window of the padded block reads the block shifted by the tap's row and column offsets. -/
theorem ldIn1 (x0 : Vec Ideal S2x66x66x64 .f32) (a b : ℕ) (ha : a ≤ 2) (hb : b ≤ 2) (inb) (bb : Fin 2) (h w : Fin 64) (ci : Fin 64) :
    View.ld x0 (Rect.unit (s := S2x66x66x64) ![0, a, b, 0] S2x64x64x64.size inb) (ix4 bb h w ci)
      = x0 (ix4 bb ⟨h.val + a, by omega⟩ ⟨w.val + b, by omega⟩ ci) := by
  show x0 _ = x0 _
  congr 1
  funext d
  apply Fin.ext
  match d with
  | ⟨0, _⟩ => show 0 + 1 * bb.val = bb.val; omega
  | ⟨1, _⟩ => show a + 1 * h.val = h.val + a; omega
  | ⟨2, _⟩ => show b + 1 * w.val = w.val + b; omega
  | ⟨3, _⟩ => show 0 + 1 * ci.val = ci.val; omega

/-- A tap's rows of the weights. -/
theorem ldWt1 (x1 : Vec Ideal S576x64 .f32) (n : ℕ) (hn : n + 64 ≤ 576) (inb) (ci : Fin 64) (f : Fin 64) :
    View.ld x1 (Rect.unit (s := S576x64) ![n, 0] S64x64.size inb) (ix2 ci f) = x1 (ix2 ⟨n + ci.val, by omega⟩ f) := by
  show x1 _ = x1 _
  congr 1
  funext d
  apply Fin.ext
  match d with
  | ⟨0, _⟩ => show n + 1 * ci.val = n + ci.val; omega
  | ⟨1, _⟩ => show 0 + 1 * f.val = f.val; omega

/-- The stored value at an output position: the nine taps' products summed, the threshold term added, capped. -/
theorem out1_3_apply (x0 : Vec Ideal S2x66x66x64 .f32) (x1 : Vec Ideal S576x64 .f32) (x2 : Vec Ideal S64x64x64 .f32)
    (bb : Fin 2) (h w : Fin 64) (f : Fin 64) :
    out1_3 (F := Ideal) x0 x1 x2 (ix4 bb h w f)
      = min ((∑ tap : Fin 9, ∑ ci : Fin 64,
            (x0 (ix4 bb ⟨h.val + tap.val / 3, by omega⟩ ⟨w.val + tap.val % 3, by omega⟩ ci) - Cert.Spec.t1500)
              * x1 (ix2 ⟨tap.val * 64 + ci.val, by omega⟩ f))
          + (Cert.Spec.t3000 - x2 (ix3 h w f))) Cert.Spec.t3000 := by
  unfold out1_3
  rw [View.canon_unit_zero conv_hz4]
  unfold k1_pay1
  rw [minimumf_apply, addf_apply, broadcast_apply]
  rw [broadcastTo_apply _ _ (ix4 bb h w f) (ix4 (0 : Fin 1) h w f) (fun a => by
    match a with
    | ⟨0, _⟩ => rfl
    | ⟨1, _⟩ => rfl
    | ⟨2, _⟩ => rfl
    | ⟨3, _⟩ => rfl)]
  rw [shapeCast_apply _ _ (ix4 (0 : Fin 1) h w f) (ix3 h w f) (by
    rw [Shape.rowMajor_val_three, Shape.rowMajor_val_four]
    show (h.val * 64 + w.val) * 64 + f.val = (((0 : Fin 1).val * 64 + h.val) * 64 + w.val) * 64 + f.val
    simp)]
  rw [subf_apply, broadcast_apply]
  unfold k1_pay5
  rw [shapeCast_self, View.ld_unit_zero conv_hz3]
  unfold acc1
  rw [pay4_1_apply, pay3_1_apply, pay2_1_apply]
  simp only [ldIn1 x0 0 0 (by omega) (by omega), ldIn1 x0 0 1 (by omega) (by omega), ldIn1 x0 0 2 (by omega) (by omega), ldIn1 x0 1 0 (by omega) (by omega), ldIn1 x0 1 1 (by omega) (by omega), ldIn1 x0 1 2 (by omega) (by omega), ldIn1 x0 2 0 (by omega) (by omega), ldIn1 x0 2 1 (by omega) (by omega), ldIn1 x0 2 2 (by omega) (by omega),
    ldWt1 x1 0 (by omega), ldWt1 x1 64 (by omega), ldWt1 x1 128 (by omega), ldWt1 x1 192 (by omega), ldWt1 x1 256 (by omega), ldWt1 x1 320 (by omega), ldWt1 x1 384 (by omega), ldWt1 x1 448 (by omega), ldWt1 x1 512 (by omega)]
  rw [conv_sum_nine]
  rfl

end Cert.KernelIdeal.Hand
-- ==== Proof.KV.Conv1Val.lean ====
/-
  Convolution layer 1, from blocks to the array: point t of the sixteen writes back the two-image block of batch rows
  2t and 2t + 1; its value at (bb, h, w, f) is the layer's function of the whole arrays at (2t + bb, h, w, f), since the
  padded input's block is rows 2t, 2t + 1 of the padded input and the weights and threshold map are single blocks;
  batch row b is covered by point b / 2.
-/
import proofs.«142023_j26104811225511_2_alg».proof.Proof.KV.Conv1Pt
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The block index maps over the grid: the padded input's and the output's blocks move along the batch axis with the
    point, every other block index is zero. -/
theorem idx_facts1 : ∀ t : Fin cfg1.N,
    win1_0.index t (0 : Fin 4) = t.val ∧ win1_0.index t (1 : Fin 4) = 0 ∧ win1_0.index t (2 : Fin 4) = 0 ∧ win1_0.index t (3 : Fin 4) = 0
    ∧ win1_1.index t (0 : Fin 2) = 0 ∧ win1_1.index t (1 : Fin 2) = 0
    ∧ win1_2.index t (0 : Fin 3) = 0 ∧ win1_2.index t (1 : Fin 3) = 0 ∧ win1_2.index t (2 : Fin 3) = 0
    ∧ win1_3.index t (0 : Fin 4) = t.val ∧ win1_3.index t (1 : Fin 4) = 0 ∧ win1_3.index t (2 : Fin 4) = 0 ∧ win1_3.index t (3 : Fin 4) = 0 :=
  (by decide +kernel : ∀ t : Fin grid1.N, _)

/-- The padded input's block at point t is batch rows 2t, 2t + 1 of the array. -/
theorem iblk1_0_apply (c : Dev nD) (t : Fin cfg1.N) (bb : Fin 2) (hh ww : Fin 66) (ci : Fin 64) :
    iblk1 V c 0 t (ix4 bb hh ww ci) = (V c main_v9 : S32x66x66x64.Idx → Elt Ideal .f32) (ix4 ⟨t.val * 2 + bb.val, by have := t.isLt; have hN : cfg1.N = 16 := N_1; omega⟩ hh ww ci) := by
  obtain ⟨e0, e1, e2, e3, -⟩ := idx_facts1 t
  unfold iblk1
  rw [View.read_apply]
  show V c main_v9 _ = V c main_v9 _
  congr 1
  funext a
  apply Fin.ext
  match a with
  | ⟨0, _⟩ => show win1_0.index t (0 : Fin 4) * 2 + 1 * bb.val = t.val * 2 + bb.val; rw [e0]; omega
  | ⟨1, _⟩ => show win1_0.index t (1 : Fin 4) * 66 + 1 * hh.val = hh.val; rw [e1]; omega
  | ⟨2, _⟩ => show win1_0.index t (2 : Fin 4) * 66 + 1 * ww.val = ww.val; rw [e2]; omega
  | ⟨3, _⟩ => show win1_0.index t (3 : Fin 4) * 64 + 1 * ci.val = ci.val; rw [e3]; omega

/-- The weights' one block is the array. -/
theorem iblk1_1_apply (c : Dev nD) (t : Fin cfg1.N) (r : Fin 576) (f : Fin 64) :
    iblk1 V c 1 t (ix2 r f) = (V c main_arg3 : S576x64.Idx → Elt Ideal .f32) (ix2 r f) := by
  obtain ⟨-, -, -, -, e0, e1, -⟩ := idx_facts1 t
  unfold iblk1
  rw [View.read_apply]
  show V c main_arg3 _ = V c main_arg3 _
  congr 1
  funext a
  apply Fin.ext
  match a with
  | ⟨0, _⟩ => show win1_1.index t (0 : Fin 2) * 576 + 1 * r.val = r.val; rw [e0]; omega
  | ⟨1, _⟩ => show win1_1.index t (1 : Fin 2) * 64 + 1 * f.val = f.val; rw [e1]; omega

/-- The threshold map's one block is the array. -/
theorem iblk1_2_apply (c : Dev nD) (t : Fin cfg1.N) (h w : Fin 64) (f : Fin 64) :
    iblk1 V c 2 t (ix3 h w f) = (V c main_v16 : S64x64x64.Idx → Elt Ideal .f32) (ix3 h w f) := by
  obtain ⟨-, -, -, -, -, -, e0, e1, e2, -⟩ := idx_facts1 t
  unfold iblk1
  rw [View.read_apply]
  show V c main_v16 _ = V c main_v16 _
  congr 1
  funext a
  apply Fin.ext
  match a with
  | ⟨0, _⟩ => show win1_2.index t (0 : Fin 3) * 64 + 1 * h.val = h.val; rw [e0]; omega
  | ⟨1, _⟩ => show win1_2.index t (1 : Fin 3) * 64 + 1 * w.val = w.val; rw [e1]; omega
  | ⟨2, _⟩ => show win1_2.index t (2 : Fin 3) * 64 + 1 * f.val = f.val; rw [e2]; omega

/-- What point t stores at (bb, h, w, f) is the layer's value at batch row 2t + bb. -/
theorem blockval1 (c : Dev nD) (t : Fin cfg1.N) (bb : Fin 2) (h w : Fin 64) (f : Fin 64) :
    out1_3 (F := Ideal) (iblk1 V c 0 t) (iblk1 V c 1 t) (iblk1 V c 2 t) (ix4 bb h w f)
      = Cert.Spec.convPt1 (V c main_v9) (V c main_arg3) (V c main_v16)
          ⟨t.val * 2 + bb.val, by have := t.isLt; have hN : cfg1.N = 16 := N_1; omega⟩ h w f := by
  refine (out1_3_apply _ _ _ bb h w f).trans ?_
  unfold Cert.Spec.convPt1
  simp only [iblk1_0_apply, iblk1_1_apply, iblk1_2_apply]

/-- What point t writes back is its block of the layer's function of the whole arrays. -/
theorem flushed1_eq (c : Dev nD) (t : Fin cfg1.N) :
    (dat1 (F := Ideal) V c).flushed 3 t
      = ((cfg1.win 3).blk t).view.read (Elt Ideal) (Cert.Spec.convG1 (V c main_v9) (V c main_arg3) (V c main_v16)) := by
  show (cfg1.win 3).cut (grid1.coords t) ((dat1 V c).after 3 t) = _
  rw [after1_3]
  obtain ⟨-, -, -, -, -, -, -, -, -, e0, e1, e2, e3⟩ := idx_facts1 t
  funext j
  have hj : (cfg1.win 3).xinj (grid1.coords t) j = ix4 (n0 := 2) (n1 := 64) (n2 := 64) (n3 := 64) (j 0) (j 1) (j 2) (j 3) :=
    funext fun a => by
      match a with
      | ⟨0, _⟩ => rfl
      | ⟨1, _⟩ => rfl
      | ⟨2, _⟩ => rfl
      | ⟨3, _⟩ => rfl
  show out1_3 (F := Ideal) (iblk1 V c 0 t) (iblk1 V c 1 t) (iblk1 V c 2 t) ((cfg1.win 3).xinj (grid1.coords t) j)
    = Cert.Spec.convG1 (V c main_v9) (V c main_arg3) (V c main_v16) (((cfg1.win 3).blk t).view.emb j)
  rw [hj]
  refine (blockval1 V c t (j 0) (j 1) (j 2) (j 3)).trans ?_
  show _ = Cert.Spec.convPt1 (V c main_v9) (V c main_arg3) (V c main_v16) _ _ _ _
  congr 1
  · apply Fin.ext
    show t.val * 2 + (j 0).val = win1_3.index t (0 : Fin 4) * 2 + 1 * (j 0).val
    rw [e0]; omega
  · apply Fin.ext
    show (j 1).val = win1_3.index t (1 : Fin 4) * 64 + 1 * (j 1).val
    rw [e1]; omega
  · apply Fin.ext
    show (j 2).val = win1_3.index t (2 : Fin 4) * 64 + 1 * (j 2).val
    rw [e2]; omega
  · apply Fin.ext
    show (j 3).val = win1_3.index t (3 : Fin 4) * 64 + 1 * (j 3).val
    rw [e3]; omega

/-- An index of the array is in point t's block iff each coordinate is in the block's range on its axis. -/
theorem mem_blk1 (t : Fin cfg1.N) (i : S32x64x64x64.Idx) :
    i ∈ ((cfg1.win 3).blk t).view.set ↔ ∀ a : Fin 4, win1_3.index t a * S2x64x64x64.size a ≤ (i a).val
      ∧ (i a).val < win1_3.index t a * S2x64x64x64.size a + S2x64x64x64.size a := by
  show i ∈ ((View.whole main_v17).slice (win1_3.rect t)).set ↔ _
  rw [View.set_slice_whole, Rect.mem_set_unit]
  exact Iff.rfl

/-- The output array after the sixteen points is the layer's function of the padded input, the weights and the
    threshold map: batch row b is written by point b / 2. -/
theorem final1 (c : Dev nD) :
    (dat1 (F := Ideal) V c).arrAt 3 cfg1.N = Cert.Spec.convG1 (V c main_v9) (V c main_arg3) (V c main_v16) :=
  (dat1 (F := Ideal) V c).arrAt_eq_of_cover 3 (Cert.Spec.convG1 (V c main_v9) (V c main_arg3) (V c main_v16))
    (fun t _ => flushed1_eq V c t) fun i => by
      have hi0 : (i 0).val < 32 := (i 0).isLt
      have hi1 : (i 1).val < 64 := (i 1).isLt
      have hi2 : (i 2).val < 64 := (i 2).isLt
      have hi3 : (i 3).val < 64 := (i 3).isLt
      have ht : (i 0).val / 2 < cfg1.N := by rw [show cfg1.N = 16 from N_1]; omega
      obtain ⟨-, -, -, -, -, -, -, -, -, e0, e1, e2, e3⟩ := idx_facts1 ⟨(i 0).val / 2, ht⟩
      have e0' : win1_3.index ⟨(i 0).val / 2, ht⟩ (0 : Fin 4) = (i 0).val / 2 := e0
      refine ⟨⟨(i 0).val / 2, ht⟩, flush1_3 _, ?_⟩
      rw [mem_blk1]
      intro a
      match a with
      | ⟨0, _⟩ =>
        show win1_3.index ⟨(i 0).val / 2, _⟩ (0 : Fin 4) * 2 ≤ (i 0).val ∧ (i 0).val < win1_3.index ⟨(i 0).val / 2, _⟩ (0 : Fin 4) * 2 + 2
        rw [e0']; omega
      | ⟨1, _⟩ =>
        show win1_3.index ⟨(i 0).val / 2, _⟩ (1 : Fin 4) * 64 ≤ (i 1).val ∧ (i 1).val < win1_3.index ⟨(i 0).val / 2, _⟩ (1 : Fin 4) * 64 + 64
        rw [e1]; omega
      | ⟨2, _⟩ =>
        show win1_3.index ⟨(i 0).val / 2, _⟩ (2 : Fin 4) * 64 ≤ (i 2).val ∧ (i 2).val < win1_3.index ⟨(i 0).val / 2, _⟩ (2 : Fin 4) * 64 + 64
        rw [e2]; omega
      | ⟨3, _⟩ =>
        show win1_3.index ⟨(i 0).val / 2, _⟩ (3 : Fin 4) * 64 ≤ (i 3).val ∧ (i 3).val < win1_3.index ⟨(i 0).val / 2, _⟩ (3 : Fin 4) * 64 + 64
        rw [e3]; omega

end Cert.KernelIdeal.Hand
-- ==== Proof.KV.Conv2Pt.lean ====
/-
  Convolution layer 2, the value stored at one output position (bb, h, w, f) of a two-image block:
  the nine taps (dy, dx), each the product of the block's window shifted by (dy, dx), less t_min, reshaped to
  2048 rows of 64 channels, with the tap's 64 rows of the weights, summed in the order 0 … 8 from zero; then
  (t_max − threshold[h, w, f]) added and the result capped at t_max.
-/
import proofs.«142023_j26104811225511_2_alg».proof.Proof.KI.Conv2
import proofs.«142023_j26104811225511_2_alg».proof.Proof.Spec
import proofs.«142023_j26104811225511_2_alg».proof.Proof.LibDotRows
import proofs.«142023_j26104811225511_2_alg».proof.Proof.KV.ConvLib
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx

/-- One tap's product read at an output position: row (bb, h, w) of the reshaped operand against column f. -/
theorem tap2_apply (xs : FVec Ideal S2x32x32x64 .f32) (ws : FVec Ideal S64x128 .f32) (bb : Fin 2) (h w : Fin 32) (f : Fin 128) :
    shapeCast S2x32x32x128 (matmul (F := Ideal) dot_S2048x64_S64x128_S2048x128_1_0_0_1_n_n none
        (truncf .bf16 (shapeCast S2048x64 (subf (shapeCast S2x32x32x64 xs shapeCasts_S2x32x32x64_S2x32x32x64)
          (broadcast S2x32x32x64 (Scalar.ofBits .f32 0x453B8000#32))) shapeCasts_S2x32x32x64_S2048x64) bitsLt_bf16_f32)
        (truncf .bf16 ws bitsLt_bf16_f32) (constant S2048x128 .f32 0x00000000#32)) shapeCasts_S2048x128_S2x32x32x128 (ix4 bb h w f)
      = ∑ ci : Fin 64, (xs (ix4 bb h w ci) - Cert.Spec.t3000) * ws (ix2 ci f) := by
  refine (shapeCast_apply _ _ (ix4 bb h w f) (ix2 ⟨bb.val * 1024 + h.val * 32 + w.val, by omega⟩ f) ?_).trans ?_
  · rw [Shape.rowMajor_val_two, Shape.rowMajor_val_four]
    show (bb.val * 1024 + h.val * 32 + w.val) * 128 + f.val = ((bb.val * 32 + h.val) * 32 + w.val) * 128 + f.val
    omega
  refine (Cert.LibDotRows.matmul_zero_rows dot_S2048x64_S64x128_S2048x128_1_0_0_1_n_n none rfl rfl rfl rfl (fun _ _ => rfl) (fun _ _ => rfl) _ _ _ f).trans ?_
  refine Finset.sum_congr rfl fun ci _ => ?_
  rw [truncf_apply, truncf_apply]
  congr 1
  refine (shapeCast_apply _ _ _ (ix4 bb h w ci) ?_).trans ?_
  · rw [Shape.rowMajor_val_two, Shape.rowMajor_val_four]
    show ((bb.val * 32 + h.val) * 32 + w.val) * 64 + ci.val = (bb.val * 1024 + h.val * 32 + w.val) * 64 + ci.val
    omega
  rw [subf_apply, shapeCast_self, broadcast_apply]
  rfl

/-- The first three taps, from a zero start. -/
theorem pay2_2_apply (v1 v12 v23 : FVec Ideal S2x32x32x64 .f32) (v7 v18 v29 : FVec Ideal S64x128 .f32) (bb : Fin 2) (h w : Fin 32) (f : Fin 128) :
    k2_pay2 (F := Ideal) v1 v7 v12 v18 v23 v29 (ix4 bb h w f)
      = (∑ ci : Fin 64, (v1 (ix4 bb h w ci) - Cert.Spec.t3000) * v7 (ix2 ci f))
        + (∑ ci : Fin 64, (v12 (ix4 bb h w ci) - Cert.Spec.t3000) * v18 (ix2 ci f))
        + (∑ ci : Fin 64, (v23 (ix4 bb h w ci) - Cert.Spec.t3000) * v29 (ix2 ci f)) := by
  unfold k2_pay2
  rw [addf_apply, addf_apply, addf_apply, tap2_apply, tap2_apply, tap2_apply, broadcast_apply]
  rw [show (Scalar.ofBits (F := Ideal) .f32 0x00000000#32 : EReal) = 0 from Ideal.ofBits_zero_f32, zero_add]

/-- Three more taps onto an accumulator. -/
theorem pay3_2_apply (acc : FVec Ideal S2x32x32x128 .f32) (v1 v12 v23 : FVec Ideal S2x32x32x64 .f32) (v7 v18 v29 : FVec Ideal S64x128 .f32) (bb : Fin 2) (h w : Fin 32) (f : Fin 128) :
    k2_pay3 (F := Ideal) acc v1 v7 v12 v18 v23 v29 (ix4 bb h w f)
      = acc (ix4 bb h w f) + (∑ ci : Fin 64, (v1 (ix4 bb h w ci) - Cert.Spec.t3000) * v7 (ix2 ci f))
        + (∑ ci : Fin 64, (v12 (ix4 bb h w ci) - Cert.Spec.t3000) * v18 (ix2 ci f))
        + (∑ ci : Fin 64, (v23 (ix4 bb h w ci) - Cert.Spec.t3000) * v29 (ix2 ci f)) := by
  unfold k2_pay3
  rw [addf_apply, addf_apply, addf_apply, tap2_apply, tap2_apply, tap2_apply]

/-- And the last three. -/
theorem pay4_2_apply (acc : FVec Ideal S2x32x32x128 .f32) (v1 v12 v23 : FVec Ideal S2x32x32x64 .f32) (v7 v18 v29 : FVec Ideal S64x128 .f32) (bb : Fin 2) (h w : Fin 32) (f : Fin 128) :
    k2_pay4 (F := Ideal) acc v1 v7 v12 v18 v23 v29 (ix4 bb h w f)
      = acc (ix4 bb h w f) + (∑ ci : Fin 64, (v1 (ix4 bb h w ci) - Cert.Spec.t3000) * v7 (ix2 ci f))
        + (∑ ci : Fin 64, (v12 (ix4 bb h w ci) - Cert.Spec.t3000) * v18 (ix2 ci f))
        + (∑ ci : Fin 64, (v23 (ix4 bb h w ci) - Cert.Spec.t3000) * v29 (ix2 ci f)) := by
  unfold k2_pay4
  rw [addf_apply, addf_apply, addf_apply, tap2_apply, tap2_apply, tap2_apply]

/-- A tap's window of the padded block reads the block shifted by the tap's row and column offsets. -/
theorem ldIn2 (x0 : Vec Ideal S2x34x34x64 .f32) (a b : ℕ) (ha : a ≤ 2) (hb : b ≤ 2) (inb) (bb : Fin 2) (h w : Fin 32) (ci : Fin 64) :
    View.ld x0 (Rect.unit (s := S2x34x34x64) ![0, a, b, 0] S2x32x32x64.size inb) (ix4 bb h w ci)
      = x0 (ix4 bb ⟨h.val + a, by omega⟩ ⟨w.val + b, by omega⟩ ci) := by
  show x0 _ = x0 _
  congr 1
  funext d
  apply Fin.ext
  match d with
  | ⟨0, _⟩ => show 0 + 1 * bb.val = bb.val; omega
  | ⟨1, _⟩ => show a + 1 * h.val = h.val + a; omega
  | ⟨2, _⟩ => show b + 1 * w.val = w.val + b; omega
  | ⟨3, _⟩ => show 0 + 1 * ci.val = ci.val; omega

/-- A tap's rows of the weights: the 64 rows from the tap's offset on. -/
theorem ldWt2 (x1 : Vec Ideal S576x128 .f32) (o : ℕ) (ho : o ≤ 512) (inb) (ci : Fin 64) (f : Fin 128) :
    View.ld x1 (Rect.unit (s := S576x128) ![o, 0] S64x128.size inb) (ix2 ci f) = x1 (ix2 ⟨o + ci.val, by omega⟩ f) := by
  show x1 _ = x1 _
  congr 1
  funext d
  apply Fin.ext
  match d with
  | ⟨0, _⟩ => show o + 1 * ci.val = o + ci.val; omega
  | ⟨1, _⟩ => show 0 + 1 * f.val = f.val; omega

/-- The stored value at an output position: the nine taps' products summed, the threshold term added, capped. -/
theorem out2_3_apply (x0 : Vec Ideal S2x34x34x64 .f32) (x1 : Vec Ideal S576x128 .f32) (x2 : Vec Ideal S32x32x128 .f32)
    (bb : Fin 2) (h w : Fin 32) (f : Fin 128) :
    out2_3 (F := Ideal) x0 x1 x2 (ix4 bb h w f)
      = min ((∑ tap : Fin 9, ∑ ci : Fin 64,
            (x0 (ix4 bb ⟨h.val + tap.val / 3, by omega⟩ ⟨w.val + tap.val % 3, by omega⟩ ci) - Cert.Spec.t3000)
              * x1 (ix2 ⟨tap.val * 64 + ci.val, by omega⟩ f))
          + (Cert.Spec.t4500 - x2 (ix3 h w f))) Cert.Spec.t4500 := by
  unfold out2_3
  rw [View.canon_unit_zero conv_hz4]
  unfold k2_pay1
  rw [minimumf_apply, addf_apply, broadcast_apply]
  rw [broadcastTo_apply _ _ (ix4 bb h w f) (ix4 (0 : Fin 1) h w f) (fun a => by
    match a with
    | ⟨0, _⟩ => rfl
    | ⟨1, _⟩ => rfl
    | ⟨2, _⟩ => rfl
    | ⟨3, _⟩ => rfl)]
  rw [shapeCast_apply _ _ (ix4 (0 : Fin 1) h w f) (ix3 h w f) (by
    rw [Shape.rowMajor_val_three, Shape.rowMajor_val_four]
    show (h.val * 32 + w.val) * 128 + f.val = (((0 : Fin 1).val * 32 + h.val) * 32 + w.val) * 128 + f.val
    simp)]
  rw [subf_apply, broadcast_apply]
  unfold k2_pay5
  rw [shapeCast_self, View.ld_unit_zero conv_hz3]
  unfold acc2
  rw [pay4_2_apply, pay3_2_apply, pay2_2_apply]
  simp only [ldIn2 x0 0 0 (by omega) (by omega), ldIn2 x0 0 1 (by omega) (by omega), ldIn2 x0 0 2 (by omega) (by omega),
    ldIn2 x0 1 0 (by omega) (by omega), ldIn2 x0 1 1 (by omega) (by omega), ldIn2 x0 1 2 (by omega) (by omega),
    ldIn2 x0 2 0 (by omega) (by omega), ldIn2 x0 2 1 (by omega) (by omega), ldIn2 x0 2 2 (by omega) (by omega),
    ldWt2 x1 0 (by omega), ldWt2 x1 64 (by omega), ldWt2 x1 128 (by omega), ldWt2 x1 192 (by omega), ldWt2 x1 256 (by omega), ldWt2 x1 320 (by omega), ldWt2 x1 384 (by omega), ldWt2 x1 448 (by omega), ldWt2 x1 512 (by omega)]
  rw [conv_sum_nine]
  rfl

end Cert.KernelIdeal.Hand

end
-- ==== Proof.KV.Conv2Val.lean ====
/-
  Convolution layer 2, from blocks to the array: point t of the sixteen writes back the two-image block of batch rows
  2t and 2t + 1; its value at (bb, h, w, f) is the layer's function of the whole arrays at (2t + bb, h, w, f), since the
  padded input's block is rows 2t, 2t + 1 of the padded input and the weights and threshold map are single blocks;
  batch row b is covered by point b / 2.
-/
import proofs.«142023_j26104811225511_2_alg».proof.Proof.KV.Conv2Pt
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The block index maps over the grid: the padded input's and the output's blocks move along the batch axis with the
    point, every other block index is zero. -/
theorem idx_facts2 : ∀ t : Fin cfg2.N,
    win2_0.index t (0 : Fin 4) = t.val ∧ win2_0.index t (1 : Fin 4) = 0 ∧ win2_0.index t (2 : Fin 4) = 0 ∧ win2_0.index t (3 : Fin 4) = 0
    ∧ win2_1.index t (0 : Fin 2) = 0 ∧ win2_1.index t (1 : Fin 2) = 0
    ∧ win2_2.index t (0 : Fin 3) = 0 ∧ win2_2.index t (1 : Fin 3) = 0 ∧ win2_2.index t (2 : Fin 3) = 0
    ∧ win2_3.index t (0 : Fin 4) = t.val ∧ win2_3.index t (1 : Fin 4) = 0 ∧ win2_3.index t (2 : Fin 4) = 0 ∧ win2_3.index t (3 : Fin 4) = 0 :=
  (by decide +kernel : ∀ t : Fin grid2.N, _)

/-- The padded input's block at point t is batch rows 2t, 2t + 1 of the array. -/
theorem iblk2_0_apply (c : Dev nD) (t : Fin cfg2.N) (bb : Fin 2) (hh ww : Fin 34) (ci : Fin 64) :
    iblk2 V c 0 t (ix4 bb hh ww ci) = (V c main_v20 : S32x34x34x64.Idx → Elt Ideal .f32) (ix4 ⟨t.val * 2 + bb.val, by have := t.isLt; have hN : cfg2.N = 16 := N_2; omega⟩ hh ww ci) := by
  obtain ⟨e0, e1, e2, e3, -⟩ := idx_facts2 t
  unfold iblk2
  rw [View.read_apply]
  show V c main_v20 _ = V c main_v20 _
  congr 1
  funext a
  apply Fin.ext
  match a with
  | ⟨0, _⟩ => show win2_0.index t (0 : Fin 4) * 2 + 1 * bb.val = t.val * 2 + bb.val; rw [e0]; omega
  | ⟨1, _⟩ => show win2_0.index t (1 : Fin 4) * 34 + 1 * hh.val = hh.val; rw [e1]; omega
  | ⟨2, _⟩ => show win2_0.index t (2 : Fin 4) * 34 + 1 * ww.val = ww.val; rw [e2]; omega
  | ⟨3, _⟩ => show win2_0.index t (3 : Fin 4) * 64 + 1 * ci.val = ci.val; rw [e3]; omega

/-- The weights' one block is the array. -/
theorem iblk2_1_apply (c : Dev nD) (t : Fin cfg2.N) (r : Fin 576) (f : Fin 128) :
    iblk2 V c 1 t (ix2 r f) = (V c main_arg5 : S576x128.Idx → Elt Ideal .f32) (ix2 r f) := by
  obtain ⟨-, -, -, -, e0, e1, -⟩ := idx_facts2 t
  unfold iblk2
  rw [View.read_apply]
  show V c main_arg5 _ = V c main_arg5 _
  congr 1
  funext a
  apply Fin.ext
  match a with
  | ⟨0, _⟩ => show win2_1.index t (0 : Fin 2) * 576 + 1 * r.val = r.val; rw [e0]; omega
  | ⟨1, _⟩ => show win2_1.index t (1 : Fin 2) * 128 + 1 * f.val = f.val; rw [e1]; omega

/-- The threshold map's one block is the array. -/
theorem iblk2_2_apply (c : Dev nD) (t : Fin cfg2.N) (h w : Fin 32) (f : Fin 128) :
    iblk2 V c 2 t (ix3 h w f) = (V c main_v27 : S32x32x128.Idx → Elt Ideal .f32) (ix3 h w f) := by
  obtain ⟨-, -, -, -, -, -, e0, e1, e2, -⟩ := idx_facts2 t
  unfold iblk2
  rw [View.read_apply]
  show V c main_v27 _ = V c main_v27 _
  congr 1
  funext a
  apply Fin.ext
  match a with
  | ⟨0, _⟩ => show win2_2.index t (0 : Fin 3) * 32 + 1 * h.val = h.val; rw [e0]; omega
  | ⟨1, _⟩ => show win2_2.index t (1 : Fin 3) * 32 + 1 * w.val = w.val; rw [e1]; omega
  | ⟨2, _⟩ => show win2_2.index t (2 : Fin 3) * 128 + 1 * f.val = f.val; rw [e2]; omega

/-- What point t stores at (bb, h, w, f) is the layer's value at batch row 2t + bb. -/
theorem blockval2 (c : Dev nD) (t : Fin cfg2.N) (bb : Fin 2) (h w : Fin 32) (f : Fin 128) :
    out2_3 (F := Ideal) (iblk2 V c 0 t) (iblk2 V c 1 t) (iblk2 V c 2 t) (ix4 bb h w f)
      = Cert.Spec.convPt2 (V c main_v20) (V c main_arg5) (V c main_v27)
          ⟨t.val * 2 + bb.val, by have := t.isLt; have hN : cfg2.N = 16 := N_2; omega⟩ h w f := by
  refine (out2_3_apply _ _ _ bb h w f).trans ?_
  unfold Cert.Spec.convPt2
  simp only [iblk2_0_apply, iblk2_1_apply, iblk2_2_apply]

/-- What point t writes back is its block of the layer's function of the whole arrays. -/
theorem flushed2_eq (c : Dev nD) (t : Fin cfg2.N) :
    (dat2 (F := Ideal) V c).flushed 3 t
      = ((cfg2.win 3).blk t).view.read (Elt Ideal) (Cert.Spec.convG2 (V c main_v20) (V c main_arg5) (V c main_v27)) := by
  show (cfg2.win 3).cut (grid2.coords t) ((dat2 V c).after 3 t) = _
  rw [after2_3]
  obtain ⟨-, -, -, -, -, -, -, -, -, e0, e1, e2, e3⟩ := idx_facts2 t
  funext j
  have hj : (cfg2.win 3).xinj (grid2.coords t) j = ix4 (n0 := 2) (n1 := 32) (n2 := 32) (n3 := 128) (j 0) (j 1) (j 2) (j 3) :=
    funext fun a => by
      match a with
      | ⟨0, _⟩ => rfl
      | ⟨1, _⟩ => rfl
      | ⟨2, _⟩ => rfl
      | ⟨3, _⟩ => rfl
  show out2_3 (F := Ideal) (iblk2 V c 0 t) (iblk2 V c 1 t) (iblk2 V c 2 t) ((cfg2.win 3).xinj (grid2.coords t) j)
    = Cert.Spec.convG2 (V c main_v20) (V c main_arg5) (V c main_v27) (((cfg2.win 3).blk t).view.emb j)
  rw [hj]
  refine (blockval2 V c t (j 0) (j 1) (j 2) (j 3)).trans ?_
  show _ = Cert.Spec.convPt2 (V c main_v20) (V c main_arg5) (V c main_v27) _ _ _ _
  congr 1
  · apply Fin.ext
    show t.val * 2 + (j 0).val = win2_3.index t (0 : Fin 4) * 2 + 1 * (j 0).val
    rw [e0]; omega
  · apply Fin.ext
    show (j 1).val = win2_3.index t (1 : Fin 4) * 32 + 1 * (j 1).val
    rw [e1]; omega
  · apply Fin.ext
    show (j 2).val = win2_3.index t (2 : Fin 4) * 32 + 1 * (j 2).val
    rw [e2]; omega
  · apply Fin.ext
    show (j 3).val = win2_3.index t (3 : Fin 4) * 128 + 1 * (j 3).val
    rw [e3]; omega

/-- An index of the array is in point t's block iff each coordinate is in the block's range on its axis. -/
theorem mem_blk2 (t : Fin cfg2.N) (i : S32x32x32x128.Idx) :
    i ∈ ((cfg2.win 3).blk t).view.set ↔ ∀ a : Fin 4, win2_3.index t a * S2x32x32x128.size a ≤ (i a).val
      ∧ (i a).val < win2_3.index t a * S2x32x32x128.size a + S2x32x32x128.size a := by
  show i ∈ ((View.whole main_v28).slice (win2_3.rect t)).set ↔ _
  rw [View.set_slice_whole, Rect.mem_set_unit]
  exact Iff.rfl

/-- The output array after the sixteen points is the layer's function of the padded input, the weights and the
    threshold map: batch row b is written by point b / 2. -/
theorem final2 (c : Dev nD) :
    (dat2 (F := Ideal) V c).arrAt 3 cfg2.N = Cert.Spec.convG2 (V c main_v20) (V c main_arg5) (V c main_v27) :=
  (dat2 (F := Ideal) V c).arrAt_eq_of_cover 3 (Cert.Spec.convG2 (V c main_v20) (V c main_arg5) (V c main_v27))
    (fun t _ => flushed2_eq V c t) fun i => by
      have hi0 : (i 0).val < 32 := (i 0).isLt
      have hi1 : (i 1).val < 32 := (i 1).isLt
      have hi2 : (i 2).val < 32 := (i 2).isLt
      have hi3 : (i 3).val < 128 := (i 3).isLt
      have ht : (i 0).val / 2 < cfg2.N := by rw [show cfg2.N = 16 from N_2]; omega
      obtain ⟨-, -, -, -, -, -, -, -, -, e0, e1, e2, e3⟩ := idx_facts2 ⟨(i 0).val / 2, ht⟩
      have e0' : win2_3.index ⟨(i 0).val / 2, ht⟩ (0 : Fin 4) = (i 0).val / 2 := e0
      refine ⟨⟨(i 0).val / 2, ht⟩, flush2_3 _, ?_⟩
      rw [mem_blk2]
      intro a
      match a with
      | ⟨0, _⟩ =>
        show win2_3.index ⟨(i 0).val / 2, _⟩ (0 : Fin 4) * 2 ≤ (i 0).val ∧ (i 0).val < win2_3.index ⟨(i 0).val / 2, _⟩ (0 : Fin 4) * 2 + 2
        rw [e0']; omega
      | ⟨1, _⟩ =>
        show win2_3.index ⟨(i 0).val / 2, _⟩ (1 : Fin 4) * 32 ≤ (i 1).val ∧ (i 1).val < win2_3.index ⟨(i 0).val / 2, _⟩ (1 : Fin 4) * 32 + 32
        rw [e1]; omega
      | ⟨2, _⟩ =>
        show win2_3.index ⟨(i 0).val / 2, _⟩ (2 : Fin 4) * 32 ≤ (i 2).val ∧ (i 2).val < win2_3.index ⟨(i 0).val / 2, _⟩ (2 : Fin 4) * 32 + 32
        rw [e2]; omega
      | ⟨3, _⟩ =>
        show win2_3.index ⟨(i 0).val / 2, _⟩ (3 : Fin 4) * 128 ≤ (i 3).val ∧ (i 3).val < win2_3.index ⟨(i 0).val / 2, _⟩ (3 : Fin 4) * 128 + 128
        rw [e3]; omega

end Cert.KernelIdeal.Hand

end
-- ==== Proof.KV.Conv3Pt.lean ====
/-
  Convolution layer 3, the value stored at one output position (bb, h, w, f) of a two-image block:
  the nine taps (dy, dx), each the product of the block's window shifted by (dy, dx), less t_min, reshaped to
  2048 rows of 128 channels, with the tap's 128 rows of the weights, summed in the order 0 … 8 from zero; then
  (t_max − threshold[h, w, f]) added and the result capped at t_max.
-/
import proofs.«142023_j26104811225511_2_alg».proof.Proof.KI.Conv3
import proofs.«142023_j26104811225511_2_alg».proof.Proof.Spec
import proofs.«142023_j26104811225511_2_alg».proof.Proof.LibDotRows
import proofs.«142023_j26104811225511_2_alg».proof.Proof.KV.ConvLib
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx

/-- One tap's product read at an output position: row (bb, h, w) of the reshaped operand against column f. -/
theorem tap3_apply (xs : FVec Ideal S2x32x32x128 .f32) (ws : FVec Ideal S128x128 .f32) (bb : Fin 2) (h w : Fin 32) (f : Fin 128) :
    shapeCast S2x32x32x128 (matmul (F := Ideal) dot_S2048x128_S128x128_S2048x128_1_0_0_1_n_n none
        (truncf .bf16 (shapeCast S2048x128 (subf (shapeCast S2x32x32x128 xs shapeCasts_S2x32x32x128_S2x32x32x128)
          (broadcast S2x32x32x128 (Scalar.ofBits .f32 0x458CA000#32))) shapeCasts_S2x32x32x128_S2048x128) bitsLt_bf16_f32)
        (truncf .bf16 ws bitsLt_bf16_f32) (constant S2048x128 .f32 0x00000000#32)) shapeCasts_S2048x128_S2x32x32x128 (ix4 bb h w f)
      = ∑ ci : Fin 128, (xs (ix4 bb h w ci) - Cert.Spec.t4500) * ws (ix2 ci f) := by
  refine (shapeCast_apply _ _ (ix4 bb h w f) (ix2 ⟨bb.val * 1024 + h.val * 32 + w.val, by omega⟩ f) ?_).trans ?_
  · rw [Shape.rowMajor_val_two, Shape.rowMajor_val_four]
    show (bb.val * 1024 + h.val * 32 + w.val) * 128 + f.val = ((bb.val * 32 + h.val) * 32 + w.val) * 128 + f.val
    omega
  refine (Cert.LibDotRows.matmul_zero_rows dot_S2048x128_S128x128_S2048x128_1_0_0_1_n_n none rfl rfl rfl rfl (fun _ _ => rfl) (fun _ _ => rfl) _ _ _ f).trans ?_
  refine Finset.sum_congr rfl fun ci _ => ?_
  rw [truncf_apply, truncf_apply]
  congr 1
  refine (shapeCast_apply _ _ _ (ix4 bb h w ci) ?_).trans ?_
  · rw [Shape.rowMajor_val_two, Shape.rowMajor_val_four]
    show ((bb.val * 32 + h.val) * 32 + w.val) * 128 + ci.val = (bb.val * 1024 + h.val * 32 + w.val) * 128 + ci.val
    omega
  rw [subf_apply, shapeCast_self, broadcast_apply]
  rfl

/-- The first three taps, from a zero start. -/
theorem pay2_3_apply (v1 v12 v23 : FVec Ideal S2x32x32x128 .f32) (v7 v18 v29 : FVec Ideal S128x128 .f32) (bb : Fin 2) (h w : Fin 32) (f : Fin 128) :
    k3_pay2 (F := Ideal) v1 v7 v12 v18 v23 v29 (ix4 bb h w f)
      = (∑ ci : Fin 128, (v1 (ix4 bb h w ci) - Cert.Spec.t4500) * v7 (ix2 ci f))
        + (∑ ci : Fin 128, (v12 (ix4 bb h w ci) - Cert.Spec.t4500) * v18 (ix2 ci f))
        + (∑ ci : Fin 128, (v23 (ix4 bb h w ci) - Cert.Spec.t4500) * v29 (ix2 ci f)) := by
  unfold k3_pay2
  rw [addf_apply, addf_apply, addf_apply, tap3_apply, tap3_apply, tap3_apply, broadcast_apply]
  rw [show (Scalar.ofBits (F := Ideal) .f32 0x00000000#32 : EReal) = 0 from Ideal.ofBits_zero_f32, zero_add]

/-- Three more taps onto an accumulator. -/
theorem pay3_3_apply (acc : FVec Ideal S2x32x32x128 .f32) (v1 v12 v23 : FVec Ideal S2x32x32x128 .f32) (v7 v18 v29 : FVec Ideal S128x128 .f32) (bb : Fin 2) (h w : Fin 32) (f : Fin 128) :
    k3_pay3 (F := Ideal) acc v1 v7 v12 v18 v23 v29 (ix4 bb h w f)
      = acc (ix4 bb h w f) + (∑ ci : Fin 128, (v1 (ix4 bb h w ci) - Cert.Spec.t4500) * v7 (ix2 ci f))
        + (∑ ci : Fin 128, (v12 (ix4 bb h w ci) - Cert.Spec.t4500) * v18 (ix2 ci f))
        + (∑ ci : Fin 128, (v23 (ix4 bb h w ci) - Cert.Spec.t4500) * v29 (ix2 ci f)) := by
  unfold k3_pay3
  rw [addf_apply, addf_apply, addf_apply, tap3_apply, tap3_apply, tap3_apply]

/-- And the last three. -/
theorem pay4_3_apply (acc : FVec Ideal S2x32x32x128 .f32) (v1 v12 v23 : FVec Ideal S2x32x32x128 .f32) (v7 v18 v29 : FVec Ideal S128x128 .f32) (bb : Fin 2) (h w : Fin 32) (f : Fin 128) :
    k3_pay4 (F := Ideal) acc v1 v7 v12 v18 v23 v29 (ix4 bb h w f)
      = acc (ix4 bb h w f) + (∑ ci : Fin 128, (v1 (ix4 bb h w ci) - Cert.Spec.t4500) * v7 (ix2 ci f))
        + (∑ ci : Fin 128, (v12 (ix4 bb h w ci) - Cert.Spec.t4500) * v18 (ix2 ci f))
        + (∑ ci : Fin 128, (v23 (ix4 bb h w ci) - Cert.Spec.t4500) * v29 (ix2 ci f)) := by
  unfold k3_pay4
  rw [addf_apply, addf_apply, addf_apply, tap3_apply, tap3_apply, tap3_apply]

/-- A tap's window of the padded block reads the block shifted by the tap's row and column offsets. -/
theorem ldIn3 (x0 : Vec Ideal S2x34x34x128 .f32) (a b : ℕ) (ha : a ≤ 2) (hb : b ≤ 2) (inb) (bb : Fin 2) (h w : Fin 32) (ci : Fin 128) :
    View.ld x0 (Rect.unit (s := S2x34x34x128) ![0, a, b, 0] S2x32x32x128.size inb) (ix4 bb h w ci)
      = x0 (ix4 bb ⟨h.val + a, by omega⟩ ⟨w.val + b, by omega⟩ ci) := by
  show x0 _ = x0 _
  congr 1
  funext d
  apply Fin.ext
  match d with
  | ⟨0, _⟩ => show 0 + 1 * bb.val = bb.val; omega
  | ⟨1, _⟩ => show a + 1 * h.val = h.val + a; omega
  | ⟨2, _⟩ => show b + 1 * w.val = w.val + b; omega
  | ⟨3, _⟩ => show 0 + 1 * ci.val = ci.val; omega

/-- A tap's rows of the weights: the 128 rows from the tap's offset on. -/
theorem ldWt3 (x1 : Vec Ideal S1152x128 .f32) (o : ℕ) (ho : o ≤ 1024) (inb) (ci : Fin 128) (f : Fin 128) :
    View.ld x1 (Rect.unit (s := S1152x128) ![o, 0] S128x128.size inb) (ix2 ci f) = x1 (ix2 ⟨o + ci.val, by omega⟩ f) := by
  show x1 _ = x1 _
  congr 1
  funext d
  apply Fin.ext
  match d with
  | ⟨0, _⟩ => show o + 1 * ci.val = o + ci.val; omega
  | ⟨1, _⟩ => show 0 + 1 * f.val = f.val; omega

/-- The stored value at an output position: the nine taps' products summed, the threshold term added, capped. -/
theorem out3_3_apply (x0 : Vec Ideal S2x34x34x128 .f32) (x1 : Vec Ideal S1152x128 .f32) (x2 : Vec Ideal S32x32x128 .f32)
    (bb : Fin 2) (h w : Fin 32) (f : Fin 128) :
    out3_3 (F := Ideal) x0 x1 x2 (ix4 bb h w f)
      = min ((∑ tap : Fin 9, ∑ ci : Fin 128,
            (x0 (ix4 bb ⟨h.val + tap.val / 3, by omega⟩ ⟨w.val + tap.val % 3, by omega⟩ ci) - Cert.Spec.t4500)
              * x1 (ix2 ⟨tap.val * 128 + ci.val, by omega⟩ f))
          + (Cert.Spec.t6000 - x2 (ix3 h w f))) Cert.Spec.t6000 := by
  unfold out3_3
  rw [View.canon_unit_zero conv_hz4]
  unfold k3_pay1
  rw [minimumf_apply, addf_apply, broadcast_apply]
  rw [broadcastTo_apply _ _ (ix4 bb h w f) (ix4 (0 : Fin 1) h w f) (fun a => by
    match a with
    | ⟨0, _⟩ => rfl
    | ⟨1, _⟩ => rfl
    | ⟨2, _⟩ => rfl
    | ⟨3, _⟩ => rfl)]
  rw [shapeCast_apply _ _ (ix4 (0 : Fin 1) h w f) (ix3 h w f) (by
    rw [Shape.rowMajor_val_three, Shape.rowMajor_val_four]
    show (h.val * 32 + w.val) * 128 + f.val = (((0 : Fin 1).val * 32 + h.val) * 32 + w.val) * 128 + f.val
    simp)]
  rw [subf_apply, broadcast_apply]
  unfold k3_pay5
  rw [shapeCast_self, View.ld_unit_zero conv_hz3]
  unfold acc3
  rw [pay4_3_apply, pay3_3_apply, pay2_3_apply]
  simp only [ldIn3 x0 0 0 (by omega) (by omega), ldIn3 x0 0 1 (by omega) (by omega), ldIn3 x0 0 2 (by omega) (by omega),
    ldIn3 x0 1 0 (by omega) (by omega), ldIn3 x0 1 1 (by omega) (by omega), ldIn3 x0 1 2 (by omega) (by omega),
    ldIn3 x0 2 0 (by omega) (by omega), ldIn3 x0 2 1 (by omega) (by omega), ldIn3 x0 2 2 (by omega) (by omega),
    ldWt3 x1 0 (by omega), ldWt3 x1 128 (by omega), ldWt3 x1 256 (by omega), ldWt3 x1 384 (by omega), ldWt3 x1 512 (by omega), ldWt3 x1 640 (by omega), ldWt3 x1 768 (by omega), ldWt3 x1 896 (by omega), ldWt3 x1 1024 (by omega)]
  rw [conv_sum_nine]
  rfl

end Cert.KernelIdeal.Hand

end
-- ==== Proof.KV.Conv3Val.lean ====
/-
  Convolution layer 3, from blocks to the array: point t of the sixteen writes back the two-image block of batch rows
  2t and 2t + 1; its value at (bb, h, w, f) is the layer's function of the whole arrays at (2t + bb, h, w, f), since the
  padded input's block is rows 2t, 2t + 1 of the padded input and the weights and threshold map are single blocks;
  batch row b is covered by point b / 2.
-/
import proofs.«142023_j26104811225511_2_alg».proof.Proof.KV.Conv3Pt
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The block index maps over the grid: the padded input's and the output's blocks move along the batch axis with the
    point, every other block index is zero. -/
theorem idx_facts3 : ∀ t : Fin cfg3.N,
    win3_0.index t (0 : Fin 4) = t.val ∧ win3_0.index t (1 : Fin 4) = 0 ∧ win3_0.index t (2 : Fin 4) = 0 ∧ win3_0.index t (3 : Fin 4) = 0
    ∧ win3_1.index t (0 : Fin 2) = 0 ∧ win3_1.index t (1 : Fin 2) = 0
    ∧ win3_2.index t (0 : Fin 3) = 0 ∧ win3_2.index t (1 : Fin 3) = 0 ∧ win3_2.index t (2 : Fin 3) = 0
    ∧ win3_3.index t (0 : Fin 4) = t.val ∧ win3_3.index t (1 : Fin 4) = 0 ∧ win3_3.index t (2 : Fin 4) = 0 ∧ win3_3.index t (3 : Fin 4) = 0 :=
  (by decide +kernel : ∀ t : Fin grid3.N, _)

/-- The padded input's block at point t is batch rows 2t, 2t + 1 of the array. -/
theorem iblk3_0_apply (c : Dev nD) (t : Fin cfg3.N) (bb : Fin 2) (hh ww : Fin 34) (ci : Fin 128) :
    iblk3 V c 0 t (ix4 bb hh ww ci) = (V c main_v29 : S32x34x34x128.Idx → Elt Ideal .f32) (ix4 ⟨t.val * 2 + bb.val, by have := t.isLt; have hN : cfg3.N = 16 := N_3; omega⟩ hh ww ci) := by
  obtain ⟨e0, e1, e2, e3, -⟩ := idx_facts3 t
  unfold iblk3
  rw [View.read_apply]
  show V c main_v29 _ = V c main_v29 _
  congr 1
  funext a
  apply Fin.ext
  match a with
  | ⟨0, _⟩ => show win3_0.index t (0 : Fin 4) * 2 + 1 * bb.val = t.val * 2 + bb.val; rw [e0]; omega
  | ⟨1, _⟩ => show win3_0.index t (1 : Fin 4) * 34 + 1 * hh.val = hh.val; rw [e1]; omega
  | ⟨2, _⟩ => show win3_0.index t (2 : Fin 4) * 34 + 1 * ww.val = ww.val; rw [e2]; omega
  | ⟨3, _⟩ => show win3_0.index t (3 : Fin 4) * 128 + 1 * ci.val = ci.val; rw [e3]; omega

/-- The weights' one block is the array. -/
theorem iblk3_1_apply (c : Dev nD) (t : Fin cfg3.N) (r : Fin 1152) (f : Fin 128) :
    iblk3 V c 1 t (ix2 r f) = (V c main_arg7 : S1152x128.Idx → Elt Ideal .f32) (ix2 r f) := by
  obtain ⟨-, -, -, -, e0, e1, -⟩ := idx_facts3 t
  unfold iblk3
  rw [View.read_apply]
  show V c main_arg7 _ = V c main_arg7 _
  congr 1
  funext a
  apply Fin.ext
  match a with
  | ⟨0, _⟩ => show win3_1.index t (0 : Fin 2) * 1152 + 1 * r.val = r.val; rw [e0]; omega
  | ⟨1, _⟩ => show win3_1.index t (1 : Fin 2) * 128 + 1 * f.val = f.val; rw [e1]; omega

/-- The threshold map's one block is the array. -/
theorem iblk3_2_apply (c : Dev nD) (t : Fin cfg3.N) (h w : Fin 32) (f : Fin 128) :
    iblk3 V c 2 t (ix3 h w f) = (V c main_v36 : S32x32x128.Idx → Elt Ideal .f32) (ix3 h w f) := by
  obtain ⟨-, -, -, -, -, -, e0, e1, e2, -⟩ := idx_facts3 t
  unfold iblk3
  rw [View.read_apply]
  show V c main_v36 _ = V c main_v36 _
  congr 1
  funext a
  apply Fin.ext
  match a with
  | ⟨0, _⟩ => show win3_2.index t (0 : Fin 3) * 32 + 1 * h.val = h.val; rw [e0]; omega
  | ⟨1, _⟩ => show win3_2.index t (1 : Fin 3) * 32 + 1 * w.val = w.val; rw [e1]; omega
  | ⟨2, _⟩ => show win3_2.index t (2 : Fin 3) * 128 + 1 * f.val = f.val; rw [e2]; omega

/-- What point t stores at (bb, h, w, f) is the layer's value at batch row 2t + bb. -/
theorem blockval3 (c : Dev nD) (t : Fin cfg3.N) (bb : Fin 2) (h w : Fin 32) (f : Fin 128) :
    out3_3 (F := Ideal) (iblk3 V c 0 t) (iblk3 V c 1 t) (iblk3 V c 2 t) (ix4 bb h w f)
      = Cert.Spec.convPt3 (V c main_v29) (V c main_arg7) (V c main_v36)
          ⟨t.val * 2 + bb.val, by have := t.isLt; have hN : cfg3.N = 16 := N_3; omega⟩ h w f := by
  refine (out3_3_apply _ _ _ bb h w f).trans ?_
  unfold Cert.Spec.convPt3
  simp only [iblk3_0_apply, iblk3_1_apply, iblk3_2_apply]

/-- What point t writes back is its block of the layer's function of the whole arrays. -/
theorem flushed3_eq (c : Dev nD) (t : Fin cfg3.N) :
    (dat3 (F := Ideal) V c).flushed 3 t
      = ((cfg3.win 3).blk t).view.read (Elt Ideal) (Cert.Spec.convG3 (V c main_v29) (V c main_arg7) (V c main_v36)) := by
  show (cfg3.win 3).cut (grid3.coords t) ((dat3 V c).after 3 t) = _
  rw [after3_3]
  obtain ⟨-, -, -, -, -, -, -, -, -, e0, e1, e2, e3⟩ := idx_facts3 t
  funext j
  have hj : (cfg3.win 3).xinj (grid3.coords t) j = ix4 (n0 := 2) (n1 := 32) (n2 := 32) (n3 := 128) (j 0) (j 1) (j 2) (j 3) :=
    funext fun a => by
      match a with
      | ⟨0, _⟩ => rfl
      | ⟨1, _⟩ => rfl
      | ⟨2, _⟩ => rfl
      | ⟨3, _⟩ => rfl
  show out3_3 (F := Ideal) (iblk3 V c 0 t) (iblk3 V c 1 t) (iblk3 V c 2 t) ((cfg3.win 3).xinj (grid3.coords t) j)
    = Cert.Spec.convG3 (V c main_v29) (V c main_arg7) (V c main_v36) (((cfg3.win 3).blk t).view.emb j)
  rw [hj]
  refine (blockval3 V c t (j 0) (j 1) (j 2) (j 3)).trans ?_
  show _ = Cert.Spec.convPt3 (V c main_v29) (V c main_arg7) (V c main_v36) _ _ _ _
  congr 1
  · apply Fin.ext
    show t.val * 2 + (j 0).val = win3_3.index t (0 : Fin 4) * 2 + 1 * (j 0).val
    rw [e0]; omega
  · apply Fin.ext
    show (j 1).val = win3_3.index t (1 : Fin 4) * 32 + 1 * (j 1).val
    rw [e1]; omega
  · apply Fin.ext
    show (j 2).val = win3_3.index t (2 : Fin 4) * 32 + 1 * (j 2).val
    rw [e2]; omega
  · apply Fin.ext
    show (j 3).val = win3_3.index t (3 : Fin 4) * 128 + 1 * (j 3).val
    rw [e3]; omega

/-- An index of the array is in point t's block iff each coordinate is in the block's range on its axis. -/
theorem mem_blk3 (t : Fin cfg3.N) (i : S32x32x32x128.Idx) :
    i ∈ ((cfg3.win 3).blk t).view.set ↔ ∀ a : Fin 4, win3_3.index t a * S2x32x32x128.size a ≤ (i a).val
      ∧ (i a).val < win3_3.index t a * S2x32x32x128.size a + S2x32x32x128.size a := by
  show i ∈ ((View.whole main_v37).slice (win3_3.rect t)).set ↔ _
  rw [View.set_slice_whole, Rect.mem_set_unit]
  exact Iff.rfl

/-- The output array after the sixteen points is the layer's function of the padded input, the weights and the
    threshold map: batch row b is written by point b / 2. -/
theorem final3 (c : Dev nD) :
    (dat3 (F := Ideal) V c).arrAt 3 cfg3.N = Cert.Spec.convG3 (V c main_v29) (V c main_arg7) (V c main_v36) :=
  (dat3 (F := Ideal) V c).arrAt_eq_of_cover 3 (Cert.Spec.convG3 (V c main_v29) (V c main_arg7) (V c main_v36))
    (fun t _ => flushed3_eq V c t) fun i => by
      have hi0 : (i 0).val < 32 := (i 0).isLt
      have hi1 : (i 1).val < 32 := (i 1).isLt
      have hi2 : (i 2).val < 32 := (i 2).isLt
      have hi3 : (i 3).val < 128 := (i 3).isLt
      have ht : (i 0).val / 2 < cfg3.N := by rw [show cfg3.N = 16 from N_3]; omega
      obtain ⟨-, -, -, -, -, -, -, -, -, e0, e1, e2, e3⟩ := idx_facts3 ⟨(i 0).val / 2, ht⟩
      have e0' : win3_3.index ⟨(i 0).val / 2, ht⟩ (0 : Fin 4) = (i 0).val / 2 := e0
      refine ⟨⟨(i 0).val / 2, ht⟩, flush3_3 _, ?_⟩
      rw [mem_blk3]
      intro a
      match a with
      | ⟨0, _⟩ =>
        show win3_3.index ⟨(i 0).val / 2, _⟩ (0 : Fin 4) * 2 ≤ (i 0).val ∧ (i 0).val < win3_3.index ⟨(i 0).val / 2, _⟩ (0 : Fin 4) * 2 + 2
        rw [e0']; omega
      | ⟨1, _⟩ =>
        show win3_3.index ⟨(i 0).val / 2, _⟩ (1 : Fin 4) * 32 ≤ (i 1).val ∧ (i 1).val < win3_3.index ⟨(i 0).val / 2, _⟩ (1 : Fin 4) * 32 + 32
        rw [e1]; omega
      | ⟨2, _⟩ =>
        show win3_3.index ⟨(i 0).val / 2, _⟩ (2 : Fin 4) * 32 ≤ (i 2).val ∧ (i 2).val < win3_3.index ⟨(i 0).val / 2, _⟩ (2 : Fin 4) * 32 + 32
        rw [e2]; omega
      | ⟨3, _⟩ =>
        show win3_3.index ⟨(i 0).val / 2, _⟩ (3 : Fin 4) * 128 ≤ (i 3).val ∧ (i 3).val < win3_3.index ⟨(i 0).val / 2, _⟩ (3 : Fin 4) * 128 + 128
        rw [e3]; omega

end Cert.KernelIdeal.Hand

end
-- ==== Proof.KV.DenseVal.lean ====
/- Region 4, the dense layer, on the extended reals: the scratch accumulator before grid position `n` is the contraction of the
   shifted activations with the weights over the first `n` tiles of 4096, and the output array after the region is the dense
   layer's function of the three argument arrays, index by index. -/
import proofs.«142023_j26104811225511_2_alg».proof.Proof.KI.Dense
import proofs.«142023_j26104811225511_2_alg».proof.Proof.Spec
import proofs.«142023_j26104811225511_2_alg».proof.Proof.LibDotRows
import Idealize.ShloMosaic.Lib.ValueIdx
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The body's three stored values at an index, on the extended reals -/

/-- The reset stores zero. -/
theorem pay1_apply (y : S32x256.Idx) : k4_pay1 (F := Ideal) y = 0 := by
  unfold k4_pay1
  rw [shapeCast_self, broadcast_apply]
  exact Ideal.ofBits_zero_f32

/-- One step stores the accumulator plus the product of the shifted activations' block with the weights' block. -/
theorem pay2_apply (x0 : Vec Ideal S32x4096 .f32) (x1 : Vec Ideal S4096x256 .f32) (a : Vec Ideal S32x256 .f32) (i : Fin 32) (j : Fin 256) :
    k4_pay2 x0 x1 a (ix2 i j) = a (ix2 i j) + ∑ k : Fin 4096, (x0 (ix2 i k) - Cert.Spec.t6000) * x1 (ix2 k j) := by
  unfold k4_pay2
  simp only [shapeCast_self]
  rw [addf_apply]
  refine congrArg (a (ix2 i j) + ·) ?_
  exact (Cert.LibDotRows.matmul_zero_rows dot_S32x4096_S4096x256_S32x256_1_0_0_1_n_n none rfl rfl rfl rfl
    (fun _ _ => rfl) (fun _ _ => rfl) _ _ i j).trans rfl

/-- The last point stores the accumulator plus `7500 - d` along the row, capped at `7500`. -/
theorem pay3_apply (a : Vec Ideal S32x256 .f32) (x2 : Vec Ideal S1x256 .f32) (i : Fin 32) (j : Fin 256) :
    k4_pay3 a x2 (ix2 i j) = min (a (ix2 i j) + (Cert.Spec.t7500 - x2 (ix2 (0 : Fin 1) j))) Cert.Spec.t7500 := by
  unfold k4_pay3
  simp only [shapeCast_self]
  rw [minimumf_apply, addf_apply, broadcastTo_1b_ab_apply, subf_apply, broadcast_apply, broadcast_apply]
  rfl

/-! ## Where the windows' blocks sit in their arrays -/

/-- The printed index maps over the grid: the activations' block moves along the columns and the weights' along the rows, one
    block a point; the threshold row and the output are one block each. -/
theorem idx_facts4 : ∀ t : Fin cfg4.N, win4_0.index t (0 : Fin 2) = 0 ∧ win4_0.index t (1 : Fin 2) = t.val
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- The contraction over the first `n` tiles of 4096 of the shifted activations `x` with the weights `W`, at `(i, j)`. -/
def partialDense (x : FVec Ideal S32x32768 .f32) (W : FVec Ideal S32768x256 .f32) (n : ℕ) (hn : n ≤ 8) (i : Fin 32) (j : Fin 256) : EReal :=
  ∑ tile : Fin n, ∑ k : Fin 4096,
    (x (ix2 i ⟨tile.val * 4096 + k.val, by omega⟩) - Cert.Spec.t6000) * W (ix2 ⟨tile.val * 4096 + k.val, by omega⟩ j)

section Region4Value
variable (V : (c : Dev nD) → (b : Ref sig .tc) → Buf (Elt Ideal) ((c : Thread nD τ).loc b))

/-- The activations' block at point `t` is columns `[4096 t, 4096 (t + 1))` of their array, -/
theorem iblk4_0_apply (c : Dev nD) (t : Fin cfg4.N) (i : Fin 32) (k : Fin 4096) (h : t.val * 4096 + k.val < 32768) :
    iblk4 (F := Ideal) V c 0 t (ix2 i k) = V c main_v40 (ix2 i ⟨t.val * 4096 + k.val, h⟩) := by
  obtain ⟨e0, e1, -⟩ := idx_facts4 t
  show V c main_v40 (((cfg4.win 0).blk t).view.emb (ix2 i k)) = V c main_v40 (ix2 i ⟨t.val * 4096 + k.val, h⟩)
  refine congrArg _ (funext fun a => Fin.ext ?_)
  match a with
  | ⟨0, _⟩ => show win4_0.index t (0 : Fin 2) * 32 + 1 * i.val = i.val; omega
  | ⟨1, _⟩ => show win4_0.index t (1 : Fin 2) * 4096 + 1 * k.val = t.val * 4096 + k.val; omega

/-- the weights' block at point `t` is rows `[4096 t, 4096 (t + 1))` of theirs, -/
theorem iblk4_1_apply (c : Dev nD) (t : Fin cfg4.N) (k : Fin 4096) (j : Fin 256) (h : t.val * 4096 + k.val < 32768) :
    iblk4 (F := Ideal) V c 1 t (ix2 k j) = V c main_arg9 (ix2 ⟨t.val * 4096 + k.val, h⟩ j) := by
  obtain ⟨-, -, e2, e3, -⟩ := idx_facts4 t
  show V c main_arg9 (((cfg4.win 1).blk t).view.emb (ix2 k j)) = V c main_arg9 (ix2 ⟨t.val * 4096 + k.val, h⟩ j)
  refine congrArg _ (funext fun a => Fin.ext ?_)
  match a with
  | ⟨0, _⟩ => show win4_1.index t (0 : Fin 2) * 4096 + 1 * k.val = t.val * 4096 + k.val; omega
  | ⟨1, _⟩ => show win4_1.index t (1 : Fin 2) * 256 + 1 * j.val = j.val; omega

/-- and the threshold row's one block is its whole array. -/
theorem iblk4_2_apply (c : Dev nD) (t : Fin cfg4.N) (j : Fin 256) :
    iblk4 (F := Ideal) V c 2 t (ix2 (0 : Fin 1) j) = V c main_v41 (ix2 (0 : Fin 1) j) := by
  obtain ⟨-, -, -, -, e4, e5, -⟩ := idx_facts4 t
  show V c main_v41 (((cfg4.win 2).blk t).view.emb (ix2 (0 : Fin 1) j)) = V c main_v41 (ix2 (0 : Fin 1) j)
  refine congrArg _ (funext fun a => Fin.ext ?_)
  match a with
  | ⟨0, _⟩ => show win4_2.index t (0 : Fin 2) * 1 + 1 * (0 : Fin 1).val = (0 : Fin 1).val; omega
  | ⟨1, _⟩ => show win4_2.index t (1 : Fin 2) * 256 + 1 * j.val = j.val; omega

/-! ## The accumulator is the partial contraction -/

theorem accN_succ (c : Dev nD) (n : ℕ) (h : n < cfg4.N) :
    accN (F := Ideal) V c (n + 1) = step4 (iblk4 V c 0 ⟨n, h⟩) (iblk4 V c 1 ⟨n, h⟩) (accN V c n) := by
  rw [accN, dif_pos h]

/-- Before position `n` of the grid the accumulator holds the contraction over the first `n` tiles of 4096. -/
theorem accN_apply (c : Dev nD) : ∀ (n : ℕ) (hn : n ≤ 8) (i : Fin 32) (j : Fin 256),
    accN (F := Ideal) V c n (ix2 i j) = partialDense (V c main_v40) (V c main_arg9) n hn i j
  | 0, _, i, j => by
    show zero4 (F := Ideal) (ix2 i j) = _
    unfold partialDense
    rw [zero4_eq, pay1_apply, Finset.univ_eq_empty, Finset.sum_empty]
  | n + 1, hn, i, j => by
    have hN : n < cfg4.N := by rw [show cfg4.N = 8 from N_4]; omega
    rw [accN_succ V c n hN, step4_eq]
    refine (pay2_apply _ _ _ i j).trans ?_
    rw [accN_apply c n (by omega) i j]
    unfold partialDense
    rw [Fin.sum_univ_castSucc (n := n)]
    refine congrArg₂ (fun (p q : EReal) => p + q) rfl (Finset.sum_congr rfl fun k _ => ?_)
    rw [iblk4_0_apply V c ⟨n, hN⟩ i k (by show n * 4096 + k.val < 32768; omega),
      iblk4_1_apply V c ⟨n, hN⟩ k j (by show n * 4096 + k.val < 32768; omega)]
    rfl

/-- The same at a position of the grid. -/
theorem acc4_apply (c : Dev nD) (n : Fin (cfg4.N + 1)) (i : Fin 32) (j : Fin 256) :
    acc4 (F := Ideal) V c n (ix2 i j)
      = partialDense (V c main_v40) (V c main_arg9) n.val (by have := n.isLt; have : cfg4.N = 8 := N_4; omega) i j :=
  accN_apply V c n.val _ i j

/-! ## The output array at the end -/

/-- The last point's stored value is the dense layer's, index by index, once the accumulator is the full contraction and the
    threshold row is the bias vector's. -/
theorem pay3_eq_dense (x : FVec Ideal S32x32768 .f32) (W : FVec Ideal S32768x256 .f32) (D : FVec Ideal S256 .f32)
    (a : Vec Ideal S32x256 .f32) (x2 : Vec Ideal S1x256 .f32)
    (ha : ∀ (i : Fin 32) (j : Fin 256), a (ix2 i j) = partialDense x W 8 (le_refl 8) i j)
    (hx2 : ∀ j : Fin 256, x2 (ix2 (0 : Fin 1) j) = D (ix1 j)) (y : S32x256.Idx) :
    k4_pay3 a x2 y = Cert.Spec.denseG x W D y := by
  obtain ⟨i, j, rfl⟩ : ∃ (i : Fin 32) (j : Fin 256), y = ix2 i j := ⟨y 0, y 1, eq_ix2 y⟩
  rw [pay3_apply, ha, hx2]
  rfl

/-- An index of the output array is in the last point's block: the block is the whole array. -/
theorem mem_blk4_3 (t : Fin cfg4.N) (y : S32x256.Idx) : y ∈ ((cfg4.win 3).blk t).view.set := by
  obtain ⟨-, -, -, -, -, -, e6, e7⟩ := idx_facts4 t
  show y ∈ ((View.whole main_v42).slice (win4_3.rect t)).set
  rw [View.set_slice_whole, Rect.mem_set_unit]
  intro a
  match a with
  | ⟨0, _⟩ => show win4_3.index t (0 : Fin 2) * 32 ≤ (y 0).val ∧ (y 0).val < win4_3.index t (0 : Fin 2) * 32 + 32; have h0 : (y 0).val < 32 := (y 0).isLt; omega
  | ⟨1, _⟩ => show win4_3.index t (1 : Fin 2) * 256 ≤ (y 1).val ∧ (y 1).val < win4_3.index t (1 : Fin 2) * 256 + 256; have h1 : (y 1).val < 256 := (y 1).isLt; omega

/-- THE OUTPUT ARRAY after the region is the dense layer of the activations, the weights and the bias vector `D` whose row the
    threshold window's array is. -/
theorem final4 (c : Dev nD) (D : FVec Ideal S256 .f32) (hD : V c main_v41 = shapeCast S1x256 D shapeCasts_S256_S1x256) :
    (dat4 (F := Ideal) V c).arrAt 3 cfg4.N = Cert.Spec.denseG (V c main_v40) (V c main_arg9) D := by
  refine (dat4 V c).arrAt_eq_of_cover 3 _ (fun t hf => ?_) (fun y => ⟨t4_7, (flush4_3 t4_7).mpr rfl, mem_blk4_3 t4_7 y⟩)
  have ht := flush4_3_last t hf
  obtain ⟨-, -, -, -, -, -, e6, e7⟩ := idx_facts4 t
  show (cfg4.win 3).cut (cfg4.grid.coords t) ((dat4 V c).after 3 t) = _
  rw [after4_3, out4_eq]
  funext y
  have hemb : ((cfg4.win 3).blk t).view.emb y = ix2 (y 0) (y 1) := funext fun a => Fin.ext (by
    match a with
    | ⟨0, _⟩ => show win4_3.index t (0 : Fin 2) * 32 + 1 * (y 0).val = (y 0).val; omega
    | ⟨1, _⟩ => show win4_3.index t (1 : Fin 2) * 256 + 1 * (y 1).val = (y 1).val; omega)
  show k4_pay3 (acc4 V c t.succ) (iblk4 V c 2 t) y = Cert.Spec.denseG (V c main_v40) (V c main_arg9) D (((cfg4.win 3).blk t).view.emb y)
  rw [hemb]
  refine (pay3_eq_dense (V c main_v40) (V c main_arg9) D _ _ (fun i j => ?_) (fun j => ?_) y).trans (congrArg _ (eq_ix2 y))
  · have hs : (t.succ : Fin (cfg4.N + 1)).val = 8 := by rw [Fin.val_succ, ht]
    show accN V c (t.succ : Fin (cfg4.N + 1)).val (ix2 i j) = _
    rw [hs]
    exact accN_apply V c 8 (le_refl _) i j
  · rw [iblk4_2_apply, hD, shapeCast_a_1a_apply]

end Region4Value

end Cert.KernelIdeal.Hand

end
-- ==== Proof.KV.OutVal.lean ====
/-
  Region 5's value at the extended reals.
  The output block after the body, read at (i, j), is the bias row's entry j plus the sum over the 256 hidden units k of
  (7500 − x[i, k]) · W[k, j]: the body's one store is whole, its loads are whole, the format changes are the identity
  on extended reals, and the matrix product into a zero accumulator is the plain row-by-column sum.
  The grid has one point and every window is one whole block, so the output array after the region is that block.
-/
import proofs.«142023_j26104811225511_2_alg».proof.Proof.KI.OutL
import proofs.«142023_j26104811225511_2_alg».proof.Proof.Spec
import proofs.«142023_j26104811225511_2_alg».proof.Proof.LibDotRows
import Idealize.ShloMosaic.Lib.ValueIdx
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-- The zero offsets of a whole rank-2 rectangle. -/
theorem offsets2_zero : (![0, 0] : Fin 2 → Nat) = fun _ => 0 := funext fun a => by fin_cases a <;> rfl

/-- In the output layer's product the left operand's row coordinate is the output's row, -/
theorem dot5_lhs_row (i : S32x10.Idx) (q : dot_S32x256_S256x10_S32x10_1_0_0_1_n_n.contr.Idx) :
    (dot_S32x256_S256x10_S32x10_1_0_0_1_n_n.lhsIdx i q 0).val = (i 0).val := rfl
/-- and the right operand's column coordinate is the output's column. -/
theorem dot5_rhs_col (i : S32x10.Idx) (q : dot_S32x256_S256x10_S32x10_1_0_0_1_n_n.contr.Idx) :
    (dot_S32x256_S256x10_S32x10_1_0_0_1_n_n.rhsIdx i q 1).val = (i 1).val := rfl

/-- The output block after the body at (i, j): bias plus the row-by-column sum of (7500 − x) and W. -/
theorem out5_3_apply (x0 : Vec Ideal S32x256 .f32) (x1 : Vec Ideal S256x10 .f32) (x2 : Vec Ideal S1x10 .f32) (i : Fin 32) (j : Fin 10) :
    out5_3 (F := Ideal) x0 x1 x2 (ix2 i j) = x2 (ix2 0 j) + ∑ k : Fin 256, (Cert.Spec.t7500 - x0 (ix2 i k)) * x1 (ix2 k j) := by
  unfold out5_3
  rw [View.canon_unit_zero offsets2_zero]
  simp only [View.ld_unit_zero (S := S32x256) offsets2_zero, View.ld_unit_zero (S := S256x10) offsets2_zero,
    View.ld_unit_zero (S := S1x10) offsets2_zero]
  unfold k5_pay1
  rw [addf_apply]
  congr 1
  · rw [broadcastTo_1b_ab_apply, shapeCast_self]
  · refine (Cert.LibDotRows.matmul_zero_rows (N := 32) (K := 256) (H := 10) dot_S32x256_S256x10_S32x10_1_0_0_1_n_n none
      rfl rfl rfl rfl dot5_lhs_row dot5_rhs_col _ _ i j).trans ?_
    refine Finset.sum_congr rfl fun k _ => ?_
    rw [truncf_apply, truncf_apply, subf_apply, broadcast_apply, shapeCast_self]
    rfl

/-- The output block as a whole: the output layer's function of the three input blocks, when the bias block is the
    bias vector laid out as one row. -/
theorem out5_3_eq_outG (x0 : Vec Ideal S32x256 .f32) (x1 : Vec Ideal S256x10 .f32) (x2 : Vec Ideal S1x10 .f32) (D : FVec Ideal S10 .f32)
    (h2 : x2 = shapeCast S1x10 D shapeCasts_S10_S1x10) : out5_3 (F := Ideal) x0 x1 x2 = Cert.Spec.outG x0 x1 D := by
  funext y
  obtain ⟨a, b, rfl⟩ : ∃ a b, y = ix2 a b := ⟨y 0, y 1, eq_ix2 y⟩
  rw [out5_3_apply, h2, shapeCast_a_1a_apply]
  rfl

section
variable (V : (c : Dev nD) → (b : Ref sig .tc) → Buf (Elt Ideal) ((c : Thread nD τ).loc b))

/-- At the grid's one point every window's block index is zero on both axes. -/
theorem idx5_zero : ∀ t : Fin cfg5.N,
    win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0 :=
  (by decide +kernel : ∀ t : Fin grid5.N, _)

/-- Input window 0's block at the one point is its whole array, -/
theorem iblk5_0_eq (c : Dev nD) (t : Fin cfg5.N) :
    (iblk5 V c 0 t : Vec Ideal S32x256 .f32) = (V c main_v42 : S32x256.Idx → Elt Ideal .f32) := by
  obtain ⟨e0, e1, -⟩ := idx5_zero t
  funext y
  unfold iblk5
  rw [View.read_apply]
  show V c main_v42 _ = V c main_v42 _
  congr 1
  funext a
  apply Fin.ext
  match a with
  | ⟨0, _⟩ => show win5_0.index t 0 * 32 + 1 * (y 0).val = (y 0).val; rw [e0]; omega
  | ⟨1, _⟩ => show win5_0.index t 1 * 256 + 1 * (y 1).val = (y 1).val; rw [e1]; omega

/-- window 1's likewise, -/
theorem iblk5_1_eq (c : Dev nD) (t : Fin cfg5.N) :
    (iblk5 V c 1 t : Vec Ideal S256x10 .f32) = (V c main_arg11 : S256x10.Idx → Elt Ideal .f32) := by
  obtain ⟨-, -, e0, e1, -⟩ := idx5_zero t
  funext y
  unfold iblk5
  rw [View.read_apply]
  show V c main_arg11 _ = V c main_arg11 _
  congr 1
  funext a
  apply Fin.ext
  match a with
  | ⟨0, _⟩ => show win5_1.index t 0 * 256 + 1 * (y 0).val = (y 0).val; rw [e0]; omega
  | ⟨1, _⟩ => show win5_1.index t 1 * 10 + 1 * (y 1).val = (y 1).val; rw [e1]; omega

/-- and window 2's. -/
theorem iblk5_2_eq (c : Dev nD) (t : Fin cfg5.N) :
    (iblk5 V c 2 t : Vec Ideal S1x10 .f32) = (V c main_v43 : S1x10.Idx → Elt Ideal .f32) := by
  obtain ⟨-, -, -, -, e0, e1, -⟩ := idx5_zero t
  funext y
  unfold iblk5
  rw [View.read_apply]
  show V c main_v43 _ = V c main_v43 _
  congr 1
  funext a
  apply Fin.ext
  match a with
  | ⟨0, _⟩ => show win5_2.index t 0 * 1 + 1 * (y 0).val = (y 0).val; rw [e0]; omega
  | ⟨1, _⟩ => show win5_2.index t 1 * 10 + 1 * (y 1).val = (y 1).val; rw [e1]; omega

/-- What the one point writes back is the (whole) block of the output layer's function of the region's operand arrays. -/
theorem flushed5_eq (c : Dev nD) (D : FVec Ideal S10 .f32) (hD : V c main_v43 = shapeCast S1x10 D shapeCasts_S10_S1x10) (t : Fin cfg5.N) :
    (dat5 (F := Ideal) V c).flushed 3 t
      = ((cfg5.win 3).blk t).view.read (Elt Ideal) (Cert.Spec.outG (V c main_v42) (V c main_arg11) D) := by
  obtain ⟨-, -, -, -, -, -, e0, e1⟩ := idx5_zero t
  show (cfg5.win 3).cut (grid5.coords t) ((dat5 V c).after 3 t) = _
  rw [after5_3, iblk5_0_eq, iblk5_1_eq, iblk5_2_eq, out5_3_eq_outG _ _ _ D hD]
  funext y
  rw [View.read_apply]
  show Cert.Spec.outG (V c main_v42) (V c main_arg11) D y = Cert.Spec.outG (V c main_v42) (V c main_arg11) D _
  congr 1
  funext a
  apply Fin.ext
  match a with
  | ⟨0, _⟩ => show (y 0).val = win5_3.index t 0 * 32 + 1 * (y 0).val; rw [e0]; omega
  | ⟨1, _⟩ => show (y 1).val = win5_3.index t 1 * 10 + 1 * (y 1).val; rw [e1]; omega

/-- The output array after the region: the one point's block is the whole array, so it ends at the output layer's function
    of the operand arrays as the region finds them. -/
theorem final5 (c : Dev nD) (D : FVec Ideal S10 .f32) (hD : V c main_v43 = shapeCast S1x10 D shapeCasts_S10_S1x10) :
    (dat5 (F := Ideal) V c).arrAt 3 cfg5.N = Cert.Spec.outG (V c main_v42) (V c main_arg11) D :=
  (dat5 (F := Ideal) V c).arrAt_eq_of_cover 3 (Cert.Spec.outG (V c main_v42) (V c main_arg11) D)
    (fun t _ => flushed5_eq V c D hD t) fun i =>
    ⟨t5_0, flush5_3 t5_0, by
      obtain ⟨-, -, -, -, -, -, e0, e1⟩ := idx5_zero t5_0
      show i ∈ ((View.whole main_v44).slice (win5_3.rect t5_0)).set
      rw [View.set_slice_whole, Rect.mem_set_unit]
      intro a
      have h0 : (i 0 : Nat) < 32 := (i 0).isLt
      have h1 : (i 1 : Nat) < 10 := (i 1).isLt
      match a with
      | ⟨0, _⟩ => show win5_3.index t5_0 0 * 32 ≤ (i 0 : Nat) ∧ (i 0 : Nat) < win5_3.index t5_0 0 * 32 + 32; rw [e0]; omega
      | ⟨1, _⟩ => show win5_3.index t5_0 1 * 10 ≤ (i 1 : Nat) ∧ (i 1 : Nat) < win5_3.index t5_0 1 * 10 + 10; rw [e1]; omega⟩

end

end Cert.KernelIdeal.Hand

end
-- ==== Proof.KV.Value.lean ====
/-
  The kernel program's result array, read off the whole program's fold at the ideal instance: each region's output
  array is its layer's index-by-index function of the arrays the region is entered with, and those are the host
  layers of the previous boundary's arrays; chained from the launch memory, the last boundary's result array is the
  network function of the thirteen argument arrays.
-/
import proofs.«142023_j26104811225511_2_alg».proof.Proof.KV.Glue
import proofs.«142023_j26104811225511_2_alg».proof.Proof.KV.KResult
import proofs.«142023_j26104811225511_2_alg».proof.Proof.KV.Conv0Val
import proofs.«142023_j26104811225511_2_alg».proof.Proof.KV.Conv1Val
import proofs.«142023_j26104811225511_2_alg».proof.Proof.KV.Conv2Val
import proofs.«142023_j26104811225511_2_alg».proof.Proof.KV.Conv3Val
import proofs.«142023_j26104811225511_2_alg».proof.Proof.KV.DenseVal
import proofs.«142023_j26104811225511_2_alg».proof.Proof.KV.OutVal

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ)

/-- Region 0's output: conv layer 0 of the padded input, the weights and the threshold map. -/
theorem W4_v8 (c : Dev nD) : W4 m c main_v8 = Cert.Spec.convG0 (pad0 (F := Ideal) (m ((c : Thread nD τ).loc main_arg0))) (m ((c : Thread nD τ).loc main_arg1)) (gath0 (F := Ideal) (m ((c : Thread nD τ).loc main_arg2))) := by
  refine ((W4_arr m c 3).trans (final0 (B3 m) c)).trans ?_
  show Cert.Spec.convG0 (W3 m c main_v0) (W3 m c main_arg1) (W3 m c main_v7) = _
  rw [W3_v0, W3_arg1, W3_v7]

/-- Region 1's output. -/
theorem W8_v17 (c : Dev nD) : W8 m c main_v17 = Cert.Spec.convG1 (pad1 (F := Ideal) (W4 m c main_v8)) (m ((c : Thread nD τ).loc main_arg3)) (gath1 (F := Ideal) (m ((c : Thread nD τ).loc main_arg4))) := by
  refine ((W8_arr m c 3).trans (final1 (B7 m) c)).trans ?_
  show Cert.Spec.convG1 (W7 m c main_v9) (W7 m c main_arg3) (W7 m c main_v16) = _
  rw [W7_v9, W7_arg3, W7_v16]

/-- Region 2's output. -/
theorem W12_v28 (c : Dev nD) : W12 m c main_v28 = Cert.Spec.convG2 (pad2 (F := Ideal) (pool1 (F := Ideal) (W8 m c main_v17))) (m ((c : Thread nD τ).loc main_arg5)) (gath2 (F := Ideal) (m ((c : Thread nD τ).loc main_arg6))) := by
  refine ((W12_arr m c 3).trans (final2 (B11 m) c)).trans ?_
  show Cert.Spec.convG2 (W11 m c main_v20) (W11 m c main_arg5) (W11 m c main_v27) = _
  rw [W11_v20, W11_arg5, W11_v27]

/-- Region 3's output. -/
theorem W16_v37 (c : Dev nD) : W16 m c main_v37 = Cert.Spec.convG3 (pad3 (F := Ideal) (W12 m c main_v28)) (m ((c : Thread nD τ).loc main_arg7)) (gath3 (F := Ideal) (m ((c : Thread nD τ).loc main_arg8))) := by
  refine ((W16_arr m c 3).trans (final3 (B15 m) c)).trans ?_
  show Cert.Spec.convG3 (W15 m c main_v29) (W15 m c main_arg7) (W15 m c main_v36) = _
  rw [W15_v29, W15_arg7, W15_v36]

/-- Region 4's output: the dense layer of the flattened pooled features. -/
theorem W18_v42 (c : Dev nD) : W18 m c main_v42 = Cert.Spec.denseG (flat (F := Ideal) (pool2 (F := Ideal) (W16 m c main_v37))) (m ((c : Thread nD τ).loc main_arg9)) (m ((c : Thread nD τ).loc main_arg10)) := by
  refine ((W18_arr m c 3).trans (final4 (B17 m) c (m ((c : Thread nD τ).loc main_arg10)) (W17_v41 m c))).trans ?_
  show Cert.Spec.denseG (W17 m c main_v40) (W17 m c main_arg9) _ = _
  rw [W17_v40, W17_arg9]

/-- Region 5's output: the output layer. -/
theorem W20_v44 (c : Dev nD) : W20 m c main_v44 = Cert.Spec.outG (W18 m c main_v42) (m ((c : Thread nD τ).loc main_arg11)) (m ((c : Thread nD τ).loc main_arg12)) := by
  refine ((W20_arr m c 3).trans (final5 (B19 m) c (m ((c : Thread nD τ).loc main_arg12)) (W19_v43 m c))).trans ?_
  show Cert.Spec.outG (W19 m c main_v42) (W19 m c main_arg11) _ = _
  rw [W19_v42, W19_arg11]

/-- The result array at the end is the network function of the launch contents of the thirteen arguments. -/
theorem kernel_result (c : Dev nD) : W20 m c main_v44 = kresult (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [W20_v44, W18_v42, W16_v37, W12_v28, W8_v17, W4_v8]
  rfl

end Cert.KernelIdeal.Hand

end
-- ==== Proof.Ref.Layers.lean ====
import proofs.«142023_j26104811225511_2_alg».proof.Proof.Gen.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Facts₀ Facts

variable {F : FTy → Type} [FloatOps F]

/-! The reference network layer by layer: each layer is the reference's own chain of operations on the arrays it reads.
    Four convolution layers (pad by the layer's lower time bound, nine shifted slices side by side, minus the lower bound,
    contraction with the weights, plus the upper bound minus the border-aware threshold map, capped at the upper bound),
    a 2x2 maximum after the second and the fourth, then two dense layers. -/

/-- Layer 0's input padded by one pixel on each side of both spatial axes with the layer's lower bound. -/
def pad0 (x : (⟨S32x64x64x1, .f32⟩ : BufTy).Contents (Elt F)) : (⟨S32x66x66x1, .f32⟩ : BufTy).Contents (Elt F) :=
  pad S32x66x66x1 ![0, 1, 1, 0] ![0, 1, 1, 0] ![0, 0, 0, 0] x (constant S_ .f32 0x00000000#32) pads_S32x64x64x1_S32x66x66x1_000_110_110_000 h_S_

/-- Layer 0's table of row indices into the threshold array, one per output pixel. -/
def tab0 : (⟨S64x64, .i32⟩ : BufTy).Contents (Elt F) := fun i => lit0 (S64x64.rowMajor i)

/-- The table with negative entries wrapped by nine (the number of rows of the threshold array). -/
def idx0 : (⟨S64x64, .i32⟩ : BufTy).Contents (Elt F) :=
  select (cmpi .slt (tab0 (F := F)) (broadcastInDim S64x64 ![] bcast_S_S64x64 (constantI S_ 32 0#32)))
    (addi (tab0 (F := F)) (broadcastInDim S64x64 ![] bcast_S_S64x64 (constantI S_ 32 9#32))) (tab0 (F := F))

/-- Layer 0's threshold map: row `idx0` of the threshold array at every output pixel. -/
def gath0 (D : (⟨S9x64, .f32⟩ : BufTy).Contents (Elt F)) : (⟨S64x64x64, .f32⟩ : BufTy).Contents (Elt F) :=
  Host.gather gather_S9x64_S64x64x1_S64x64x64_2_0_n_n_0_2_164 D (broadcastInDim S64x64x1 ![0, 1] bcast_S64x64_S64x64x1_0_1 (idx0 (F := F)))

/-- Layer 0 from its padded input: the nine shifted windows side by side along the channel axis. -/
def taps0 (xp : (⟨S32x66x66x1, .f32⟩ : BufTy).Contents (Elt F)) : (⟨S32x64x64x9, .f32⟩ : BufTy).Contents (Elt F) :=
  concatenate S32x64x64x9 3 [⟨S32x64x64x1, extractStridedSlice S32x64x64x1 ![0, 0, 0, 0] xp slices_S32x66x66x1_S32x64x64x1_0_0_0_0⟩,
    ⟨S32x64x64x1, extractStridedSlice S32x64x64x1 ![0, 0, 1, 0] xp slices_S32x66x66x1_S32x64x64x1_0_0_1_0⟩,
    ⟨S32x64x64x1, extractStridedSlice S32x64x64x1 ![0, 0, 2, 0] xp slices_S32x66x66x1_S32x64x64x1_0_0_2_0⟩,
    ⟨S32x64x64x1, extractStridedSlice S32x64x64x1 ![0, 1, 0, 0] xp slices_S32x66x66x1_S32x64x64x1_0_1_0_0⟩,
    ⟨S32x64x64x1, extractStridedSlice S32x64x64x1 ![0, 1, 1, 0] xp slices_S32x66x66x1_S32x64x64x1_0_1_1_0⟩,
    ⟨S32x64x64x1, extractStridedSlice S32x64x64x1 ![0, 1, 2, 0] xp slices_S32x66x66x1_S32x64x64x1_0_1_2_0⟩,
    ⟨S32x64x64x1, extractStridedSlice S32x64x64x1 ![0, 2, 0, 0] xp slices_S32x66x66x1_S32x64x64x1_0_2_0_0⟩,
    ⟨S32x64x64x1, extractStridedSlice S32x64x64x1 ![0, 2, 1, 0] xp slices_S32x66x66x1_S32x64x64x1_0_2_1_0⟩,
    ⟨S32x64x64x1, extractStridedSlice S32x64x64x1 ![0, 2, 2, 0] xp slices_S32x66x66x1_S32x64x64x1_0_2_2_0⟩]
    concatenates_S32x64x64x1_S32x64x64x1_S32x64x64x1_S32x64x64x1_S32x64x64x1_S32x64x64x1_S32x64x64x1_S32x64x64x1_S32x64x64x1_S32x64x64x9_d3

/-- Layer 0 from its padded input, its weights and its threshold map. -/
def conv0 (xp : (⟨S32x66x66x1, .f32⟩ : BufTy).Contents (Elt F)) (W : (⟨S9x64, .f32⟩ : BufTy).Contents (Elt F)) (Dm : (⟨S64x64x64, .f32⟩ : BufTy).Contents (Elt F)) : (⟨S32x64x64x64, .f32⟩ : BufTy).Contents (Elt F) :=
  minimumf
    (addf (Host.dotGeneral dot_S32x64x64x9_S9x64_S32x64x64x64_3_0_012_1_n_n none (subf (taps0 xp) (broadcastInDim S32x64x64x9 ![] bcast_S_S32x64x64x9 (constant S_ .f32 0x00000000#32))) W)
      (broadcastInDim S32x64x64x64 ![0, 1, 2, 3] bcast_S1x64x64x64_S32x64x64x64_0_1_2_3
        (broadcastInDim S1x64x64x64 ![1, 2, 3] bcast_S64x64x64_S1x64x64x64_1_2_3
          (subf (broadcastInDim S64x64x64 ![] bcast_S_S64x64x64 (constant S_ .f32 0x44BB8000#32)) Dm))))
    (broadcastInDim S32x64x64x64 ![] bcast_S_S32x64x64x64 (constant S_ .f32 0x44BB8000#32))

/-- Layer 1's input padded by one pixel on each side of both spatial axes with the layer's lower bound. -/
def pad1 (x : (⟨S32x64x64x64, .f32⟩ : BufTy).Contents (Elt F)) : (⟨S32x66x66x64, .f32⟩ : BufTy).Contents (Elt F) :=
  pad S32x66x66x64 ![0, 1, 1, 0] ![0, 1, 1, 0] ![0, 0, 0, 0] x (constant S_ .f32 0x44BB8000#32) pads_S32x64x64x64_S32x66x66x64_000_110_110_000 h_S_

/-- Layer 1's table of row indices into the threshold array, one per output pixel. -/
def tab1 : (⟨S64x64, .i32⟩ : BufTy).Contents (Elt F) := fun i => lit1 (S64x64.rowMajor i)

/-- The table with negative entries wrapped by nine (the number of rows of the threshold array). -/
def idx1 : (⟨S64x64, .i32⟩ : BufTy).Contents (Elt F) :=
  select (cmpi .slt (tab1 (F := F)) (broadcastInDim S64x64 ![] bcast_S_S64x64 (constantI S_ 32 0#32)))
    (addi (tab1 (F := F)) (broadcastInDim S64x64 ![] bcast_S_S64x64 (constantI S_ 32 9#32))) (tab1 (F := F))

/-- Layer 1's threshold map: row `idx1` of the threshold array at every output pixel. -/
def gath1 (D : (⟨S9x64, .f32⟩ : BufTy).Contents (Elt F)) : (⟨S64x64x64, .f32⟩ : BufTy).Contents (Elt F) :=
  Host.gather gather_S9x64_S64x64x1_S64x64x64_2_0_n_n_0_2_164 D (broadcastInDim S64x64x1 ![0, 1] bcast_S64x64_S64x64x1_0_1 (idx1 (F := F)))

/-- Layer 1 from its padded input: the nine shifted windows side by side along the channel axis. -/
def taps1 (xp : (⟨S32x66x66x64, .f32⟩ : BufTy).Contents (Elt F)) : (⟨S32x64x64x576, .f32⟩ : BufTy).Contents (Elt F) :=
  concatenate S32x64x64x576 3 [⟨S32x64x64x64, extractStridedSlice S32x64x64x64 ![0, 0, 0, 0] xp slices_S32x66x66x64_S32x64x64x64_0_0_0_0⟩,
    ⟨S32x64x64x64, extractStridedSlice S32x64x64x64 ![0, 0, 1, 0] xp slices_S32x66x66x64_S32x64x64x64_0_0_1_0⟩,
    ⟨S32x64x64x64, extractStridedSlice S32x64x64x64 ![0, 0, 2, 0] xp slices_S32x66x66x64_S32x64x64x64_0_0_2_0⟩,
    ⟨S32x64x64x64, extractStridedSlice S32x64x64x64 ![0, 1, 0, 0] xp slices_S32x66x66x64_S32x64x64x64_0_1_0_0⟩,
    ⟨S32x64x64x64, extractStridedSlice S32x64x64x64 ![0, 1, 1, 0] xp slices_S32x66x66x64_S32x64x64x64_0_1_1_0⟩,
    ⟨S32x64x64x64, extractStridedSlice S32x64x64x64 ![0, 1, 2, 0] xp slices_S32x66x66x64_S32x64x64x64_0_1_2_0⟩,
    ⟨S32x64x64x64, extractStridedSlice S32x64x64x64 ![0, 2, 0, 0] xp slices_S32x66x66x64_S32x64x64x64_0_2_0_0⟩,
    ⟨S32x64x64x64, extractStridedSlice S32x64x64x64 ![0, 2, 1, 0] xp slices_S32x66x66x64_S32x64x64x64_0_2_1_0⟩,
    ⟨S32x64x64x64, extractStridedSlice S32x64x64x64 ![0, 2, 2, 0] xp slices_S32x66x66x64_S32x64x64x64_0_2_2_0⟩]
    concatenates_S32x64x64x64_S32x64x64x64_S32x64x64x64_S32x64x64x64_S32x64x64x64_S32x64x64x64_S32x64x64x64_S32x64x64x64_S32x64x64x64_S32x64x64x576_d3

/-- Layer 1 from its padded input, its weights and its threshold map. -/
def conv1 (xp : (⟨S32x66x66x64, .f32⟩ : BufTy).Contents (Elt F)) (W : (⟨S576x64, .f32⟩ : BufTy).Contents (Elt F)) (Dm : (⟨S64x64x64, .f32⟩ : BufTy).Contents (Elt F)) : (⟨S32x64x64x64, .f32⟩ : BufTy).Contents (Elt F) :=
  minimumf
    (addf (Host.dotGeneral dot_S32x64x64x576_S576x64_S32x64x64x64_3_0_012_1_n_n none (subf (taps1 xp) (broadcastInDim S32x64x64x576 ![] bcast_S_S32x64x64x576 (constant S_ .f32 0x44BB8000#32))) W)
      (broadcastInDim S32x64x64x64 ![0, 1, 2, 3] bcast_S1x64x64x64_S32x64x64x64_0_1_2_3
        (broadcastInDim S1x64x64x64 ![1, 2, 3] bcast_S64x64x64_S1x64x64x64_1_2_3
          (subf (broadcastInDim S64x64x64 ![] bcast_S_S64x64x64 (constant S_ .f32 0x453B8000#32)) Dm))))
    (broadcastInDim S32x64x64x64 ![] bcast_S_S32x64x64x64 (constant S_ .f32 0x453B8000#32))

/-- Layer 2's input padded by one pixel on each side of both spatial axes with the layer's lower bound. -/
def pad2 (x : (⟨S32x32x32x64, .f32⟩ : BufTy).Contents (Elt F)) : (⟨S32x34x34x64, .f32⟩ : BufTy).Contents (Elt F) :=
  pad S32x34x34x64 ![0, 1, 1, 0] ![0, 1, 1, 0] ![0, 0, 0, 0] x (constant S_ .f32 0x453B8000#32) pads_S32x32x32x64_S32x34x34x64_000_110_110_000 h_S_

/-- Layer 2's table of row indices into the threshold array, one per output pixel. -/
def tab2 : (⟨S32x32, .i32⟩ : BufTy).Contents (Elt F) := fun i => lit2 (S32x32.rowMajor i)

/-- The table with negative entries wrapped by nine (the number of rows of the threshold array). -/
def idx2 : (⟨S32x32, .i32⟩ : BufTy).Contents (Elt F) :=
  select (cmpi .slt (tab2 (F := F)) (broadcastInDim S32x32 ![] bcast_S_S32x32 (constantI S_ 32 0#32)))
    (addi (tab2 (F := F)) (broadcastInDim S32x32 ![] bcast_S_S32x32 (constantI S_ 32 9#32))) (tab2 (F := F))

/-- Layer 2's threshold map: row `idx2` of the threshold array at every output pixel. -/
def gath2 (D : (⟨S9x128, .f32⟩ : BufTy).Contents (Elt F)) : (⟨S32x32x128, .f32⟩ : BufTy).Contents (Elt F) :=
  Host.gather gather_S9x128_S32x32x1_S32x32x128_2_0_n_n_0_2_1128 D (broadcastInDim S32x32x1 ![0, 1] bcast_S32x32_S32x32x1_0_1 (idx2 (F := F)))

/-- Layer 2 from its padded input: the nine shifted windows side by side along the channel axis. -/
def taps2 (xp : (⟨S32x34x34x64, .f32⟩ : BufTy).Contents (Elt F)) : (⟨S32x32x32x576, .f32⟩ : BufTy).Contents (Elt F) :=
  concatenate S32x32x32x576 3 [⟨S32x32x32x64, extractStridedSlice S32x32x32x64 ![0, 0, 0, 0] xp slices_S32x34x34x64_S32x32x32x64_0_0_0_0⟩,
    ⟨S32x32x32x64, extractStridedSlice S32x32x32x64 ![0, 0, 1, 0] xp slices_S32x34x34x64_S32x32x32x64_0_0_1_0⟩,
    ⟨S32x32x32x64, extractStridedSlice S32x32x32x64 ![0, 0, 2, 0] xp slices_S32x34x34x64_S32x32x32x64_0_0_2_0⟩,
    ⟨S32x32x32x64, extractStridedSlice S32x32x32x64 ![0, 1, 0, 0] xp slices_S32x34x34x64_S32x32x32x64_0_1_0_0⟩,
    ⟨S32x32x32x64, extractStridedSlice S32x32x32x64 ![0, 1, 1, 0] xp slices_S32x34x34x64_S32x32x32x64_0_1_1_0⟩,
    ⟨S32x32x32x64, extractStridedSlice S32x32x32x64 ![0, 1, 2, 0] xp slices_S32x34x34x64_S32x32x32x64_0_1_2_0⟩,
    ⟨S32x32x32x64, extractStridedSlice S32x32x32x64 ![0, 2, 0, 0] xp slices_S32x34x34x64_S32x32x32x64_0_2_0_0⟩,
    ⟨S32x32x32x64, extractStridedSlice S32x32x32x64 ![0, 2, 1, 0] xp slices_S32x34x34x64_S32x32x32x64_0_2_1_0⟩,
    ⟨S32x32x32x64, extractStridedSlice S32x32x32x64 ![0, 2, 2, 0] xp slices_S32x34x34x64_S32x32x32x64_0_2_2_0⟩]
    concatenates_S32x32x32x64_S32x32x32x64_S32x32x32x64_S32x32x32x64_S32x32x32x64_S32x32x32x64_S32x32x32x64_S32x32x32x64_S32x32x32x64_S32x32x32x576_d3

/-- Layer 2 from its padded input, its weights and its threshold map. -/
def conv2 (xp : (⟨S32x34x34x64, .f32⟩ : BufTy).Contents (Elt F)) (W : (⟨S576x128, .f32⟩ : BufTy).Contents (Elt F)) (Dm : (⟨S32x32x128, .f32⟩ : BufTy).Contents (Elt F)) : (⟨S32x32x32x128, .f32⟩ : BufTy).Contents (Elt F) :=
  minimumf
    (addf (Host.dotGeneral dot_S32x32x32x576_S576x128_S32x32x32x128_3_0_012_1_n_n none (subf (taps2 xp) (broadcastInDim S32x32x32x576 ![] bcast_S_S32x32x32x576 (constant S_ .f32 0x453B8000#32))) W)
      (broadcastInDim S32x32x32x128 ![0, 1, 2, 3] bcast_S1x32x32x128_S32x32x32x128_0_1_2_3
        (broadcastInDim S1x32x32x128 ![1, 2, 3] bcast_S32x32x128_S1x32x32x128_1_2_3
          (subf (broadcastInDim S32x32x128 ![] bcast_S_S32x32x128 (constant S_ .f32 0x458CA000#32)) Dm))))
    (broadcastInDim S32x32x32x128 ![] bcast_S_S32x32x32x128 (constant S_ .f32 0x458CA000#32))

/-- Layer 3's input padded by one pixel on each side of both spatial axes with the layer's lower bound. -/
def pad3 (x : (⟨S32x32x32x128, .f32⟩ : BufTy).Contents (Elt F)) : (⟨S32x34x34x128, .f32⟩ : BufTy).Contents (Elt F) :=
  pad S32x34x34x128 ![0, 1, 1, 0] ![0, 1, 1, 0] ![0, 0, 0, 0] x (constant S_ .f32 0x458CA000#32) pads_S32x32x32x128_S32x34x34x128_000_110_110_000 h_S_

/-- Layer 3's table of row indices into the threshold array, one per output pixel. -/
def tab3 : (⟨S32x32, .i32⟩ : BufTy).Contents (Elt F) := fun i => lit3 (S32x32.rowMajor i)

/-- The table with negative entries wrapped by nine (the number of rows of the threshold array). -/
def idx3 : (⟨S32x32, .i32⟩ : BufTy).Contents (Elt F) :=
  select (cmpi .slt (tab3 (F := F)) (broadcastInDim S32x32 ![] bcast_S_S32x32 (constantI S_ 32 0#32)))
    (addi (tab3 (F := F)) (broadcastInDim S32x32 ![] bcast_S_S32x32 (constantI S_ 32 9#32))) (tab3 (F := F))

/-- Layer 3's threshold map: row `idx3` of the threshold array at every output pixel. -/
def gath3 (D : (⟨S9x128, .f32⟩ : BufTy).Contents (Elt F)) : (⟨S32x32x128, .f32⟩ : BufTy).Contents (Elt F) :=
  Host.gather gather_S9x128_S32x32x1_S32x32x128_2_0_n_n_0_2_1128 D (broadcastInDim S32x32x1 ![0, 1] bcast_S32x32_S32x32x1_0_1 (idx3 (F := F)))

/-- Layer 3 from its padded input: the nine shifted windows side by side along the channel axis. -/
def taps3 (xp : (⟨S32x34x34x128, .f32⟩ : BufTy).Contents (Elt F)) : (⟨S32x32x32x1152, .f32⟩ : BufTy).Contents (Elt F) :=
  concatenate S32x32x32x1152 3 [⟨S32x32x32x128, extractStridedSlice S32x32x32x128 ![0, 0, 0, 0] xp slices_S32x34x34x128_S32x32x32x128_0_0_0_0⟩,
    ⟨S32x32x32x128, extractStridedSlice S32x32x32x128 ![0, 0, 1, 0] xp slices_S32x34x34x128_S32x32x32x128_0_0_1_0⟩,
    ⟨S32x32x32x128, extractStridedSlice S32x32x32x128 ![0, 0, 2, 0] xp slices_S32x34x34x128_S32x32x32x128_0_0_2_0⟩,
    ⟨S32x32x32x128, extractStridedSlice S32x32x32x128 ![0, 1, 0, 0] xp slices_S32x34x34x128_S32x32x32x128_0_1_0_0⟩,
    ⟨S32x32x32x128, extractStridedSlice S32x32x32x128 ![0, 1, 1, 0] xp slices_S32x34x34x128_S32x32x32x128_0_1_1_0⟩,
    ⟨S32x32x32x128, extractStridedSlice S32x32x32x128 ![0, 1, 2, 0] xp slices_S32x34x34x128_S32x32x32x128_0_1_2_0⟩,
    ⟨S32x32x32x128, extractStridedSlice S32x32x32x128 ![0, 2, 0, 0] xp slices_S32x34x34x128_S32x32x32x128_0_2_0_0⟩,
    ⟨S32x32x32x128, extractStridedSlice S32x32x32x128 ![0, 2, 1, 0] xp slices_S32x34x34x128_S32x32x32x128_0_2_1_0⟩,
    ⟨S32x32x32x128, extractStridedSlice S32x32x32x128 ![0, 2, 2, 0] xp slices_S32x34x34x128_S32x32x32x128_0_2_2_0⟩]
    concatenates_S32x32x32x128_S32x32x32x128_S32x32x32x128_S32x32x32x128_S32x32x32x128_S32x32x32x128_S32x32x32x128_S32x32x32x128_S32x32x32x128_S32x32x32x1152_d3

/-- Layer 3 from its padded input, its weights and its threshold map. -/
def conv3 (xp : (⟨S32x34x34x128, .f32⟩ : BufTy).Contents (Elt F)) (W : (⟨S1152x128, .f32⟩ : BufTy).Contents (Elt F)) (Dm : (⟨S32x32x128, .f32⟩ : BufTy).Contents (Elt F)) : (⟨S32x32x32x128, .f32⟩ : BufTy).Contents (Elt F) :=
  minimumf
    (addf (Host.dotGeneral dot_S32x32x32x1152_S1152x128_S32x32x32x128_3_0_012_1_n_n none (subf (taps3 xp) (broadcastInDim S32x32x32x1152 ![] bcast_S_S32x32x32x1152 (constant S_ .f32 0x458CA000#32))) W)
      (broadcastInDim S32x32x32x128 ![0, 1, 2, 3] bcast_S1x32x32x128_S32x32x32x128_0_1_2_3
        (broadcastInDim S1x32x32x128 ![1, 2, 3] bcast_S32x32x128_S1x32x32x128_1_2_3
          (subf (broadcastInDim S32x32x128 ![] bcast_S_S32x32x128 (constant S_ .f32 0x45BB8000#32)) Dm))))
    (broadcastInDim S32x32x32x128 ![] bcast_S_S32x32x32x128 (constant S_ .f32 0x45BB8000#32))

/-- The 2x2 maximum after the second convolution layer. -/
def pool1 (y : (⟨S32x64x64x64, .f32⟩ : BufTy).Contents (Elt F)) : (⟨S32x32x32x64, .f32⟩ : BufTy).Contents (Elt F) :=
  Host.reduce FloatOps.maximumf (shapeCast S32x32x2x32x2x64 y shapeCasts_S32x64x64x64_S32x32x2x32x2x64)
    (constant S_ .f32 0xFF800000#32) reducesTo_S32x32x2x32x2x64_S32x32x32x64_d2_4 h_S_

/-- The 2x2 maximum after the fourth convolution layer. -/
def pool2 (y : (⟨S32x32x32x128, .f32⟩ : BufTy).Contents (Elt F)) : (⟨S32x16x16x128, .f32⟩ : BufTy).Contents (Elt F) :=
  Host.reduce FloatOps.maximumf (shapeCast S32x16x2x16x2x128 y shapeCasts_S32x32x32x128_S32x16x2x16x2x128)
    (constant S_ .f32 0xFF800000#32) reducesTo_S32x16x2x16x2x128_S32x16x16x128_d2_4 h_S_

/-- Each image's pooled features as one row. -/
def flat (y : (⟨S32x16x16x128, .f32⟩ : BufTy).Contents (Elt F)) : (⟨S32x32768, .f32⟩ : BufTy).Contents (Elt F) :=
  shapeCast S32x32768 y shapeCasts_S32x16x16x128_S32x32768

/-- The first dense layer. -/
def dense (x : (⟨S32x32768, .f32⟩ : BufTy).Contents (Elt F)) (W : (⟨S32768x256, .f32⟩ : BufTy).Contents (Elt F)) (D : (⟨S256, .f32⟩ : BufTy).Contents (Elt F)) : (⟨S32x256, .f32⟩ : BufTy).Contents (Elt F) :=
  minimumf
    (addf (Host.dotGeneral dot_S32x32768_S32768x256_S32x256_1_0_0_1_n_n none (subf x (broadcastInDim S32x32768 ![] bcast_S_S32x32768 (constant S_ .f32 0x45BB8000#32))) W)
      (broadcastInDim S32x256 ![0, 1] bcast_S1x256_S32x256_0_1
        (broadcastInDim S1x256 ![1] bcast_S256_S1x256_1
          (subf (broadcastInDim S256 ![] bcast_S_S256 (constant S_ .f32 0x45EA6000#32)) D))))
    (broadcastInDim S32x256 ![] bcast_S_S32x256 (constant S_ .f32 0x45EA6000#32))

/-- The output layer. -/
def outl (x : (⟨S32x256, .f32⟩ : BufTy).Contents (Elt F)) (W : (⟨S256x10, .f32⟩ : BufTy).Contents (Elt F)) (D : (⟨S10, .f32⟩ : BufTy).Contents (Elt F)) : (⟨S32x10, .f32⟩ : BufTy).Contents (Elt F) :=
  addf (broadcastInDim S32x10 ![0, 1] bcast_S1x10_S32x10_0_1 (broadcastInDim S1x10 ![1] bcast_S10_S1x10_1 D))
    (Host.dotGeneral dot_S32x256_S256x10_S32x10_1_0_0_1_n_n none (subf (broadcastInDim S32x256 ![] bcast_S_S32x256 (constant S_ .f32 0x45EA6000#32)) x) W)

/-- The reference's result as a function of its thirteen argument arrays. -/
def result (x : (⟨S32x64x64x1, .f32⟩ : BufTy).Contents (Elt F)) (W1 : (⟨S9x64, .f32⟩ : BufTy).Contents (Elt F)) (D1 : (⟨S9x64, .f32⟩ : BufTy).Contents (Elt F)) (W2 : (⟨S576x64, .f32⟩ : BufTy).Contents (Elt F)) (D2 : (⟨S9x64, .f32⟩ : BufTy).Contents (Elt F))
    (W3 : (⟨S576x128, .f32⟩ : BufTy).Contents (Elt F)) (D3 : (⟨S9x128, .f32⟩ : BufTy).Contents (Elt F)) (W4 : (⟨S1152x128, .f32⟩ : BufTy).Contents (Elt F)) (D4 : (⟨S9x128, .f32⟩ : BufTy).Contents (Elt F))
    (Wd : (⟨S32768x256, .f32⟩ : BufTy).Contents (Elt F)) (Dd : (⟨S256, .f32⟩ : BufTy).Contents (Elt F)) (Wo : (⟨S256x10, .f32⟩ : BufTy).Contents (Elt F)) (Do : (⟨S10, .f32⟩ : BufTy).Contents (Elt F)) : (⟨S32x10, .f32⟩ : BufTy).Contents (Elt F) :=
  outl (dense (flat (pool2 (conv3 (pad3 (conv2 (pad2 (pool1 (conv1 (pad1 (conv0 (pad0 x) W1 (gath0 D1))) W2 (gath1 D2)))) W3 (gath2 D3))) W4 (gath3 D4)))) Wd Dd) Wo Do

end Cert.ReferenceIdeal.Hand

end
-- ==== Proof.Ref.Base.lean ====
import proofs.«142023_j26104811225511_2_alg».proof.Proof.Gen.ReferenceIdeal
import Idealize.ShloMosaic.Lib.StableHlo.Run
import Idealize.ShloMosaic.Lib.Pipeline.Frame

noncomputable section

namespace Cert.ReferenceIdeal.Hand

open Cert.ReferenceIdeal Idealize.ShloMosaic Idealize.ShloMosaic.TcCoe Idealize.SL.Sem Idealize.ShloMosaic.StableHlo
open Facts₀ Facts

variable {F : FTy → Type} [FloatOps F]

/-- A written buffer's singleton lies in the list of written buffers it is a member of. -/
theorem wr {W : List (Ref sig .tc)} {y : Ref sig .tc} (h : y ∈ W) :
    ({Proc.devRef .tc y} : Finset (DevRef τ sig)) ⊆ (W.map (Proc.devRef (τ := τ) .tc)).toFinset := by
  rw [Finset.singleton_subset_iff, List.mem_toFinset]; exact List.mem_map_of_mem h

end Cert.ReferenceIdeal.Hand

end
-- ==== Proof.Ref.S1.lean ====
import proofs.«142023_j26104811225511_2_alg».proof.Proof.Ref.Layers
import proofs.«142023_j26104811225511_2_alg».proof.Proof.Ref.Base
import proofs.«142023_j26104811225511_2_alg».proof.Proof.LibStretches

noncomputable section

namespace Cert.ReferenceIdeal.Hand

open Cert.ReferenceIdeal Idealize.ShloMosaic Idealize.ShloMosaic.TcCoe Idealize.SL.Sem Idealize.ShloMosaic.StableHlo Cert.Stretches
open Facts₀ Facts

variable {F : FTy → Type} [FloatOps F]

/-- Stretch 1: operations 1 … 39 of 171 of the reference's line (a padding function's two operations listed in place). -/
abbrev L1 : List (HloOp τ sig (Elt F)) :=
  [ StableHlo.nullary main_c (fun i => lit0 (S64x64.rowMajor i)),
    StableHlo.nullary main_c_0 (fun i => lit1 (S64x64.rowMajor i)),
    StableHlo.nullary main_c_1 (fun i => lit2 (S32x32.rowMajor i)),
    StableHlo.nullary main_c_2 (fun i => lit3 (S32x32.rowMajor i)),
    StableHlo.nullary main_cst (constant S_ .f32 0x00000000#32),
    StableHlo.TRef.unary (.of main_cst : StableHlo.TRef sig ⟨S_, .f32⟩) main_call0.v0 id,
    StableHlo.TRef.binary (.of main_arg0 : StableHlo.TRef sig ⟨S32x64x64x1, .f32⟩) main_call0.v0 main_call0.v1 (fun x v => pad S32x66x66x1 ![0, 1, 1, 0] ![0, 1, 1, 0] ![0, 0, 0, 0] x v pads_S32x64x64x1_S32x66x66x1_000_110_110_000 h_S_),
    StableHlo.unary main_v0 main_v1 ((extractStridedSlice S32x64x64x1 ![0, 0, 0, 0] · slices_S32x66x66x1_S32x64x64x1_0_0_0_0) : (⟨S32x66x66x1, .f32⟩ : BufTy).Contents (Elt F) → (⟨S32x64x64x1, .f32⟩ : BufTy).Contents (Elt F)),
    StableHlo.unary main_v0 main_v2 ((extractStridedSlice S32x64x64x1 ![0, 0, 1, 0] · slices_S32x66x66x1_S32x64x64x1_0_0_1_0) : (⟨S32x66x66x1, .f32⟩ : BufTy).Contents (Elt F) → (⟨S32x64x64x1, .f32⟩ : BufTy).Contents (Elt F)),
    StableHlo.unary main_v0 main_v3 ((extractStridedSlice S32x64x64x1 ![0, 0, 2, 0] · slices_S32x66x66x1_S32x64x64x1_0_0_2_0) : (⟨S32x66x66x1, .f32⟩ : BufTy).Contents (Elt F) → (⟨S32x64x64x1, .f32⟩ : BufTy).Contents (Elt F)),
    StableHlo.unary main_v0 main_v4 ((extractStridedSlice S32x64x64x1 ![0, 1, 0, 0] · slices_S32x66x66x1_S32x64x64x1_0_1_0_0) : (⟨S32x66x66x1, .f32⟩ : BufTy).Contents (Elt F) → (⟨S32x64x64x1, .f32⟩ : BufTy).Contents (Elt F)),
    StableHlo.unary main_v0 main_v5 ((extractStridedSlice S32x64x64x1 ![0, 1, 1, 0] · slices_S32x66x66x1_S32x64x64x1_0_1_1_0) : (⟨S32x66x66x1, .f32⟩ : BufTy).Contents (Elt F) → (⟨S32x64x64x1, .f32⟩ : BufTy).Contents (Elt F)),
    StableHlo.unary main_v0 main_v6 ((extractStridedSlice S32x64x64x1 ![0, 1, 2, 0] · slices_S32x66x66x1_S32x64x64x1_0_1_2_0) : (⟨S32x66x66x1, .f32⟩ : BufTy).Contents (Elt F) → (⟨S32x64x64x1, .f32⟩ : BufTy).Contents (Elt F)),
    StableHlo.unary main_v0 main_v7 ((extractStridedSlice S32x64x64x1 ![0, 2, 0, 0] · slices_S32x66x66x1_S32x64x64x1_0_2_0_0) : (⟨S32x66x66x1, .f32⟩ : BufTy).Contents (Elt F) → (⟨S32x64x64x1, .f32⟩ : BufTy).Contents (Elt F)),
    StableHlo.unary main_v0 main_v8 ((extractStridedSlice S32x64x64x1 ![0, 2, 1, 0] · slices_S32x66x66x1_S32x64x64x1_0_2_1_0) : (⟨S32x66x66x1, .f32⟩ : BufTy).Contents (Elt F) → (⟨S32x64x64x1, .f32⟩ : BufTy).Contents (Elt F)),
    StableHlo.unary main_v0 main_v9 ((extractStridedSlice S32x64x64x1 ![0, 2, 2, 0] · slices_S32x66x66x1_S32x64x64x1_0_2_2_0) : (⟨S32x66x66x1, .f32⟩ : BufTy).Contents (Elt F) → (⟨S32x64x64x1, .f32⟩ : BufTy).Contents (Elt F)),
    StableHlo.nary ![main_v1, main_v2, main_v3, main_v4, main_v5, main_v6, main_v7, main_v8, main_v9] main_v10 (fun u => concatenate S32x64x64x9 3 [⟨S32x64x64x1, u 0⟩, ⟨S32x64x64x1, u 1⟩, ⟨S32x64x64x1, u 2⟩, ⟨S32x64x64x1, u 3⟩, ⟨S32x64x64x1, u 4⟩, ⟨S32x64x64x1, u 5⟩, ⟨S32x64x64x1, u 6⟩, ⟨S32x64x64x1, u 7⟩, ⟨S32x64x64x1, u 8⟩] concatenates_S32x64x64x1_S32x64x64x1_S32x64x64x1_S32x64x64x1_S32x64x64x1_S32x64x64x1_S32x64x64x1_S32x64x64x1_S32x64x64x1_S32x64x64x9_d3),
    StableHlo.nullary main_cst_3 (constant S_ .f32 0x00000000#32),
    StableHlo.unary main_cst_3 main_v11 (broadcastInDim S32x64x64x9 ![] bcast_S_S32x64x64x9 : (⟨S_, .f32⟩ : BufTy).Contents (Elt F) → (⟨S32x64x64x9, .f32⟩ : BufTy).Contents (Elt F)),
    StableHlo.binary main_v10 main_v11 main_v12 (subf : (⟨S32x64x64x9, .f32⟩ : BufTy).Contents (Elt F) → (⟨S32x64x64x9, .f32⟩ : BufTy).Contents (Elt F) → (⟨S32x64x64x9, .f32⟩ : BufTy).Contents (Elt F)),
    StableHlo.binary main_v12 main_arg1 main_v13 ((fun l r => Host.dotGeneral dot_S32x64x64x9_S9x64_S32x64x64x64_3_0_012_1_n_n none l r) : (⟨S32x64x64x9, .f32⟩ : BufTy).Contents (Elt F) → (⟨S9x64, .f32⟩ : BufTy).Contents (Elt F) → (⟨S32x64x64x64, .f32⟩ : BufTy).Contents (Elt F)),
    StableHlo.nullary main_c_4 (constantI S_ 32 0#32),
    StableHlo.unary main_c_4 main_v14 (broadcastInDim S64x64 ![] bcast_S_S64x64 : (⟨S_, .i32⟩ : BufTy).Contents (Elt F) → (⟨S64x64, .i32⟩ : BufTy).Contents (Elt F)),
    StableHlo.binary main_c main_v14 main_v15 (cmpi .slt : (⟨S64x64, .i32⟩ : BufTy).Contents (Elt F) → (⟨S64x64, .i32⟩ : BufTy).Contents (Elt F) → (⟨S64x64, .i1⟩ : BufTy).Contents (Elt F)),
    StableHlo.nullary main_c_5 (constantI S_ 32 9#32),
    StableHlo.unary main_c_5 main_v16 (broadcastInDim S64x64 ![] bcast_S_S64x64 : (⟨S_, .i32⟩ : BufTy).Contents (Elt F) → (⟨S64x64, .i32⟩ : BufTy).Contents (Elt F)),
    StableHlo.binary main_c main_v16 main_v17 (addi : (⟨S64x64, .i32⟩ : BufTy).Contents (Elt F) → (⟨S64x64, .i32⟩ : BufTy).Contents (Elt F) → (⟨S64x64, .i32⟩ : BufTy).Contents (Elt F)),
    StableHlo.ternary main_v15 main_v17 main_c main_v18 (select : (⟨S64x64, .i1⟩ : BufTy).Contents (Elt F) → (⟨S64x64, .i32⟩ : BufTy).Contents (Elt F) → (⟨S64x64, .i32⟩ : BufTy).Contents (Elt F) → (⟨S64x64, .i32⟩ : BufTy).Contents (Elt F)),
    StableHlo.unary main_v18 main_v19 (broadcastInDim S64x64x1 ![0, 1] bcast_S64x64_S64x64x1_0_1 : (⟨S64x64, .i32⟩ : BufTy).Contents (Elt F) → (⟨S64x64x1, .i32⟩ : BufTy).Contents (Elt F)),
    StableHlo.binary main_arg2 main_v19 main_v20 ((fun x i => Host.gather gather_S9x64_S64x64x1_S64x64x64_2_0_n_n_0_2_164 x i) : (⟨S9x64, .f32⟩ : BufTy).Contents (Elt F) → (⟨S64x64x1, .i32⟩ : BufTy).Contents (Elt F) → (⟨S64x64x64, .f32⟩ : BufTy).Contents (Elt F)),
    StableHlo.nullary main_cst_6 (constant S_ .f32 0x44BB8000#32),
    StableHlo.unary main_cst_6 main_v21 (broadcastInDim S64x64x64 ![] bcast_S_S64x64x64 : (⟨S_, .f32⟩ : BufTy).Contents (Elt F) → (⟨S64x64x64, .f32⟩ : BufTy).Contents (Elt F)),
    StableHlo.binary main_v21 main_v20 main_v22 (subf : (⟨S64x64x64, .f32⟩ : BufTy).Contents (Elt F) → (⟨S64x64x64, .f32⟩ : BufTy).Contents (Elt F) → (⟨S64x64x64, .f32⟩ : BufTy).Contents (Elt F)),
    StableHlo.unary main_v22 main_v23 (broadcastInDim S1x64x64x64 ![1, 2, 3] bcast_S64x64x64_S1x64x64x64_1_2_3 : (⟨S64x64x64, .f32⟩ : BufTy).Contents (Elt F) → (⟨S1x64x64x64, .f32⟩ : BufTy).Contents (Elt F)),
    StableHlo.unary main_v23 main_v24 (broadcastInDim S32x64x64x64 ![0, 1, 2, 3] bcast_S1x64x64x64_S32x64x64x64_0_1_2_3 : (⟨S1x64x64x64, .f32⟩ : BufTy).Contents (Elt F) → (⟨S32x64x64x64, .f32⟩ : BufTy).Contents (Elt F)),
    StableHlo.binary main_v13 main_v24 main_v25 (addf : (⟨S32x64x64x64, .f32⟩ : BufTy).Contents (Elt F) → (⟨S32x64x64x64, .f32⟩ : BufTy).Contents (Elt F) → (⟨S32x64x64x64, .f32⟩ : BufTy).Contents (Elt F)),
    StableHlo.nullary main_cst_7 (constant S_ .f32 0x44BB8000#32),
    StableHlo.unary main_cst_7 main_v26 (broadcastInDim S32x64x64x64 ![] bcast_S_S32x64x64x64 : (⟨S_, .f32⟩ : BufTy).Contents (Elt F) → (⟨S32x64x64x64, .f32⟩ : BufTy).Contents (Elt F)),
    StableHlo.binary main_v25 main_v26 main_v27 (minimumf : (⟨S32x64x64x64, .f32⟩ : BufTy).Contents (Elt F) → (⟨S32x64x64x64, .f32⟩ : BufTy).Contents (Elt F) → (⟨S32x64x64x64, .f32⟩ : BufTy).Contents (Elt F)) ]

/-- The buffers stretch 1 writes. -/
abbrev W1 : List (Ref sig .tc) := [main_c, main_c_0, main_c_1, main_c_2, main_cst, main_call0_v0, main_v0, main_v1, main_v2, main_v3, main_v4, main_v5, main_v6, main_v7, main_v8, main_v9, main_v10, main_cst_3, main_v11, main_v12, main_v13, main_c_4, main_v14, main_v15, main_c_5, main_v16, main_v17, main_v18, main_v19, main_v20, main_cst_6, main_v21, main_v22, main_v23, main_v24, main_v25, main_cst_7, main_v26, main_v27]

theorem sub1 : (L1 : List (HloOp τ sig (Elt F))).Forall fun op => op.bufs ⊆ tcRefs τ sig :=
  ⟨nullary_bufs_sub .., nullary_bufs_sub .., nullary_bufs_sub .., nullary_bufs_sub .., nullary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub ..⟩

theorem fresh1 : ∀ op ∈ (L1 : List (HloOp τ sig (Elt F))), op.fresh = ∅ := by
  intro _ h; (repeat (cases h with | head => rfl | tail _ h => ?_)); exact nomatch h

theorem writes1 : (L1 : List (HloOp τ sig (Elt F))).Forall fun op => op.writes ⊆ (W1.map (Proc.devRef (τ := τ) .tc)).toFinset :=
  ⟨wr (y := main_c) (by decide), wr (y := main_c_0) (by decide), wr (y := main_c_1) (by decide), wr (y := main_c_2) (by decide), wr (y := main_cst) (by decide), wr (y := main_call0_v0) (by decide), wr (y := main_v0) (by decide), wr (y := main_v1) (by decide), wr (y := main_v2) (by decide), wr (y := main_v3) (by decide), wr (y := main_v4) (by decide), wr (y := main_v5) (by decide), wr (y := main_v6) (by decide), wr (y := main_v7) (by decide), wr (y := main_v8) (by decide), wr (y := main_v9) (by decide), wr (y := main_v10) (by decide), wr (y := main_cst_3) (by decide), wr (y := main_v11) (by decide), wr (y := main_v12) (by decide), wr (y := main_v13) (by decide), wr (y := main_c_4) (by decide), wr (y := main_v14) (by decide), wr (y := main_v15) (by decide), wr (y := main_c_5) (by decide), wr (y := main_v16) (by decide), wr (y := main_v17) (by decide), wr (y := main_v18) (by decide), wr (y := main_v19) (by decide), wr (y := main_v20) (by decide), wr (y := main_cst_6) (by decide), wr (y := main_v21) (by decide), wr (y := main_v22) (by decide), wr (y := main_v23) (by decide), wr (y := main_v24) (by decide), wr (y := main_v25) (by decide), wr (y := main_cst_7) (by decide), wr (y := main_v26) (by decide), wr (y := main_v27) (by decide)⟩

/-- A buffer stretch 1 does not write keeps its contents. -/
theorem keep1 (V : Valuation τ sig (Elt F)) {r : Ref sig .tc} (hr : r ∉ W1) :
    after L1 V (Proc.devRef .tc r) = V (Proc.devRef .tc r) :=
  after_of_writes_sub L1 V writes1 hr

/-- Stretch 1 read at its last buffer, over any contents before it. -/
theorem read1 (V : Valuation τ sig (Elt F))  :
    after L1 V (main_v27 : DevRef τ sig) = conv0 (pad0 (V (main_arg0 : DevRef τ sig))) (V (main_arg1 : DevRef τ sig)) (gath0 (V (main_arg2 : DevRef τ sig))) := by
  read_stretch
  rfl

theorem tab1_at (V : Valuation τ sig (Elt F)) : after L1 V (main_c_0 : DevRef τ sig) = tab1 := by
  read_stretch
  rfl

theorem tab2_at (V : Valuation τ sig (Elt F)) : after L1 V (main_c_1 : DevRef τ sig) = tab2 := by
  read_stretch
  rfl

theorem tab3_at (V : Valuation τ sig (Elt F)) : after L1 V (main_c_2 : DevRef τ sig) = tab3 := by
  read_stretch
  rfl

end Cert.ReferenceIdeal.Hand

end
-- ==== Proof.Ref.S2.lean ====
import proofs.«142023_j26104811225511_2_alg».proof.Proof.Ref.Layers
import proofs.«142023_j26104811225511_2_alg».proof.Proof.Ref.Base
import proofs.«142023_j26104811225511_2_alg».proof.Proof.LibStretches

noncomputable section

namespace Cert.ReferenceIdeal.Hand

open Cert.ReferenceIdeal Idealize.ShloMosaic Idealize.ShloMosaic.TcCoe Idealize.SL.Sem Idealize.ShloMosaic.StableHlo Cert.Stretches
open Facts₀ Facts

variable {F : FTy → Type} [FloatOps F]

/-- Stretch 2: operations 40 … 77 of 171 of the reference's line (a padding function's two operations listed in place). -/
abbrev L2 : List (HloOp τ sig (Elt F)) :=
  [ StableHlo.nullary main_cst_8 (constant S_ .f32 0x44BB8000#32),
    StableHlo.TRef.unary (.of main_cst_8 : StableHlo.TRef sig ⟨S_, .f32⟩) main_call1.v0 id,
    StableHlo.TRef.binary (.of main_v27 : StableHlo.TRef sig ⟨S32x64x64x64, .f32⟩) main_call1.v0 main_call1.v1 (fun x v => pad S32x66x66x64 ![0, 1, 1, 0] ![0, 1, 1, 0] ![0, 0, 0, 0] x v pads_S32x64x64x64_S32x66x66x64_000_110_110_000 h_S_),
    StableHlo.unary main_v28 main_v29 ((extractStridedSlice S32x64x64x64 ![0, 0, 0, 0] · slices_S32x66x66x64_S32x64x64x64_0_0_0_0) : (⟨S32x66x66x64, .f32⟩ : BufTy).Contents (Elt F) → (⟨S32x64x64x64, .f32⟩ : BufTy).Contents (Elt F)),
    StableHlo.unary main_v28 main_v30 ((extractStridedSlice S32x64x64x64 ![0, 0, 1, 0] · slices_S32x66x66x64_S32x64x64x64_0_0_1_0) : (⟨S32x66x66x64, .f32⟩ : BufTy).Contents (Elt F) → (⟨S32x64x64x64, .f32⟩ : BufTy).Contents (Elt F)),
    StableHlo.unary main_v28 main_v31 ((extractStridedSlice S32x64x64x64 ![0, 0, 2, 0] · slices_S32x66x66x64_S32x64x64x64_0_0_2_0) : (⟨S32x66x66x64, .f32⟩ : BufTy).Contents (Elt F) → (⟨S32x64x64x64, .f32⟩ : BufTy).Contents (Elt F)),
    StableHlo.unary main_v28 main_v32 ((extractStridedSlice S32x64x64x64 ![0, 1, 0, 0] · slices_S32x66x66x64_S32x64x64x64_0_1_0_0) : (⟨S32x66x66x64, .f32⟩ : BufTy).Contents (Elt F) → (⟨S32x64x64x64, .f32⟩ : BufTy).Contents (Elt F)),
    StableHlo.unary main_v28 main_v33 ((extractStridedSlice S32x64x64x64 ![0, 1, 1, 0] · slices_S32x66x66x64_S32x64x64x64_0_1_1_0) : (⟨S32x66x66x64, .f32⟩ : BufTy).Contents (Elt F) → (⟨S32x64x64x64, .f32⟩ : BufTy).Contents (Elt F)),
    StableHlo.unary main_v28 main_v34 ((extractStridedSlice S32x64x64x64 ![0, 1, 2, 0] · slices_S32x66x66x64_S32x64x64x64_0_1_2_0) : (⟨S32x66x66x64, .f32⟩ : BufTy).Contents (Elt F) → (⟨S32x64x64x64, .f32⟩ : BufTy).Contents (Elt F)),
    StableHlo.unary main_v28 main_v35 ((extractStridedSlice S32x64x64x64 ![0, 2, 0, 0] · slices_S32x66x66x64_S32x64x64x64_0_2_0_0) : (⟨S32x66x66x64, .f32⟩ : BufTy).Contents (Elt F) → (⟨S32x64x64x64, .f32⟩ : BufTy).Contents (Elt F)),
    StableHlo.unary main_v28 main_v36 ((extractStridedSlice S32x64x64x64 ![0, 2, 1, 0] · slices_S32x66x66x64_S32x64x64x64_0_2_1_0) : (⟨S32x66x66x64, .f32⟩ : BufTy).Contents (Elt F) → (⟨S32x64x64x64, .f32⟩ : BufTy).Contents (Elt F)),
    StableHlo.unary main_v28 main_v37 ((extractStridedSlice S32x64x64x64 ![0, 2, 2, 0] · slices_S32x66x66x64_S32x64x64x64_0_2_2_0) : (⟨S32x66x66x64, .f32⟩ : BufTy).Contents (Elt F) → (⟨S32x64x64x64, .f32⟩ : BufTy).Contents (Elt F)),
    StableHlo.nary ![main_v29, main_v30, main_v31, main_v32, main_v33, main_v34, main_v35, main_v36, main_v37] main_v38 (fun u => concatenate S32x64x64x576 3 [⟨S32x64x64x64, u 0⟩, ⟨S32x64x64x64, u 1⟩, ⟨S32x64x64x64, u 2⟩, ⟨S32x64x64x64, u 3⟩, ⟨S32x64x64x64, u 4⟩, ⟨S32x64x64x64, u 5⟩, ⟨S32x64x64x64, u 6⟩, ⟨S32x64x64x64, u 7⟩, ⟨S32x64x64x64, u 8⟩] concatenates_S32x64x64x64_S32x64x64x64_S32x64x64x64_S32x64x64x64_S32x64x64x64_S32x64x64x64_S32x64x64x64_S32x64x64x64_S32x64x64x64_S32x64x64x576_d3),
    StableHlo.nullary main_cst_9 (constant S_ .f32 0x44BB8000#32),
    StableHlo.unary main_cst_9 main_v39 (broadcastInDim S32x64x64x576 ![] bcast_S_S32x64x64x576 : (⟨S_, .f32⟩ : BufTy).Contents (Elt F) → (⟨S32x64x64x576, .f32⟩ : BufTy).Contents (Elt F)),
    StableHlo.binary main_v38 main_v39 main_v40 (subf : (⟨S32x64x64x576, .f32⟩ : BufTy).Contents (Elt F) → (⟨S32x64x64x576, .f32⟩ : BufTy).Contents (Elt F) → (⟨S32x64x64x576, .f32⟩ : BufTy).Contents (Elt F)),
    StableHlo.binary main_v40 main_arg3 main_v41 ((fun l r => Host.dotGeneral dot_S32x64x64x576_S576x64_S32x64x64x64_3_0_012_1_n_n none l r) : (⟨S32x64x64x576, .f32⟩ : BufTy).Contents (Elt F) → (⟨S576x64, .f32⟩ : BufTy).Contents (Elt F) → (⟨S32x64x64x64, .f32⟩ : BufTy).Contents (Elt F)),
    StableHlo.nullary main_c_10 (constantI S_ 32 0#32),
    StableHlo.unary main_c_10 main_v42 (broadcastInDim S64x64 ![] bcast_S_S64x64 : (⟨S_, .i32⟩ : BufTy).Contents (Elt F) → (⟨S64x64, .i32⟩ : BufTy).Contents (Elt F)),
    StableHlo.binary main_c_0 main_v42 main_v43 (cmpi .slt : (⟨S64x64, .i32⟩ : BufTy).Contents (Elt F) → (⟨S64x64, .i32⟩ : BufTy).Contents (Elt F) → (⟨S64x64, .i1⟩ : BufTy).Contents (Elt F)),
    StableHlo.nullary main_c_11 (constantI S_ 32 9#32),
    StableHlo.unary main_c_11 main_v44 (broadcastInDim S64x64 ![] bcast_S_S64x64 : (⟨S_, .i32⟩ : BufTy).Contents (Elt F) → (⟨S64x64, .i32⟩ : BufTy).Contents (Elt F)),
    StableHlo.binary main_c_0 main_v44 main_v45 (addi : (⟨S64x64, .i32⟩ : BufTy).Contents (Elt F) → (⟨S64x64, .i32⟩ : BufTy).Contents (Elt F) → (⟨S64x64, .i32⟩ : BufTy).Contents (Elt F)),
    StableHlo.ternary main_v43 main_v45 main_c_0 main_v46 (select : (⟨S64x64, .i1⟩ : BufTy).Contents (Elt F) → (⟨S64x64, .i32⟩ : BufTy).Contents (Elt F) → (⟨S64x64, .i32⟩ : BufTy).Contents (Elt F) → (⟨S64x64, .i32⟩ : BufTy).Contents (Elt F)),
    StableHlo.unary main_v46 main_v47 (broadcastInDim S64x64x1 ![0, 1] bcast_S64x64_S64x64x1_0_1 : (⟨S64x64, .i32⟩ : BufTy).Contents (Elt F) → (⟨S64x64x1, .i32⟩ : BufTy).Contents (Elt F)),
    StableHlo.binary main_arg4 main_v47 main_v48 ((fun x i => Host.gather gather_S9x64_S64x64x1_S64x64x64_2_0_n_n_0_2_164 x i) : (⟨S9x64, .f32⟩ : BufTy).Contents (Elt F) → (⟨S64x64x1, .i32⟩ : BufTy).Contents (Elt F) → (⟨S64x64x64, .f32⟩ : BufTy).Contents (Elt F)),
    StableHlo.nullary main_cst_12 (constant S_ .f32 0x453B8000#32),
    StableHlo.unary main_cst_12 main_v49 (broadcastInDim S64x64x64 ![] bcast_S_S64x64x64 : (⟨S_, .f32⟩ : BufTy).Contents (Elt F) → (⟨S64x64x64, .f32⟩ : BufTy).Contents (Elt F)),
    StableHlo.binary main_v49 main_v48 main_v50 (subf : (⟨S64x64x64, .f32⟩ : BufTy).Contents (Elt F) → (⟨S64x64x64, .f32⟩ : BufTy).Contents (Elt F) → (⟨S64x64x64, .f32⟩ : BufTy).Contents (Elt F)),
    StableHlo.unary main_v50 main_v51 (broadcastInDim S1x64x64x64 ![1, 2, 3] bcast_S64x64x64_S1x64x64x64_1_2_3 : (⟨S64x64x64, .f32⟩ : BufTy).Contents (Elt F) → (⟨S1x64x64x64, .f32⟩ : BufTy).Contents (Elt F)),
    StableHlo.unary main_v51 main_v52 (broadcastInDim S32x64x64x64 ![0, 1, 2, 3] bcast_S1x64x64x64_S32x64x64x64_0_1_2_3 : (⟨S1x64x64x64, .f32⟩ : BufTy).Contents (Elt F) → (⟨S32x64x64x64, .f32⟩ : BufTy).Contents (Elt F)),
    StableHlo.binary main_v41 main_v52 main_v53 (addf : (⟨S32x64x64x64, .f32⟩ : BufTy).Contents (Elt F) → (⟨S32x64x64x64, .f32⟩ : BufTy).Contents (Elt F) → (⟨S32x64x64x64, .f32⟩ : BufTy).Contents (Elt F)),
    StableHlo.nullary main_cst_13 (constant S_ .f32 0x453B8000#32),
    StableHlo.unary main_cst_13 main_v54 (broadcastInDim S32x64x64x64 ![] bcast_S_S32x64x64x64 : (⟨S_, .f32⟩ : BufTy).Contents (Elt F) → (⟨S32x64x64x64, .f32⟩ : BufTy).Contents (Elt F)),
    StableHlo.binary main_v53 main_v54 main_v55 (minimumf : (⟨S32x64x64x64, .f32⟩ : BufTy).Contents (Elt F) → (⟨S32x64x64x64, .f32⟩ : BufTy).Contents (Elt F) → (⟨S32x64x64x64, .f32⟩ : BufTy).Contents (Elt F)),
    StableHlo.reshape main_v55 main_v56 rfl shapeCasts_S32x64x64x64_S32x32x2x32x2x64,
    StableHlo.nullary main_cst_14 (constant S_ .f32 0xFF800000#32),
    StableHlo.binary main_v56 main_cst_14 main_v57 ((fun x v => Host.reduce FloatOps.maximumf x v reducesTo_S32x32x2x32x2x64_S32x32x32x64_d2_4 h_S_) : (⟨S32x32x2x32x2x64, .f32⟩ : BufTy).Contents (Elt F) → (⟨S_, .f32⟩ : BufTy).Contents (Elt F) → (⟨S32x32x32x64, .f32⟩ : BufTy).Contents (Elt F)) ]

/-- The buffers stretch 2 writes. -/
abbrev W2 : List (Ref sig .tc) := [main_cst_8, main_call1_v0, main_v28, main_v29, main_v30, main_v31, main_v32, main_v33, main_v34, main_v35, main_v36, main_v37, main_v38, main_cst_9, main_v39, main_v40, main_v41, main_c_10, main_v42, main_v43, main_c_11, main_v44, main_v45, main_v46, main_v47, main_v48, main_cst_12, main_v49, main_v50, main_v51, main_v52, main_v53, main_cst_13, main_v54, main_v55, main_v56, main_cst_14, main_v57]

theorem sub2 : (L2 : List (HloOp τ sig (Elt F))).Forall fun op => op.bufs ⊆ tcRefs τ sig :=
  ⟨nullary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., reshape_bufs_sub .., nullary_bufs_sub .., binary_bufs_sub ..⟩

theorem fresh2 : ∀ op ∈ (L2 : List (HloOp τ sig (Elt F))), op.fresh = ∅ := by
  intro _ h; (repeat (cases h with | head => rfl | tail _ h => ?_)); exact nomatch h

theorem writes2 : (L2 : List (HloOp τ sig (Elt F))).Forall fun op => op.writes ⊆ (W2.map (Proc.devRef (τ := τ) .tc)).toFinset :=
  ⟨wr (y := main_cst_8) (by decide), wr (y := main_call1_v0) (by decide), wr (y := main_v28) (by decide), wr (y := main_v29) (by decide), wr (y := main_v30) (by decide), wr (y := main_v31) (by decide), wr (y := main_v32) (by decide), wr (y := main_v33) (by decide), wr (y := main_v34) (by decide), wr (y := main_v35) (by decide), wr (y := main_v36) (by decide), wr (y := main_v37) (by decide), wr (y := main_v38) (by decide), wr (y := main_cst_9) (by decide), wr (y := main_v39) (by decide), wr (y := main_v40) (by decide), wr (y := main_v41) (by decide), wr (y := main_c_10) (by decide), wr (y := main_v42) (by decide), wr (y := main_v43) (by decide), wr (y := main_c_11) (by decide), wr (y := main_v44) (by decide), wr (y := main_v45) (by decide), wr (y := main_v46) (by decide), wr (y := main_v47) (by decide), wr (y := main_v48) (by decide), wr (y := main_cst_12) (by decide), wr (y := main_v49) (by decide), wr (y := main_v50) (by decide), wr (y := main_v51) (by decide), wr (y := main_v52) (by decide), wr (y := main_v53) (by decide), wr (y := main_cst_13) (by decide), wr (y := main_v54) (by decide), wr (y := main_v55) (by decide), wr (y := main_v56) (by decide), wr (y := main_cst_14) (by decide), wr (y := main_v57) (by decide)⟩

/-- A buffer stretch 2 does not write keeps its contents. -/
theorem keep2 (V : Valuation τ sig (Elt F)) {r : Ref sig .tc} (hr : r ∉ W2) :
    after L2 V (Proc.devRef .tc r) = V (Proc.devRef .tc r) :=
  after_of_writes_sub L2 V writes2 hr

/-- Stretch 2 read at its last buffer, over any contents before it. -/
theorem read2 (V : Valuation τ sig (Elt F)) (hc : (V (main_c_0 : DevRef τ sig)) = tab1) :
    after L2 V (main_v57 : DevRef τ sig) = pool1 (conv1 (pad1 (V (main_v27 : DevRef τ sig))) (V (main_arg3 : DevRef τ sig)) (gath1 (V (main_arg4 : DevRef τ sig)))) := by
  read_stretch
  rw [hc]
  rfl

end Cert.ReferenceIdeal.Hand

end
-- ==== Proof.Ref.S3.lean ====
import proofs.«142023_j26104811225511_2_alg».proof.Proof.Ref.Layers
import proofs.«142023_j26104811225511_2_alg».proof.Proof.Ref.Base
import proofs.«142023_j26104811225511_2_alg».proof.Proof.LibStretches

noncomputable section

namespace Cert.ReferenceIdeal.Hand

open Cert.ReferenceIdeal Idealize.ShloMosaic Idealize.ShloMosaic.TcCoe Idealize.SL.Sem Idealize.ShloMosaic.StableHlo Cert.Stretches
open Facts₀ Facts

variable {F : FTy → Type} [FloatOps F]

/-- Stretch 3: operations 78 … 112 of 171 of the reference's line (a padding function's two operations listed in place). -/
abbrev L3 : List (HloOp τ sig (Elt F)) :=
  [ StableHlo.nullary main_cst_15 (constant S_ .f32 0x453B8000#32),
    StableHlo.TRef.unary (.of main_cst_15 : StableHlo.TRef sig ⟨S_, .f32⟩) main_call2.v0 id,
    StableHlo.TRef.binary (.of main_v57 : StableHlo.TRef sig ⟨S32x32x32x64, .f32⟩) main_call2.v0 main_call2.v1 (fun x v => pad S32x34x34x64 ![0, 1, 1, 0] ![0, 1, 1, 0] ![0, 0, 0, 0] x v pads_S32x32x32x64_S32x34x34x64_000_110_110_000 h_S_),
    StableHlo.unary main_v58 main_v59 ((extractStridedSlice S32x32x32x64 ![0, 0, 0, 0] · slices_S32x34x34x64_S32x32x32x64_0_0_0_0) : (⟨S32x34x34x64, .f32⟩ : BufTy).Contents (Elt F) → (⟨S32x32x32x64, .f32⟩ : BufTy).Contents (Elt F)),
    StableHlo.unary main_v58 main_v60 ((extractStridedSlice S32x32x32x64 ![0, 0, 1, 0] · slices_S32x34x34x64_S32x32x32x64_0_0_1_0) : (⟨S32x34x34x64, .f32⟩ : BufTy).Contents (Elt F) → (⟨S32x32x32x64, .f32⟩ : BufTy).Contents (Elt F)),
    StableHlo.unary main_v58 main_v61 ((extractStridedSlice S32x32x32x64 ![0, 0, 2, 0] · slices_S32x34x34x64_S32x32x32x64_0_0_2_0) : (⟨S32x34x34x64, .f32⟩ : BufTy).Contents (Elt F) → (⟨S32x32x32x64, .f32⟩ : BufTy).Contents (Elt F)),
    StableHlo.unary main_v58 main_v62 ((extractStridedSlice S32x32x32x64 ![0, 1, 0, 0] · slices_S32x34x34x64_S32x32x32x64_0_1_0_0) : (⟨S32x34x34x64, .f32⟩ : BufTy).Contents (Elt F) → (⟨S32x32x32x64, .f32⟩ : BufTy).Contents (Elt F)),
    StableHlo.unary main_v58 main_v63 ((extractStridedSlice S32x32x32x64 ![0, 1, 1, 0] · slices_S32x34x34x64_S32x32x32x64_0_1_1_0) : (⟨S32x34x34x64, .f32⟩ : BufTy).Contents (Elt F) → (⟨S32x32x32x64, .f32⟩ : BufTy).Contents (Elt F)),
    StableHlo.unary main_v58 main_v64 ((extractStridedSlice S32x32x32x64 ![0, 1, 2, 0] · slices_S32x34x34x64_S32x32x32x64_0_1_2_0) : (⟨S32x34x34x64, .f32⟩ : BufTy).Contents (Elt F) → (⟨S32x32x32x64, .f32⟩ : BufTy).Contents (Elt F)),
    StableHlo.unary main_v58 main_v65 ((extractStridedSlice S32x32x32x64 ![0, 2, 0, 0] · slices_S32x34x34x64_S32x32x32x64_0_2_0_0) : (⟨S32x34x34x64, .f32⟩ : BufTy).Contents (Elt F) → (⟨S32x32x32x64, .f32⟩ : BufTy).Contents (Elt F)),
    StableHlo.unary main_v58 main_v66 ((extractStridedSlice S32x32x32x64 ![0, 2, 1, 0] · slices_S32x34x34x64_S32x32x32x64_0_2_1_0) : (⟨S32x34x34x64, .f32⟩ : BufTy).Contents (Elt F) → (⟨S32x32x32x64, .f32⟩ : BufTy).Contents (Elt F)),
    StableHlo.unary main_v58 main_v67 ((extractStridedSlice S32x32x32x64 ![0, 2, 2, 0] · slices_S32x34x34x64_S32x32x32x64_0_2_2_0) : (⟨S32x34x34x64, .f32⟩ : BufTy).Contents (Elt F) → (⟨S32x32x32x64, .f32⟩ : BufTy).Contents (Elt F)),
    StableHlo.nary ![main_v59, main_v60, main_v61, main_v62, main_v63, main_v64, main_v65, main_v66, main_v67] main_v68 (fun u => concatenate S32x32x32x576 3 [⟨S32x32x32x64, u 0⟩, ⟨S32x32x32x64, u 1⟩, ⟨S32x32x32x64, u 2⟩, ⟨S32x32x32x64, u 3⟩, ⟨S32x32x32x64, u 4⟩, ⟨S32x32x32x64, u 5⟩, ⟨S32x32x32x64, u 6⟩, ⟨S32x32x32x64, u 7⟩, ⟨S32x32x32x64, u 8⟩] concatenates_S32x32x32x64_S32x32x32x64_S32x32x32x64_S32x32x32x64_S32x32x32x64_S32x32x32x64_S32x32x32x64_S32x32x32x64_S32x32x32x64_S32x32x32x576_d3),
    StableHlo.nullary main_cst_16 (constant S_ .f32 0x453B8000#32),
    StableHlo.unary main_cst_16 main_v69 (broadcastInDim S32x32x32x576 ![] bcast_S_S32x32x32x576 : (⟨S_, .f32⟩ : BufTy).Contents (Elt F) → (⟨S32x32x32x576, .f32⟩ : BufTy).Contents (Elt F)),
    StableHlo.binary main_v68 main_v69 main_v70 (subf : (⟨S32x32x32x576, .f32⟩ : BufTy).Contents (Elt F) → (⟨S32x32x32x576, .f32⟩ : BufTy).Contents (Elt F) → (⟨S32x32x32x576, .f32⟩ : BufTy).Contents (Elt F)),
    StableHlo.binary main_v70 main_arg5 main_v71 ((fun l r => Host.dotGeneral dot_S32x32x32x576_S576x128_S32x32x32x128_3_0_012_1_n_n none l r) : (⟨S32x32x32x576, .f32⟩ : BufTy).Contents (Elt F) → (⟨S576x128, .f32⟩ : BufTy).Contents (Elt F) → (⟨S32x32x32x128, .f32⟩ : BufTy).Contents (Elt F)),
    StableHlo.nullary main_c_17 (constantI S_ 32 0#32),
    StableHlo.unary main_c_17 main_v72 (broadcastInDim S32x32 ![] bcast_S_S32x32 : (⟨S_, .i32⟩ : BufTy).Contents (Elt F) → (⟨S32x32, .i32⟩ : BufTy).Contents (Elt F)),
    StableHlo.binary main_c_1 main_v72 main_v73 (cmpi .slt : (⟨S32x32, .i32⟩ : BufTy).Contents (Elt F) → (⟨S32x32, .i32⟩ : BufTy).Contents (Elt F) → (⟨S32x32, .i1⟩ : BufTy).Contents (Elt F)),
    StableHlo.nullary main_c_18 (constantI S_ 32 9#32),
    StableHlo.unary main_c_18 main_v74 (broadcastInDim S32x32 ![] bcast_S_S32x32 : (⟨S_, .i32⟩ : BufTy).Contents (Elt F) → (⟨S32x32, .i32⟩ : BufTy).Contents (Elt F)),
    StableHlo.binary main_c_1 main_v74 main_v75 (addi : (⟨S32x32, .i32⟩ : BufTy).Contents (Elt F) → (⟨S32x32, .i32⟩ : BufTy).Contents (Elt F) → (⟨S32x32, .i32⟩ : BufTy).Contents (Elt F)),
    StableHlo.ternary main_v73 main_v75 main_c_1 main_v76 (select : (⟨S32x32, .i1⟩ : BufTy).Contents (Elt F) → (⟨S32x32, .i32⟩ : BufTy).Contents (Elt F) → (⟨S32x32, .i32⟩ : BufTy).Contents (Elt F) → (⟨S32x32, .i32⟩ : BufTy).Contents (Elt F)),
    StableHlo.unary main_v76 main_v77 (broadcastInDim S32x32x1 ![0, 1] bcast_S32x32_S32x32x1_0_1 : (⟨S32x32, .i32⟩ : BufTy).Contents (Elt F) → (⟨S32x32x1, .i32⟩ : BufTy).Contents (Elt F)),
    StableHlo.binary main_arg6 main_v77 main_v78 ((fun x i => Host.gather gather_S9x128_S32x32x1_S32x32x128_2_0_n_n_0_2_1128 x i) : (⟨S9x128, .f32⟩ : BufTy).Contents (Elt F) → (⟨S32x32x1, .i32⟩ : BufTy).Contents (Elt F) → (⟨S32x32x128, .f32⟩ : BufTy).Contents (Elt F)),
    StableHlo.nullary main_cst_19 (constant S_ .f32 0x458CA000#32),
    StableHlo.unary main_cst_19 main_v79 (broadcastInDim S32x32x128 ![] bcast_S_S32x32x128 : (⟨S_, .f32⟩ : BufTy).Contents (Elt F) → (⟨S32x32x128, .f32⟩ : BufTy).Contents (Elt F)),
    StableHlo.binary main_v79 main_v78 main_v80 (subf : (⟨S32x32x128, .f32⟩ : BufTy).Contents (Elt F) → (⟨S32x32x128, .f32⟩ : BufTy).Contents (Elt F) → (⟨S32x32x128, .f32⟩ : BufTy).Contents (Elt F)),
    StableHlo.unary main_v80 main_v81 (broadcastInDim S1x32x32x128 ![1, 2, 3] bcast_S32x32x128_S1x32x32x128_1_2_3 : (⟨S32x32x128, .f32⟩ : BufTy).Contents (Elt F) → (⟨S1x32x32x128, .f32⟩ : BufTy).Contents (Elt F)),
    StableHlo.unary main_v81 main_v82 (broadcastInDim S32x32x32x128 ![0, 1, 2, 3] bcast_S1x32x32x128_S32x32x32x128_0_1_2_3 : (⟨S1x32x32x128, .f32⟩ : BufTy).Contents (Elt F) → (⟨S32x32x32x128, .f32⟩ : BufTy).Contents (Elt F)),
    StableHlo.binary main_v71 main_v82 main_v83 (addf : (⟨S32x32x32x128, .f32⟩ : BufTy).Contents (Elt F) → (⟨S32x32x32x128, .f32⟩ : BufTy).Contents (Elt F) → (⟨S32x32x32x128, .f32⟩ : BufTy).Contents (Elt F)),
    StableHlo.nullary main_cst_20 (constant S_ .f32 0x458CA000#32),
    StableHlo.unary main_cst_20 main_v84 (broadcastInDim S32x32x32x128 ![] bcast_S_S32x32x32x128 : (⟨S_, .f32⟩ : BufTy).Contents (Elt F) → (⟨S32x32x32x128, .f32⟩ : BufTy).Contents (Elt F)),
    StableHlo.binary main_v83 main_v84 main_v85 (minimumf : (⟨S32x32x32x128, .f32⟩ : BufTy).Contents (Elt F) → (⟨S32x32x32x128, .f32⟩ : BufTy).Contents (Elt F) → (⟨S32x32x32x128, .f32⟩ : BufTy).Contents (Elt F)) ]

/-- The buffers stretch 3 writes. -/
abbrev W3 : List (Ref sig .tc) := [main_cst_15, main_call2_v0, main_v58, main_v59, main_v60, main_v61, main_v62, main_v63, main_v64, main_v65, main_v66, main_v67, main_v68, main_cst_16, main_v69, main_v70, main_v71, main_c_17, main_v72, main_v73, main_c_18, main_v74, main_v75, main_v76, main_v77, main_v78, main_cst_19, main_v79, main_v80, main_v81, main_v82, main_v83, main_cst_20, main_v84, main_v85]

theorem sub3 : (L3 : List (HloOp τ sig (Elt F))).Forall fun op => op.bufs ⊆ tcRefs τ sig :=
  ⟨nullary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub ..⟩

theorem fresh3 : ∀ op ∈ (L3 : List (HloOp τ sig (Elt F))), op.fresh = ∅ := by
  intro _ h; (repeat (cases h with | head => rfl | tail _ h => ?_)); exact nomatch h

theorem writes3 : (L3 : List (HloOp τ sig (Elt F))).Forall fun op => op.writes ⊆ (W3.map (Proc.devRef (τ := τ) .tc)).toFinset :=
  ⟨wr (y := main_cst_15) (by decide), wr (y := main_call2_v0) (by decide), wr (y := main_v58) (by decide), wr (y := main_v59) (by decide), wr (y := main_v60) (by decide), wr (y := main_v61) (by decide), wr (y := main_v62) (by decide), wr (y := main_v63) (by decide), wr (y := main_v64) (by decide), wr (y := main_v65) (by decide), wr (y := main_v66) (by decide), wr (y := main_v67) (by decide), wr (y := main_v68) (by decide), wr (y := main_cst_16) (by decide), wr (y := main_v69) (by decide), wr (y := main_v70) (by decide), wr (y := main_v71) (by decide), wr (y := main_c_17) (by decide), wr (y := main_v72) (by decide), wr (y := main_v73) (by decide), wr (y := main_c_18) (by decide), wr (y := main_v74) (by decide), wr (y := main_v75) (by decide), wr (y := main_v76) (by decide), wr (y := main_v77) (by decide), wr (y := main_v78) (by decide), wr (y := main_cst_19) (by decide), wr (y := main_v79) (by decide), wr (y := main_v80) (by decide), wr (y := main_v81) (by decide), wr (y := main_v82) (by decide), wr (y := main_v83) (by decide), wr (y := main_cst_20) (by decide), wr (y := main_v84) (by decide), wr (y := main_v85) (by decide)⟩

/-- A buffer stretch 3 does not write keeps its contents. -/
theorem keep3 (V : Valuation τ sig (Elt F)) {r : Ref sig .tc} (hr : r ∉ W3) :
    after L3 V (Proc.devRef .tc r) = V (Proc.devRef .tc r) :=
  after_of_writes_sub L3 V writes3 hr

/-- Stretch 3 read at its last buffer, over any contents before it. -/
theorem read3 (V : Valuation τ sig (Elt F)) (hc : (V (main_c_1 : DevRef τ sig)) = tab2) :
    after L3 V (main_v85 : DevRef τ sig) = conv2 (pad2 (V (main_v57 : DevRef τ sig))) (V (main_arg5 : DevRef τ sig)) (gath2 (V (main_arg6 : DevRef τ sig))) := by
  read_stretch
  rw [hc]
  rfl

end Cert.ReferenceIdeal.Hand

end
-- ==== Proof.Ref.S4.lean ====
import proofs.«142023_j26104811225511_2_alg».proof.Proof.Ref.Layers
import proofs.«142023_j26104811225511_2_alg».proof.Proof.Ref.Base
import proofs.«142023_j26104811225511_2_alg».proof.Proof.LibStretches

noncomputable section

namespace Cert.ReferenceIdeal.Hand

open Cert.ReferenceIdeal Idealize.ShloMosaic Idealize.ShloMosaic.TcCoe Idealize.SL.Sem Idealize.ShloMosaic.StableHlo Cert.Stretches
open Facts₀ Facts

variable {F : FTy → Type} [FloatOps F]

/-- Stretch 4: operations 113 … 150 of 171 of the reference's line (a padding function's two operations listed in place). -/
abbrev L4 : List (HloOp τ sig (Elt F)) :=
  [ StableHlo.nullary main_cst_21 (constant S_ .f32 0x458CA000#32),
    StableHlo.TRef.unary (.of main_cst_21 : StableHlo.TRef sig ⟨S_, .f32⟩) main_call3.v0 id,
    StableHlo.TRef.binary (.of main_v85 : StableHlo.TRef sig ⟨S32x32x32x128, .f32⟩) main_call3.v0 main_call3.v1 (fun x v => pad S32x34x34x128 ![0, 1, 1, 0] ![0, 1, 1, 0] ![0, 0, 0, 0] x v pads_S32x32x32x128_S32x34x34x128_000_110_110_000 h_S_),
    StableHlo.unary main_v86 main_v87 ((extractStridedSlice S32x32x32x128 ![0, 0, 0, 0] · slices_S32x34x34x128_S32x32x32x128_0_0_0_0) : (⟨S32x34x34x128, .f32⟩ : BufTy).Contents (Elt F) → (⟨S32x32x32x128, .f32⟩ : BufTy).Contents (Elt F)),
    StableHlo.unary main_v86 main_v88 ((extractStridedSlice S32x32x32x128 ![0, 0, 1, 0] · slices_S32x34x34x128_S32x32x32x128_0_0_1_0) : (⟨S32x34x34x128, .f32⟩ : BufTy).Contents (Elt F) → (⟨S32x32x32x128, .f32⟩ : BufTy).Contents (Elt F)),
    StableHlo.unary main_v86 main_v89 ((extractStridedSlice S32x32x32x128 ![0, 0, 2, 0] · slices_S32x34x34x128_S32x32x32x128_0_0_2_0) : (⟨S32x34x34x128, .f32⟩ : BufTy).Contents (Elt F) → (⟨S32x32x32x128, .f32⟩ : BufTy).Contents (Elt F)),
    StableHlo.unary main_v86 main_v90 ((extractStridedSlice S32x32x32x128 ![0, 1, 0, 0] · slices_S32x34x34x128_S32x32x32x128_0_1_0_0) : (⟨S32x34x34x128, .f32⟩ : BufTy).Contents (Elt F) → (⟨S32x32x32x128, .f32⟩ : BufTy).Contents (Elt F)),
    StableHlo.unary main_v86 main_v91 ((extractStridedSlice S32x32x32x128 ![0, 1, 1, 0] · slices_S32x34x34x128_S32x32x32x128_0_1_1_0) : (⟨S32x34x34x128, .f32⟩ : BufTy).Contents (Elt F) → (⟨S32x32x32x128, .f32⟩ : BufTy).Contents (Elt F)),
    StableHlo.unary main_v86 main_v92 ((extractStridedSlice S32x32x32x128 ![0, 1, 2, 0] · slices_S32x34x34x128_S32x32x32x128_0_1_2_0) : (⟨S32x34x34x128, .f32⟩ : BufTy).Contents (Elt F) → (⟨S32x32x32x128, .f32⟩ : BufTy).Contents (Elt F)),
    StableHlo.unary main_v86 main_v93 ((extractStridedSlice S32x32x32x128 ![0, 2, 0, 0] · slices_S32x34x34x128_S32x32x32x128_0_2_0_0) : (⟨S32x34x34x128, .f32⟩ : BufTy).Contents (Elt F) → (⟨S32x32x32x128, .f32⟩ : BufTy).Contents (Elt F)),
    StableHlo.unary main_v86 main_v94 ((extractStridedSlice S32x32x32x128 ![0, 2, 1, 0] · slices_S32x34x34x128_S32x32x32x128_0_2_1_0) : (⟨S32x34x34x128, .f32⟩ : BufTy).Contents (Elt F) → (⟨S32x32x32x128, .f32⟩ : BufTy).Contents (Elt F)),
    StableHlo.unary main_v86 main_v95 ((extractStridedSlice S32x32x32x128 ![0, 2, 2, 0] · slices_S32x34x34x128_S32x32x32x128_0_2_2_0) : (⟨S32x34x34x128, .f32⟩ : BufTy).Contents (Elt F) → (⟨S32x32x32x128, .f32⟩ : BufTy).Contents (Elt F)),
    StableHlo.nary ![main_v87, main_v88, main_v89, main_v90, main_v91, main_v92, main_v93, main_v94, main_v95] main_v96 (fun u => concatenate S32x32x32x1152 3 [⟨S32x32x32x128, u 0⟩, ⟨S32x32x32x128, u 1⟩, ⟨S32x32x32x128, u 2⟩, ⟨S32x32x32x128, u 3⟩, ⟨S32x32x32x128, u 4⟩, ⟨S32x32x32x128, u 5⟩, ⟨S32x32x32x128, u 6⟩, ⟨S32x32x32x128, u 7⟩, ⟨S32x32x32x128, u 8⟩] concatenates_S32x32x32x128_S32x32x32x128_S32x32x32x128_S32x32x32x128_S32x32x32x128_S32x32x32x128_S32x32x32x128_S32x32x32x128_S32x32x32x128_S32x32x32x1152_d3),
    StableHlo.nullary main_cst_22 (constant S_ .f32 0x458CA000#32),
    StableHlo.unary main_cst_22 main_v97 (broadcastInDim S32x32x32x1152 ![] bcast_S_S32x32x32x1152 : (⟨S_, .f32⟩ : BufTy).Contents (Elt F) → (⟨S32x32x32x1152, .f32⟩ : BufTy).Contents (Elt F)),
    StableHlo.binary main_v96 main_v97 main_v98 (subf : (⟨S32x32x32x1152, .f32⟩ : BufTy).Contents (Elt F) → (⟨S32x32x32x1152, .f32⟩ : BufTy).Contents (Elt F) → (⟨S32x32x32x1152, .f32⟩ : BufTy).Contents (Elt F)),
    StableHlo.binary main_v98 main_arg7 main_v99 ((fun l r => Host.dotGeneral dot_S32x32x32x1152_S1152x128_S32x32x32x128_3_0_012_1_n_n none l r) : (⟨S32x32x32x1152, .f32⟩ : BufTy).Contents (Elt F) → (⟨S1152x128, .f32⟩ : BufTy).Contents (Elt F) → (⟨S32x32x32x128, .f32⟩ : BufTy).Contents (Elt F)),
    StableHlo.nullary main_c_23 (constantI S_ 32 0#32),
    StableHlo.unary main_c_23 main_v100 (broadcastInDim S32x32 ![] bcast_S_S32x32 : (⟨S_, .i32⟩ : BufTy).Contents (Elt F) → (⟨S32x32, .i32⟩ : BufTy).Contents (Elt F)),
    StableHlo.binary main_c_2 main_v100 main_v101 (cmpi .slt : (⟨S32x32, .i32⟩ : BufTy).Contents (Elt F) → (⟨S32x32, .i32⟩ : BufTy).Contents (Elt F) → (⟨S32x32, .i1⟩ : BufTy).Contents (Elt F)),
    StableHlo.nullary main_c_24 (constantI S_ 32 9#32),
    StableHlo.unary main_c_24 main_v102 (broadcastInDim S32x32 ![] bcast_S_S32x32 : (⟨S_, .i32⟩ : BufTy).Contents (Elt F) → (⟨S32x32, .i32⟩ : BufTy).Contents (Elt F)),
    StableHlo.binary main_c_2 main_v102 main_v103 (addi : (⟨S32x32, .i32⟩ : BufTy).Contents (Elt F) → (⟨S32x32, .i32⟩ : BufTy).Contents (Elt F) → (⟨S32x32, .i32⟩ : BufTy).Contents (Elt F)),
    StableHlo.ternary main_v101 main_v103 main_c_2 main_v104 (select : (⟨S32x32, .i1⟩ : BufTy).Contents (Elt F) → (⟨S32x32, .i32⟩ : BufTy).Contents (Elt F) → (⟨S32x32, .i32⟩ : BufTy).Contents (Elt F) → (⟨S32x32, .i32⟩ : BufTy).Contents (Elt F)),
    StableHlo.unary main_v104 main_v105 (broadcastInDim S32x32x1 ![0, 1] bcast_S32x32_S32x32x1_0_1 : (⟨S32x32, .i32⟩ : BufTy).Contents (Elt F) → (⟨S32x32x1, .i32⟩ : BufTy).Contents (Elt F)),
    StableHlo.binary main_arg8 main_v105 main_v106 ((fun x i => Host.gather gather_S9x128_S32x32x1_S32x32x128_2_0_n_n_0_2_1128 x i) : (⟨S9x128, .f32⟩ : BufTy).Contents (Elt F) → (⟨S32x32x1, .i32⟩ : BufTy).Contents (Elt F) → (⟨S32x32x128, .f32⟩ : BufTy).Contents (Elt F)),
    StableHlo.nullary main_cst_25 (constant S_ .f32 0x45BB8000#32),
    StableHlo.unary main_cst_25 main_v107 (broadcastInDim S32x32x128 ![] bcast_S_S32x32x128 : (⟨S_, .f32⟩ : BufTy).Contents (Elt F) → (⟨S32x32x128, .f32⟩ : BufTy).Contents (Elt F)),
    StableHlo.binary main_v107 main_v106 main_v108 (subf : (⟨S32x32x128, .f32⟩ : BufTy).Contents (Elt F) → (⟨S32x32x128, .f32⟩ : BufTy).Contents (Elt F) → (⟨S32x32x128, .f32⟩ : BufTy).Contents (Elt F)),
    StableHlo.unary main_v108 main_v109 (broadcastInDim S1x32x32x128 ![1, 2, 3] bcast_S32x32x128_S1x32x32x128_1_2_3 : (⟨S32x32x128, .f32⟩ : BufTy).Contents (Elt F) → (⟨S1x32x32x128, .f32⟩ : BufTy).Contents (Elt F)),
    StableHlo.unary main_v109 main_v110 (broadcastInDim S32x32x32x128 ![0, 1, 2, 3] bcast_S1x32x32x128_S32x32x32x128_0_1_2_3 : (⟨S1x32x32x128, .f32⟩ : BufTy).Contents (Elt F) → (⟨S32x32x32x128, .f32⟩ : BufTy).Contents (Elt F)),
    StableHlo.binary main_v99 main_v110 main_v111 (addf : (⟨S32x32x32x128, .f32⟩ : BufTy).Contents (Elt F) → (⟨S32x32x32x128, .f32⟩ : BufTy).Contents (Elt F) → (⟨S32x32x32x128, .f32⟩ : BufTy).Contents (Elt F)),
    StableHlo.nullary main_cst_26 (constant S_ .f32 0x45BB8000#32),
    StableHlo.unary main_cst_26 main_v112 (broadcastInDim S32x32x32x128 ![] bcast_S_S32x32x32x128 : (⟨S_, .f32⟩ : BufTy).Contents (Elt F) → (⟨S32x32x32x128, .f32⟩ : BufTy).Contents (Elt F)),
    StableHlo.binary main_v111 main_v112 main_v113 (minimumf : (⟨S32x32x32x128, .f32⟩ : BufTy).Contents (Elt F) → (⟨S32x32x32x128, .f32⟩ : BufTy).Contents (Elt F) → (⟨S32x32x32x128, .f32⟩ : BufTy).Contents (Elt F)),
    StableHlo.reshape main_v113 main_v114 rfl shapeCasts_S32x32x32x128_S32x16x2x16x2x128,
    StableHlo.nullary main_cst_27 (constant S_ .f32 0xFF800000#32),
    StableHlo.binary main_v114 main_cst_27 main_v115 ((fun x v => Host.reduce FloatOps.maximumf x v reducesTo_S32x16x2x16x2x128_S32x16x16x128_d2_4 h_S_) : (⟨S32x16x2x16x2x128, .f32⟩ : BufTy).Contents (Elt F) → (⟨S_, .f32⟩ : BufTy).Contents (Elt F) → (⟨S32x16x16x128, .f32⟩ : BufTy).Contents (Elt F)) ]

/-- The buffers stretch 4 writes. -/
abbrev W4 : List (Ref sig .tc) := [main_cst_21, main_call3_v0, main_v86, main_v87, main_v88, main_v89, main_v90, main_v91, main_v92, main_v93, main_v94, main_v95, main_v96, main_cst_22, main_v97, main_v98, main_v99, main_c_23, main_v100, main_v101, main_c_24, main_v102, main_v103, main_v104, main_v105, main_v106, main_cst_25, main_v107, main_v108, main_v109, main_v110, main_v111, main_cst_26, main_v112, main_v113, main_v114, main_cst_27, main_v115]

theorem sub4 : (L4 : List (HloOp τ sig (Elt F))).Forall fun op => op.bufs ⊆ tcRefs τ sig :=
  ⟨nullary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., reshape_bufs_sub .., nullary_bufs_sub .., binary_bufs_sub ..⟩

theorem fresh4 : ∀ op ∈ (L4 : List (HloOp τ sig (Elt F))), op.fresh = ∅ := by
  intro _ h; (repeat (cases h with | head => rfl | tail _ h => ?_)); exact nomatch h

theorem writes4 : (L4 : List (HloOp τ sig (Elt F))).Forall fun op => op.writes ⊆ (W4.map (Proc.devRef (τ := τ) .tc)).toFinset :=
  ⟨wr (y := main_cst_21) (by decide), wr (y := main_call3_v0) (by decide), wr (y := main_v86) (by decide), wr (y := main_v87) (by decide), wr (y := main_v88) (by decide), wr (y := main_v89) (by decide), wr (y := main_v90) (by decide), wr (y := main_v91) (by decide), wr (y := main_v92) (by decide), wr (y := main_v93) (by decide), wr (y := main_v94) (by decide), wr (y := main_v95) (by decide), wr (y := main_v96) (by decide), wr (y := main_cst_22) (by decide), wr (y := main_v97) (by decide), wr (y := main_v98) (by decide), wr (y := main_v99) (by decide), wr (y := main_c_23) (by decide), wr (y := main_v100) (by decide), wr (y := main_v101) (by decide), wr (y := main_c_24) (by decide), wr (y := main_v102) (by decide), wr (y := main_v103) (by decide), wr (y := main_v104) (by decide), wr (y := main_v105) (by decide), wr (y := main_v106) (by decide), wr (y := main_cst_25) (by decide), wr (y := main_v107) (by decide), wr (y := main_v108) (by decide), wr (y := main_v109) (by decide), wr (y := main_v110) (by decide), wr (y := main_v111) (by decide), wr (y := main_cst_26) (by decide), wr (y := main_v112) (by decide), wr (y := main_v113) (by decide), wr (y := main_v114) (by decide), wr (y := main_cst_27) (by decide), wr (y := main_v115) (by decide)⟩

/-- A buffer stretch 4 does not write keeps its contents. -/
theorem keep4 (V : Valuation τ sig (Elt F)) {r : Ref sig .tc} (hr : r ∉ W4) :
    after L4 V (Proc.devRef .tc r) = V (Proc.devRef .tc r) :=
  after_of_writes_sub L4 V writes4 hr

/-- Stretch 4 read at its last buffer, over any contents before it. -/
theorem read4 (V : Valuation τ sig (Elt F)) (hc : (V (main_c_2 : DevRef τ sig)) = tab3) :
    after L4 V (main_v115 : DevRef τ sig) = pool2 (conv3 (pad3 (V (main_v85 : DevRef τ sig))) (V (main_arg7 : DevRef τ sig)) (gath3 (V (main_arg8 : DevRef τ sig)))) := by
  read_stretch
  rw [hc]
  rfl

end Cert.ReferenceIdeal.Hand

end
-- ==== Proof.Ref.S5.lean ====
import proofs.«142023_j26104811225511_2_alg».proof.Proof.Ref.Layers
import proofs.«142023_j26104811225511_2_alg».proof.Proof.Ref.Base
import proofs.«142023_j26104811225511_2_alg».proof.Proof.LibStretches

noncomputable section

namespace Cert.ReferenceIdeal.Hand

open Cert.ReferenceIdeal Idealize.ShloMosaic Idealize.ShloMosaic.TcCoe Idealize.SL.Sem Idealize.ShloMosaic.StableHlo Cert.Stretches
open Facts₀ Facts

variable {F : FTy → Type} [FloatOps F]

/-- Stretch 5: operations 151 … 171 of 171 of the reference's line (a padding function's two operations listed in place). -/
abbrev L5 : List (HloOp τ sig (Elt F)) :=
  [ StableHlo.reshape main_v115 main_v116 rfl shapeCasts_S32x16x16x128_S32x32768,
    StableHlo.nullary main_cst_28 (constant S_ .f32 0x45BB8000#32),
    StableHlo.unary main_cst_28 main_v117 (broadcastInDim S32x32768 ![] bcast_S_S32x32768 : (⟨S_, .f32⟩ : BufTy).Contents (Elt F) → (⟨S32x32768, .f32⟩ : BufTy).Contents (Elt F)),
    StableHlo.binary main_v116 main_v117 main_v118 (subf : (⟨S32x32768, .f32⟩ : BufTy).Contents (Elt F) → (⟨S32x32768, .f32⟩ : BufTy).Contents (Elt F) → (⟨S32x32768, .f32⟩ : BufTy).Contents (Elt F)),
    StableHlo.binary main_v118 main_arg9 main_v119 ((fun l r => Host.dotGeneral dot_S32x32768_S32768x256_S32x256_1_0_0_1_n_n none l r) : (⟨S32x32768, .f32⟩ : BufTy).Contents (Elt F) → (⟨S32768x256, .f32⟩ : BufTy).Contents (Elt F) → (⟨S32x256, .f32⟩ : BufTy).Contents (Elt F)),
    StableHlo.nullary main_cst_29 (constant S_ .f32 0x45EA6000#32),
    StableHlo.unary main_cst_29 main_v120 (broadcastInDim S256 ![] bcast_S_S256 : (⟨S_, .f32⟩ : BufTy).Contents (Elt F) → (⟨S256, .f32⟩ : BufTy).Contents (Elt F)),
    StableHlo.binary main_v120 main_arg10 main_v121 (subf : (⟨S256, .f32⟩ : BufTy).Contents (Elt F) → (⟨S256, .f32⟩ : BufTy).Contents (Elt F) → (⟨S256, .f32⟩ : BufTy).Contents (Elt F)),
    StableHlo.unary main_v121 main_v122 (broadcastInDim S1x256 ![1] bcast_S256_S1x256_1 : (⟨S256, .f32⟩ : BufTy).Contents (Elt F) → (⟨S1x256, .f32⟩ : BufTy).Contents (Elt F)),
    StableHlo.unary main_v122 main_v123 (broadcastInDim S32x256 ![0, 1] bcast_S1x256_S32x256_0_1 : (⟨S1x256, .f32⟩ : BufTy).Contents (Elt F) → (⟨S32x256, .f32⟩ : BufTy).Contents (Elt F)),
    StableHlo.binary main_v119 main_v123 main_v124 (addf : (⟨S32x256, .f32⟩ : BufTy).Contents (Elt F) → (⟨S32x256, .f32⟩ : BufTy).Contents (Elt F) → (⟨S32x256, .f32⟩ : BufTy).Contents (Elt F)),
    StableHlo.nullary main_cst_30 (constant S_ .f32 0x45EA6000#32),
    StableHlo.unary main_cst_30 main_v125 (broadcastInDim S32x256 ![] bcast_S_S32x256 : (⟨S_, .f32⟩ : BufTy).Contents (Elt F) → (⟨S32x256, .f32⟩ : BufTy).Contents (Elt F)),
    StableHlo.binary main_v124 main_v125 main_v126 (minimumf : (⟨S32x256, .f32⟩ : BufTy).Contents (Elt F) → (⟨S32x256, .f32⟩ : BufTy).Contents (Elt F) → (⟨S32x256, .f32⟩ : BufTy).Contents (Elt F)),
    StableHlo.nullary main_cst_31 (constant S_ .f32 0x45EA6000#32),
    StableHlo.unary main_cst_31 main_v127 (broadcastInDim S32x256 ![] bcast_S_S32x256 : (⟨S_, .f32⟩ : BufTy).Contents (Elt F) → (⟨S32x256, .f32⟩ : BufTy).Contents (Elt F)),
    StableHlo.binary main_v127 main_v126 main_v128 (subf : (⟨S32x256, .f32⟩ : BufTy).Contents (Elt F) → (⟨S32x256, .f32⟩ : BufTy).Contents (Elt F) → (⟨S32x256, .f32⟩ : BufTy).Contents (Elt F)),
    StableHlo.binary main_v128 main_arg11 main_v129 ((fun l r => Host.dotGeneral dot_S32x256_S256x10_S32x10_1_0_0_1_n_n none l r) : (⟨S32x256, .f32⟩ : BufTy).Contents (Elt F) → (⟨S256x10, .f32⟩ : BufTy).Contents (Elt F) → (⟨S32x10, .f32⟩ : BufTy).Contents (Elt F)),
    StableHlo.unary main_arg12 main_v130 (broadcastInDim S1x10 ![1] bcast_S10_S1x10_1 : (⟨S10, .f32⟩ : BufTy).Contents (Elt F) → (⟨S1x10, .f32⟩ : BufTy).Contents (Elt F)),
    StableHlo.unary main_v130 main_v131 (broadcastInDim S32x10 ![0, 1] bcast_S1x10_S32x10_0_1 : (⟨S1x10, .f32⟩ : BufTy).Contents (Elt F) → (⟨S32x10, .f32⟩ : BufTy).Contents (Elt F)),
    StableHlo.binary main_v131 main_v129 main_v132 (addf : (⟨S32x10, .f32⟩ : BufTy).Contents (Elt F) → (⟨S32x10, .f32⟩ : BufTy).Contents (Elt F) → (⟨S32x10, .f32⟩ : BufTy).Contents (Elt F)) ]

/-- The buffers stretch 5 writes. -/
abbrev W5 : List (Ref sig .tc) := [main_v116, main_cst_28, main_v117, main_v118, main_v119, main_cst_29, main_v120, main_v121, main_v122, main_v123, main_v124, main_cst_30, main_v125, main_v126, main_cst_31, main_v127, main_v128, main_v129, main_v130, main_v131, main_v132]

theorem sub5 : (L5 : List (HloOp τ sig (Elt F))).Forall fun op => op.bufs ⊆ tcRefs τ sig :=
  ⟨reshape_bufs_sub .., nullary_bufs_sub .., unary_bufs_sub .., binary_bufs_sub .., binary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., binary_bufs_sub .., unary_bufs_sub .., unary_bufs_sub .., binary_bufs_sub ..⟩

theorem fresh5 : ∀ op ∈ (L5 : List (HloOp τ sig (Elt F))), op.fresh = ∅ := by
  intro _ h; (repeat (cases h with | head => rfl | tail _ h => ?_)); exact nomatch h

theorem writes5 : (L5 : List (HloOp τ sig (Elt F))).Forall fun op => op.writes ⊆ (W5.map (Proc.devRef (τ := τ) .tc)).toFinset :=
  ⟨wr (y := main_v116) (by decide), wr (y := main_cst_28) (by decide), wr (y := main_v117) (by decide), wr (y := main_v118) (by decide), wr (y := main_v119) (by decide), wr (y := main_cst_29) (by decide), wr (y := main_v120) (by decide), wr (y := main_v121) (by decide), wr (y := main_v122) (by decide), wr (y := main_v123) (by decide), wr (y := main_v124) (by decide), wr (y := main_cst_30) (by decide), wr (y := main_v125) (by decide), wr (y := main_v126) (by decide), wr (y := main_cst_31) (by decide), wr (y := main_v127) (by decide), wr (y := main_v128) (by decide), wr (y := main_v129) (by decide), wr (y := main_v130) (by decide), wr (y := main_v131) (by decide), wr (y := main_v132) (by decide)⟩

/-- A buffer stretch 5 does not write keeps its contents. -/
theorem keep5 (V : Valuation τ sig (Elt F)) {r : Ref sig .tc} (hr : r ∉ W5) :
    after L5 V (Proc.devRef .tc r) = V (Proc.devRef .tc r) :=
  after_of_writes_sub L5 V writes5 hr

/-- Stretch 5 read at its last buffer, over any contents before it. -/
theorem read5 (V : Valuation τ sig (Elt F))  :
    after L5 V (main_v132 : DevRef τ sig) = outl (dense (flat (V (main_v115 : DevRef τ sig))) (V (main_arg9 : DevRef τ sig)) (V (main_arg10 : DevRef τ sig))) (V (main_arg11 : DevRef τ sig)) (V (main_arg12 : DevRef τ sig)) := by
  read_stretch
  rfl

end Cert.ReferenceIdeal.Hand

end
-- ==== Proof.Ref.Main0.lean ====
import proofs.«142023_j26104811225511_2_alg».proof.Proof.Gen.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Facts₀ Facts

variable {F : FTy → Type} [FloatOps F]

/-- Window 1 of the reference's line as a list (a padding function's two operations listed in place). -/
abbrev P0 : List (HloOp τ sig (Elt F)) :=
  [ StableHlo.nullary main_c (fun i => lit0 (S64x64.rowMajor i)),
    StableHlo.nullary main_c_0 (fun i => lit1 (S64x64.rowMajor i)),
    StableHlo.nullary main_c_1 (fun i => lit2 (S32x32.rowMajor i)),
    StableHlo.nullary main_c_2 (fun i => lit3 (S32x32.rowMajor i)),
    StableHlo.nullary main_cst (constant S_ .f32 0x00000000#32),
    StableHlo.TRef.unary (.of main_cst : StableHlo.TRef sig ⟨S_, .f32⟩) main_call0.v0 id,
    StableHlo.TRef.binary (.of main_arg0 : StableHlo.TRef sig ⟨S32x64x64x1, .f32⟩) main_call0.v0 main_call0.v1 (fun x v => pad S32x66x66x1 ![0, 1, 1, 0] ![0, 1, 1, 0] ![0, 0, 0, 0] x v pads_S32x64x64x1_S32x66x66x1_000_110_110_000 h_S_),
    StableHlo.unary main_v0 main_v1 ((extractStridedSlice S32x64x64x1 ![0, 0, 0, 0] · slices_S32x66x66x1_S32x64x64x1_0_0_0_0) : (⟨S32x66x66x1, .f32⟩ : BufTy).Contents (Elt F) → (⟨S32x64x64x1, .f32⟩ : BufTy).Contents (Elt F)),
    StableHlo.unary main_v0 main_v2 ((extractStridedSlice S32x64x64x1 ![0, 0, 1, 0] · slices_S32x66x66x1_S32x64x64x1_0_0_1_0) : (⟨S32x66x66x1, .f32⟩ : BufTy).Contents (Elt F) → (⟨S32x64x64x1, .f32⟩ : BufTy).Contents (Elt F)),
    StableHlo.unary main_v0 main_v3 ((extractStridedSlice S32x64x64x1 ![0, 0, 2, 0] · slices_S32x66x66x1_S32x64x64x1_0_0_2_0) : (⟨S32x66x66x1, .f32⟩ : BufTy).Contents (Elt F) → (⟨S32x64x64x1, .f32⟩ : BufTy).Contents (Elt F)),
    StableHlo.unary main_v0 main_v4 ((extractStridedSlice S32x64x64x1 ![0, 1, 0, 0] · slices_S32x66x66x1_S32x64x64x1_0_1_0_0) : (⟨S32x66x66x1, .f32⟩ : BufTy).Contents (Elt F) → (⟨S32x64x64x1, .f32⟩ : BufTy).Contents (Elt F)),
    StableHlo.unary main_v0 main_v5 ((extractStridedSlice S32x64x64x1 ![0, 1, 1, 0] · slices_S32x66x66x1_S32x64x64x1_0_1_1_0) : (⟨S32x66x66x1, .f32⟩ : BufTy).Contents (Elt F) → (⟨S32x64x64x1, .f32⟩ : BufTy).Contents (Elt F)),
    StableHlo.unary main_v0 main_v6 ((extractStridedSlice S32x64x64x1 ![0, 1, 2, 0] · slices_S32x66x66x1_S32x64x64x1_0_1_2_0) : (⟨S32x66x66x1, .f32⟩ : BufTy).Contents (Elt F) → (⟨S32x64x64x1, .f32⟩ : BufTy).Contents (Elt F)),
    StableHlo.unary main_v0 main_v7 ((extractStridedSlice S32x64x64x1 ![0, 2, 0, 0] · slices_S32x66x66x1_S32x64x64x1_0_2_0_0) : (⟨S32x66x66x1, .f32⟩ : BufTy).Contents (Elt F) → (⟨S32x64x64x1, .f32⟩ : BufTy).Contents (Elt F)),
    StableHlo.unary main_v0 main_v8 ((extractStridedSlice S32x64x64x1 ![0, 2, 1, 0] · slices_S32x66x66x1_S32x64x64x1_0_2_1_0) : (⟨S32x66x66x1, .f32⟩ : BufTy).Contents (Elt F) → (⟨S32x64x64x1, .f32⟩ : BufTy).Contents (Elt F)),
    StableHlo.unary main_v0 main_v9 ((extractStridedSlice S32x64x64x1 ![0, 2, 2, 0] · slices_S32x66x66x1_S32x64x64x1_0_2_2_0) : (⟨S32x66x66x1, .f32⟩ : BufTy).Contents (Elt F) → (⟨S32x64x64x1, .f32⟩ : BufTy).Contents (Elt F)),
    StableHlo.nary ![main_v1, main_v2, main_v3, main_v4, main_v5, main_v6, main_v7, main_v8, main_v9] main_v10 (fun u => concatenate S32x64x64x9 3 [⟨S32x64x64x1, u 0⟩, ⟨S32x64x64x1, u 1⟩, ⟨S32x64x64x1, u 2⟩, ⟨S32x64x64x1, u 3⟩, ⟨S32x64x64x1, u 4⟩, ⟨S32x64x64x1, u 5⟩, ⟨S32x64x64x1, u 6⟩, ⟨S32x64x64x1, u 7⟩, ⟨S32x64x64x1, u 8⟩] concatenates_S32x64x64x1_S32x64x64x1_S32x64x64x1_S32x64x64x1_S32x64x64x1_S32x64x64x1_S32x64x64x1_S32x64x64x1_S32x64x64x1_S32x64x64x9_d3),
    StableHlo.nullary main_cst_3 (constant S_ .f32 0x00000000#32),
    StableHlo.unary main_cst_3 main_v11 (broadcastInDim S32x64x64x9 ![] bcast_S_S32x64x64x9 : (⟨S_, .f32⟩ : BufTy).Contents (Elt F) → (⟨S32x64x64x9, .f32⟩ : BufTy).Contents (Elt F)),
    StableHlo.binary main_v10 main_v11 main_v12 (subf : (⟨S32x64x64x9, .f32⟩ : BufTy).Contents (Elt F) → (⟨S32x64x64x9, .f32⟩ : BufTy).Contents (Elt F) → (⟨S32x64x64x9, .f32⟩ : BufTy).Contents (Elt F)),
    StableHlo.binary main_v12 main_arg1 main_v13 ((fun l r => Host.dotGeneral dot_S32x64x64x9_S9x64_S32x64x64x64_3_0_012_1_n_n none l r) : (⟨S32x64x64x9, .f32⟩ : BufTy).Contents (Elt F) → (⟨S9x64, .f32⟩ : BufTy).Contents (Elt F) → (⟨S32x64x64x64, .f32⟩ : BufTy).Contents (Elt F)),
    StableHlo.nullary main_c_4 (constantI S_ 32 0#32),
    StableHlo.unary main_c_4 main_v14 (broadcastInDim S64x64 ![] bcast_S_S64x64 : (⟨S_, .i32⟩ : BufTy).Contents (Elt F) → (⟨S64x64, .i32⟩ : BufTy).Contents (Elt F)),
    StableHlo.binary main_c main_v14 main_v15 (cmpi .slt : (⟨S64x64, .i32⟩ : BufTy).Contents (Elt F) → (⟨S64x64, .i32⟩ : BufTy).Contents (Elt F) → (⟨S64x64, .i1⟩ : BufTy).Contents (Elt F)),
    StableHlo.nullary main_c_5 (constantI S_ 32 9#32),
    StableHlo.unary main_c_5 main_v16 (broadcastInDim S64x64 ![] bcast_S_S64x64 : (⟨S_, .i32⟩ : BufTy).Contents (Elt F) → (⟨S64x64, .i32⟩ : BufTy).Contents (Elt F)),
    StableHlo.binary main_c main_v16 main_v17 (addi : (⟨S64x64, .i32⟩ : BufTy).Contents (Elt F) → (⟨S64x64, .i32⟩ : BufTy).Contents (Elt F) → (⟨S64x64, .i32⟩ : BufTy).Contents (Elt F)),
    StableHlo.ternary main_v15 main_v17 main_c main_v18 (select : (⟨S64x64, .i1⟩ : BufTy).Contents (Elt F) → (⟨S64x64, .i32⟩ : BufTy).Contents (Elt F) → (⟨S64x64, .i32⟩ : BufTy).Contents (Elt F) → (⟨S64x64, .i32⟩ : BufTy).Contents (Elt F)),
    StableHlo.unary main_v18 main_v19 (broadcastInDim S64x64x1 ![0, 1] bcast_S64x64_S64x64x1_0_1 : (⟨S64x64, .i32⟩ : BufTy).Contents (Elt F) → (⟨S64x64x1, .i32⟩ : BufTy).Contents (Elt F)),
    StableHlo.binary main_arg2 main_v19 main_v20 ((fun x i => Host.gather gather_S9x64_S64x64x1_S64x64x64_2_0_n_n_0_2_164 x i) : (⟨S9x64, .f32⟩ : BufTy).Contents (Elt F) → (⟨S64x64x1, .i32⟩ : BufTy).Contents (Elt F) → (⟨S64x64x64, .f32⟩ : BufTy).Contents (Elt F)),
    StableHlo.nullary main_cst_6 (constant S_ .f32 0x44BB8000#32),
    StableHlo.unary main_cst_6 main_v21 (broadcastInDim S64x64x64 ![] bcast_S_S64x64x64 : (⟨S_, .f32⟩ : BufTy).Contents (Elt F) → (⟨S64x64x64, .f32⟩ : BufTy).Contents (Elt F)),
    StableHlo.binary main_v21 main_v20 main_v22 (subf : (⟨S64x64x64, .f32⟩ : BufTy).Contents (Elt F) → (⟨S64x64x64, .f32⟩ : BufTy).Contents (Elt F) → (⟨S64x64x64, .f32⟩ : BufTy).Contents (Elt F)),
    StableHlo.unary main_v22 main_v23 (broadcastInDim S1x64x64x64 ![1, 2, 3] bcast_S64x64x64_S1x64x64x64_1_2_3 : (⟨S64x64x64, .f32⟩ : BufTy).Contents (Elt F) → (⟨S1x64x64x64, .f32⟩ : BufTy).Contents (Elt F)),
    StableHlo.unary main_v23 main_v24 (broadcastInDim S32x64x64x64 ![0, 1, 2, 3] bcast_S1x64x64x64_S32x64x64x64_0_1_2_3 : (⟨S1x64x64x64, .f32⟩ : BufTy).Contents (Elt F) → (⟨S32x64x64x64, .f32⟩ : BufTy).Contents (Elt F)),
    StableHlo.binary main_v13 main_v24 main_v25 (addf : (⟨S32x64x64x64, .f32⟩ : BufTy).Contents (Elt F) → (⟨S32x64x64x64, .f32⟩ : BufTy).Contents (Elt F) → (⟨S32x64x64x64, .f32⟩ : BufTy).Contents (Elt F)),
    StableHlo.nullary main_cst_7 (constant S_ .f32 0x44BB8000#32),
    StableHlo.unary main_cst_7 main_v26 (broadcastInDim S32x64x64x64 ![] bcast_S_S32x64x64x64 : (⟨S_, .f32⟩ : BufTy).Contents (Elt F) → (⟨S32x64x64x64, .f32⟩ : BufTy).Contents (Elt F)),
    StableHlo.binary main_v25 main_v26 main_v27 (minimumf : (⟨S32x64x64x64, .f32⟩ : BufTy).Contents (Elt F) → (⟨S32x64x64x64, .f32⟩ : BufTy).Contents (Elt F) → (⟨S32x64x64x64, .f32⟩ : BufTy).Contents (Elt F)),
    StableHlo.nullary main_cst_8 (constant S_ .f32 0x44BB8000#32),
    StableHlo.TRef.unary (.of main_cst_8 : StableHlo.TRef sig ⟨S_, .f32⟩) main_call1.v0 id,
    StableHlo.TRef.binary (.of main_v27 : StableHlo.TRef sig ⟨S32x64x64x64, .f32⟩) main_call1.v0 main_call1.v1 (fun x v => pad S32x66x66x64 ![0, 1, 1, 0] ![0, 1, 1, 0] ![0, 0, 0, 0] x v pads_S32x64x64x64_S32x66x66x64_000_110_110_000 h_S_),
    StableHlo.unary main_v28 main_v29 ((extractStridedSlice S32x64x64x64 ![0, 0, 0, 0] · slices_S32x66x66x64_S32x64x64x64_0_0_0_0) : (⟨S32x66x66x64, .f32⟩ : BufTy).Contents (Elt F) → (⟨S32x64x64x64, .f32⟩ : BufTy).Contents (Elt F)),
    StableHlo.unary main_v28 main_v30 ((extractStridedSlice S32x64x64x64 ![0, 0, 1, 0] · slices_S32x66x66x64_S32x64x64x64_0_0_1_0) : (⟨S32x66x66x64, .f32⟩ : BufTy).Contents (Elt F) → (⟨S32x64x64x64, .f32⟩ : BufTy).Contents (Elt F)),
    StableHlo.unary main_v28 main_v31 ((extractStridedSlice S32x64x64x64 ![0, 0, 2, 0] · slices_S32x66x66x64_S32x64x64x64_0_0_2_0) : (⟨S32x66x66x64, .f32⟩ : BufTy).Contents (Elt F) → (⟨S32x64x64x64, .f32⟩ : BufTy).Contents (Elt F)),
    StableHlo.unary main_v28 main_v32 ((extractStridedSlice S32x64x64x64 ![0, 1, 0, 0] · slices_S32x66x66x64_S32x64x64x64_0_1_0_0) : (⟨S32x66x66x64, .f32⟩ : BufTy).Contents (Elt F) → (⟨S32x64x64x64, .f32⟩ : BufTy).Contents (Elt F)),
    StableHlo.unary main_v28 main_v33 ((extractStridedSlice S32x64x64x64 ![0, 1, 1, 0] · slices_S32x66x66x64_S32x64x64x64_0_1_1_0) : (⟨S32x66x66x64, .f32⟩ : BufTy).Contents (Elt F) → (⟨S32x64x64x64, .f32⟩ : BufTy).Contents (Elt F)),
    StableHlo.unary main_v28 main_v34 ((extractStridedSlice S32x64x64x64 ![0, 1, 2, 0] · slices_S32x66x66x64_S32x64x64x64_0_1_2_0) : (⟨S32x66x66x64, .f32⟩ : BufTy).Contents (Elt F) → (⟨S32x64x64x64, .f32⟩ : BufTy).Contents (Elt F)),
    StableHlo.unary main_v28 main_v35 ((extractStridedSlice S32x64x64x64 ![0, 2, 0, 0] · slices_S32x66x66x64_S32x64x64x64_0_2_0_0) : (⟨S32x66x66x64, .f32⟩ : BufTy).Contents (Elt F) → (⟨S32x64x64x64, .f32⟩ : BufTy).Contents (Elt F)),
    StableHlo.unary main_v28 main_v36 ((extractStridedSlice S32x64x64x64 ![0, 2, 1, 0] · slices_S32x66x66x64_S32x64x64x64_0_2_1_0) : (⟨S32x66x66x64, .f32⟩ : BufTy).Contents (Elt F) → (⟨S32x64x64x64, .f32⟩ : BufTy).Contents (Elt F)),
    StableHlo.unary main_v28 main_v37 ((extractStridedSlice S32x64x64x64 ![0, 2, 2, 0] · slices_S32x66x66x64_S32x64x64x64_0_2_2_0) : (⟨S32x66x66x64, .f32⟩ : BufTy).Contents (Elt F) → (⟨S32x64x64x64, .f32⟩ : BufTy).Contents (Elt F)),
    StableHlo.nary ![main_v29, main_v30, main_v31, main_v32, main_v33, main_v34, main_v35, main_v36, main_v37] main_v38 (fun u => concatenate S32x64x64x576 3 [⟨S32x64x64x64, u 0⟩, ⟨S32x64x64x64, u 1⟩, ⟨S32x64x64x64, u 2⟩, ⟨S32x64x64x64, u 3⟩, ⟨S32x64x64x64, u 4⟩, ⟨S32x64x64x64, u 5⟩, ⟨S32x64x64x64, u 6⟩, ⟨S32x64x64x64, u 7⟩, ⟨S32x64x64x64, u 8⟩] concatenates_S32x64x64x64_S32x64x64x64_S32x64x64x64_S32x64x64x64_S32x64x64x64_S32x64x64x64_S32x64x64x64_S32x64x64x64_S32x64x64x64_S32x64x64x576_d3),
    StableHlo.nullary main_cst_9 (constant S_ .f32 0x44BB8000#32),
    StableHlo.unary main_cst_9 main_v39 (broadcastInDim S32x64x64x576 ![] bcast_S_S32x64x64x576 : (⟨S_, .f32⟩ : BufTy).Contents (Elt F) → (⟨S32x64x64x576, .f32⟩ : BufTy).Contents (Elt F)),
    StableHlo.binary main_v38 main_v39 main_v40 (subf : (⟨S32x64x64x576, .f32⟩ : BufTy).Contents (Elt F) → (⟨S32x64x64x576, .f32⟩ : BufTy).Contents (Elt F) → (⟨S32x64x64x576, .f32⟩ : BufTy).Contents (Elt F)),
    StableHlo.binary main_v40 main_arg3 main_v41 ((fun l r => Host.dotGeneral dot_S32x64x64x576_S576x64_S32x64x64x64_3_0_012_1_n_n none l r) : (⟨S32x64x64x576, .f32⟩ : BufTy).Contents (Elt F) → (⟨S576x64, .f32⟩ : BufTy).Contents (Elt F) → (⟨S32x64x64x64, .f32⟩ : BufTy).Contents (Elt F)),
    StableHlo.nullary main_c_10 (constantI S_ 32 0#32),
    StableHlo.unary main_c_10 main_v42 (broadcastInDim S64x64 ![] bcast_S_S64x64 : (⟨S_, .i32⟩ : BufTy).Contents (Elt F) → (⟨S64x64, .i32⟩ : BufTy).Contents (Elt F)),
    StableHlo.binary main_c_0 main_v42 main_v43 (cmpi .slt : (⟨S64x64, .i32⟩ : BufTy).Contents (Elt F) → (⟨S64x64, .i32⟩ : BufTy).Contents (Elt F) → (⟨S64x64, .i1⟩ : BufTy).Contents (Elt F)),
    StableHlo.nullary main_c_11 (constantI S_ 32 9#32),
    StableHlo.unary main_c_11 main_v44 (broadcastInDim S64x64 ![] bcast_S_S64x64 : (⟨S_, .i32⟩ : BufTy).Contents (Elt F) → (⟨S64x64, .i32⟩ : BufTy).Contents (Elt F)),
    StableHlo.binary main_c_0 main_v44 main_v45 (addi : (⟨S64x64, .i32⟩ : BufTy).Contents (Elt F) → (⟨S64x64, .i32⟩ : BufTy).Contents (Elt F) → (⟨S64x64, .i32⟩ : BufTy).Contents (Elt F)) ]

set_option maxRecDepth 8192 in
/-- The window is that straight line: the padding functions unfolded at their calls, sequencing reassociated. -/
theorem part0_eq (d : Dev nD) : main_part0 (F := F) d = seq P0 := by
  first
    | rfl
    | (simp only [main_part0, fn_pad.body, fn_pad_0.body, seq, bind_assoc, pure_bind]
       rfl)

end Cert.ReferenceIdeal.Hand

end
-- ==== Proof.Ref.Main1.lean ====
import proofs.«142023_j26104811225511_2_alg».proof.Proof.Gen.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Facts₀ Facts

variable {F : FTy → Type} [FloatOps F]

/-- Window 2 of the reference's line as a list (a padding function's two operations listed in place). -/
abbrev P1 : List (HloOp τ sig (Elt F)) :=
  [ StableHlo.ternary main_v43 main_v45 main_c_0 main_v46 (select : (⟨S64x64, .i1⟩ : BufTy).Contents (Elt F) → (⟨S64x64, .i32⟩ : BufTy).Contents (Elt F) → (⟨S64x64, .i32⟩ : BufTy).Contents (Elt F) → (⟨S64x64, .i32⟩ : BufTy).Contents (Elt F)),
    StableHlo.unary main_v46 main_v47 (broadcastInDim S64x64x1 ![0, 1] bcast_S64x64_S64x64x1_0_1 : (⟨S64x64, .i32⟩ : BufTy).Contents (Elt F) → (⟨S64x64x1, .i32⟩ : BufTy).Contents (Elt F)),
    StableHlo.binary main_arg4 main_v47 main_v48 ((fun x i => Host.gather gather_S9x64_S64x64x1_S64x64x64_2_0_n_n_0_2_164 x i) : (⟨S9x64, .f32⟩ : BufTy).Contents (Elt F) → (⟨S64x64x1, .i32⟩ : BufTy).Contents (Elt F) → (⟨S64x64x64, .f32⟩ : BufTy).Contents (Elt F)),
    StableHlo.nullary main_cst_12 (constant S_ .f32 0x453B8000#32),
    StableHlo.unary main_cst_12 main_v49 (broadcastInDim S64x64x64 ![] bcast_S_S64x64x64 : (⟨S_, .f32⟩ : BufTy).Contents (Elt F) → (⟨S64x64x64, .f32⟩ : BufTy).Contents (Elt F)),
    StableHlo.binary main_v49 main_v48 main_v50 (subf : (⟨S64x64x64, .f32⟩ : BufTy).Contents (Elt F) → (⟨S64x64x64, .f32⟩ : BufTy).Contents (Elt F) → (⟨S64x64x64, .f32⟩ : BufTy).Contents (Elt F)),
    StableHlo.unary main_v50 main_v51 (broadcastInDim S1x64x64x64 ![1, 2, 3] bcast_S64x64x64_S1x64x64x64_1_2_3 : (⟨S64x64x64, .f32⟩ : BufTy).Contents (Elt F) → (⟨S1x64x64x64, .f32⟩ : BufTy).Contents (Elt F)),
    StableHlo.unary main_v51 main_v52 (broadcastInDim S32x64x64x64 ![0, 1, 2, 3] bcast_S1x64x64x64_S32x64x64x64_0_1_2_3 : (⟨S1x64x64x64, .f32⟩ : BufTy).Contents (Elt F) → (⟨S32x64x64x64, .f32⟩ : BufTy).Contents (Elt F)),
    StableHlo.binary main_v41 main_v52 main_v53 (addf : (⟨S32x64x64x64, .f32⟩ : BufTy).Contents (Elt F) → (⟨S32x64x64x64, .f32⟩ : BufTy).Contents (Elt F) → (⟨S32x64x64x64, .f32⟩ : BufTy).Contents (Elt F)),
    StableHlo.nullary main_cst_13 (constant S_ .f32 0x453B8000#32),
    StableHlo.unary main_cst_13 main_v54 (broadcastInDim S32x64x64x64 ![] bcast_S_S32x64x64x64 : (⟨S_, .f32⟩ : BufTy).Contents (Elt F) → (⟨S32x64x64x64, .f32⟩ : BufTy).Contents (Elt F)),
    StableHlo.binary main_v53 main_v54 main_v55 (minimumf : (⟨S32x64x64x64, .f32⟩ : BufTy).Contents (Elt F) → (⟨S32x64x64x64, .f32⟩ : BufTy).Contents (Elt F) → (⟨S32x64x64x64, .f32⟩ : BufTy).Contents (Elt F)),
    StableHlo.reshape main_v55 main_v56 rfl shapeCasts_S32x64x64x64_S32x32x2x32x2x64,
    StableHlo.nullary main_cst_14 (constant S_ .f32 0xFF800000#32),
    StableHlo.binary main_v56 main_cst_14 main_v57 ((fun x v => Host.reduce FloatOps.maximumf x v reducesTo_S32x32x2x32x2x64_S32x32x32x64_d2_4 h_S_) : (⟨S32x32x2x32x2x64, .f32⟩ : BufTy).Contents (Elt F) → (⟨S_, .f32⟩ : BufTy).Contents (Elt F) → (⟨S32x32x32x64, .f32⟩ : BufTy).Contents (Elt F)),
    StableHlo.nullary main_cst_15 (constant S_ .f32 0x453B8000#32),
    StableHlo.TRef.unary (.of main_cst_15 : StableHlo.TRef sig ⟨S_, .f32⟩) main_call2.v0 id,
    StableHlo.TRef.binary (.of main_v57 : StableHlo.TRef sig ⟨S32x32x32x64, .f32⟩) main_call2.v0 main_call2.v1 (fun x v => pad S32x34x34x64 ![0, 1, 1, 0] ![0, 1, 1, 0] ![0, 0, 0, 0] x v pads_S32x32x32x64_S32x34x34x64_000_110_110_000 h_S_),
    StableHlo.unary main_v58 main_v59 ((extractStridedSlice S32x32x32x64 ![0, 0, 0, 0] · slices_S32x34x34x64_S32x32x32x64_0_0_0_0) : (⟨S32x34x34x64, .f32⟩ : BufTy).Contents (Elt F) → (⟨S32x32x32x64, .f32⟩ : BufTy).Contents (Elt F)),
    StableHlo.unary main_v58 main_v60 ((extractStridedSlice S32x32x32x64 ![0, 0, 1, 0] · slices_S32x34x34x64_S32x32x32x64_0_0_1_0) : (⟨S32x34x34x64, .f32⟩ : BufTy).Contents (Elt F) → (⟨S32x32x32x64, .f32⟩ : BufTy).Contents (Elt F)),
    StableHlo.unary main_v58 main_v61 ((extractStridedSlice S32x32x32x64 ![0, 0, 2, 0] · slices_S32x34x34x64_S32x32x32x64_0_0_2_0) : (⟨S32x34x34x64, .f32⟩ : BufTy).Contents (Elt F) → (⟨S32x32x32x64, .f32⟩ : BufTy).Contents (Elt F)),
    StableHlo.unary main_v58 main_v62 ((extractStridedSlice S32x32x32x64 ![0, 1, 0, 0] · slices_S32x34x34x64_S32x32x32x64_0_1_0_0) : (⟨S32x34x34x64, .f32⟩ : BufTy).Contents (Elt F) → (⟨S32x32x32x64, .f32⟩ : BufTy).Contents (Elt F)),
    StableHlo.unary main_v58 main_v63 ((extractStridedSlice S32x32x32x64 ![0, 1, 1, 0] · slices_S32x34x34x64_S32x32x32x64_0_1_1_0) : (⟨S32x34x34x64, .f32⟩ : BufTy).Contents (Elt F) → (⟨S32x32x32x64, .f32⟩ : BufTy).Contents (Elt F)),
    StableHlo.unary main_v58 main_v64 ((extractStridedSlice S32x32x32x64 ![0, 1, 2, 0] · slices_S32x34x34x64_S32x32x32x64_0_1_2_0) : (⟨S32x34x34x64, .f32⟩ : BufTy).Contents (Elt F) → (⟨S32x32x32x64, .f32⟩ : BufTy).Contents (Elt F)),
    StableHlo.unary main_v58 main_v65 ((extractStridedSlice S32x32x32x64 ![0, 2, 0, 0] · slices_S32x34x34x64_S32x32x32x64_0_2_0_0) : (⟨S32x34x34x64, .f32⟩ : BufTy).Contents (Elt F) → (⟨S32x32x32x64, .f32⟩ : BufTy).Contents (Elt F)),
    StableHlo.unary main_v58 main_v66 ((extractStridedSlice S32x32x32x64 ![0, 2, 1, 0] · slices_S32x34x34x64_S32x32x32x64_0_2_1_0) : (⟨S32x34x34x64, .f32⟩ : BufTy).Contents (Elt F) → (⟨S32x32x32x64, .f32⟩ : BufTy).Contents (Elt F)),
    StableHlo.unary main_v58 main_v67 ((extractStridedSlice S32x32x32x64 ![0, 2, 2, 0] · slices_S32x34x34x64_S32x32x32x64_0_2_2_0) : (⟨S32x34x34x64, .f32⟩ : BufTy).Contents (Elt F) → (⟨S32x32x32x64, .f32⟩ : BufTy).Contents (Elt F)),
    StableHlo.nary ![main_v59, main_v60, main_v61, main_v62, main_v63, main_v64, main_v65, main_v66, main_v67] main_v68 (fun u => concatenate S32x32x32x576 3 [⟨S32x32x32x64, u 0⟩, ⟨S32x32x32x64, u 1⟩, ⟨S32x32x32x64, u 2⟩, ⟨S32x32x32x64, u 3⟩, ⟨S32x32x32x64, u 4⟩, ⟨S32x32x32x64, u 5⟩, ⟨S32x32x32x64, u 6⟩, ⟨S32x32x32x64, u 7⟩, ⟨S32x32x32x64, u 8⟩] concatenates_S32x32x32x64_S32x32x32x64_S32x32x32x64_S32x32x32x64_S32x32x32x64_S32x32x32x64_S32x32x32x64_S32x32x32x64_S32x32x32x64_S32x32x32x576_d3),
    StableHlo.nullary main_cst_16 (constant S_ .f32 0x453B8000#32),
    StableHlo.unary main_cst_16 main_v69 (broadcastInDim S32x32x32x576 ![] bcast_S_S32x32x32x576 : (⟨S_, .f32⟩ : BufTy).Contents (Elt F) → (⟨S32x32x32x576, .f32⟩ : BufTy).Contents (Elt F)),
    StableHlo.binary main_v68 main_v69 main_v70 (subf : (⟨S32x32x32x576, .f32⟩ : BufTy).Contents (Elt F) → (⟨S32x32x32x576, .f32⟩ : BufTy).Contents (Elt F) → (⟨S32x32x32x576, .f32⟩ : BufTy).Contents (Elt F)),
    StableHlo.binary main_v70 main_arg5 main_v71 ((fun l r => Host.dotGeneral dot_S32x32x32x576_S576x128_S32x32x32x128_3_0_012_1_n_n none l r) : (⟨S32x32x32x576, .f32⟩ : BufTy).Contents (Elt F) → (⟨S576x128, .f32⟩ : BufTy).Contents (Elt F) → (⟨S32x32x32x128, .f32⟩ : BufTy).Contents (Elt F)),
    StableHlo.nullary main_c_17 (constantI S_ 32 0#32),
    StableHlo.unary main_c_17 main_v72 (broadcastInDim S32x32 ![] bcast_S_S32x32 : (⟨S_, .i32⟩ : BufTy).Contents (Elt F) → (⟨S32x32, .i32⟩ : BufTy).Contents (Elt F)),
    StableHlo.binary main_c_1 main_v72 main_v73 (cmpi .slt : (⟨S32x32, .i32⟩ : BufTy).Contents (Elt F) → (⟨S32x32, .i32⟩ : BufTy).Contents (Elt F) → (⟨S32x32, .i1⟩ : BufTy).Contents (Elt F)),
    StableHlo.nullary main_c_18 (constantI S_ 32 9#32),
    StableHlo.unary main_c_18 main_v74 (broadcastInDim S32x32 ![] bcast_S_S32x32 : (⟨S_, .i32⟩ : BufTy).Contents (Elt F) → (⟨S32x32, .i32⟩ : BufTy).Contents (Elt F)),
    StableHlo.binary main_c_1 main_v74 main_v75 (addi : (⟨S32x32, .i32⟩ : BufTy).Contents (Elt F) → (⟨S32x32, .i32⟩ : BufTy).Contents (Elt F) → (⟨S32x32, .i32⟩ : BufTy).Contents (Elt F)),
    StableHlo.ternary main_v73 main_v75 main_c_1 main_v76 (select : (⟨S32x32, .i1⟩ : BufTy).Contents (Elt F) → (⟨S32x32, .i32⟩ : BufTy).Contents (Elt F) → (⟨S32x32, .i32⟩ : BufTy).Contents (Elt F) → (⟨S32x32, .i32⟩ : BufTy).Contents (Elt F)),
    StableHlo.unary main_v76 main_v77 (broadcastInDim S32x32x1 ![0, 1] bcast_S32x32_S32x32x1_0_1 : (⟨S32x32, .i32⟩ : BufTy).Contents (Elt F) → (⟨S32x32x1, .i32⟩ : BufTy).Contents (Elt F)),
    StableHlo.binary main_arg6 main_v77 main_v78 ((fun x i => Host.gather gather_S9x128_S32x32x1_S32x32x128_2_0_n_n_0_2_1128 x i) : (⟨S9x128, .f32⟩ : BufTy).Contents (Elt F) → (⟨S32x32x1, .i32⟩ : BufTy).Contents (Elt F) → (⟨S32x32x128, .f32⟩ : BufTy).Contents (Elt F)),
    StableHlo.nullary main_cst_19 (constant S_ .f32 0x458CA000#32),
    StableHlo.unary main_cst_19 main_v79 (broadcastInDim S32x32x128 ![] bcast_S_S32x32x128 : (⟨S_, .f32⟩ : BufTy).Contents (Elt F) → (⟨S32x32x128, .f32⟩ : BufTy).Contents (Elt F)),
    StableHlo.binary main_v79 main_v78 main_v80 (subf : (⟨S32x32x128, .f32⟩ : BufTy).Contents (Elt F) → (⟨S32x32x128, .f32⟩ : BufTy).Contents (Elt F) → (⟨S32x32x128, .f32⟩ : BufTy).Contents (Elt F)),
    StableHlo.unary main_v80 main_v81 (broadcastInDim S1x32x32x128 ![1, 2, 3] bcast_S32x32x128_S1x32x32x128_1_2_3 : (⟨S32x32x128, .f32⟩ : BufTy).Contents (Elt F) → (⟨S1x32x32x128, .f32⟩ : BufTy).Contents (Elt F)),
    StableHlo.unary main_v81 main_v82 (broadcastInDim S32x32x32x128 ![0, 1, 2, 3] bcast_S1x32x32x128_S32x32x32x128_0_1_2_3 : (⟨S1x32x32x128, .f32⟩ : BufTy).Contents (Elt F) → (⟨S32x32x32x128, .f32⟩ : BufTy).Contents (Elt F)),
    StableHlo.binary main_v71 main_v82 main_v83 (addf : (⟨S32x32x32x128, .f32⟩ : BufTy).Contents (Elt F) → (⟨S32x32x32x128, .f32⟩ : BufTy).Contents (Elt F) → (⟨S32x32x32x128, .f32⟩ : BufTy).Contents (Elt F)),
    StableHlo.nullary main_cst_20 (constant S_ .f32 0x458CA000#32),
    StableHlo.unary main_cst_20 main_v84 (broadcastInDim S32x32x32x128 ![] bcast_S_S32x32x32x128 : (⟨S_, .f32⟩ : BufTy).Contents (Elt F) → (⟨S32x32x32x128, .f32⟩ : BufTy).Contents (Elt F)),
    StableHlo.binary main_v83 main_v84 main_v85 (minimumf : (⟨S32x32x32x128, .f32⟩ : BufTy).Contents (Elt F) → (⟨S32x32x32x128, .f32⟩ : BufTy).Contents (Elt F) → (⟨S32x32x32x128, .f32⟩ : BufTy).Contents (Elt F)),
    StableHlo.nullary main_cst_21 (constant S_ .f32 0x458CA000#32),
    StableHlo.TRef.unary (.of main_cst_21 : StableHlo.TRef sig ⟨S_, .f32⟩) main_call3.v0 id,
    StableHlo.TRef.binary (.of main_v85 : StableHlo.TRef sig ⟨S32x32x32x128, .f32⟩) main_call3.v0 main_call3.v1 (fun x v => pad S32x34x34x128 ![0, 1, 1, 0] ![0, 1, 1, 0] ![0, 0, 0, 0] x v pads_S32x32x32x128_S32x34x34x128_000_110_110_000 h_S_),
    StableHlo.unary main_v86 main_v87 ((extractStridedSlice S32x32x32x128 ![0, 0, 0, 0] · slices_S32x34x34x128_S32x32x32x128_0_0_0_0) : (⟨S32x34x34x128, .f32⟩ : BufTy).Contents (Elt F) → (⟨S32x32x32x128, .f32⟩ : BufTy).Contents (Elt F)),
    StableHlo.unary main_v86 main_v88 ((extractStridedSlice S32x32x32x128 ![0, 0, 1, 0] · slices_S32x34x34x128_S32x32x32x128_0_0_1_0) : (⟨S32x34x34x128, .f32⟩ : BufTy).Contents (Elt F) → (⟨S32x32x32x128, .f32⟩ : BufTy).Contents (Elt F)),
    StableHlo.unary main_v86 main_v89 ((extractStridedSlice S32x32x32x128 ![0, 0, 2, 0] · slices_S32x34x34x128_S32x32x32x128_0_0_2_0) : (⟨S32x34x34x128, .f32⟩ : BufTy).Contents (Elt F) → (⟨S32x32x32x128, .f32⟩ : BufTy).Contents (Elt F)),
    StableHlo.unary main_v86 main_v90 ((extractStridedSlice S32x32x32x128 ![0, 1, 0, 0] · slices_S32x34x34x128_S32x32x32x128_0_1_0_0) : (⟨S32x34x34x128, .f32⟩ : BufTy).Contents (Elt F) → (⟨S32x32x32x128, .f32⟩ : BufTy).Contents (Elt F)),
    StableHlo.unary main_v86 main_v91 ((extractStridedSlice S32x32x32x128 ![0, 1, 1, 0] · slices_S32x34x34x128_S32x32x32x128_0_1_1_0) : (⟨S32x34x34x128, .f32⟩ : BufTy).Contents (Elt F) → (⟨S32x32x32x128, .f32⟩ : BufTy).Contents (Elt F)),
    StableHlo.unary main_v86 main_v92 ((extractStridedSlice S32x32x32x128 ![0, 1, 2, 0] · slices_S32x34x34x128_S32x32x32x128_0_1_2_0) : (⟨S32x34x34x128, .f32⟩ : BufTy).Contents (Elt F) → (⟨S32x32x32x128, .f32⟩ : BufTy).Contents (Elt F)),
    StableHlo.unary main_v86 main_v93 ((extractStridedSlice S32x32x32x128 ![0, 2, 0, 0] · slices_S32x34x34x128_S32x32x32x128_0_2_0_0) : (⟨S32x34x34x128, .f32⟩ : BufTy).Contents (Elt F) → (⟨S32x32x32x128, .f32⟩ : BufTy).Contents (Elt F)),
    StableHlo.unary main_v86 main_v94 ((extractStridedSlice S32x32x32x128 ![0, 2, 1, 0] · slices_S32x34x34x128_S32x32x32x128_0_2_1_0) : (⟨S32x34x34x128, .f32⟩ : BufTy).Contents (Elt F) → (⟨S32x32x32x128, .f32⟩ : BufTy).Contents (Elt F)),
    StableHlo.unary main_v86 main_v95 ((extractStridedSlice S32x32x32x128 ![0, 2, 2, 0] · slices_S32x34x34x128_S32x32x32x128_0_2_2_0) : (⟨S32x34x34x128, .f32⟩ : BufTy).Contents (Elt F) → (⟨S32x32x32x128, .f32⟩ : BufTy).Contents (Elt F)) ]

set_option maxRecDepth 8192 in
/-- The window is that straight line: the padding functions unfolded at their calls, sequencing reassociated. -/
theorem part1_eq (d : Dev nD) : main_part1 (F := F) d = seq P1 := by
  first
    | rfl
    | (simp only [main_part1, fn_pad_1.body, fn_pad_2.body, seq, bind_assoc, pure_bind]
       rfl)

end Cert.ReferenceIdeal.Hand

end
-- ==== Proof.Ref.Main2.lean ====
import proofs.«142023_j26104811225511_2_alg».proof.Proof.Gen.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Facts₀ Facts

variable {F : FTy → Type} [FloatOps F]

/-- Window 3 of the reference's line as a list (a padding function's two operations listed in place). -/
abbrev P2 : List (HloOp τ sig (Elt F)) :=
  [ StableHlo.nary ![main_v87, main_v88, main_v89, main_v90, main_v91, main_v92, main_v93, main_v94, main_v95] main_v96 (fun u => concatenate S32x32x32x1152 3 [⟨S32x32x32x128, u 0⟩, ⟨S32x32x32x128, u 1⟩, ⟨S32x32x32x128, u 2⟩, ⟨S32x32x32x128, u 3⟩, ⟨S32x32x32x128, u 4⟩, ⟨S32x32x32x128, u 5⟩, ⟨S32x32x32x128, u 6⟩, ⟨S32x32x32x128, u 7⟩, ⟨S32x32x32x128, u 8⟩] concatenates_S32x32x32x128_S32x32x32x128_S32x32x32x128_S32x32x32x128_S32x32x32x128_S32x32x32x128_S32x32x32x128_S32x32x32x128_S32x32x32x128_S32x32x32x1152_d3),
    StableHlo.nullary main_cst_22 (constant S_ .f32 0x458CA000#32),
    StableHlo.unary main_cst_22 main_v97 (broadcastInDim S32x32x32x1152 ![] bcast_S_S32x32x32x1152 : (⟨S_, .f32⟩ : BufTy).Contents (Elt F) → (⟨S32x32x32x1152, .f32⟩ : BufTy).Contents (Elt F)),
    StableHlo.binary main_v96 main_v97 main_v98 (subf : (⟨S32x32x32x1152, .f32⟩ : BufTy).Contents (Elt F) → (⟨S32x32x32x1152, .f32⟩ : BufTy).Contents (Elt F) → (⟨S32x32x32x1152, .f32⟩ : BufTy).Contents (Elt F)),
    StableHlo.binary main_v98 main_arg7 main_v99 ((fun l r => Host.dotGeneral dot_S32x32x32x1152_S1152x128_S32x32x32x128_3_0_012_1_n_n none l r) : (⟨S32x32x32x1152, .f32⟩ : BufTy).Contents (Elt F) → (⟨S1152x128, .f32⟩ : BufTy).Contents (Elt F) → (⟨S32x32x32x128, .f32⟩ : BufTy).Contents (Elt F)),
    StableHlo.nullary main_c_23 (constantI S_ 32 0#32),
    StableHlo.unary main_c_23 main_v100 (broadcastInDim S32x32 ![] bcast_S_S32x32 : (⟨S_, .i32⟩ : BufTy).Contents (Elt F) → (⟨S32x32, .i32⟩ : BufTy).Contents (Elt F)),
    StableHlo.binary main_c_2 main_v100 main_v101 (cmpi .slt : (⟨S32x32, .i32⟩ : BufTy).Contents (Elt F) → (⟨S32x32, .i32⟩ : BufTy).Contents (Elt F) → (⟨S32x32, .i1⟩ : BufTy).Contents (Elt F)),
    StableHlo.nullary main_c_24 (constantI S_ 32 9#32),
    StableHlo.unary main_c_24 main_v102 (broadcastInDim S32x32 ![] bcast_S_S32x32 : (⟨S_, .i32⟩ : BufTy).Contents (Elt F) → (⟨S32x32, .i32⟩ : BufTy).Contents (Elt F)),
    StableHlo.binary main_c_2 main_v102 main_v103 (addi : (⟨S32x32, .i32⟩ : BufTy).Contents (Elt F) → (⟨S32x32, .i32⟩ : BufTy).Contents (Elt F) → (⟨S32x32, .i32⟩ : BufTy).Contents (Elt F)),
    StableHlo.ternary main_v101 main_v103 main_c_2 main_v104 (select : (⟨S32x32, .i1⟩ : BufTy).Contents (Elt F) → (⟨S32x32, .i32⟩ : BufTy).Contents (Elt F) → (⟨S32x32, .i32⟩ : BufTy).Contents (Elt F) → (⟨S32x32, .i32⟩ : BufTy).Contents (Elt F)),
    StableHlo.unary main_v104 main_v105 (broadcastInDim S32x32x1 ![0, 1] bcast_S32x32_S32x32x1_0_1 : (⟨S32x32, .i32⟩ : BufTy).Contents (Elt F) → (⟨S32x32x1, .i32⟩ : BufTy).Contents (Elt F)),
    StableHlo.binary main_arg8 main_v105 main_v106 ((fun x i => Host.gather gather_S9x128_S32x32x1_S32x32x128_2_0_n_n_0_2_1128 x i) : (⟨S9x128, .f32⟩ : BufTy).Contents (Elt F) → (⟨S32x32x1, .i32⟩ : BufTy).Contents (Elt F) → (⟨S32x32x128, .f32⟩ : BufTy).Contents (Elt F)),
    StableHlo.nullary main_cst_25 (constant S_ .f32 0x45BB8000#32),
    StableHlo.unary main_cst_25 main_v107 (broadcastInDim S32x32x128 ![] bcast_S_S32x32x128 : (⟨S_, .f32⟩ : BufTy).Contents (Elt F) → (⟨S32x32x128, .f32⟩ : BufTy).Contents (Elt F)),
    StableHlo.binary main_v107 main_v106 main_v108 (subf : (⟨S32x32x128, .f32⟩ : BufTy).Contents (Elt F) → (⟨S32x32x128, .f32⟩ : BufTy).Contents (Elt F) → (⟨S32x32x128, .f32⟩ : BufTy).Contents (Elt F)),
    StableHlo.unary main_v108 main_v109 (broadcastInDim S1x32x32x128 ![1, 2, 3] bcast_S32x32x128_S1x32x32x128_1_2_3 : (⟨S32x32x128, .f32⟩ : BufTy).Contents (Elt F) → (⟨S1x32x32x128, .f32⟩ : BufTy).Contents (Elt F)),
    StableHlo.unary main_v109 main_v110 (broadcastInDim S32x32x32x128 ![0, 1, 2, 3] bcast_S1x32x32x128_S32x32x32x128_0_1_2_3 : (⟨S1x32x32x128, .f32⟩ : BufTy).Contents (Elt F) → (⟨S32x32x32x128, .f32⟩ : BufTy).Contents (Elt F)),
    StableHlo.binary main_v99 main_v110 main_v111 (addf : (⟨S32x32x32x128, .f32⟩ : BufTy).Contents (Elt F) → (⟨S32x32x32x128, .f32⟩ : BufTy).Contents (Elt F) → (⟨S32x32x32x128, .f32⟩ : BufTy).Contents (Elt F)),
    StableHlo.nullary main_cst_26 (constant S_ .f32 0x45BB8000#32),
    StableHlo.unary main_cst_26 main_v112 (broadcastInDim S32x32x32x128 ![] bcast_S_S32x32x32x128 : (⟨S_, .f32⟩ : BufTy).Contents (Elt F) → (⟨S32x32x32x128, .f32⟩ : BufTy).Contents (Elt F)),
    StableHlo.binary main_v111 main_v112 main_v113 (minimumf : (⟨S32x32x32x128, .f32⟩ : BufTy).Contents (Elt F) → (⟨S32x32x32x128, .f32⟩ : BufTy).Contents (Elt F) → (⟨S32x32x32x128, .f32⟩ : BufTy).Contents (Elt F)),
    StableHlo.reshape main_v113 main_v114 rfl shapeCasts_S32x32x32x128_S32x16x2x16x2x128,
    StableHlo.nullary main_cst_27 (constant S_ .f32 0xFF800000#32),
    StableHlo.binary main_v114 main_cst_27 main_v115 ((fun x v => Host.reduce FloatOps.maximumf x v reducesTo_S32x16x2x16x2x128_S32x16x16x128_d2_4 h_S_) : (⟨S32x16x2x16x2x128, .f32⟩ : BufTy).Contents (Elt F) → (⟨S_, .f32⟩ : BufTy).Contents (Elt F) → (⟨S32x16x16x128, .f32⟩ : BufTy).Contents (Elt F)),
    StableHlo.reshape main_v115 main_v116 rfl shapeCasts_S32x16x16x128_S32x32768,
    StableHlo.nullary main_cst_28 (constant S_ .f32 0x45BB8000#32),
    StableHlo.unary main_cst_28 main_v117 (broadcastInDim S32x32768 ![] bcast_S_S32x32768 : (⟨S_, .f32⟩ : BufTy).Contents (Elt F) → (⟨S32x32768, .f32⟩ : BufTy).Contents (Elt F)),
    StableHlo.binary main_v116 main_v117 main_v118 (subf : (⟨S32x32768, .f32⟩ : BufTy).Contents (Elt F) → (⟨S32x32768, .f32⟩ : BufTy).Contents (Elt F) → (⟨S32x32768, .f32⟩ : BufTy).Contents (Elt F)),
    StableHlo.binary main_v118 main_arg9 main_v119 ((fun l r => Host.dotGeneral dot_S32x32768_S32768x256_S32x256_1_0_0_1_n_n none l r) : (⟨S32x32768, .f32⟩ : BufTy).Contents (Elt F) → (⟨S32768x256, .f32⟩ : BufTy).Contents (Elt F) → (⟨S32x256, .f32⟩ : BufTy).Contents (Elt F)),
    StableHlo.nullary main_cst_29 (constant S_ .f32 0x45EA6000#32),
    StableHlo.unary main_cst_29 main_v120 (broadcastInDim S256 ![] bcast_S_S256 : (⟨S_, .f32⟩ : BufTy).Contents (Elt F) → (⟨S256, .f32⟩ : BufTy).Contents (Elt F)),
    StableHlo.binary main_v120 main_arg10 main_v121 (subf : (⟨S256, .f32⟩ : BufTy).Contents (Elt F) → (⟨S256, .f32⟩ : BufTy).Contents (Elt F) → (⟨S256, .f32⟩ : BufTy).Contents (Elt F)),
    StableHlo.unary main_v121 main_v122 (broadcastInDim S1x256 ![1] bcast_S256_S1x256_1 : (⟨S256, .f32⟩ : BufTy).Contents (Elt F) → (⟨S1x256, .f32⟩ : BufTy).Contents (Elt F)),
    StableHlo.unary main_v122 main_v123 (broadcastInDim S32x256 ![0, 1] bcast_S1x256_S32x256_0_1 : (⟨S1x256, .f32⟩ : BufTy).Contents (Elt F) → (⟨S32x256, .f32⟩ : BufTy).Contents (Elt F)),
    StableHlo.binary main_v119 main_v123 main_v124 (addf : (⟨S32x256, .f32⟩ : BufTy).Contents (Elt F) → (⟨S32x256, .f32⟩ : BufTy).Contents (Elt F) → (⟨S32x256, .f32⟩ : BufTy).Contents (Elt F)),
    StableHlo.nullary main_cst_30 (constant S_ .f32 0x45EA6000#32),
    StableHlo.unary main_cst_30 main_v125 (broadcastInDim S32x256 ![] bcast_S_S32x256 : (⟨S_, .f32⟩ : BufTy).Contents (Elt F) → (⟨S32x256, .f32⟩ : BufTy).Contents (Elt F)),
    StableHlo.binary main_v124 main_v125 main_v126 (minimumf : (⟨S32x256, .f32⟩ : BufTy).Contents (Elt F) → (⟨S32x256, .f32⟩ : BufTy).Contents (Elt F) → (⟨S32x256, .f32⟩ : BufTy).Contents (Elt F)),
    StableHlo.nullary main_cst_31 (constant S_ .f32 0x45EA6000#32),
    StableHlo.unary main_cst_31 main_v127 (broadcastInDim S32x256 ![] bcast_S_S32x256 : (⟨S_, .f32⟩ : BufTy).Contents (Elt F) → (⟨S32x256, .f32⟩ : BufTy).Contents (Elt F)),
    StableHlo.binary main_v127 main_v126 main_v128 (subf : (⟨S32x256, .f32⟩ : BufTy).Contents (Elt F) → (⟨S32x256, .f32⟩ : BufTy).Contents (Elt F) → (⟨S32x256, .f32⟩ : BufTy).Contents (Elt F)),
    StableHlo.binary main_v128 main_arg11 main_v129 ((fun l r => Host.dotGeneral dot_S32x256_S256x10_S32x10_1_0_0_1_n_n none l r) : (⟨S32x256, .f32⟩ : BufTy).Contents (Elt F) → (⟨S256x10, .f32⟩ : BufTy).Contents (Elt F) → (⟨S32x10, .f32⟩ : BufTy).Contents (Elt F)),
    StableHlo.unary main_arg12 main_v130 (broadcastInDim S1x10 ![1] bcast_S10_S1x10_1 : (⟨S10, .f32⟩ : BufTy).Contents (Elt F) → (⟨S1x10, .f32⟩ : BufTy).Contents (Elt F)),
    StableHlo.unary main_v130 main_v131 (broadcastInDim S32x10 ![0, 1] bcast_S1x10_S32x10_0_1 : (⟨S1x10, .f32⟩ : BufTy).Contents (Elt F) → (⟨S32x10, .f32⟩ : BufTy).Contents (Elt F)),
    StableHlo.binary main_v131 main_v129 main_v132 (addf : (⟨S32x10, .f32⟩ : BufTy).Contents (Elt F) → (⟨S32x10, .f32⟩ : BufTy).Contents (Elt F) → (⟨S32x10, .f32⟩ : BufTy).Contents (Elt F)) ]

set_option maxRecDepth 8192 in
/-- The window is that straight line: the padding functions unfolded at their calls, sequencing reassociated. -/
theorem part2_eq (d : Dev nD) : main_part2 (F := F) d = seq P2 := by
  first
    | rfl
    | (simp only [main_part2, seq, bind_assoc, pure_bind]
       rfl)

end Cert.ReferenceIdeal.Hand

end
-- ==== Proof.Ref.Run.lean ====
import proofs.«142023_j26104811225511_2_alg».proof.Proof.Ref.S1
import proofs.«142023_j26104811225511_2_alg».proof.Proof.Ref.S2
import proofs.«142023_j26104811225511_2_alg».proof.Proof.Ref.S3
import proofs.«142023_j26104811225511_2_alg».proof.Proof.Ref.S4
import proofs.«142023_j26104811225511_2_alg».proof.Proof.Ref.S5
import proofs.«142023_j26104811225511_2_alg».proof.Proof.Ref.Main0
import proofs.«142023_j26104811225511_2_alg».proof.Proof.Ref.Main1
import proofs.«142023_j26104811225511_2_alg».proof.Proof.Ref.Main2

noncomputable section

namespace Cert.ReferenceIdeal.Hand

open Cert.ReferenceIdeal Idealize.ShloMosaic Idealize.ShloMosaic.TcCoe Idealize.SL.Sem Idealize.ShloMosaic.StableHlo Cert.Stretches
open Facts₀ Facts

variable {F : FTy → Type} [FloatOps F]

/-! The reference's run: its line of host operations is the five stretches in a row; read stretch by stretch, the last
    buffer holds the layers' composition of the argument arrays, and no argument array is written. -/

/-- The reference's operations, in order. -/
abbrev ops : List (HloOp τ sig (Elt F)) := L1 ++ (L2 ++ (L3 ++ (L4 ++ L5)))

/-- The three windows in a row are the five stretches in a row: the same operations in the same order. -/
theorem ops_eq : (P0 ++ (P1 ++ P2) : List (HloOp τ sig (Elt F))) = ops := rfl

theorem main_eq (d : Dev nD) : main (F := F) d = seq ops := by
  rw [← ops_eq, seq_append, seq_append, ← part0_eq d, ← part1_eq d, ← part2_eq d]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    rcases List.mem_append.mp h with h | h
    · exact List.forall_iff_forall_mem.mp sub1 op h
    rcases List.mem_append.mp h with h | h
    · exact List.forall_iff_forall_mem.mp sub2 op h
    rcases List.mem_append.mp h with h | h
    · exact List.forall_iff_forall_mem.mp sub3 op h
    rcases List.mem_append.mp h with h | h
    · exact List.forall_iff_forall_mem.mp sub4 op h
    · exact List.forall_iff_forall_mem.mp sub5 op h

theorem ops_fresh : ∀ op ∈ (ops : List (HloOp τ sig (Elt F))), op.fresh = ∅ := fun op h => by
  rcases List.mem_append.mp h with h | h
  · exact fresh1 op h
  rcases List.mem_append.mp h with h | h
  · exact fresh2 op h
  rcases List.mem_append.mp h with h | h
  · exact fresh3 op h
  rcases List.mem_append.mp h with h | h
  · exact fresh4 op h
  · exact fresh5 op h

/-- The contents after the whole line are the stretches' folds one over the other. -/
theorem after_ops (V : Valuation τ sig (Elt F)) :
    after ops V = after L5 (after L4 (after L3 (after L2 (after L1 V)))) := by
  show after (L1 ++ (L2 ++ (L3 ++ (L4 ++ L5)))) V = _
  rw [after_append, after_append, after_append, after_append]

/-- A buffer no stretch writes keeps its contents over the whole line. -/
theorem arg_keep (V : Valuation τ sig (Elt F)) {r : Ref sig .tc} (h1 : r ∉ W1) (h2 : r ∉ W2) (h3 : r ∉ W3) (h4 : r ∉ W4)
    (h5 : r ∉ W5) : after ops V (Proc.devRef .tc r) = V (Proc.devRef .tc r) := by
  rw [after_ops, keep5 _ h5, keep4 _ h4, keep3 _ h3, keep2 _ h2, keep1 _ h1]

/-- The result buffer after the whole line holds the layers' composition of the argument arrays. -/
theorem out_eq (V : Valuation τ sig (Elt F)) :
    after ops V (main_v132 : DevRef τ sig)
      = result (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  have e1 := read1 V
  have e2 := read2 (after L1 V) (tab1_at V)
  rw [e1, keep1 _ (r := main_arg3) (by decide), keep1 _ (r := main_arg4) (by decide)] at e2
  have e3 := read3 (after L2 (after L1 V)) ((keep2 _ (r := main_c_1) (by decide)).trans (tab2_at V))
  rw [e2, keep2 _ (r := main_arg5) (by decide), keep1 _ (r := main_arg5) (by decide), keep2 _ (r := main_arg6) (by decide), keep1 _ (r := main_arg6) (by decide)] at e3
  have e4 := read4 (after L3 (after L2 (after L1 V)))
    ((keep3 _ (r := main_c_2) (by decide)).trans ((keep2 _ (r := main_c_2) (by decide)).trans (tab3_at V)))
  rw [e3, keep3 _ (r := main_arg7) (by decide), keep2 _ (r := main_arg7) (by decide), keep1 _ (r := main_arg7) (by decide), keep3 _ (r := main_arg8) (by decide), keep2 _ (r := main_arg8) (by decide), keep1 _ (r := main_arg8) (by decide)] at e4
  rw [after_ops, read5, e4, keep4 _ (r := main_arg9) (by decide), keep3 _ (r := main_arg9) (by decide), keep2 _ (r := main_arg9) (by decide), keep1 _ (r := main_arg9) (by decide), keep4 _ (r := main_arg10) (by decide), keep3 _ (r := main_arg10) (by decide), keep2 _ (r := main_arg10) (by decide), keep1 _ (r := main_arg10) (by decide),
    keep4 _ (r := main_arg11) (by decide), keep3 _ (r := main_arg11) (by decide), keep2 _ (r := main_arg11) (by decide), keep1 _ (r := main_arg11) (by decide), keep4 _ (r := main_arg12) (by decide), keep3 _ (r := main_arg12) (by decide), keep2 _ (r := main_arg12) (by decide), keep1 _ (r := main_arg12) (by decide)]
  rfl

/-- On every device, for any float values, from any memory with zero counters: every weakly fair execution of the
    reference terminates with the result buffer at the layers' composition of the argument arrays and the argument
    arrays unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v132) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c main_v132).trans (out_eq _),
      (h c main_arg0).trans (arg_keep _ (by decide) (by decide) (by decide) (by decide) (by decide)),
      (h c main_arg1).trans (arg_keep _ (by decide) (by decide) (by decide) (by decide) (by decide)),
      (h c main_arg2).trans (arg_keep _ (by decide) (by decide) (by decide) (by decide) (by decide)),
      (h c main_arg3).trans (arg_keep _ (by decide) (by decide) (by decide) (by decide) (by decide)),
      (h c main_arg4).trans (arg_keep _ (by decide) (by decide) (by decide) (by decide) (by decide)),
      (h c main_arg5).trans (arg_keep _ (by decide) (by decide) (by decide) (by decide) (by decide)),
      (h c main_arg6).trans (arg_keep _ (by decide) (by decide) (by decide) (by decide) (by decide)),
      (h c main_arg7).trans (arg_keep _ (by decide) (by decide) (by decide) (by decide) (by decide)),
      (h c main_arg8).trans (arg_keep _ (by decide) (by decide) (by decide) (by decide) (by decide)),
      (h c main_arg9).trans (arg_keep _ (by decide) (by decide) (by decide) (by decide) (by decide)),
      (h c main_arg10).trans (arg_keep _ (by decide) (by decide) (by decide) (by decide) (by decide)),
      (h c main_arg11).trans (arg_keep _ (by decide) (by decide) (by decide) (by decide) (by decide)),
      (h c main_arg12).trans (arg_keep _ (by decide) (by decide) (by decide) (by decide) (by decide))⟩)
    (run_seq scopedRefs_eq scopedSems_eq defs main (fun _ => ops) main_eq (fun _ => ops_sub) m ρ (fun _ => ops_fresh))

end Cert.ReferenceIdeal.Hand

end
-- ==== Proof.LibTenBlocks.lean ====
/-
  Sums over 100000 consecutive naturals cut into ten blocks of 10000, and a running sum unrolled.

  A sum of g over 0 … a·b − 1 is the sum over the a blocks t of the sums of g (t·b + q) over q below b: block t is the
  b naturals from t·b on (by induction on a, splitting the range at a·b). At a = 10 and b = 10000, with the inner and
  the whole sum taken over the finite index types, this is the regrouping of 100000 rows into ten tiles of 10000.
  A sequence that starts at z plus the first term and at every later step adds the next term is, at step n, z plus the
  sum of the terms up to n.
-/
import Mathlib.Algebra.BigOperators.Fin

namespace Cert.TenBlocks

open Finset

/-- The sum over the first a·b naturals, block by block: block t holds t·b, …, t·b + b − 1. -/
theorem sum_range_mul {M : Type*} [AddCommMonoid M] (g : ℕ → M) (a b : ℕ) :
    ∑ t ∈ Finset.range a, ∑ q ∈ Finset.range b, g (t * b + q) = ∑ r ∈ Finset.range (a * b), g r := by
  induction a with
  | zero => simp
  | succ a ih => rw [Finset.sum_range_succ, ih, add_mul, one_mul, Finset.sum_range_add]

/-- Ten blocks of 10000 make up the 100000 indices. -/
theorem sum_range_blocks {M : Type*} [AddCommMonoid M] (g : ℕ → M) :
    ∑ t ∈ Finset.range 10, ∑ q : Fin 10000, g (t * 10000 + q.val) = ∑ r : Fin 100000, g r.val :=
  calc ∑ t ∈ Finset.range 10, ∑ q : Fin 10000, g (t * 10000 + q.val)
      = ∑ t ∈ Finset.range 10, ∑ q ∈ Finset.range 10000, g (t * 10000 + q) :=
        Finset.sum_congr rfl fun t _ => (Finset.sum_range fun q => g (t * 10000 + q)).symm
    _ = ∑ r ∈ Finset.range (10 * 10000), g r := sum_range_mul g 10 10000
    _ = ∑ r : Fin 100000, g r.val := Finset.sum_range g

/-- A running sum unrolled: started at z + T 0 and adding T (n + 1) at step n + 1, it is z plus the sum of T up to n. -/
theorem running_sum {M : Type*} [AddCommMonoid M] (N : ℕ) (S : (n : ℕ) → n < N → M) (T : ℕ → M) (z : M)
    (h0 : ∀ h, S 0 h = z + T 0) (hs : ∀ n (h : n + 1 < N), S (n + 1) h = S n (Nat.lt_of_succ_lt h) + T (n + 1)) :
    ∀ n (h : n < N), S n h = z + ∑ t ∈ Finset.range (n + 1), T t := by
  intro n
  induction n with
  | zero => intro h; rw [h0 h, Finset.sum_range_one]
  | succ n ih =>
    intro h
    rw [hs n h, ih (Nat.lt_of_succ_lt h), Finset.sum_range_succ T (n + 1), add_assoc]

end Cert.TenBlocks
-- ==== Proof.RV.ConvRefLib.lean ====
/-
  Reading a convolution written as "nine shifted windows side by side, then one contraction" at an index.

  Three general facts, for any extents:
  * a [B,H,W,K] x [K,C] contraction over the last axis of the left operand, read at (b, h, w, f), is
    the sum over k of l (b, h, w, k) * r (k, f);
  * nine blocks of one shape [B,H,W,C], each the window of a padded array [B,H+2,W+2,C] shifted by (dy, dx),
    (dy, dx) = (0,0), (0,1), (0,2), (1,0), ..., (2,2), laid side by side along the last axis: at channel
    tap * C + ci the result reads the padded array at (b, h + tap / 3, w + tap % 3, ci);
  * a sum over n = a * b indices is the sum over the a blocks of the sums over the b positions in a block.
-/
import Idealize.ShloMosaic.Lib.ValueIdx
import Idealize.ShloMosaic.Lib.Pipeline.Value
import Idealize.ShloMosaic.PureOps.Ideal.Laws
import proofs.«142023_j26104811225511_2_alg».proof.Proof.LibTenBlocks

noncomputable section

namespace Cert.ConvRefLib

open Idealize.ShloMosaic Idealize.ShloMosaic.ValueIdx

/-- The contraction sum of a [B,H,W,K] x [K,C] product at (b, h, w, f) is the sum over k of l (b, h, w, k) * r (k, f).
    The hypotheses are the dimension numbers' facts: one contracted axis of extent K, the left operand's last axis
    against the right operand's first, and the remaining coordinates of both operands the output's. -/
theorem sum_contr_rows4 {B H W K C : ℕ} (d : DotDims ⟨4, ![B, H, W, K]⟩ ⟨2, ![K, C]⟩ ⟨4, ![B, H, W, C]⟩)
    (hr : d.contr.rank = 1) (hs : d.contr.size ⟨0, by omega⟩ = K)
    (hlc : d.lhsContracting = [3]) (hrc : d.rhsContracting = [0])
    (h0 : ∀ (i : (⟨4, ![B, H, W, C]⟩ : Shape).Idx) (q : d.contr.Idx), (d.lhsIdx i q 0).val = (i 0).val)
    (h1 : ∀ (i : (⟨4, ![B, H, W, C]⟩ : Shape).Idx) (q : d.contr.Idx), (d.lhsIdx i q 1).val = (i 1).val)
    (h2 : ∀ (i : (⟨4, ![B, H, W, C]⟩ : Shape).Idx) (q : d.contr.Idx), (d.lhsIdx i q 2).val = (i 2).val)
    (h3 : ∀ (i : (⟨4, ![B, H, W, C]⟩ : Shape).Idx) (q : d.contr.Idx), (d.rhsIdx i q 1).val = (i 3).val)
    (l : (⟨4, ![B, H, W, K]⟩ : Shape).Idx → EReal) (r : (⟨2, ![K, C]⟩ : Shape).Idx → EReal)
    (b : Fin B) (h : Fin H) (w : Fin W) (f : Fin C) :
    ∑ q : d.contr.Idx, l (d.lhsIdx (ix4 b h w f) q) * r (d.rhsIdx (ix4 b h w f) q)
      = ∑ k : Fin K, l (ix4 b h w k) * r (ix2 k f) := by
  rw [← Equiv.sum_comp (contrEquiv1 d K hr hs).symm]
  refine Finset.sum_congr rfl fun k _ => ?_
  have hk := contrEquiv1_symm_val d K hr hs k
  have el : d.lhsIdx (ix4 b h w f) ((contrEquiv1 d K hr hs).symm k) = ix4 b h w k := funext fun a => Fin.ext (by
    match a with
    | ⟨0, _⟩ => exact h0 _ _
    | ⟨1, _⟩ => exact h1 _ _
    | ⟨2, _⟩ => exact h2 _ _
    | ⟨3, _⟩ => exact (d.lhsIdx_val_of_single hlc _ _).trans hk)
  have er : d.rhsIdx (ix4 b h w f) ((contrEquiv1 d K hr hs).symm k) = ix2 k f := funext fun a => Fin.ext (by
    match a with
    | ⟨0, _⟩ => exact (d.rhsIdx_val_of_single hrc _ _).trans hk
    | ⟨1, _⟩ => exact h3 _ _)
  rw [el, er]

/-- The host's [B,H,W,K] x [K,C] contraction at (b, h, w, f), on the extended reals. -/
theorem dotGeneral_rows4 {B H W K C : ℕ} {φ₁ φ₂ : FTy} (d : DotDims ⟨4, ![B, H, W, K]⟩ ⟨2, ![K, C]⟩ ⟨4, ![B, H, W, C]⟩)
    (prec : Option ContractPrecision) (sched : HostSchedule)
    (hr : d.contr.rank = 1) (hs : d.contr.size ⟨0, by omega⟩ = K)
    (hlc : d.lhsContracting = [3]) (hrc : d.rhsContracting = [0])
    (h0 : ∀ (i : (⟨4, ![B, H, W, C]⟩ : Shape).Idx) (q : d.contr.Idx), (d.lhsIdx i q 0).val = (i 0).val)
    (h1 : ∀ (i : (⟨4, ![B, H, W, C]⟩ : Shape).Idx) (q : d.contr.Idx), (d.lhsIdx i q 1).val = (i 1).val)
    (h2 : ∀ (i : (⟨4, ![B, H, W, C]⟩ : Shape).Idx) (q : d.contr.Idx), (d.lhsIdx i q 2).val = (i 2).val)
    (h3 : ∀ (i : (⟨4, ![B, H, W, C]⟩ : Shape).Idx) (q : d.contr.Idx), (d.rhsIdx i q 1).val = (i 3).val)
    (l : FVec Ideal ⟨4, ![B, H, W, K]⟩ φ₁) (r : FVec Ideal ⟨2, ![K, C]⟩ φ₂)
    (b : Fin B) (h : Fin H) (w : Fin W) (f : Fin C) :
    FloatOps.dotGeneral d prec sched l r (ix4 b h w f) = ∑ k : Fin K, l (ix4 b h w k) * r (ix2 k f) :=
  (Ideal.dotGeneral_apply d prec sched l r (ix4 b h w f)).trans (sum_contr_rows4 d hr hs hlc hrc h0 h1 h2 h3 l r b h w f)

/-- A sum over n = a * b indices, block by block: block t holds t * b, ..., t * b + b - 1. -/
theorem sum_fin_blocks {M : Type*} [AddCommMonoid M] (a b n : ℕ) (hn : n = a * b) (g : Fin n → M) (g' : Fin a → Fin b → M)
    (hg : ∀ (t : Fin a) (q : Fin b) (hlt : t.val * b + q.val < n), g ⟨t.val * b + q.val, hlt⟩ = g' t q) :
    ∑ r : Fin n, g r = ∑ t : Fin a, ∑ q : Fin b, g' t q := by
  subst hn
  have hlt : ∀ (t : Fin a) (q : Fin b), t.val * b + q.val < a * b := fun t q =>
    calc t.val * b + q.val < t.val * b + b := Nat.add_lt_add_left q.isLt _
      _ = (t.val + 1) * b := (Nat.succ_mul _ _).symm
      _ ≤ a * b := Nat.mul_le_mul_right _ t.isLt
  let G : ℕ → M := fun r => if h : r < a * b then g ⟨r, h⟩ else 0
  calc ∑ r : Fin (a * b), g r = ∑ r : Fin (a * b), G r.val :=
        Finset.sum_congr rfl fun r _ => by
          show g r = dite (r.val < a * b) (fun h => g ⟨r.val, h⟩) (fun _ => 0)
          rw [dif_pos r.isLt]
    _ = ∑ r ∈ Finset.range (a * b), G r := (Finset.sum_range G).symm
    _ = ∑ t ∈ Finset.range a, ∑ q ∈ Finset.range b, G (t * b + q) := (Cert.TenBlocks.sum_range_mul G a b).symm
    _ = ∑ t : Fin a, ∑ q ∈ Finset.range b, G (t.val * b + q) := Finset.sum_range fun t => ∑ q ∈ Finset.range b, G (t * b + q)
    _ = ∑ t : Fin a, ∑ q : Fin b, G (t.val * b + q.val) :=
        Finset.sum_congr rfl fun t _ => Finset.sum_range fun q => G (t.val * b + q)
    _ = ∑ t : Fin a, ∑ q : Fin b, g' t q :=
        Finset.sum_congr rfl fun t _ => Finset.sum_congr rfl fun q _ => (dif_pos (hlt t q)).trans (hg t q (hlt t q))

section Nine
variable {α : Type}

/-- The window of a padded array shifted by (dy, dx), read at (b, h, w, ci): the padded array at (b, h + dy, w + dx, ci). -/
theorem slice_apply {B H W C : ℕ} (xp : (⟨4, ![B, H + 2, W + 2, C]⟩ : Shape).Idx → α) (dy dx : ℕ)
    (hs : (⟨4, ![B, H + 2, W + 2, C]⟩ : Shape).Slices ![0, dy, dx, 0] ⟨4, ![B, H, W, C]⟩)
    (b : Fin B) (h : Fin H) (w : Fin W) (ci : Fin C) (hh : Fin (H + 2)) (ww : Fin (W + 2))
    (e1 : hh.val = h.val + dy) (e2 : ww.val = w.val + dx) :
    extractStridedSlice ⟨4, ![B, H, W, C]⟩ ![0, dy, dx, 0] xp hs (ix4 b h w ci) = xp (ix4 b hh ww ci) :=
  extractStridedSlice_apply _ xp hs _ _ fun a => by
    match a with
    | ⟨0, _⟩ => exact (Nat.zero_add _).symm
    | ⟨1, _⟩ => exact e1.trans (Nat.add_comm _ _)
    | ⟨2, _⟩ => exact e2.trans (Nat.add_comm _ _)
    | ⟨3, _⟩ => exact (Nat.zero_add _).symm

/-- Blocks of one shape [B,H,W,C] side by side along the last axis: when the blocks before block k take up k * C channels,
    channel k * C + ci of the result is channel ci of block k. -/
theorem piece_at {B H W C K : ℕ} (xs : List ((s : Shape) × (s.Idx → α)))
    (hc : Shape.Concatenates (xs.map (·.1)) ⟨4, ![B, H, W, K]⟩ 3)
    (k : ℕ) (hk : k < xs.length) (x₁ : (⟨4, ![B, H, W, C]⟩ : Shape).Idx → α) (hxk : xs[k] = ⟨⟨4, ![B, H, W, C]⟩, x₁⟩)
    (hpre : (((xs.take k).map (·.1)).map fun s => if h : s.rank = 4 then s.size ((3 : Fin 4).cast h.symm) else 0).sum = k * C)
    (b : Fin B) (h : Fin H) (w : Fin W) (ci : Fin C) (hlt : k * C + ci.val < K) :
    concatenate ⟨4, ![B, H, W, K]⟩ 3 xs hc (ix4 b h w ⟨k * C + ci.val, hlt⟩) = x₁ (ix4 b h w ci) := by
  have hi : ∀ b' : Fin 4, b'.cast rfl ≠ (3 : Fin 4) →
      ((ix4 b h w ci : (⟨4, ![B, H, W, C]⟩ : Shape).Idx) b').val
        = ((ix4 b h w ⟨k * C + ci.val, hlt⟩ : (⟨4, ![B, H, W, K]⟩ : Shape).Idx) (b'.cast rfl)).val := fun b' hb => by
    match b', hb with
    | ⟨0, _⟩, _ => rfl
    | ⟨1, _⟩, _ => rfl
    | ⟨2, _⟩, _ => rfl
    | ⟨3, _⟩, hb => exact absurd rfl hb
  have ha : k * C + ((ix4 b h w ci : (⟨4, ![B, H, W, C]⟩ : Shape).Idx) ((3 : Fin 4).cast rfl)).val
      = ((ix4 b h w ⟨k * C + ci.val, hlt⟩ : (⟨4, ![B, H, W, K]⟩ : Shape).Idx) 3).val := rfl
  exact concatenate_apply_piece (3 : Fin 4) xs hc (ix4 b h w ⟨k * C + ci.val, hlt⟩) k hk ⟨4, ![B, H, W, C]⟩ x₁ hxk rfl (k * C) hpre
    (ix4 b h w ci) hi ha

/-- The nine windows of a padded array [B,H+2,W+2,C] shifted by (dy, dx) = (0,0), (0,1), (0,2), (1,0), ..., (2,2). -/
abbrev nineWindows {B H W C : ℕ} (xp : (⟨4, ![B, H + 2, W + 2, C]⟩ : Shape).Idx → α)
    (s00 : (⟨4, ![B, H + 2, W + 2, C]⟩ : Shape).Slices ![0, 0, 0, 0] ⟨4, ![B, H, W, C]⟩)
    (s01 : (⟨4, ![B, H + 2, W + 2, C]⟩ : Shape).Slices ![0, 0, 1, 0] ⟨4, ![B, H, W, C]⟩)
    (s02 : (⟨4, ![B, H + 2, W + 2, C]⟩ : Shape).Slices ![0, 0, 2, 0] ⟨4, ![B, H, W, C]⟩)
    (s10 : (⟨4, ![B, H + 2, W + 2, C]⟩ : Shape).Slices ![0, 1, 0, 0] ⟨4, ![B, H, W, C]⟩)
    (s11 : (⟨4, ![B, H + 2, W + 2, C]⟩ : Shape).Slices ![0, 1, 1, 0] ⟨4, ![B, H, W, C]⟩)
    (s12 : (⟨4, ![B, H + 2, W + 2, C]⟩ : Shape).Slices ![0, 1, 2, 0] ⟨4, ![B, H, W, C]⟩)
    (s20 : (⟨4, ![B, H + 2, W + 2, C]⟩ : Shape).Slices ![0, 2, 0, 0] ⟨4, ![B, H, W, C]⟩)
    (s21 : (⟨4, ![B, H + 2, W + 2, C]⟩ : Shape).Slices ![0, 2, 1, 0] ⟨4, ![B, H, W, C]⟩)
    (s22 : (⟨4, ![B, H + 2, W + 2, C]⟩ : Shape).Slices ![0, 2, 2, 0] ⟨4, ![B, H, W, C]⟩) :
    List ((s : Shape) × (s.Idx → α)) :=
  [⟨⟨4, ![B, H, W, C]⟩, extractStridedSlice ⟨4, ![B, H, W, C]⟩ ![0, 0, 0, 0] xp s00⟩,
   ⟨⟨4, ![B, H, W, C]⟩, extractStridedSlice ⟨4, ![B, H, W, C]⟩ ![0, 0, 1, 0] xp s01⟩,
   ⟨⟨4, ![B, H, W, C]⟩, extractStridedSlice ⟨4, ![B, H, W, C]⟩ ![0, 0, 2, 0] xp s02⟩,
   ⟨⟨4, ![B, H, W, C]⟩, extractStridedSlice ⟨4, ![B, H, W, C]⟩ ![0, 1, 0, 0] xp s10⟩,
   ⟨⟨4, ![B, H, W, C]⟩, extractStridedSlice ⟨4, ![B, H, W, C]⟩ ![0, 1, 1, 0] xp s11⟩,
   ⟨⟨4, ![B, H, W, C]⟩, extractStridedSlice ⟨4, ![B, H, W, C]⟩ ![0, 1, 2, 0] xp s12⟩,
   ⟨⟨4, ![B, H, W, C]⟩, extractStridedSlice ⟨4, ![B, H, W, C]⟩ ![0, 2, 0, 0] xp s20⟩,
   ⟨⟨4, ![B, H, W, C]⟩, extractStridedSlice ⟨4, ![B, H, W, C]⟩ ![0, 2, 1, 0] xp s21⟩,
   ⟨⟨4, ![B, H, W, C]⟩, extractStridedSlice ⟨4, ![B, H, W, C]⟩ ![0, 2, 2, 0] xp s22⟩]

/-- Nine shifted windows of a padded array side by side along the last axis, read at channel tap * C + ci:
    the padded array at (b, h + tap / 3, w + tap % 3, ci). -/
theorem nine_windows_apply {B H W C K : ℕ} (xp : (⟨4, ![B, H + 2, W + 2, C]⟩ : Shape).Idx → α)
    (s00 : (⟨4, ![B, H + 2, W + 2, C]⟩ : Shape).Slices ![0, 0, 0, 0] ⟨4, ![B, H, W, C]⟩)
    (s01 : (⟨4, ![B, H + 2, W + 2, C]⟩ : Shape).Slices ![0, 0, 1, 0] ⟨4, ![B, H, W, C]⟩)
    (s02 : (⟨4, ![B, H + 2, W + 2, C]⟩ : Shape).Slices ![0, 0, 2, 0] ⟨4, ![B, H, W, C]⟩)
    (s10 : (⟨4, ![B, H + 2, W + 2, C]⟩ : Shape).Slices ![0, 1, 0, 0] ⟨4, ![B, H, W, C]⟩)
    (s11 : (⟨4, ![B, H + 2, W + 2, C]⟩ : Shape).Slices ![0, 1, 1, 0] ⟨4, ![B, H, W, C]⟩)
    (s12 : (⟨4, ![B, H + 2, W + 2, C]⟩ : Shape).Slices ![0, 1, 2, 0] ⟨4, ![B, H, W, C]⟩)
    (s20 : (⟨4, ![B, H + 2, W + 2, C]⟩ : Shape).Slices ![0, 2, 0, 0] ⟨4, ![B, H, W, C]⟩)
    (s21 : (⟨4, ![B, H + 2, W + 2, C]⟩ : Shape).Slices ![0, 2, 1, 0] ⟨4, ![B, H, W, C]⟩)
    (s22 : (⟨4, ![B, H + 2, W + 2, C]⟩ : Shape).Slices ![0, 2, 2, 0] ⟨4, ![B, H, W, C]⟩)
    (hc : Shape.Concatenates ((nineWindows xp s00 s01 s02 s10 s11 s12 s20 s21 s22).map (·.1)) ⟨4, ![B, H, W, K]⟩ 3)
    (b : Fin B) (h : Fin H) (w : Fin W) (tap : Fin 9) (ci : Fin C) (hlt : tap.val * C + ci.val < K) :
    concatenate ⟨4, ![B, H, W, K]⟩ 3 (nineWindows xp s00 s01 s02 s10 s11 s12 s20 s21 s22) hc (ix4 b h w ⟨tap.val * C + ci.val, hlt⟩)
      = xp (ix4 b ⟨h.val + tap.val / 3, by have := tap.isLt; omega⟩ ⟨w.val + tap.val % 3, by omega⟩ ci) := by
  match tap, hlt with
  | ⟨0, _⟩, hlt =>
    exact (piece_at (nineWindows xp s00 s01 s02 s10 s11 s12 s20 s21 s22) hc 0 (by show 0 < 9; decide) _ rfl (by show 0 = 0 * C; omega) b h w ci hlt).trans
      (slice_apply xp 0 0 s00 b h w ci _ _ (by simp) (by simp))
  | ⟨1, _⟩, hlt =>
    exact (piece_at (nineWindows xp s00 s01 s02 s10 s11 s12 s20 s21 s22) hc 1 (by show 1 < 9; decide) _ rfl (by show C = 1 * C; omega) b h w ci hlt).trans
      (slice_apply xp 0 1 s01 b h w ci _ _ (by simp) (by simp))
  | ⟨2, _⟩, hlt =>
    exact (piece_at (nineWindows xp s00 s01 s02 s10 s11 s12 s20 s21 s22) hc 2 (by show 2 < 9; decide) _ rfl (by show C + (C + 0) = 2 * C; omega) b h w ci hlt).trans
      (slice_apply xp 0 2 s02 b h w ci _ _ (by simp) (by simp))
  | ⟨3, _⟩, hlt =>
    exact (piece_at (nineWindows xp s00 s01 s02 s10 s11 s12 s20 s21 s22) hc 3 (by show 3 < 9; decide) _ rfl (by show C + (C + (C + 0)) = 3 * C; omega) b h w ci hlt).trans
      (slice_apply xp 1 0 s10 b h w ci _ _ (by simp) (by simp))
  | ⟨4, _⟩, hlt =>
    exact (piece_at (nineWindows xp s00 s01 s02 s10 s11 s12 s20 s21 s22) hc 4 (by show 4 < 9; decide) _ rfl (by show C + (C + (C + (C + 0))) = 4 * C; omega) b h w ci hlt).trans
      (slice_apply xp 1 1 s11 b h w ci _ _ (by simp) (by simp))
  | ⟨5, _⟩, hlt =>
    exact (piece_at (nineWindows xp s00 s01 s02 s10 s11 s12 s20 s21 s22) hc 5 (by show 5 < 9; decide) _ rfl (by show C + (C + (C + (C + (C + 0)))) = 5 * C; omega) b h w ci hlt).trans
      (slice_apply xp 1 2 s12 b h w ci _ _ (by simp) (by simp))
  | ⟨6, _⟩, hlt =>
    exact (piece_at (nineWindows xp s00 s01 s02 s10 s11 s12 s20 s21 s22) hc 6 (by show 6 < 9; decide) _ rfl (by show C + (C + (C + (C + (C + (C + 0))))) = 6 * C; omega) b h w ci hlt).trans
      (slice_apply xp 2 0 s20 b h w ci _ _ (by simp) (by simp))
  | ⟨7, _⟩, hlt =>
    exact (piece_at (nineWindows xp s00 s01 s02 s10 s11 s12 s20 s21 s22) hc 7 (by show 7 < 9; decide) _ rfl (by show C + (C + (C + (C + (C + (C + (C + 0)))))) = 7 * C; omega) b h w ci hlt).trans
      (slice_apply xp 2 1 s21 b h w ci _ _ (by simp) (by simp))
  | ⟨8, _⟩, hlt =>
    exact (piece_at (nineWindows xp s00 s01 s02 s10 s11 s12 s20 s21 s22) hc 8 (by show 8 < 9; decide) _ rfl (by show C + (C + (C + (C + (C + (C + (C + (C + 0))))))) = 8 * C; omega) b h w ci hlt).trans
      (slice_apply xp 2 2 s22 b h w ci _ _ (by simp) (by simp))

end Nine

end Cert.ConvRefLib

end
-- ==== Proof.RV.Conv0Ref.lean ====
/-
  Convolution layer 0 of the reference, read at an index.

  The layer is written as nine shifted windows of the padded input laid side by side along the channel axis, the
  lower time bound subtracted, one contraction of the 9 channels with the weights, the upper bound minus the
  threshold map added, and the cap at the upper bound. At (b, h, w, f): channel tap * 1 + ci of the nine windows is
  the padded input at (b, h + tap / 3, w + tap % 3, ci); the contraction is the sum over the 9 channels of the
  products with row k of the weights; the 9 channels are the nine blocks of 1; the threshold map is stretched
  along the batch axis, so it is read at (h, w, f); the two bounds are constants.
-/
import proofs.«142023_j26104811225511_2_alg».proof.Proof.Ref.Layers
import proofs.«142023_j26104811225511_2_alg».proof.Proof.Spec
import proofs.«142023_j26104811225511_2_alg».proof.Proof.RV.ConvRefLib

noncomputable section

namespace Cert.ReferenceIdeal.Hand

open Cert.ReferenceIdeal Idealize.ShloMosaic Idealize.ShloMosaic.ValueIdx
open Facts₀ Facts

/-- The nine windows of layer 0 side by side, at channel tap * 1 + ci: the padded input at (b, h + tap / 3, w + tap % 3, ci). -/
theorem taps0_apply (xp : FVec Ideal S32x66x66x1 .f32) (b : Fin 32) (h : Fin 64) (w : Fin 64) (tap : Fin 9) (ci : Fin 1)
    (hlt : tap.val * 1 + ci.val < 9) :
    taps0 (F := Ideal) xp (ix4 b h w ⟨tap.val * 1 + ci.val, hlt⟩)
      = xp (ix4 b ⟨h.val + tap.val / 3, by have := tap.isLt; omega⟩ ⟨w.val + tap.val % 3, by omega⟩ ci) :=
  Cert.ConvRefLib.nine_windows_apply (B := 32) (H := 64) (W := 64) (C := 1) (K := 9) xp _ _ _ _ _ _ _ _ _ _ b h w tap ci hlt

/-- Layer 0's contraction at (b, h, w, f): the sum over the 9 channels. -/
theorem dot0_apply (l : FVec Ideal S32x64x64x9 .f32) (Wt : FVec Ideal S9x64 .f32) (b : Fin 32) (h : Fin 64) (w : Fin 64) (f : Fin 64) :
    Host.dotGeneral dot_S32x64x64x9_S9x64_S32x64x64x64_3_0_012_1_n_n none l Wt (ix4 b h w f) = ∑ k : Fin 9, l (ix4 b h w k) * Wt (ix2 k f) :=
  Cert.ConvRefLib.dotGeneral_rows4 (B := 32) (H := 64) (W := 64) (K := 9) (C := 64) dot_S32x64x64x9_S9x64_S32x64x64x64_3_0_012_1_n_n none .single
    (by rfl) (by rfl) rfl rfl
    (fun i q => by simp [DotDims.lhsIdx, dot_S32x64x64x9_S9x64_S32x64x64x64_3_0_012_1_n_n]; rfl)
    (fun i q => by simp [DotDims.lhsIdx, dot_S32x64x64x9_S9x64_S32x64x64x64_3_0_012_1_n_n]; rfl)
    (fun i q => by simp [DotDims.lhsIdx, dot_S32x64x64x9_S9x64_S32x64x64x64_3_0_012_1_n_n]; rfl)
    (fun i q => by simp [DotDims.rhsIdx, dot_S32x64x64x9_S9x64_S32x64x64x64_3_0_012_1_n_n]; rfl)
    l Wt b h w f

/-- Layer 0 of the reference is the layer of the specification, index by index. -/
theorem conv0_eq (xp : FVec Ideal S32x66x66x1 .f32) (W : FVec Ideal S9x64 .f32) (Dm : FVec Ideal S64x64x64 .f32) :
    conv0 (F := Ideal) xp W Dm = Cert.Spec.convG0 xp W Dm := by
  funext i
  obtain ⟨b, h, w, f, rfl⟩ : ∃ b h w f, i = ix4 b h w f := ⟨i 0, i 1, i 2, i 3, eq_ix4 i⟩
  show _ = Cert.Spec.convPt0 xp W Dm b h w f
  unfold conv0 Cert.Spec.convPt0
  refine (minimumf_apply _ _ _).trans (congrArg₂ min ((addf_apply _ _ _).trans (congrArg₂ (· + ·) ?_ ?_)) rfl)
  · -- the contraction
    refine (dot0_apply _ W b h w f).trans ?_
    refine Cert.ConvRefLib.sum_fin_blocks 9 1 9 rfl _ _ fun tap ci hlt => ?_
    refine congrArg₂ (· * ·) ((subf_apply _ _ _).trans (congrArg₂ (· - ·) (taps0_apply xp b h w tap ci hlt) rfl)) rfl
  · -- the threshold map, stretched along the batch axis
    refine (broadcastInDim_apply _ _ _ (ix4 b h w f) (ix4 (0 : Fin 1) h w f) fun a => ?_).trans ?_
    · match a with
      | ⟨0, _⟩ => rfl
      | ⟨1, _⟩ => rfl
      | ⟨2, _⟩ => rfl
      | ⟨3, _⟩ => rfl
    refine (broadcastInDim_apply _ _ _ (ix4 (0 : Fin 1) h w f) (ix3 h w f) fun a => ?_).trans rfl
    match a with
    | ⟨0, _⟩ => rfl
    | ⟨1, _⟩ => rfl
    | ⟨2, _⟩ => rfl

end Cert.ReferenceIdeal.Hand

end
-- ==== Proof.RV.Conv1Ref.lean ====
/-
  Convolution layer 1 of the reference, read at an index.

  The layer is written as nine shifted windows of the padded input laid side by side along the channel axis, the
  lower time bound subtracted, one contraction of the 576 channels with the weights, the upper bound minus the
  threshold map added, and the cap at the upper bound. At (b, h, w, f): channel tap * 64 + ci of the nine windows is
  the padded input at (b, h + tap / 3, w + tap % 3, ci); the contraction is the sum over the 576 channels of the
  products with row k of the weights; the 576 channels are the nine blocks of 64; the threshold map is stretched
  along the batch axis, so it is read at (h, w, f); the two bounds are constants.
-/
import proofs.«142023_j26104811225511_2_alg».proof.Proof.Ref.Layers
import proofs.«142023_j26104811225511_2_alg».proof.Proof.Spec
import proofs.«142023_j26104811225511_2_alg».proof.Proof.RV.ConvRefLib

noncomputable section

namespace Cert.ReferenceIdeal.Hand

open Cert.ReferenceIdeal Idealize.ShloMosaic Idealize.ShloMosaic.ValueIdx
open Facts₀ Facts

/-- The nine windows of layer 1 side by side, at channel tap * 64 + ci: the padded input at (b, h + tap / 3, w + tap % 3, ci). -/
theorem taps1_apply (xp : FVec Ideal S32x66x66x64 .f32) (b : Fin 32) (h : Fin 64) (w : Fin 64) (tap : Fin 9) (ci : Fin 64)
    (hlt : tap.val * 64 + ci.val < 576) :
    taps1 (F := Ideal) xp (ix4 b h w ⟨tap.val * 64 + ci.val, hlt⟩)
      = xp (ix4 b ⟨h.val + tap.val / 3, by have := tap.isLt; omega⟩ ⟨w.val + tap.val % 3, by omega⟩ ci) :=
  Cert.ConvRefLib.nine_windows_apply (B := 32) (H := 64) (W := 64) (C := 64) (K := 576) xp _ _ _ _ _ _ _ _ _ _ b h w tap ci hlt

/-- Layer 1's contraction at (b, h, w, f): the sum over the 576 channels. -/
theorem dot1_apply (l : FVec Ideal S32x64x64x576 .f32) (Wt : FVec Ideal S576x64 .f32) (b : Fin 32) (h : Fin 64) (w : Fin 64) (f : Fin 64) :
    Host.dotGeneral dot_S32x64x64x576_S576x64_S32x64x64x64_3_0_012_1_n_n none l Wt (ix4 b h w f) = ∑ k : Fin 576, l (ix4 b h w k) * Wt (ix2 k f) :=
  Cert.ConvRefLib.dotGeneral_rows4 (B := 32) (H := 64) (W := 64) (K := 576) (C := 64) dot_S32x64x64x576_S576x64_S32x64x64x64_3_0_012_1_n_n none .single
    (by rfl) (by rfl) rfl rfl
    (fun i q => by simp [DotDims.lhsIdx, dot_S32x64x64x576_S576x64_S32x64x64x64_3_0_012_1_n_n]; rfl)
    (fun i q => by simp [DotDims.lhsIdx, dot_S32x64x64x576_S576x64_S32x64x64x64_3_0_012_1_n_n]; rfl)
    (fun i q => by simp [DotDims.lhsIdx, dot_S32x64x64x576_S576x64_S32x64x64x64_3_0_012_1_n_n]; rfl)
    (fun i q => by simp [DotDims.rhsIdx, dot_S32x64x64x576_S576x64_S32x64x64x64_3_0_012_1_n_n]; rfl)
    l Wt b h w f

/-- Layer 1 of the reference is the layer of the specification, index by index. -/
theorem conv1_eq (xp : FVec Ideal S32x66x66x64 .f32) (W : FVec Ideal S576x64 .f32) (Dm : FVec Ideal S64x64x64 .f32) :
    conv1 (F := Ideal) xp W Dm = Cert.Spec.convG1 xp W Dm := by
  funext i
  obtain ⟨b, h, w, f, rfl⟩ : ∃ b h w f, i = ix4 b h w f := ⟨i 0, i 1, i 2, i 3, eq_ix4 i⟩
  show _ = Cert.Spec.convPt1 xp W Dm b h w f
  unfold conv1 Cert.Spec.convPt1
  refine (minimumf_apply _ _ _).trans (congrArg₂ min ((addf_apply _ _ _).trans (congrArg₂ (· + ·) ?_ ?_)) rfl)
  · -- the contraction
    refine (dot1_apply _ W b h w f).trans ?_
    refine Cert.ConvRefLib.sum_fin_blocks 9 64 576 rfl _ _ fun tap ci hlt => ?_
    refine congrArg₂ (· * ·) ((subf_apply _ _ _).trans (congrArg₂ (· - ·) (taps1_apply xp b h w tap ci hlt) rfl)) rfl
  · -- the threshold map, stretched along the batch axis
    refine (broadcastInDim_apply _ _ _ (ix4 b h w f) (ix4 (0 : Fin 1) h w f) fun a => ?_).trans ?_
    · match a with
      | ⟨0, _⟩ => rfl
      | ⟨1, _⟩ => rfl
      | ⟨2, _⟩ => rfl
      | ⟨3, _⟩ => rfl
    refine (broadcastInDim_apply _ _ _ (ix4 (0 : Fin 1) h w f) (ix3 h w f) fun a => ?_).trans rfl
    match a with
    | ⟨0, _⟩ => rfl
    | ⟨1, _⟩ => rfl
    | ⟨2, _⟩ => rfl

end Cert.ReferenceIdeal.Hand

end
-- ==== Proof.RV.Conv2Ref.lean ====
/-
  Convolution layer 2 of the reference, read at an index.

  The layer is written as nine shifted windows of the padded input laid side by side along the channel axis, the
  lower time bound subtracted, one contraction of the 576 channels with the weights, the upper bound minus the
  threshold map added, and the cap at the upper bound. At (b, h, w, f): channel tap * 64 + ci of the nine windows is
  the padded input at (b, h + tap / 3, w + tap % 3, ci); the contraction is the sum over the 576 channels of the
  products with row k of the weights; the 576 channels are the nine blocks of 64; the threshold map is stretched
  along the batch axis, so it is read at (h, w, f); the two bounds are constants.
-/
import proofs.«142023_j26104811225511_2_alg».proof.Proof.Ref.Layers
import proofs.«142023_j26104811225511_2_alg».proof.Proof.Spec
import proofs.«142023_j26104811225511_2_alg».proof.Proof.RV.ConvRefLib

noncomputable section

namespace Cert.ReferenceIdeal.Hand

open Cert.ReferenceIdeal Idealize.ShloMosaic Idealize.ShloMosaic.ValueIdx
open Facts₀ Facts

/-- The nine windows of layer 2 side by side, at channel tap * 64 + ci: the padded input at (b, h + tap / 3, w + tap % 3, ci). -/
theorem taps2_apply (xp : FVec Ideal S32x34x34x64 .f32) (b : Fin 32) (h : Fin 32) (w : Fin 32) (tap : Fin 9) (ci : Fin 64)
    (hlt : tap.val * 64 + ci.val < 576) :
    taps2 (F := Ideal) xp (ix4 b h w ⟨tap.val * 64 + ci.val, hlt⟩)
      = xp (ix4 b ⟨h.val + tap.val / 3, by have := tap.isLt; omega⟩ ⟨w.val + tap.val % 3, by omega⟩ ci) :=
  Cert.ConvRefLib.nine_windows_apply (B := 32) (H := 32) (W := 32) (C := 64) (K := 576) xp _ _ _ _ _ _ _ _ _ _ b h w tap ci hlt

/-- Layer 2's contraction at (b, h, w, f): the sum over the 576 channels. -/
theorem dot2_apply (l : FVec Ideal S32x32x32x576 .f32) (Wt : FVec Ideal S576x128 .f32) (b : Fin 32) (h : Fin 32) (w : Fin 32) (f : Fin 128) :
    Host.dotGeneral dot_S32x32x32x576_S576x128_S32x32x32x128_3_0_012_1_n_n none l Wt (ix4 b h w f) = ∑ k : Fin 576, l (ix4 b h w k) * Wt (ix2 k f) :=
  Cert.ConvRefLib.dotGeneral_rows4 (B := 32) (H := 32) (W := 32) (K := 576) (C := 128) dot_S32x32x32x576_S576x128_S32x32x32x128_3_0_012_1_n_n none .single
    (by rfl) (by rfl) rfl rfl
    (fun i q => by simp [DotDims.lhsIdx, dot_S32x32x32x576_S576x128_S32x32x32x128_3_0_012_1_n_n]; rfl)
    (fun i q => by simp [DotDims.lhsIdx, dot_S32x32x32x576_S576x128_S32x32x32x128_3_0_012_1_n_n]; rfl)
    (fun i q => by simp [DotDims.lhsIdx, dot_S32x32x32x576_S576x128_S32x32x32x128_3_0_012_1_n_n]; rfl)
    (fun i q => by simp [DotDims.rhsIdx, dot_S32x32x32x576_S576x128_S32x32x32x128_3_0_012_1_n_n]; rfl)
    l Wt b h w f

/-- Layer 2 of the reference is the layer of the specification, index by index. -/
theorem conv2_eq (xp : FVec Ideal S32x34x34x64 .f32) (W : FVec Ideal S576x128 .f32) (Dm : FVec Ideal S32x32x128 .f32) :
    conv2 (F := Ideal) xp W Dm = Cert.Spec.convG2 xp W Dm := by
  funext i
  obtain ⟨b, h, w, f, rfl⟩ : ∃ b h w f, i = ix4 b h w f := ⟨i 0, i 1, i 2, i 3, eq_ix4 i⟩
  show _ = Cert.Spec.convPt2 xp W Dm b h w f
  unfold conv2 Cert.Spec.convPt2
  refine (minimumf_apply _ _ _).trans (congrArg₂ min ((addf_apply _ _ _).trans (congrArg₂ (· + ·) ?_ ?_)) rfl)
  · -- the contraction
    refine (dot2_apply _ W b h w f).trans ?_
    refine Cert.ConvRefLib.sum_fin_blocks 9 64 576 rfl _ _ fun tap ci hlt => ?_
    refine congrArg₂ (· * ·) ((subf_apply _ _ _).trans (congrArg₂ (· - ·) (taps2_apply xp b h w tap ci hlt) rfl)) rfl
  · -- the threshold map, stretched along the batch axis
    refine (broadcastInDim_apply _ _ _ (ix4 b h w f) (ix4 (0 : Fin 1) h w f) fun a => ?_).trans ?_
    · match a with
      | ⟨0, _⟩ => rfl
      | ⟨1, _⟩ => rfl
      | ⟨2, _⟩ => rfl
      | ⟨3, _⟩ => rfl
    refine (broadcastInDim_apply _ _ _ (ix4 (0 : Fin 1) h w f) (ix3 h w f) fun a => ?_).trans rfl
    match a with
    | ⟨0, _⟩ => rfl
    | ⟨1, _⟩ => rfl
    | ⟨2, _⟩ => rfl

end Cert.ReferenceIdeal.Hand

end
-- ==== Proof.RV.Conv3Ref.lean ====
/-
  Convolution layer 3 of the reference, read at an index.

  The layer is written as nine shifted windows of the padded input laid side by side along the channel axis, the
  lower time bound subtracted, one contraction of the 1152 channels with the weights, the upper bound minus the
  threshold map added, and the cap at the upper bound. At (b, h, w, f): channel tap * 128 + ci of the nine windows is
  the padded input at (b, h + tap / 3, w + tap % 3, ci); the contraction is the sum over the 1152 channels of the
  products with row k of the weights; the 1152 channels are the nine blocks of 128; the threshold map is stretched
  along the batch axis, so it is read at (h, w, f); the two bounds are constants.
-/
import proofs.«142023_j26104811225511_2_alg».proof.Proof.Ref.Layers
import proofs.«142023_j26104811225511_2_alg».proof.Proof.Spec
import proofs.«142023_j26104811225511_2_alg».proof.Proof.RV.ConvRefLib

noncomputable section

namespace Cert.ReferenceIdeal.Hand

open Cert.ReferenceIdeal Idealize.ShloMosaic Idealize.ShloMosaic.ValueIdx
open Facts₀ Facts

/-- The nine windows of layer 3 side by side, at channel tap * 128 + ci: the padded input at (b, h + tap / 3, w + tap % 3, ci). -/
theorem taps3_apply (xp : FVec Ideal S32x34x34x128 .f32) (b : Fin 32) (h : Fin 32) (w : Fin 32) (tap : Fin 9) (ci : Fin 128)
    (hlt : tap.val * 128 + ci.val < 1152) :
    taps3 (F := Ideal) xp (ix4 b h w ⟨tap.val * 128 + ci.val, hlt⟩)
      = xp (ix4 b ⟨h.val + tap.val / 3, by have := tap.isLt; omega⟩ ⟨w.val + tap.val % 3, by omega⟩ ci) :=
  Cert.ConvRefLib.nine_windows_apply (B := 32) (H := 32) (W := 32) (C := 128) (K := 1152) xp _ _ _ _ _ _ _ _ _ _ b h w tap ci hlt

/-- Layer 3's contraction at (b, h, w, f): the sum over the 1152 channels. -/
theorem dot3_apply (l : FVec Ideal S32x32x32x1152 .f32) (Wt : FVec Ideal S1152x128 .f32) (b : Fin 32) (h : Fin 32) (w : Fin 32) (f : Fin 128) :
    Host.dotGeneral dot_S32x32x32x1152_S1152x128_S32x32x32x128_3_0_012_1_n_n none l Wt (ix4 b h w f) = ∑ k : Fin 1152, l (ix4 b h w k) * Wt (ix2 k f) :=
  Cert.ConvRefLib.dotGeneral_rows4 (B := 32) (H := 32) (W := 32) (K := 1152) (C := 128) dot_S32x32x32x1152_S1152x128_S32x32x32x128_3_0_012_1_n_n none .single
    (by rfl) (by rfl) rfl rfl
    (fun i q => by simp [DotDims.lhsIdx, dot_S32x32x32x1152_S1152x128_S32x32x32x128_3_0_012_1_n_n]; rfl)
    (fun i q => by simp [DotDims.lhsIdx, dot_S32x32x32x1152_S1152x128_S32x32x32x128_3_0_012_1_n_n]; rfl)
    (fun i q => by simp [DotDims.lhsIdx, dot_S32x32x32x1152_S1152x128_S32x32x32x128_3_0_012_1_n_n]; rfl)
    (fun i q => by simp [DotDims.rhsIdx, dot_S32x32x32x1152_S1152x128_S32x32x32x128_3_0_012_1_n_n]; rfl)
    l Wt b h w f

/-- Layer 3 of the reference is the layer of the specification, index by index. -/
theorem conv3_eq (xp : FVec Ideal S32x34x34x128 .f32) (W : FVec Ideal S1152x128 .f32) (Dm : FVec Ideal S32x32x128 .f32) :
    conv3 (F := Ideal) xp W Dm = Cert.Spec.convG3 xp W Dm := by
  funext i
  obtain ⟨b, h, w, f, rfl⟩ : ∃ b h w f, i = ix4 b h w f := ⟨i 0, i 1, i 2, i 3, eq_ix4 i⟩
  show _ = Cert.Spec.convPt3 xp W Dm b h w f
  unfold conv3 Cert.Spec.convPt3
  refine (minimumf_apply _ _ _).trans (congrArg₂ min ((addf_apply _ _ _).trans (congrArg₂ (· + ·) ?_ ?_)) rfl)
  · -- the contraction
    refine (dot3_apply _ W b h w f).trans ?_
    refine Cert.ConvRefLib.sum_fin_blocks 9 128 1152 rfl _ _ fun tap ci hlt => ?_
    refine congrArg₂ (· * ·) ((subf_apply _ _ _).trans (congrArg₂ (· - ·) (taps3_apply xp b h w tap ci hlt) rfl)) rfl
  · -- the threshold map, stretched along the batch axis
    refine (broadcastInDim_apply _ _ _ (ix4 b h w f) (ix4 (0 : Fin 1) h w f) fun a => ?_).trans ?_
    · match a with
      | ⟨0, _⟩ => rfl
      | ⟨1, _⟩ => rfl
      | ⟨2, _⟩ => rfl
      | ⟨3, _⟩ => rfl
    refine (broadcastInDim_apply _ _ _ (ix4 (0 : Fin 1) h w f) (ix3 h w f) fun a => ?_).trans rfl
    match a with
    | ⟨0, _⟩ => rfl
    | ⟨1, _⟩ => rfl
    | ⟨2, _⟩ => rfl

end Cert.ReferenceIdeal.Hand

end
-- ==== Proof.RV.DenseRef.lean ====
/-
  The reference's two dense layers at the extended reals, index by index.
  The output layer at (i, j) is D[j] + Σ_k (7500 − x[i, k]) · W[k, j]: the bias vector broadcast to a row and then to every
  row reads D[j]; the host's plain product reads the row-by-column sum.
  The first dense layer at (i, j) is the contraction over 32768 plus (7500 − D[j]), capped at 7500; the sum over 32768
  consecutive indices is the sum over eight tiles of 4096 (index tile · 4096 + k), the form the layer's specification has.
-/
import proofs.«142023_j26104811225511_2_alg».proof.Proof.Ref.Layers
import proofs.«142023_j26104811225511_2_alg».proof.Proof.Spec
import proofs.«142023_j26104811225511_2_alg».proof.Proof.LibDotRows
import proofs.«142023_j26104811225511_2_alg».proof.Proof.LibTenBlocks
import Idealize.ShloMosaic.Lib.ValueIdx
import Idealize.ShloMosaic.Lib.Pipeline.Value

noncomputable section

namespace Cert.ReferenceIdeal.Hand

open Cert.ReferenceIdeal Idealize.ShloMosaic Idealize.ShloMosaic.ValueIdx
open Facts₀ Facts
open scoped BigOperators

/-- In the output layer's product the left operand's row coordinate is the output's row, -/
theorem dotOut_lhs_row (i : S32x10.Idx) (q : dot_S32x256_S256x10_S32x10_1_0_0_1_n_n.contr.Idx) :
    (dot_S32x256_S256x10_S32x10_1_0_0_1_n_n.lhsIdx i q 0).val = (i 0).val := rfl
/-- and the right operand's column coordinate is the output's column. -/
theorem dotOut_rhs_col (i : S32x10.Idx) (q : dot_S32x256_S256x10_S32x10_1_0_0_1_n_n.contr.Idx) :
    (dot_S32x256_S256x10_S32x10_1_0_0_1_n_n.rhsIdx i q 1).val = (i 1).val := rfl

/-- The output layer is its specification, index by index. -/
theorem outl_eq (x : FVec Ideal S32x256 .f32) (W : FVec Ideal S256x10 .f32) (D : FVec Ideal S10 .f32) :
    outl (F := Ideal) x W D = Cert.Spec.outG x W D := by
  funext y
  obtain ⟨a, b, rfl⟩ : ∃ a b, y = ix2 a b := ⟨y 0, y 1, eq_ix2 y⟩
  unfold outl
  rw [addf_apply]
  show _ + _ = D (ix1 b) + ∑ k : Fin 256, (Cert.Spec.t7500 - x (ix2 a k)) * W (ix2 k b)
  congr 1
  · rw [broadcastInDim_apply (t := S32x10) ![0, 1] _ _ (ix2 a b) (ix2 (0 : Fin 1) b) (fun ax => by
        match ax with
        | ⟨0, _⟩ => rfl
        | ⟨1, _⟩ => rfl),
      broadcastInDim_apply (t := S1x10) ![1] _ _ (ix2 (0 : Fin 1) b) (ix1 b) (fun ax => by
        match ax with
        | ⟨0, _⟩ => rfl)]
  · refine (Cert.LibDotRows.dotGeneral_rows (N := 32) (K := 256) (H := 10) dot_S32x256_S256x10_S32x10_1_0_0_1_n_n none _
      rfl rfl rfl rfl dotOut_lhs_row dotOut_rhs_col _ _ a b).trans ?_
    refine Finset.sum_congr rfl fun k _ => ?_
    rfl

/-- A sum over 32768 consecutive indices is the sum over eight tiles of 4096. -/
theorem sum_tiles (f : Fin 32768 → EReal) :
    ∑ k : Fin 32768, f k = ∑ tile : Fin 8, ∑ k : Fin 4096, f ⟨tile.val * 4096 + k.val, by omega⟩ := by
  let g : ℕ → EReal := fun r => if h : r < 32768 then f ⟨r, h⟩ else 0
  have hg : ∀ (r : ℕ) (h : r < 32768), g r = f ⟨r, h⟩ := fun r h => dif_pos h
  calc ∑ k : Fin 32768, f k = ∑ k : Fin 32768, g k.val := Finset.sum_congr rfl fun k _ => (hg k.val k.isLt).symm
    _ = ∑ r ∈ Finset.range (8 * 4096), g r := (Finset.sum_range g).symm
    _ = ∑ t ∈ Finset.range 8, ∑ q ∈ Finset.range 4096, g (t * 4096 + q) := (Cert.TenBlocks.sum_range_mul g 8 4096).symm
    _ = ∑ t : Fin 8, ∑ q : Fin 4096, g (t.val * 4096 + q.val) := by
        rw [Finset.sum_range]
        exact Finset.sum_congr rfl fun t _ => Finset.sum_range fun q => g (t.val * 4096 + q)
    _ = ∑ tile : Fin 8, ∑ k : Fin 4096, f ⟨tile.val * 4096 + k.val, by omega⟩ :=
        Finset.sum_congr rfl fun t _ => Finset.sum_congr rfl fun q _ => hg _ _

/-- In the first dense layer's product the left operand's row coordinate is the output's row, -/
theorem dotDense_lhs_row (i : S32x256.Idx) (q : dot_S32x32768_S32768x256_S32x256_1_0_0_1_n_n.contr.Idx) :
    (dot_S32x32768_S32768x256_S32x256_1_0_0_1_n_n.lhsIdx i q 0).val = (i 0).val := rfl
/-- and the right operand's column coordinate is the output's column. -/
theorem dotDense_rhs_col (i : S32x256.Idx) (q : dot_S32x32768_S32768x256_S32x256_1_0_0_1_n_n.contr.Idx) :
    (dot_S32x32768_S32768x256_S32x256_1_0_0_1_n_n.rhsIdx i q 1).val = (i 1).val := rfl

/-- The first dense layer is its specification, index by index. -/
theorem dense_eq (x : FVec Ideal S32x32768 .f32) (W : FVec Ideal S32768x256 .f32) (D : FVec Ideal S256 .f32) :
    dense (F := Ideal) x W D = Cert.Spec.denseG x W D := by
  funext y
  obtain ⟨a, b, rfl⟩ : ∃ a b, y = ix2 a b := ⟨y 0, y 1, eq_ix2 y⟩
  unfold dense
  rw [minimumf_apply, addf_apply]
  show min (_ + _) _ = min ((∑ tile : Fin 8, ∑ k : Fin 4096,
      (x (ix2 a ⟨tile.val * 4096 + k.val, by omega⟩) - Cert.Spec.t6000) * W (ix2 ⟨tile.val * 4096 + k.val, by omega⟩ b))
    + (Cert.Spec.t7500 - D (ix1 b))) Cert.Spec.t7500
  -- the cap is the same constant on both sides; the sum and the bias term are read separately
  refine congrArg₂ min (congrArg₂ (· + ·) ?_ ?_) rfl
  · refine (Cert.LibDotRows.dotGeneral_rows (N := 32) (K := 32768) (H := 256) dot_S32x32768_S32768x256_S32x256_1_0_0_1_n_n none _
      rfl rfl rfl rfl dotDense_lhs_row dotDense_rhs_col _ _ a b).trans ?_
    rw [sum_tiles]
    rfl
  · rw [broadcastInDim_apply (t := S32x256) ![0, 1] _ _ (ix2 a b) (ix2 (0 : Fin 1) b) (fun ax => by
        match ax with
        | ⟨0, _⟩ => rfl
        | ⟨1, _⟩ => rfl),
      broadcastInDim_apply (t := S1x256) ![1] _ _ (ix2 (0 : Fin 1) b) (ix1 b) (fun ax => by
        match ax with
        | ⟨0, _⟩ => rfl)]
    rfl

end Cert.ReferenceIdeal.Hand

end
-- ==== Proof.Bridge.Lit0.lean ====
/-
  The border table of convolution layer 0 (one row index into the threshold array per pixel of the 64 x 64 output) is printed once in each of the two programs.
  The two copies hold the same 4096 entries: every index below 4096 is looked up in both and the words compared.
-/
import proofs.«142023_j26104811225511_2_alg».proof.ReferenceIdeal
import proofs.«142023_j26104811225511_2_alg».proof.KernelIdeal

namespace Cert.Bridge

/-- Entry by entry, the reference's copy of layer 0's border table is the kernel program's. -/
theorem lit0_eq : ∀ n : Fin 4096, Cert.ReferenceIdeal.lit0 n = Cert.KernelIdeal.lit0 n := by decide +kernel

end Cert.Bridge
-- ==== Proof.Bridge.Lit1.lean ====
/-
  The border table of convolution layer 1 (one row index into the threshold array per pixel of the 64 x 64 output) is printed once in each of the two programs.
  The two copies hold the same 4096 entries: every index below 4096 is looked up in both and the words compared.
-/
import proofs.«142023_j26104811225511_2_alg».proof.ReferenceIdeal
import proofs.«142023_j26104811225511_2_alg».proof.KernelIdeal

namespace Cert.Bridge

/-- Entry by entry, the reference's copy of layer 1's border table is the kernel program's. -/
theorem lit1_eq : ∀ n : Fin 4096, Cert.ReferenceIdeal.lit1 n = Cert.KernelIdeal.lit1 n := by decide +kernel

end Cert.Bridge
-- ==== Proof.Bridge.Lit2.lean ====
/-
  The border table of convolution layer 2 (one row index into the threshold array per pixel of the 32 x 32 output) is printed once in each of the two programs.
  The two copies hold the same 1024 entries: every index below 1024 is looked up in both and the words compared.
-/
import proofs.«142023_j26104811225511_2_alg».proof.ReferenceIdeal
import proofs.«142023_j26104811225511_2_alg».proof.KernelIdeal

namespace Cert.Bridge

/-- Entry by entry, the reference's copy of layer 2's border table is the kernel program's. -/
theorem lit2_eq : ∀ n : Fin 1024, Cert.ReferenceIdeal.lit2 n = Cert.KernelIdeal.lit2 n := by decide +kernel

end Cert.Bridge
-- ==== Proof.Bridge.Lit3.lean ====
/-
  The border table of convolution layer 3 (one row index into the threshold array per pixel of the 32 x 32 output) is printed once in each of the two programs.
  The two copies hold the same 1024 entries: every index below 1024 is looked up in both and the words compared.
-/
import proofs.«142023_j26104811225511_2_alg».proof.ReferenceIdeal
import proofs.«142023_j26104811225511_2_alg».proof.KernelIdeal

namespace Cert.Bridge

/-- Entry by entry, the reference's copy of layer 3's border table is the kernel program's. -/
theorem lit3_eq : ∀ n : Fin 1024, Cert.ReferenceIdeal.lit3 n = Cert.KernelIdeal.lit3 n := by decide +kernel

end Cert.Bridge
-- ==== Proof.Bridge.lean ====
/-
  The two programs' vocabularies joined: the reference's result as a function of its thirteen argument arrays is the
  kernel program's network function of the same arrays.

  The reference's four convolution layers, its dense layer and its output layer are the specification's index-by-index
  functions. What remains between the two sides are the host layers — the four paddings, the four threshold maps, the
  two 2x2 maxima and the flattening — which each program writes over its own names for the same shapes, records and
  side conditions: the same operation applied to the same arguments. The border tables are printed once per program;
  their entries agree index by index, hence the tables of row indices agree, hence the wrapped tables and the
  threshold maps gathered through them.
-/
import proofs.«142023_j26104811225511_2_alg».proof.Proof.Ref.Layers
import proofs.«142023_j26104811225511_2_alg».proof.Proof.RV.Conv0Ref
import proofs.«142023_j26104811225511_2_alg».proof.Proof.RV.Conv1Ref
import proofs.«142023_j26104811225511_2_alg».proof.Proof.RV.Conv2Ref
import proofs.«142023_j26104811225511_2_alg».proof.Proof.RV.Conv3Ref
import proofs.«142023_j26104811225511_2_alg».proof.Proof.RV.DenseRef
import proofs.«142023_j26104811225511_2_alg».proof.Proof.KV.KResult
import proofs.«142023_j26104811225511_2_alg».proof.Proof.Bridge.Lit0
import proofs.«142023_j26104811225511_2_alg».proof.Proof.Bridge.Lit1
import proofs.«142023_j26104811225511_2_alg».proof.Proof.Bridge.Lit2
import proofs.«142023_j26104811225511_2_alg».proof.Proof.Bridge.Lit3

noncomputable section

namespace Cert.Bridge

open Idealize.ShloMosaic

section Layers
variable {F : FTy → Type} [FloatOps F]

/-! Each host layer of the reference is the kernel program's: the same library operation applied to the same shapes,
    under side conditions that are propositions. -/

theorem pad0_eq (x : FVec F Cert.KernelIdeal.S32x64x64x1 .f32) : Cert.ReferenceIdeal.Hand.pad0 (F := F) x = Cert.KernelIdeal.Hand.pad0 (F := F) x := rfl
theorem pad1_eq (x : FVec F Cert.KernelIdeal.S32x64x64x64 .f32) : Cert.ReferenceIdeal.Hand.pad1 (F := F) x = Cert.KernelIdeal.Hand.pad1 (F := F) x := rfl
theorem pad2_eq (x : FVec F Cert.KernelIdeal.S32x32x32x64 .f32) : Cert.ReferenceIdeal.Hand.pad2 (F := F) x = Cert.KernelIdeal.Hand.pad2 (F := F) x := rfl
theorem pad3_eq (x : FVec F Cert.KernelIdeal.S32x32x32x128 .f32) : Cert.ReferenceIdeal.Hand.pad3 (F := F) x = Cert.KernelIdeal.Hand.pad3 (F := F) x := rfl
theorem pool1_eq (y : FVec F Cert.KernelIdeal.S32x64x64x64 .f32) : Cert.ReferenceIdeal.Hand.pool1 (F := F) y = Cert.KernelIdeal.Hand.pool1 (F := F) y := rfl
theorem pool2_eq (y : FVec F Cert.KernelIdeal.S32x32x32x128 .f32) : Cert.ReferenceIdeal.Hand.pool2 (F := F) y = Cert.KernelIdeal.Hand.pool2 (F := F) y := rfl
theorem flat_eq (y : FVec F Cert.KernelIdeal.S32x16x16x128 .f32) : Cert.ReferenceIdeal.Hand.flat (F := F) y = Cert.KernelIdeal.Hand.flat (F := F) y := rfl

/-- Layer 0's table of row indices: the same entries in both programs. -/
theorem tab0_eq : Cert.ReferenceIdeal.Hand.tab0 (F := F) = Cert.KernelIdeal.Hand.tab0 (F := F) :=
  funext fun i => lit0_eq (Cert.KernelIdeal.S64x64.rowMajor i)

/-- Layer 0's wrapped table: the same operations on the same table. -/
theorem idx0_eq : Cert.ReferenceIdeal.Hand.idx0 (F := F) = Cert.KernelIdeal.Hand.idx0 (F := F) := by
  unfold Cert.ReferenceIdeal.Hand.idx0
  rw [tab0_eq]
  all_goals exact rfl

/-- Layer 0's threshold map: the same gather at the same indices. -/
theorem gath0_eq (D : FVec F Cert.KernelIdeal.S9x64 .f32) : Cert.ReferenceIdeal.Hand.gath0 (F := F) D = Cert.KernelIdeal.Hand.gath0 (F := F) D := by
  unfold Cert.ReferenceIdeal.Hand.gath0
  rw [idx0_eq]
  all_goals exact rfl

/-- Layer 1's table of row indices: the same entries in both programs. -/
theorem tab1_eq : Cert.ReferenceIdeal.Hand.tab1 (F := F) = Cert.KernelIdeal.Hand.tab1 (F := F) :=
  funext fun i => lit1_eq (Cert.KernelIdeal.S64x64.rowMajor i)

/-- Layer 1's wrapped table: the same operations on the same table. -/
theorem idx1_eq : Cert.ReferenceIdeal.Hand.idx1 (F := F) = Cert.KernelIdeal.Hand.idx1 (F := F) := by
  unfold Cert.ReferenceIdeal.Hand.idx1
  rw [tab1_eq]
  all_goals exact rfl

/-- Layer 1's threshold map: the same gather at the same indices. -/
theorem gath1_eq (D : FVec F Cert.KernelIdeal.S9x64 .f32) : Cert.ReferenceIdeal.Hand.gath1 (F := F) D = Cert.KernelIdeal.Hand.gath1 (F := F) D := by
  unfold Cert.ReferenceIdeal.Hand.gath1
  rw [idx1_eq]
  all_goals exact rfl

/-- Layer 2's table of row indices: the same entries in both programs. -/
theorem tab2_eq : Cert.ReferenceIdeal.Hand.tab2 (F := F) = Cert.KernelIdeal.Hand.tab2 (F := F) :=
  funext fun i => lit2_eq (Cert.KernelIdeal.S32x32.rowMajor i)

/-- Layer 2's wrapped table: the same operations on the same table. -/
theorem idx2_eq : Cert.ReferenceIdeal.Hand.idx2 (F := F) = Cert.KernelIdeal.Hand.idx2 (F := F) := by
  unfold Cert.ReferenceIdeal.Hand.idx2
  rw [tab2_eq]
  all_goals exact rfl

/-- Layer 2's threshold map: the same gather at the same indices. -/
theorem gath2_eq (D : FVec F Cert.KernelIdeal.S9x128 .f32) : Cert.ReferenceIdeal.Hand.gath2 (F := F) D = Cert.KernelIdeal.Hand.gath2 (F := F) D := by
  unfold Cert.ReferenceIdeal.Hand.gath2
  rw [idx2_eq]
  all_goals exact rfl

/-- Layer 3's table of row indices: the same entries in both programs. -/
theorem tab3_eq : Cert.ReferenceIdeal.Hand.tab3 (F := F) = Cert.KernelIdeal.Hand.tab3 (F := F) :=
  funext fun i => lit3_eq (Cert.KernelIdeal.S32x32.rowMajor i)

/-- Layer 3's wrapped table: the same operations on the same table. -/
theorem idx3_eq : Cert.ReferenceIdeal.Hand.idx3 (F := F) = Cert.KernelIdeal.Hand.idx3 (F := F) := by
  unfold Cert.ReferenceIdeal.Hand.idx3
  rw [tab3_eq]
  all_goals exact rfl

/-- Layer 3's threshold map: the same gather at the same indices. -/
theorem gath3_eq (D : FVec F Cert.KernelIdeal.S9x128 .f32) : Cert.ReferenceIdeal.Hand.gath3 (F := F) D = Cert.KernelIdeal.Hand.gath3 (F := F) D := by
  unfold Cert.ReferenceIdeal.Hand.gath3
  rw [idx3_eq]
  all_goals exact rfl

end Layers

/-- The reference's result is the kernel program's network function: layer by layer, the reference's convolution, dense
    and output layers are the specification's index-by-index functions, and its host layers are the kernel program's. -/
theorem result_eq (A0 : FVec Ideal Cert.KernelIdeal.S32x64x64x1 .f32) (A1 : FVec Ideal Cert.KernelIdeal.S9x64 .f32) (A2 : FVec Ideal Cert.KernelIdeal.S9x64 .f32)
    (A3 : FVec Ideal Cert.KernelIdeal.S576x64 .f32) (A4 : FVec Ideal Cert.KernelIdeal.S9x64 .f32) (A5 : FVec Ideal Cert.KernelIdeal.S576x128 .f32)
    (A6 : FVec Ideal Cert.KernelIdeal.S9x128 .f32) (A7 : FVec Ideal Cert.KernelIdeal.S1152x128 .f32) (A8 : FVec Ideal Cert.KernelIdeal.S9x128 .f32)
    (A9 : FVec Ideal Cert.KernelIdeal.S32768x256 .f32) (A10 : FVec Ideal Cert.KernelIdeal.S256 .f32) (A11 : FVec Ideal Cert.KernelIdeal.S256x10 .f32)
    (A12 : FVec Ideal Cert.KernelIdeal.S10 .f32) :
    Cert.ReferenceIdeal.Hand.result (F := Ideal) A0 A1 A2 A3 A4 A5 A6 A7 A8 A9 A10 A11 A12
      = Cert.KernelIdeal.Hand.kresult A0 A1 A2 A3 A4 A5 A6 A7 A8 A9 A10 A11 A12 := by
  unfold Cert.ReferenceIdeal.Hand.result Cert.KernelIdeal.Hand.kresult
  rw [Cert.ReferenceIdeal.Hand.outl_eq, Cert.ReferenceIdeal.Hand.dense_eq, Cert.ReferenceIdeal.Hand.conv3_eq, Cert.ReferenceIdeal.Hand.conv2_eq, Cert.ReferenceIdeal.Hand.conv1_eq, Cert.ReferenceIdeal.Hand.conv0_eq]
  rw [pad0_eq, gath0_eq, pad1_eq, gath1_eq, pool1_eq, pad2_eq, gath2_eq, pad3_eq, gath3_eq, pool2_eq, flat_eq]

end Cert.Bridge

end
-- ==== Proof.lean ====
/-
  A VGG-like spiking network: four spiking-conv layers (two 2x2 maxima between them), a dense layer and an output
  layer. The kernel program runs each layer as a tiled kernel between host operations; the reference computes the
  same layers with whole-array operations.

  Per conv layer both compute, at (b, h, w, f), min( Σ over the nine taps (dy, dx) and the Cin channels of
  (xpad[b, h+dy, w+dx, ci] − t_min) · W[(3·dy + dx)·Cin + ci, f] + (t_max − D[region(h, w), f]), t_max ): the kernel as
  nine block products into a zero accumulator added one after the other over batch tiles of two images, the reference
  as one contraction over the 9·Cin concatenated channels. The dense layer is a sum over 32768 that the kernel takes in
  eight tiles of 4096 through an accumulator carried from tile to tile; the output layer is the same expression on both
  sides. The padding, the border-aware threshold maps, the maxima and the reshapes are the same host operations in both
  programs. The two results agree on the extended reals because a finite sum may be regrouped (addition there is
  commutative and associative): no finiteness of the inputs is used, so the precondition is never opened.

  The frames: each kernel program is run as one chain of host stretches and kernel regions, every unscoped buffer's
  contents named at each boundary; no item writes an argument array. The reference is a line of host operations run
  stretch by stretch; its frame is its run with the result dropped.
-/
import proofs.«142023_j26104811225511_2_alg».proof.Defs
import proofs.«142023_j26104811225511_2_alg».proof.Proof.Gen.Kernel
import proofs.«142023_j26104811225511_2_alg».proof.Proof.Gen.KernelIdeal
import proofs.«142023_j26104811225511_2_alg».proof.Proof.Gen.ReferenceIdeal
import proofs.«142023_j26104811225511_2_alg».proof.Proof.Gen.Pre_finite_inputs
import proofs.«142023_j26104811225511_2_alg».proof.Proof.K.Run
import proofs.«142023_j26104811225511_2_alg».proof.Proof.KV.Value
import proofs.«142023_j26104811225511_2_alg».proof.Proof.Ref.Run
import proofs.«142023_j26104811225511_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Hand.frame_all m ρ

/-- So does the idealized kernel program. -/
theorem frame_ki : Cert.frame_KernelIdeal := fun m ρ _ => Cert.KernelIdeal.Hand.frame_all m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- From memories agreeing on the arguments both programs end with the network function of those arguments. -/
theorem algebraic : Cert.algebraic_KernelIdeal_ReferenceIdeal := by
  intro m ρ m' ρ' _ hagree
  refine ⟨fun c => Cert.KernelIdeal.Hand.W20 m c Cert.KernelIdeal.main_v44, Cert.KernelIdeal.Hand.value_run (F := Ideal) m ρ, ?_⟩
  refine (θ_run Cert.ReferenceIdeal.defs _ _).mono (fun _ h c => ⟨(h c).1.trans ?_, (h c).2⟩)
    (Cert.ReferenceIdeal.Hand.run (F := Ideal) m' ρ')
  obtain ⟨h0, h1, h2, h3, h4, h5, h6, h7, h8, h9, h10, h11, h12⟩ := hagree c
  rw [h0, h1, h2, h3, h4, h5, h6, h7, h8, h9, h10, h11, h12, Cert.Bridge.result_eq]
  exact (Cert.KernelIdeal.Hand.kernel_result m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
